-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x784 : Shape := ⟨2, ![4096, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S6144x784 : S_.BroadcastsInDim S6144x784 (![] : Fin 0 → Fin S6144x784.rank)
  reducesTo_S6144x784_S_d0_1 : S6144x784.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S10x6144 : S_.BroadcastsInDim S10x6144 (![] : Fin 0 → Fin S10x6144.rank)
  reducesTo_S10x6144_S_d0_1 : S10x6144.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg18 : FVec F S6144 .f32) (main_arg19 : FVec F S10x6144 .f32) (main_arg20 : FVec F S10 .f32) (main_v83 : IVec S_ 1) (main_v84 : FVec F S6144 .f32) (main_cst_32 : FVec F S_ .f32) : IVec S_ 1 :=
  let main_v85 : FVec F S6144 .f32 := broadcastInDim S6144 ![] bcast_S_S6144 main_cst_32
  let main_v86 : IVec S6144 1 := cmpf .olt main_v84 main_v85
  let main_c_33 : IVec S_ 1 := constantI S_ 1 1#1
  let main_v87 : IVec S_ 1 := (fun x v => Host.reduce IntOp.andi x v reducesTo_S6144_S_d0 h_S_) main_v86 main_c_33
  let main_v88 : IVec S_ 1 := andi main_v83 main_v87
  let main_v89 : FVec F S6144 .f32 := Host.absf main_arg18
  let main_cst_34 : FVec F S_ .f32 := constant S_ .f32 0x7F800000#32
  let main_v90 : FVec F S6144 .f32 := broadcastInDim S6144 ![] bcast_S_S6144 main_cst_34
  let main_v91 : IVec S6144 1 := cmpf .olt main_v89 main_v90
  let main_c_35 : IVec S_ 1 := constantI S_ 1 1#1
  let main_v92 : IVec S_ 1 := (fun x v => Host.reduce IntOp.andi x v reducesTo_S6144_S_d0 h_S_) main_v91 main_c_35
  let main_v93 : IVec S_ 1 := andi main_v88 main_v92
  let main_v94 : FVec F S10x6144 .f32 := Host.absf main_arg19
  let main_cst_36 : FVec F S_ .f32 := constant S_ .f32 0x7F800000#32
  let main_v95 : FVec F S10x6144 .f32 := broadcastInDim S10x6144 ![] bcast_S_S10x6144 main_cst_36
  let main_v96 : IVec S10x6144 1 := cmpf .olt main_v94 main_v95
  let main_c_37 : IVec S_ 1 := constantI S_ 1 1#1
  let main_v97 : IVec S_ 1 := (fun x v => Host.reduce IntOp.andi x v reducesTo_S10x6144_S_d0_1 h_S_) main_v96 main_c_37
  let main_v98 : IVec S_ 1 := andi main_v93 main_v97
  let main_v99 : FVec F S10 .f32 := Host.absf main_arg20
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v63 : IVec S_ 1) (main_v67 : IVec S_ 1) : IVec S_ 1 :=
  let main_v68 : IVec S_ 1 := andi main_v63 main_v67
  let main_v69 : FVec F S6144 .f32 := Host.absf main_arg14
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S6144 .f32 := Host.absf main_arg15
  let main_cst_28 : FVec F S_ .f32 := constant S_ .f32 0x7F800000#32
  let main_v75 : FVec F S6144 .f32 := broadcastInDim S6144 ![] bcast_S_S6144 main_cst_28
  let main_v76 : IVec S6144 1 := cmpf .olt main_v74 main_v75
  let main_c_29 : IVec S_ 1 := constantI S_ 1 1#1
  let main_v77 : IVec S_ 1 := (fun x v => Host.reduce IntOp.andi x v reducesTo_S6144_S_d0 h_S_) main_v76 main_c_29
  let main_v78 : IVec S_ 1 := andi main_v73 main_v77
  let main_v79 : FVec F S6144 .f32 := Host.absf main_arg16
  let main_cst_30 : FVec F S_ .f32 := constant S_ .f32 0x7F800000#32
  let main_v80 : FVec F S6144 .f32 := broadcastInDim S6144 ![] bcast_S_S6144 main_cst_30
  let main_v81 : IVec S6144 1 := cmpf .olt main_v79 main_v80
  let main_c_31 : IVec S_ 1 := constantI S_ 1 1#1
  let main_v82 : IVec S_ 1 := (fun x v => Host.reduce IntOp.andi x v reducesTo_S6144_S_d0 h_S_) main_v81 main_c_31
  let main_v83 : IVec S_ 1 := andi main_v78 main_v82
  let main_v84 : FVec F S6144 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S6144 .f32 := Host.absf main_arg12
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144x6144 .f32 := Host.absf main_arg13
  let main_cst_24 : FVec F S_ .f32 := constant S_ .f32 0x7F800000#32
  let main_v65 : FVec F S6144x6144 .f32 := broadcastInDim S6144x6144 ![] bcast_S_S6144x6144 main_cst_24
  let main_v66 : IVec S6144x6144 1 := cmpf .olt main_v64 main_v65
  let main_c_25 : IVec S_ 1 := constantI S_ 1 1#1
  let main_v67 : IVec S_ 1 := (fun x v => Host.reduce IntOp.andi x v reducesTo_S6144x6144_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S6144x6144 .f32) (main_arg8 : FVec F S6144 .f32) (main_arg9 : FVec F S6144 .f32) (main_arg10 : FVec F S6144 .f32) (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v33 : IVec S_ 1) : IVec S_ 1 :=
  let main_v34 : FVec F S6144x6144 .f32 := Host.absf main_arg7
  let main_cst_12 : FVec F S_ .f32 := constant S_ .f32 0x7F800000#32
  let main_v35 : FVec F S6144x6144 .f32 := broadcastInDim S6144x6144 ![] bcast_S_S6144x6144 main_cst_12
  let main_v36 : IVec S6144x6144 1 := cmpf .olt main_v34 main_v35
  let main_c_13 : IVec S_ 1 := constantI S_ 1 1#1
  let main_v37 : IVec S_ 1 := (fun x v => Host.reduce IntOp.andi x v reducesTo_S6144x6144_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S6144 .f32) (main_arg5 : FVec F S6144 .f32) (main_arg6 : FVec F S6144 .f32) (main_arg7 : FVec F S6144x6144 .f32) (main_arg8 : FVec F S6144 .f32) (main_arg9 : FVec F S6144 .f32) (main_arg10 : FVec F S6144 .f32) (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x784 .f32) (main_arg1 : FVec F S6144x784 .f32) (main_arg2 : FVec F S6144 .f32) (main_arg3 : FVec F S6144 .f32) (main_arg4 : FVec F S6144 .f32) (main_arg5 : FVec F S6144 .f32) (main_arg6 : FVec F S6144 .f32) (main_arg7 : FVec F S6144x6144 .f32) (main_arg8 : FVec F S6144 .f32) (main_arg9 : FVec F S6144 .f32) (main_arg10 : FVec F S6144 .f32) (main_arg11 : FVec F S6144 .f32) (main_arg12 : FVec F S6144 .f32) (main_arg13 : FVec F S6144x6144 .f32) (main_arg14 : FVec F S6144 .f32) (main_arg15 : FVec F S6144 .f32) (main_arg16 : FVec F S6144 .f32) (main_arg17 : FVec F S6144 .f32) (main_arg18 : FVec F S6144 .f32) (main_arg19 : FVec F S10x6144 .f32) (main_arg20 : FVec F S10 .f32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S6144x784 .f32 := Host.absf main_arg1
  let main_cst_0 : FVec F S_ .f32 := constant S_ .f32 0x7F800000#32
  let main_v5 : FVec F S6144x784 .f32 := broadcastInDim S6144x784 ![] bcast_S_S6144x784 main_cst_0
  let main_v6 : IVec S6144x784 1 := cmpf .olt main_v4 main_v5
  let main_c_1 : IVec S_ 1 := constantI S_ 1 1#1
  let main_v7 : IVec S_ 1 := (fun x v => Host.reduce IntOp.andi x v reducesTo_S6144x784_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x784 : Shape := ⟨2, ![4096, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S1x6144 : Shape := ⟨2, ![1, 6144]⟩
abbrev S4096x6144 : Shape := ⟨2, ![4096, 6144]⟩
abbrev S1024x784 : Shape := ⟨2, ![1024, 784]⟩
abbrev S1x1024 : Shape := ⟨2, ![1, 1024]⟩
abbrev S1024x1024 : Shape := ⟨2, ![1024, 1024]⟩
abbrev S1024x1536 : Shape := ⟨2, ![1024, 1536]⟩
abbrev S1x10 : Shape := ⟨2, ![1, 10]⟩
abbrev S4096x10 : Shape := ⟨2, ![4096, 10]⟩
abbrev S10x1536 : Shape := ⟨2, ![10, 1536]⟩
abbrev S1024x10 : Shape := ⟨2, ![1024, 10]⟩
abbrev S1024 : Shape := ⟨1, ![1024]⟩
abbrev S1024x1 : Shape := ⟨2, ![1024, 1]⟩

abbrev nBuf : Space → Nat
  | .hbm => 48
  | .vmem => 59
  | .smem => 0
  | _ => 0

abbrev bufTy : (tb : Table) → Fin (tcTables nBuf tb) → BufTy
  | .hbm, ⟨0, _⟩ => ⟨S4096x784, .f32⟩
  | .hbm, ⟨1, _⟩ => ⟨S6144x784, .f32⟩
  | .hbm, ⟨2, _⟩ => ⟨S6144, .f32⟩
  | .hbm, ⟨3, _⟩ => ⟨S6144, .f32⟩
  | .hbm, ⟨4, _⟩ => ⟨S6144, .f32⟩
  | .hbm, ⟨5, _⟩ => ⟨S6144, .f32⟩
  | .hbm, ⟨6, _⟩ => ⟨S6144, .f32⟩
  | .hbm, ⟨7, _⟩ => ⟨S6144x6144, .f32⟩
  | .hbm, ⟨8, _⟩ => ⟨S6144, .f32⟩
  | .hbm, ⟨9, _⟩ => ⟨S6144, .f32⟩
  | .hbm, ⟨10, _⟩ => ⟨S6144, .f32⟩
  | .hbm, ⟨11, _⟩ => ⟨S6144, .f32⟩
  | .hbm, ⟨12, _⟩ => ⟨S6144, .f32⟩
  | .hbm, ⟨13, _⟩ => ⟨S6144x6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S6144, .f32⟩
  | .hbm, ⟨18, _⟩ => ⟨S6144, .f32⟩
  | .hbm, ⟨19, _⟩ => ⟨S10x6144, .f32⟩
  | .hbm, ⟨20, _⟩ => ⟨S10, .f32⟩
  | .hbm, ⟨21, _⟩ => ⟨S4096x784, .bf16⟩
  | .hbm, ⟨22, _⟩ => ⟨S6144x784, .f32⟩
  | .hbm, ⟨23, _⟩ => ⟨S6144x784, .bf16⟩
  | .hbm, ⟨24, _⟩ => ⟨S6144x6144, .f32⟩
  | .hbm, ⟨25, _⟩ => ⟨S6144x6144, .bf16⟩
  | .hbm, ⟨26, _⟩ => ⟨S6144x6144, .f32⟩
  | .hbm, ⟨27, _⟩ => ⟨S6144x6144, .bf16⟩
  | .hbm, ⟨28, _⟩ => ⟨S1x6144, .f32⟩
  | .hbm, ⟨29, _⟩ => ⟨S1x6144, .f32⟩
  | .hbm, ⟨30, _⟩ => ⟨S1x6144, .f32⟩
  | .hbm, ⟨31, _⟩ => ⟨S1x6144, .f32⟩
  | .hbm, ⟨32, _⟩ => ⟨S1x6144, .f32⟩
  | .hbm, ⟨33, _⟩ => ⟨S4096x6144, .bf16⟩
  | .hbm, ⟨34, _⟩ => ⟨S1x6144, .f32⟩
  | .hbm, ⟨35, _⟩ => ⟨S1x6144, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S4096x6144, .bf16⟩
  | .hbm, ⟨40, _⟩ => ⟨S1x6144, .f32⟩
  | .hbm, ⟨41, _⟩ => ⟨S1x6144, .f32⟩
  | .hbm, ⟨42, _⟩ => ⟨S1x6144, .f32⟩
  | .hbm, ⟨43, _⟩ => ⟨S1x6144, .f32⟩
  | .hbm, ⟨44, _⟩ => ⟨S1x6144, .f32⟩
  | .hbm, ⟨45, _⟩ => ⟨S4096x6144, .bf16⟩
  | .hbm, ⟨46, _⟩ => ⟨S1x10, .f32⟩
  | .hbm, ⟨47, _⟩ => ⟨S4096x10, .f32⟩
  | .local _ .vmem, ⟨0, _⟩ => ⟨S1024x784, .bf16⟩
  | .local _ .vmem, ⟨1, _⟩ => ⟨S1024x784, .bf16⟩
  | .local _ .vmem, ⟨2, _⟩ => ⟨S1024x784, .bf16⟩
  | .local _ .vmem, ⟨3, _⟩ => ⟨S1024x784, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1536, .bf16⟩
  | .local _ .vmem, ⟨18, _⟩ => ⟨S1024x1536, .bf16⟩
  | .local _ .vmem, ⟨19, _⟩ => ⟨S1024x1536, .bf16⟩
  | .local _ .vmem, ⟨20, _⟩ => ⟨S1024x1536, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x1536, .bf16⟩
  | .local _ .vmem, ⟨35, _⟩ => ⟨S1024x1536, .bf16⟩
  | .local _ .vmem, ⟨36, _⟩ => ⟨S1024x1536, .bf16⟩
  | .local _ .vmem, ⟨37, _⟩ => ⟨S1024x1536, .bf16⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1024x1024, .bf16⟩
  | .local _ .vmem, ⟨49, _⟩ => ⟨S1024x1024, .bf16⟩
  | .local _ .vmem, ⟨50, _⟩ => ⟨S1024x1024, .f32⟩
  | .local _ .vmem, ⟨51, _⟩ => ⟨S1024x1536, .bf16⟩
  | .local _ .vmem, ⟨52, _⟩ => ⟨S1024x1536, .bf16⟩
  | .local _ .vmem, ⟨53, _⟩ => ⟨S10x1536, .f32⟩
  | .local _ .vmem, ⟨54, _⟩ => ⟨S10x1536, .f32⟩
  | .local _ .vmem, ⟨55, _⟩ => ⟨S1x10, .f32⟩
  | .local _ .vmem, ⟨56, _⟩ => ⟨S1024x10, .f32⟩
  | .local _ .vmem, ⟨57, _⟩ => ⟨S1024x10, .f32⟩
  | .local _ .vmem, ⟨58, _⟩ => ⟨S1024x10, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg7_1 : Ref sig .tc := ⟨.vmem, 49, rfl⟩
abbrev cc2_scratch0 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg3_0 : Ref sig .tc := ⟨.vmem, 56, rfl⟩
abbrev cc3_stg3_1 : Ref sig .tc := ⟨.vmem, 57, rfl⟩
abbrev cc3_scratch0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem3_0 : DmaSem sig := 53
abbrev cc3_sem3_1 : DmaSem sig := 54

abbrev nD : Nat := 1
abbrev τ : Topo := Topo.v7x

variable {F : FTy → Type} [BitOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 6, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![4, 6, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S10x1536 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bitsLt_bf16_f32 : FTy.bits .bf16 < FTy.bits .f32
  shapeCasts_S6144_S1x6144 : S6144.ShapeCasts S1x6144
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  shapeCasts_S10_S1x10 : S10.ShapeCasts S1x10
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10x1536_S10x1536_0_0 : ∀ a, (![0, 0] : Fin 2 → Nat) a + S10x1536.size a ≤ S10x1536.size a
  h_S10x1536 : 0 < S10x1536.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  dot_S1024x784_S1024x784_S1024x1024_1_1_0_0_n_n_wf : DotDims.WF S1024x784 S1024x784 S1024x1024 [1] [1] [0] [0] [] []
  dot_S1024x1536_S1024x1536_S1024x1024_1_1_0_0_n_n_wf : DotDims.WF S1024x1536 S1024x1536 S1024x1024 [1] [1] [0] [0] [] []
  dot_S1024x1536_S10x1536_S1024x10_1_1_0_0_n_n_wf : DotDims.WF S1024x1536 S10x1536 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S4096x784.size a
  hwx0_0 : ∀ i : grid0.Coords, EltTy.bits .bf16 = 32 ∨ (Rect.block (s := S4096x784) S1024x784.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S6144x784.size a
  hwx0_1 : ∀ i : grid0.Coords, EltTy.bits .bf16 = 32 ∨ (Rect.block (s := S6144x784) S1024x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x6144.size a
  hwx0_3 : ∀ i : grid0.Coords, EltTy.bits .f32 = 32 ∨ (Rect.block (s := S1x6144) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x6144.size a
  hwx0_4 : ∀ i : grid0.Coords, EltTy.bits .f32 = 32 ∨ (Rect.block (s := S1x6144) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x6144.size a
  hwx0_5 : ∀ i : grid0.Coords, EltTy.bits .f32 = 32 ∨ (Rect.block (s := S1x6144) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x6144.size a
  hwx0_6 : ∀ i : grid0.Coords, EltTy.bits .f32 = 32 ∨ (Rect.block (s := S1x6144) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x6144.size a
  hwx0_7 : ∀ i : grid0.Coords, EltTy.bits .bf16 = 32 ∨ (Rect.block (s := S4096x6144) S1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1536.size a ≤ S4096x6144.size a
  hwx1_0 : ∀ i : grid1.Coords, EltTy.bits .bf16 = 32 ∨ (Rect.block (s := S4096x6144) S1024x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1536.size a ≤ S6144x6144.size a
  hwx1_1 : ∀ i : grid1.Coords, EltTy.bits .bf16 = 32 ∨ (Rect.block (s := S6144x6144) S1024x1536.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x6144.size a
  hwx1_2 : ∀ i : grid1.Coords, EltTy.bits .f32 = 32 ∨ (Rect.block (s := S1x6144) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x6144.size a
  hwx1_3 : ∀ i : grid1.Coords, EltTy.bits .f32 = 32 ∨ (Rect.block (s := S1x6144) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x6144.size a
  hwx1_4 : ∀ i : grid1.Coords, EltTy.bits .f32 = 32 ∨ (Rect.block (s := S1x6144) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x6144.size a
  hwx1_5 : ∀ i : grid1.Coords, EltTy.bits .f32 = 32 ∨ (Rect.block (s := S1x6144) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x6144.size a
  hwx1_6 : ∀ i : grid1.Coords, EltTy.bits .f32 = 32 ∨ (Rect.block (s := S1x6144) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S4096x6144.size a
  hwx1_7 : ∀ i : grid1.Coords, EltTy.bits .bf16 = 32 ∨ (Rect.block (s := S4096x6144) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1536.size a ≤ S4096x6144.size a
  hwx2_0 : ∀ i : grid2.Coords, EltTy.bits .bf16 = 32 ∨ (Rect.block (s := S4096x6144) S1024x1536.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1536.size a ≤ S6144x6144.size a
  hwx2_1 : ∀ i : grid2.Coords, EltTy.bits .bf16 = 32 ∨ (Rect.block (s := S6144x6144) S1024x1536.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x6144.size a
  hwx2_2 : ∀ i : grid2.Coords, EltTy.bits .f32 = 32 ∨ (Rect.block (s := S1x6144) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x6144.size a
  hwx2_3 : ∀ i : grid2.Coords, EltTy.bits .f32 = 32 ∨ (Rect.block (s := S1x6144) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x6144.size a
  hwx2_4 : ∀ i : grid2.Coords, EltTy.bits .f32 = 32 ∨ (Rect.block (s := S1x6144) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x6144.size a
  hwx2_5 : ∀ i : grid2.Coords, EltTy.bits .f32 = 32 ∨ (Rect.block (s := S1x6144) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x6144.size a
  hwx2_6 : ∀ i : grid2.Coords, EltTy.bits .f32 = 32 ∨ (Rect.block (s := S1x6144) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S4096x6144.size a
  hwx2_7 : ∀ i : grid2.Coords, EltTy.bits .bf16 = 32 ∨ (Rect.block (s := S4096x6144) S1024x1024.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1536.size a ≤ S4096x6144.size a
  hwx3_0 : ∀ i : grid3.Coords, EltTy.bits .bf16 = 32 ∨ (Rect.block (s := S4096x6144) S1024x1536.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10x1536.size a ≤ S10x6144.size a
  hwx3_1 : ∀ i : grid3.Coords, EltTy.bits .f32 = 32 ∨ (Rect.block (s := S10x6144) S10x1536.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x10.size a ≤ S4096x10.size a
  hwx3_3 : ∀ i : grid3.Coords, EltTy.bits .f32 = 32 ∨ (Rect.block (s := S4096x10) S1024x10.size (cc3_transform_3 i) (hinb3_3 i)).WholeWords (EltTy.packing .f32)

variable [Facts₀]

def dot_S1024x784_S1024x784_S1024x1024_1_1_0_0_n_n : DotDims S1024x784 S1024x784 S1024x1024 where
  lhsContracting := [1]
  rhsContracting := [1]
  lhsNonContracting := [0]
  rhsNonContracting := [0]
  lhsBatch := []
  rhsBatch := []
  wf := dot_S1024x784_S1024x784_S1024x1024_1_1_0_0_n_n_wf
def dot_S1024x1536_S1024x1536_S1024x1024_1_1_0_0_n_n : DotDims S1024x1536 S1024x1536 S1024x1024 where
  lhsContracting := [1]
  rhsContracting := [1]
  lhsNonContracting := [0]
  rhsNonContracting := [0]
  lhsBatch := []
  rhsBatch := []
  wf := dot_S1024x1536_S1024x1536_S1024x1024_1_1_0_0_n_n_wf
def dot_S1024x1536_S10x1536_S1024x10_1_1_0_0_n_n : DotDims S1024x1536 S10x1536 S1024x10 where
  lhsContracting := [1]
  rhsContracting := [1]
  lhsNonContracting := [0]
  rhsNonContracting := [0]
  lhsBatch := []
  rhsBatch := []
  wf := dot_S1024x1536_S10x1536_S1024x10_1_1_0_0_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v12) S1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v18) S1024x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v24) S1024x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v24) S1024x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S10x1536.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1024x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x784 : Shape := ⟨2, ![4096, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S784x6144 : Shape := ⟨2, ![784, 6144]⟩
abbrev S4096x6144 : Shape := ⟨2, ![4096, 6144]⟩
abbrev S1x6144 : Shape := ⟨2, ![1, 6144]⟩
abbrev S_ : Shape := ⟨0, ![]⟩
abbrev S6144x10 : Shape := ⟨2, ![6144, 10]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 133
  | .vmem => 0
  | .smem => 0
  | _ => 0

abbrev hbmTy0_0 (i : Nat) : BufTy := match i % 128 with
  | 0 => ⟨S4096x784, .f32⟩
  | 1 => ⟨S6144x784, .f32⟩
  | 2 => ⟨S6144, .f32⟩
  | 3 => ⟨S6144, .f32⟩
  | 4 => ⟨S6144, .f32⟩
  | 5 => ⟨S6144, .f32⟩
  | 6 => ⟨S6144, .f32⟩
  | 7 => ⟨S6144x6144, .f32⟩
  | 8 => ⟨S6144, .f32⟩
  | 9 => ⟨S6144, .f32⟩
  | 10 => ⟨S6144, .f32⟩
  | 11 => ⟨S6144, .f32⟩
  | 12 => ⟨S6144, .f32⟩
  | 13 => ⟨S6144x6144, .f32⟩
  | 14 => ⟨S6144, .f32⟩
  | 15 => ⟨S6144, .f32⟩
  | 16 => ⟨S6144, .f32⟩
  | 17 => ⟨S6144, .f32⟩
  | 18 => ⟨S6144, .f32⟩
  | 19 => ⟨S10x6144, .f32⟩
  | 20 => ⟨S10, .f32⟩
  | 21 => ⟨S6144x784, .f32⟩
  | 22 => ⟨S784x6144, .f32⟩
  | 23 => ⟨S4096x6144, .f32⟩
  | 24 => ⟨S1x6144, .f32⟩
  | 25 => ⟨S4096x6144, .f32⟩
  | 26 => ⟨S4096x6144, .f32⟩
  | 27 => ⟨S1x6144, .f32⟩
  | 28 => ⟨S4096x6144, .f32⟩
  | 29 => ⟨S4096x6144, .f32⟩
  | 30 => ⟨S1x6144, .f32⟩
  | 31 => ⟨S4096x6144, .f32⟩
  | 32 => ⟨S4096x6144, .f32⟩
  | 33 => ⟨S_, .f32⟩
  | 34 => ⟨S6144, .f32⟩
  | 35 => ⟨S6144, .f32⟩
  | 36 => ⟨S6144, .f32⟩
  | 37 => ⟨S1x6144, .f32⟩
  | 38 => ⟨S4096x6144, .f32⟩
  | 39 => ⟨S4096x6144, .f32⟩
  | 40 => ⟨S1x6144, .f32⟩
  | 41 => ⟨S4096x6144, .f32⟩
  | 42 => ⟨S4096x6144, .f32⟩
  | 43 => ⟨S_, .f32⟩
  | 44 => ⟨S_, .f32⟩
  | 45 => ⟨S_, .f32⟩
  | 46 => ⟨S4096x6144, .f32⟩
  | 47 => ⟨S4096x6144, .f32⟩
  | 48 => ⟨S_, .f32⟩
  | 49 => ⟨S4096x6144, .f32⟩
  | 50 => ⟨S4096x6144, .f32⟩
  | 51 => ⟨S4096x6144, .f32⟩
  | 52 => ⟨S6144x6144, .f32⟩
  | 53 => ⟨S6144x6144, .f32⟩
  | 54 => ⟨S4096x6144, .f32⟩
  | 55 => ⟨S1x6144, .f32⟩
  | 56 => ⟨S4096x6144, .f32⟩
  | 57 => ⟨S4096x6144, .f32⟩
  | 58 => ⟨S1x6144, .f32⟩
  | 59 => ⟨S4096x6144, .f32⟩
  | 60 => ⟨S4096x6144, .f32⟩
  | 61 => ⟨S1x6144, .f32⟩
  | 62 => ⟨S4096x6144, .f32⟩
  | 63 => ⟨S4096x6144, .f32⟩
  | 64 => ⟨S_, .f32⟩
  | 65 => ⟨S6144, .f32⟩
  | 66 => ⟨S6144, .f32⟩
  | 67 => ⟨S6144, .f32⟩
  | 68 => ⟨S1x6144, .f32⟩
  | 69 => ⟨S4096x6144, .f32⟩
  | 70 => ⟨S4096x6144, .f32⟩
  | 71 => ⟨S1x6144, .f32⟩
  | 72 => ⟨S4096x6144, .f32⟩
  | 73 => ⟨S4096x6144, .f32⟩
  | 74 => ⟨S_, .f32⟩
  | 75 => ⟨S_, .f32⟩
  | 76 => ⟨S_, .f32⟩
  | 77 => ⟨S4096x6144, .f32⟩
  | 78 => ⟨S4096x6144, .f32⟩
  | 79 => ⟨S_, .f32⟩
  | 80 => ⟨S4096x6144, .f32⟩
  | 81 => ⟨S4096x6144, .f32⟩
  | 82 => ⟨S4096x6144, .f32⟩
  | 83 => ⟨S6144x6144, .f32⟩
  | 84 => ⟨S6144x6144, .f32⟩
  | 85 => ⟨S4096x6144, .f32⟩
  | 86 => ⟨S1x6144, .f32⟩
  | 87 => ⟨S4096x6144, .f32⟩
  | 88 => ⟨S4096x6144, .f32⟩
  | 89 => ⟨S1x6144, .f32⟩
  | 90 => ⟨S4096x6144, .f32⟩
  | 91 => ⟨S4096x6144, .f32⟩
  | 92 => ⟨S1x6144, .f32⟩
  | 93 => ⟨S4096x6144, .f32⟩
  | 94 => ⟨S4096x6144, .f32⟩
  | 95 => ⟨S_, .f32⟩
  | 96 => ⟨S6144, .f32⟩
  | 97 => ⟨S6144, .f32⟩
  | 98 => ⟨S6144, .f32⟩
  | 99 => ⟨S1x6144, .f32⟩
  | 100 => ⟨S4096x6144, .f32⟩
  | 101 => ⟨S4096x6144, .f32⟩
  | 102 => ⟨S1x6144, .f32⟩
  | 103 => ⟨S4096x6144, .f32⟩
  | 104 => ⟨S4096x6144, .f32⟩
  | 105 => ⟨S_, .f32⟩
  | 106 => ⟨S_, .f32⟩
  | 107 => ⟨S_, .f32⟩
  | 108 => ⟨S4096x6144, .f32⟩
  | 109 => ⟨S4096x6144, .f32⟩
  | 110 => ⟨S_, .f32⟩
  | 111 => ⟨S4096x6144, .f32⟩
  | 112 => ⟨S4096x6144, .f32⟩
  | 113 => ⟨S6144x10, .f32⟩
  | 114 => ⟨S4096x10, .f32⟩
  | 115 => ⟨S1x10, .f32⟩
  | 116 => ⟨S4096x10, .f32⟩
  | 117 => ⟨S4096x10, .f32⟩
  | 118 => ⟨S_, .f32⟩
  | 119 => ⟨S4096, .f32⟩
  | 120 => ⟨S_, .f32⟩
  | 121 => ⟨S4096, .f32⟩
  | 122 => ⟨S4096, .f32⟩
  | 123 => ⟨S4096x1, .f32⟩
  | 124 => ⟨S4096x10, .f32⟩
  | 125 => ⟨S4096x10, .f32⟩
  | 126 => ⟨S4096x10, .f32⟩
  | 127 => ⟨S_, .f32⟩
  | _ => ⟨S4096x784, .f32⟩

abbrev hbmTy0_1 (i : Nat) : BufTy := match i % 128 with
  | 0 => ⟨S4096, .f32⟩
  | 1 => ⟨S4096x1, .f32⟩
  | 2 => ⟨S4096x1, .f32⟩
  | 3 => ⟨S4096x10, .f32⟩
  | 4 => ⟨S4096x10, .f32⟩
  | _ => ⟨S4096x784, .f32⟩

abbrev hbmTy (i : Nat) : BufTy := match i / 128 with
  | 0 => hbmTy0_0 i
  | 1 => hbmTy0_1 i
  | _ => ⟨S4096x784, .f32⟩

abbrev bufTy : (tb : Table) → Fin (tcTables nBuf tb) → BufTy
  | .hbm, ⟨i, _⟩ => hbmTy i
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_cst_4 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_5 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_cst_7 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_call3_cst : Ref sig .tc := ⟨.hbm, 118, rfl⟩
abbrev main_call3_v0 : Ref sig .tc := ⟨.hbm, 119, rfl⟩
abbrev main_call3_cst_0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_cst_1 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_v73 : Ref sig .tc := ⟨.hbm, 132, rfl⟩

abbrev nD : Nat := 1
abbrev τ : Topo := Topo.v7x

variable {F : FTy → Type} [FloatOps F]

class Facts₀ : Prop where
  transposes_S6144x784_S784x6144_1_0 : S6144x784.Transposes [1, 0] S784x6144
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  bcast_S_S6144 : S_.BroadcastsInDim S6144 (![] : Fin 0 → Fin S6144.rank)
  bcast_S_S4096x6144 : S_.BroadcastsInDim S4096x6144 (![] : Fin 0 → Fin S4096x6144.rank)
  transposes_S6144x6144_S6144x6144_1_0 : S6144x6144.Transposes [1, 0] S6144x6144
  transposes_S10x6144_S6144x10_1_0 : S10x6144.Transposes [1, 0] S6144x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  dot_S4096x784_S784x6144_S4096x6144_1_0_0_1_n_n_wf : DotDims.WF S4096x784 S784x6144 S4096x6144 [1] [0] [0] [1] [] []
  dot_S4096x6144_S6144x6144_S4096x6144_1_0_0_1_n_n_wf : DotDims.WF S4096x6144 S6144x6144 S4096x6144 [1] [0] [0] [1] [] []
  dot_S4096x6144_S6144x10_S4096x10_1_0_0_1_n_n_wf : DotDims.WF S4096x6144 S6144x10 S4096x10 [1] [0] [0] [1] [] []

variable [Facts₀]

def dot_S4096x784_S784x6144_S4096x6144_1_0_0_1_n_n : DotDims S4096x784 S784x6144 S4096x6144 where
  lhsContracting := [1]
  rhsContracting := [0]
  lhsNonContracting := [0]
  rhsNonContracting := [1]
  lhsBatch := []
  rhsBatch := []
  wf := dot_S4096x784_S784x6144_S4096x6144_1_0_0_1_n_n_wf
def dot_S4096x6144_S6144x6144_S4096x6144_1_0_0_1_n_n : DotDims S4096x6144 S6144x6144 S4096x6144 where
  lhsContracting := [1]
  rhsContracting := [0]
  lhsNonContracting := [0]
  rhsNonContracting := [1]
  lhsBatch := []
  rhsBatch := []
  wf := dot_S4096x6144_S6144x6144_S4096x6144_1_0_0_1_n_n_wf
def dot_S4096x6144_S6144x10_S4096x10_1_0_0_1_n_n : DotDims S4096x6144 S6144x10 S4096x10 where
  lhsContracting := [1]
  rhsContracting := [0]
  lhsNonContracting := [0]
  rhsNonContracting := [1]
  lhsBatch := []
  rhsBatch := []
  wf := dot_S4096x6144_S6144x10_S4096x10_1_0_0_1_n_n_wf

class Facts : Prop extends Facts₀ where

variable [Facts]
-- ==== Proof.HostSide.lean ====
/-
  The conjunct about the two sign-bit sites.

  Layers 1 and 2 of the kernel hand the next layer only the SIGN of the batch-normalised value, and read that
  sign off the value's bit pattern ("1.0 carrying the value's sign bit", selected where the value is not zero).
  A bit pattern has no reading on the extended reals, so the idealized kernel spells each of the two windows
  by a comparison, minus one below zero and one elsewhere; the rule that sanctions this rewrite states, at
  the window's shape and format, that the two spellings agree wherever the rule allows them to part, and the
  two ledger entries are that statement twice, once per layer.
-/
import proofs.«158226_j28930899706073_2_alg».proof.Defs
import proofs.«158226_j28930899706073_2_alg».proof.Proof.Gen.ReferenceIdeal
import proofs.«158226_j28930899706073_2_alg».proof.Proof.Gen.Pre_finite_inputs

noncomputable section

namespace Cert.Proof.HostSide

open Idealize.ShloMosaic Idealize.SL.Sem

/-- The sign read off the bit pattern, in layer 1 and again in layer 2, against its spelling by a comparison:
    the rule's statement at a [1024, 1024] block of f32, once for each layer. -/
theorem preserves : Cert.preserves_Kernel_KernelIdeal :=
  ⟨IdealRules.sign_bit.statement Cert.KernelIdeal.S1024x1024 .f32,
   IdealRules.sign_bit.statement Cert.KernelIdeal.S1024x1024 .f32⟩

end Cert.Proof.HostSide

end
-- ==== Proof.ReferenceKeeps.lean ====
/-
  The reference keeps its arguments.

  The reference is a host program with no kernel launch: read with the three clamps and the log-softmax
  written out in place, it is a straight line of 112 array operations, each of which writes one array of its own
  — an intermediate value, a constant, or the result — and none of which writes an argument. A straight line of
  such operations always runs to its end without a fault, and leaves every array that no operation writes
  holding what it held at launch. The twenty-one arguments are such arrays.

  (Only the arguments are followed here; what the result holds, the composed term of all 112 operations, is
  not stated in this module.)
-/
import proofs.«158226_j28930899706073_2_alg».proof.Defs
import proofs.«158226_j28930899706073_2_alg».proof.Proof.Gen.ReferenceIdeal
import proofs.«158226_j28930899706073_2_alg».proof.Proof.Gen.Pre_finite_inputs
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 112 operations, in order; each called function's operations stand where it is called. -/
abbrev ops : List (HloOp τ sig (Elt F)) :=
  [ unary main_arg1 main_v0 (Host.sign : (⟨S6144x784, .f32⟩ : BufTy).Contents (Elt F) → (⟨S6144x784, .f32⟩ : BufTy).Contents (Elt F)),
    unary main_v0 main_v1 ((transpose S784x6144 [1, 0] · transposes_S6144x784_S784x6144_1_0) : (⟨S6144x784, .f32⟩ : BufTy).Contents (Elt F) → (⟨S784x6144, .f32⟩ : BufTy).Contents (Elt F)),
    binary main_arg0 main_v1 main_v2 ((fun l r => Host.dotGeneral dot_S4096x784_S784x6144_S4096x6144_1_0_0_1_n_n none l r) : (⟨S4096x784, .f32⟩ : BufTy).Contents (Elt F) → (⟨S784x6144, .f32⟩ : BufTy).Contents (Elt F) → (⟨S4096x6144, .f32⟩ : BufTy).Contents (Elt F)),
    unary main_arg2 main_v3 (broadcastInDim S1x6144 ![1] bcast_S6144_S1x6144_1 : (⟨S6144, .f32⟩ : BufTy).Contents (Elt F) → (⟨S1x6144, .f32⟩ : BufTy).Contents (Elt F)),
    unary main_v3 main_v4 (broadcastInDim S4096x6144 ![0, 1] bcast_S1x6144_S4096x6144_0_1 : (⟨S1x6144, .f32⟩ : BufTy).Contents (Elt F) → (⟨S4096x6144, .f32⟩ : BufTy).Contents (Elt F)),
    binary main_v2 main_v4 main_v5 (addf : (⟨S4096x6144, .f32⟩ : BufTy).Contents (Elt F) → (⟨S4096x6144, .f32⟩ : BufTy).Contents (Elt F) → (⟨S4096x6144, .f32⟩ : BufTy).Contents (Elt F)),
    unary main_arg5 main_v6 (broadcastInDim S1x6144 ![1] bcast_S6144_S1x6144_1 : (⟨S6144, .f32⟩ : BufTy).Contents (Elt F) → (⟨S1x6144, .f32⟩ : BufTy).Contents (Elt F)),
    unary main_v6 main_v7 (broadcastInDim S4096x6144 ![0, 1] bcast_S1x6144_S4096x6144_0_1 : (⟨S1x6144, .f32⟩ : BufTy).Contents (Elt F) → (⟨S4096x6144, .f32⟩ : BufTy).Contents (Elt F)),
    binary main_v5 main_v7 main_v8 (subf : (⟨S4096x6144, .f32⟩ : BufTy).Contents (Elt F) → (⟨S4096x6144, .f32⟩ : BufTy).Contents (Elt F) → (⟨S4096x6144, .f32⟩ : BufTy).Contents (Elt F)),
    unary main_arg3 main_v9 (broadcastInDim S1x6144 ![1] bcast_S6144_S1x6144_1 : (⟨S6144, .f32⟩ : BufTy).Contents (Elt F) → (⟨S1x6144, .f32⟩ : BufTy).Contents (Elt F)),
    unary main_v9 main_v10 (broadcastInDim S4096x6144 ![0, 1] bcast_S1x6144_S4096x6144_0_1 : (⟨S1x6144, .f32⟩ : BufTy).Contents (Elt F) → (⟨S4096x6144, .f32⟩ : BufTy).Contents (Elt F)),
    binary main_v10 main_v8 main_v11 (mulf : (⟨S4096x6144, .f32⟩ : BufTy).Contents (Elt F) → (⟨S4096x6144, .f32⟩ : BufTy).Contents (Elt F) → (⟨S4096x6144, .f32⟩ : BufTy).Contents (Elt F)),
    nullary main_cst (constant S_ .f32 0x3727C5AC#32),
    unary main_cst main_v12 (broadcastInDim S6144 ![] bcast_S_S6144 : (⟨S_, .f32⟩ : BufTy).Contents (Elt F) → (⟨S6144, .f32⟩ : BufTy).Contents (Elt F)),
    binary main_arg6 main_v12 main_v13 (addf : (⟨S6144, .f32⟩ : BufTy).Contents (Elt F) → (⟨S6144, .f32⟩ : BufTy).Contents (Elt F) → (⟨S6144, .f32⟩ : BufTy).Contents (Elt F)),
    unary main_v13 main_v14 (Host.rsqrt : (⟨S6144, .f32⟩ : BufTy).Contents (Elt F) → (⟨S6144, .f32⟩ : BufTy).Contents (Elt F)),
    unary main_v14 main_v15 (broadcastInDim S1x6144 ![1] bcast_S6144_S1x6144_1 : (⟨S6144, .f32⟩ : BufTy).Contents (Elt F) → (⟨S1x6144, .f32⟩ : BufTy).Contents (Elt F)),
    unary main_v15 main_v16 (broadcastInDim S4096x6144 ![0, 1] bcast_S1x6144_S4096x6144_0_1 : (⟨S1x6144, .f32⟩ : BufTy).Contents (Elt F) → (⟨S4096x6144, .f32⟩ : BufTy).Contents (Elt F)),
    binary main_v11 main_v16 main_v17 (mulf : (⟨S4096x6144, .f32⟩ : BufTy).Contents (Elt F) → (⟨S4096x6144, .f32⟩ : BufTy).Contents (Elt F) → (⟨S4096x6144, .f32⟩ : BufTy).Contents (Elt F)),
    unary main_arg4 main_v18 (broadcastInDim S1x6144 ![1] bcast_S6144_S1x6144_1 : (⟨S6144, .f32⟩ : BufTy).Contents (Elt F) → (⟨S1x6144, .f32⟩ : BufTy).Contents (Elt F)),
    unary main_v18 main_v19 (broadcastInDim S4096x6144 ![0, 1] bcast_S1x6144_S4096x6144_0_1 : (⟨S1x6144, .f32⟩ : BufTy).Contents (Elt F) → (⟨S4096x6144, .f32⟩ : BufTy).Contents (Elt F)),
    binary main_v17 main_v19 main_v20 (addf : (⟨S4096x6144, .f32⟩ : BufTy).Contents (Elt F) → (⟨S4096x6144, .f32⟩ : BufTy).Contents (Elt F) → (⟨S4096x6144, .f32⟩ : BufTy).Contents (Elt F)),
    nullary main_cst_0 (constant S_ .f32 0xBF800000#32),
    nullary main_cst_1 (constant S_ .f32 0x3F800000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4096x6144, .f32⟩) main_call0_v1) (broadcastInDim S4096x6144 ![] bcast_S_S4096x6144),
    TRef.binary (TRef.of (T := ⟨S4096x6144, .f32⟩) main_call0_v1) (TRef.of (T := ⟨S4096x6144, .f32⟩) main_v20) (TRef.of (T := ⟨S4096x6144, .f32⟩) main_call0_v2) maximumf,
    TRef.unary (TRef.of (T := ⟨S_, .f32⟩) main_cst_1) (TRef.of (T := ⟨S_, .f32⟩) main_call0_v3) id,
    TRef.unary (TRef.of (T := ⟨S_, .f32⟩) main_call0_v3) (TRef.of (T := ⟨S4096x6144, .f32⟩) main_call0_v4) (broadcastInDim S4096x6144 ![] bcast_S_S4096x6144),
    TRef.binary (TRef.of (T := ⟨S4096x6144, .f32⟩) main_call0_v4) (TRef.of (T := ⟨S4096x6144, .f32⟩) main_call0_v2) (TRef.of (T := ⟨S4096x6144, .f32⟩) main_v21) minimumf,
    unary main_v21 main_v22 (Host.sign : (⟨S4096x6144, .f32⟩ : BufTy).Contents (Elt F) → (⟨S4096x6144, .f32⟩ : BufTy).Contents (Elt F)),
    unary main_arg7 main_v23 (Host.sign : (⟨S6144x6144, .f32⟩ : BufTy).Contents (Elt F) → (⟨S6144x6144, .f32⟩ : BufTy).Contents (Elt F)),
    unary main_v23 main_v24 ((transpose S6144x6144 [1, 0] · transposes_S6144x6144_S6144x6144_1_0) : (⟨S6144x6144, .f32⟩ : BufTy).Contents (Elt F) → (⟨S6144x6144, .f32⟩ : BufTy).Contents (Elt F)),
    binary main_v22 main_v24 main_v25 ((fun l r => Host.dotGeneral dot_S4096x6144_S6144x6144_S4096x6144_1_0_0_1_n_n none l r) : (⟨S4096x6144, .f32⟩ : BufTy).Contents (Elt F) → (⟨S6144x6144, .f32⟩ : BufTy).Contents (Elt F) → (⟨S4096x6144, .f32⟩ : BufTy).Contents (Elt F)),
    unary main_arg8 main_v26 (broadcastInDim S1x6144 ![1] bcast_S6144_S1x6144_1 : (⟨S6144, .f32⟩ : BufTy).Contents (Elt F) → (⟨S1x6144, .f32⟩ : BufTy).Contents (Elt F)),
    unary main_v26 main_v27 (broadcastInDim S4096x6144 ![0, 1] bcast_S1x6144_S4096x6144_0_1 : (⟨S1x6144, .f32⟩ : BufTy).Contents (Elt F) → (⟨S4096x6144, .f32⟩ : BufTy).Contents (Elt F)),
    binary main_v25 main_v27 main_v28 (addf : (⟨S4096x6144, .f32⟩ : BufTy).Contents (Elt F) → (⟨S4096x6144, .f32⟩ : BufTy).Contents (Elt F) → (⟨S4096x6144, .f32⟩ : BufTy).Contents (Elt F)),
    unary main_arg11 main_v29 (broadcastInDim S1x6144 ![1] bcast_S6144_S1x6144_1 : (⟨S6144, .f32⟩ : BufTy).Contents (Elt F) → (⟨S1x6144, .f32⟩ : BufTy).Contents (Elt F)),
    unary main_v29 main_v30 (broadcastInDim S4096x6144 ![0, 1] bcast_S1x6144_S4096x6144_0_1 : (⟨S1x6144, .f32⟩ : BufTy).Contents (Elt F) → (⟨S4096x6144, .f32⟩ : BufTy).Contents (Elt F)),
    binary main_v28 main_v30 main_v31 (subf : (⟨S4096x6144, .f32⟩ : BufTy).Contents (Elt F) → (⟨S4096x6144, .f32⟩ : BufTy).Contents (Elt F) → (⟨S4096x6144, .f32⟩ : BufTy).Contents (Elt F)),
    unary main_arg9 main_v32 (broadcastInDim S1x6144 ![1] bcast_S6144_S1x6144_1 : (⟨S6144, .f32⟩ : BufTy).Contents (Elt F) → (⟨S1x6144, .f32⟩ : BufTy).Contents (Elt F)),
    unary main_v32 main_v33 (broadcastInDim S4096x6144 ![0, 1] bcast_S1x6144_S4096x6144_0_1 : (⟨S1x6144, .f32⟩ : BufTy).Contents (Elt F) → (⟨S4096x6144, .f32⟩ : BufTy).Contents (Elt F)),
    binary main_v33 main_v31 main_v34 (mulf : (⟨S4096x6144, .f32⟩ : BufTy).Contents (Elt F) → (⟨S4096x6144, .f32⟩ : BufTy).Contents (Elt F) → (⟨S4096x6144, .f32⟩ : BufTy).Contents (Elt F)),
    nullary main_cst_2 (constant S_ .f32 0x3727C5AC#32),
    unary main_cst_2 main_v35 (broadcastInDim S6144 ![] bcast_S_S6144 : (⟨S_, .f32⟩ : BufTy).Contents (Elt F) → (⟨S6144, .f32⟩ : BufTy).Contents (Elt F)),
    binary main_arg12 main_v35 main_v36 (addf : (⟨S6144, .f32⟩ : BufTy).Contents (Elt F) → (⟨S6144, .f32⟩ : BufTy).Contents (Elt F) → (⟨S6144, .f32⟩ : BufTy).Contents (Elt F)),
    unary main_v36 main_v37 (Host.rsqrt : (⟨S6144, .f32⟩ : BufTy).Contents (Elt F) → (⟨S6144, .f32⟩ : BufTy).Contents (Elt F)),
    unary main_v37 main_v38 (broadcastInDim S1x6144 ![1] bcast_S6144_S1x6144_1 : (⟨S6144, .f32⟩ : BufTy).Contents (Elt F) → (⟨S1x6144, .f32⟩ : BufTy).Contents (Elt F)),
    unary main_v38 main_v39 (broadcastInDim S4096x6144 ![0, 1] bcast_S1x6144_S4096x6144_0_1 : (⟨S1x6144, .f32⟩ : BufTy).Contents (Elt F) → (⟨S4096x6144, .f32⟩ : BufTy).Contents (Elt F)),
    binary main_v34 main_v39 main_v40 (mulf : (⟨S4096x6144, .f32⟩ : BufTy).Contents (Elt F) → (⟨S4096x6144, .f32⟩ : BufTy).Contents (Elt F) → (⟨S4096x6144, .f32⟩ : BufTy).Contents (Elt F)),
    unary main_arg10 main_v41 (broadcastInDim S1x6144 ![1] bcast_S6144_S1x6144_1 : (⟨S6144, .f32⟩ : BufTy).Contents (Elt F) → (⟨S1x6144, .f32⟩ : BufTy).Contents (Elt F)),
    unary main_v41 main_v42 (broadcastInDim S4096x6144 ![0, 1] bcast_S1x6144_S4096x6144_0_1 : (⟨S1x6144, .f32⟩ : BufTy).Contents (Elt F) → (⟨S4096x6144, .f32⟩ : BufTy).Contents (Elt F)),
    binary main_v40 main_v42 main_v43 (addf : (⟨S4096x6144, .f32⟩ : BufTy).Contents (Elt F) → (⟨S4096x6144, .f32⟩ : BufTy).Contents (Elt F) → (⟨S4096x6144, .f32⟩ : BufTy).Contents (Elt F)),
    nullary main_cst_3 (constant S_ .f32 0xBF800000#32),
    nullary main_cst_4 (constant S_ .f32 0x3F800000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S4096x6144, .f32⟩) main_call1_v1) (broadcastInDim S4096x6144 ![] bcast_S_S4096x6144),
    TRef.binary (TRef.of (T := ⟨S4096x6144, .f32⟩) main_call1_v1) (TRef.of (T := ⟨S4096x6144, .f32⟩) main_v43) (TRef.of (T := ⟨S4096x6144, .f32⟩) main_call1_v2) maximumf,
    TRef.unary (TRef.of (T := ⟨S_, .f32⟩) main_cst_4) (TRef.of (T := ⟨S_, .f32⟩) main_call1_v3) id,
    TRef.unary (TRef.of (T := ⟨S_, .f32⟩) main_call1_v3) (TRef.of (T := ⟨S4096x6144, .f32⟩) main_call1_v4) (broadcastInDim S4096x6144 ![] bcast_S_S4096x6144),
    TRef.binary (TRef.of (T := ⟨S4096x6144, .f32⟩) main_call1_v4) (TRef.of (T := ⟨S4096x6144, .f32⟩) main_call1_v2) (TRef.of (T := ⟨S4096x6144, .f32⟩) main_v44) minimumf,
    unary main_v44 main_v45 (Host.sign : (⟨S4096x6144, .f32⟩ : BufTy).Contents (Elt F) → (⟨S4096x6144, .f32⟩ : BufTy).Contents (Elt F)),
    unary main_arg13 main_v46 (Host.sign : (⟨S6144x6144, .f32⟩ : BufTy).Contents (Elt F) → (⟨S6144x6144, .f32⟩ : BufTy).Contents (Elt F)),
    unary main_v46 main_v47 ((transpose S6144x6144 [1, 0] · transposes_S6144x6144_S6144x6144_1_0) : (⟨S6144x6144, .f32⟩ : BufTy).Contents (Elt F) → (⟨S6144x6144, .f32⟩ : BufTy).Contents (Elt F)),
    binary main_v45 main_v47 main_v48 ((fun l r => Host.dotGeneral dot_S4096x6144_S6144x6144_S4096x6144_1_0_0_1_n_n none l r) : (⟨S4096x6144, .f32⟩ : BufTy).Contents (Elt F) → (⟨S6144x6144, .f32⟩ : BufTy).Contents (Elt F) → (⟨S4096x6144, .f32⟩ : BufTy).Contents (Elt F)),
    unary main_arg14 main_v49 (broadcastInDim S1x6144 ![1] bcast_S6144_S1x6144_1 : (⟨S6144, .f32⟩ : BufTy).Contents (Elt F) → (⟨S1x6144, .f32⟩ : BufTy).Contents (Elt F)),
    unary main_v49 main_v50 (broadcastInDim S4096x6144 ![0, 1] bcast_S1x6144_S4096x6144_0_1 : (⟨S1x6144, .f32⟩ : BufTy).Contents (Elt F) → (⟨S4096x6144, .f32⟩ : BufTy).Contents (Elt F)),
    binary main_v48 main_v50 main_v51 (addf : (⟨S4096x6144, .f32⟩ : BufTy).Contents (Elt F) → (⟨S4096x6144, .f32⟩ : BufTy).Contents (Elt F) → (⟨S4096x6144, .f32⟩ : BufTy).Contents (Elt F)),
    unary main_arg17 main_v52 (broadcastInDim S1x6144 ![1] bcast_S6144_S1x6144_1 : (⟨S6144, .f32⟩ : BufTy).Contents (Elt F) → (⟨S1x6144, .f32⟩ : BufTy).Contents (Elt F)),
    unary main_v52 main_v53 (broadcastInDim S4096x6144 ![0, 1] bcast_S1x6144_S4096x6144_0_1 : (⟨S1x6144, .f32⟩ : BufTy).Contents (Elt F) → (⟨S4096x6144, .f32⟩ : BufTy).Contents (Elt F)),
    binary main_v51 main_v53 main_v54 (subf : (⟨S4096x6144, .f32⟩ : BufTy).Contents (Elt F) → (⟨S4096x6144, .f32⟩ : BufTy).Contents (Elt F) → (⟨S4096x6144, .f32⟩ : BufTy).Contents (Elt F)),
    unary main_arg15 main_v55 (broadcastInDim S1x6144 ![1] bcast_S6144_S1x6144_1 : (⟨S6144, .f32⟩ : BufTy).Contents (Elt F) → (⟨S1x6144, .f32⟩ : BufTy).Contents (Elt F)),
    unary main_v55 main_v56 (broadcastInDim S4096x6144 ![0, 1] bcast_S1x6144_S4096x6144_0_1 : (⟨S1x6144, .f32⟩ : BufTy).Contents (Elt F) → (⟨S4096x6144, .f32⟩ : BufTy).Contents (Elt F)),
    binary main_v56 main_v54 main_v57 (mulf : (⟨S4096x6144, .f32⟩ : BufTy).Contents (Elt F) → (⟨S4096x6144, .f32⟩ : BufTy).Contents (Elt F) → (⟨S4096x6144, .f32⟩ : BufTy).Contents (Elt F)),
    nullary main_cst_5 (constant S_ .f32 0x3727C5AC#32),
    unary main_cst_5 main_v58 (broadcastInDim S6144 ![] bcast_S_S6144 : (⟨S_, .f32⟩ : BufTy).Contents (Elt F) → (⟨S6144, .f32⟩ : BufTy).Contents (Elt F)),
    binary main_arg18 main_v58 main_v59 (addf : (⟨S6144, .f32⟩ : BufTy).Contents (Elt F) → (⟨S6144, .f32⟩ : BufTy).Contents (Elt F) → (⟨S6144, .f32⟩ : BufTy).Contents (Elt F)),
    unary main_v59 main_v60 (Host.rsqrt : (⟨S6144, .f32⟩ : BufTy).Contents (Elt F) → (⟨S6144, .f32⟩ : BufTy).Contents (Elt F)),
    unary main_v60 main_v61 (broadcastInDim S1x6144 ![1] bcast_S6144_S1x6144_1 : (⟨S6144, .f32⟩ : BufTy).Contents (Elt F) → (⟨S1x6144, .f32⟩ : BufTy).Contents (Elt F)),
    unary main_v61 main_v62 (broadcastInDim S4096x6144 ![0, 1] bcast_S1x6144_S4096x6144_0_1 : (⟨S1x6144, .f32⟩ : BufTy).Contents (Elt F) → (⟨S4096x6144, .f32⟩ : BufTy).Contents (Elt F)),
    binary main_v57 main_v62 main_v63 (mulf : (⟨S4096x6144, .f32⟩ : BufTy).Contents (Elt F) → (⟨S4096x6144, .f32⟩ : BufTy).Contents (Elt F) → (⟨S4096x6144, .f32⟩ : BufTy).Contents (Elt F)),
    unary main_arg16 main_v64 (broadcastInDim S1x6144 ![1] bcast_S6144_S1x6144_1 : (⟨S6144, .f32⟩ : BufTy).Contents (Elt F) → (⟨S1x6144, .f32⟩ : BufTy).Contents (Elt F)),
    unary main_v64 main_v65 (broadcastInDim S4096x6144 ![0, 1] bcast_S1x6144_S4096x6144_0_1 : (⟨S1x6144, .f32⟩ : BufTy).Contents (Elt F) → (⟨S4096x6144, .f32⟩ : BufTy).Contents (Elt F)),
    binary main_v63 main_v65 main_v66 (addf : (⟨S4096x6144, .f32⟩ : BufTy).Contents (Elt F) → (⟨S4096x6144, .f32⟩ : BufTy).Contents (Elt F) → (⟨S4096x6144, .f32⟩ : BufTy).Contents (Elt F)),
    nullary main_cst_6 (constant S_ .f32 0xBF800000#32),
    nullary main_cst_7 (constant S_ .f32 0x3F800000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S4096x6144, .f32⟩) main_call2_v1) (broadcastInDim S4096x6144 ![] bcast_S_S4096x6144),
    TRef.binary (TRef.of (T := ⟨S4096x6144, .f32⟩) main_call2_v1) (TRef.of (T := ⟨S4096x6144, .f32⟩) main_v66) (TRef.of (T := ⟨S4096x6144, .f32⟩) main_call2_v2) maximumf,
    TRef.unary (TRef.of (T := ⟨S_, .f32⟩) main_cst_7) (TRef.of (T := ⟨S_, .f32⟩) main_call2_v3) id,
    TRef.unary (TRef.of (T := ⟨S_, .f32⟩) main_call2_v3) (TRef.of (T := ⟨S4096x6144, .f32⟩) main_call2_v4) (broadcastInDim S4096x6144 ![] bcast_S_S4096x6144),
    TRef.binary (TRef.of (T := ⟨S4096x6144, .f32⟩) main_call2_v4) (TRef.of (T := ⟨S4096x6144, .f32⟩) main_call2_v2) (TRef.of (T := ⟨S4096x6144, .f32⟩) main_v67) minimumf,
    unary main_arg19 main_v68 ((transpose S6144x10 [1, 0] · transposes_S10x6144_S6144x10_1_0) : (⟨S10x6144, .f32⟩ : BufTy).Contents (Elt F) → (⟨S6144x10, .f32⟩ : BufTy).Contents (Elt F)),
    binary main_v67 main_v68 main_v69 ((fun l r => Host.dotGeneral dot_S4096x6144_S6144x10_S4096x10_1_0_0_1_n_n none l r) : (⟨S4096x6144, .f32⟩ : BufTy).Contents (Elt F) → (⟨S6144x10, .f32⟩ : BufTy).Contents (Elt F) → (⟨S4096x10, .f32⟩ : BufTy).Contents (Elt F)),
    unary main_arg20 main_v70 (broadcastInDim S1x10 ![1] bcast_S10_S1x10_1 : (⟨S10, .f32⟩ : BufTy).Contents (Elt F) → (⟨S1x10, .f32⟩ : BufTy).Contents (Elt F)),
    unary main_v70 main_v71 (broadcastInDim S4096x10 ![0, 1] bcast_S1x10_S4096x10_0_1 : (⟨S1x10, .f32⟩ : BufTy).Contents (Elt F) → (⟨S4096x10, .f32⟩ : BufTy).Contents (Elt F)),
    binary main_v69 main_v71 main_v72 (addf : (⟨S4096x10, .f32⟩ : BufTy).Contents (Elt F) → (⟨S4096x10, .f32⟩ : BufTy).Contents (Elt F) → (⟨S4096x10, .f32⟩ : BufTy).Contents (Elt F)),
    TRef.nullary (TRef.of (T := ⟨S_, .f32⟩) main_call3_cst) (constant S_ .f32 0xFF800000#32),
    TRef.binary (TRef.of (T := ⟨S4096x10, .f32⟩) main_v72) (TRef.of (T := ⟨S_, .f32⟩) main_call3_cst) (TRef.of (T := ⟨S4096, .f32⟩) main_call3_v0) (fun x v => Host.reduce FloatOps.maximumf x v reducesTo_S4096x10_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x10, .f32⟩) main_call3_v4) (broadcastInDim S4096x10 ![0, 1] bcast_S4096x1_S4096x10_0_1),
    TRef.binary (TRef.of (T := ⟨S4096x10, .f32⟩) main_v72) (TRef.of (T := ⟨S4096x10, .f32⟩) main_call3_v4) (TRef.of (T := ⟨S4096x10, .f32⟩) main_call3_v5) subf,
    TRef.unary (TRef.of (T := ⟨S4096x10, .f32⟩) main_call3_v5) (TRef.of (T := ⟨S4096x10, .f32⟩) main_call3_v6) Host.exp,
    TRef.nullary (TRef.of (T := ⟨S_, .f32⟩) main_call3_cst_1) (constant S_ .f32 0x00000000#32),
    TRef.binary (TRef.of (T := ⟨S4096x10, .f32⟩) main_call3_v6) (TRef.of (T := ⟨S_, .f32⟩) main_call3_cst_1) (TRef.of (T := ⟨S4096, .f32⟩) main_call3_v7) (fun x v => Host.reduceAdd x v reducesTo_S4096x10_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x10, .f32⟩) main_call3_v10) (broadcastInDim S4096x10 ![0, 1] bcast_S4096x1_S4096x10_0_1),
    TRef.binary (TRef.of (T := ⟨S4096x10, .f32⟩) main_call3_v5) (TRef.of (T := ⟨S4096x10, .f32⟩) main_call3_v10) (TRef.of (T := ⟨S4096x10, .f32⟩) main_v73) subf ]

set_option maxRecDepth 65536 in
set_option maxHeartbeats 4000000 in
/-- The program is that list, run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
/-- Every operation names device arrays only. -/
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The arrays the operations write: every intermediate value, every constant, the result. No argument. -/
abbrev written : List (Ref sig .tc) :=
  [main_v0, main_v1, main_v2, main_v3, main_v4, main_v5, main_v6, main_v7, main_v8, main_v9, main_v10, main_v11, main_cst, main_v12, main_v13, main_v14, main_v15, main_v16, main_v17, main_v18, main_v19, main_v20, main_cst_0, main_cst_1, main_call0_v0, main_call0_v1, main_call0_v2, main_call0_v3, main_call0_v4, main_v21, main_v22, main_v23, main_v24, main_v25, main_v26, main_v27, main_v28, main_v29, main_v30, main_v31, main_v32, main_v33, main_v34, main_cst_2, main_v35, main_v36, main_v37, main_v38, main_v39, main_v40, main_v41, main_v42, main_v43, main_cst_3, main_cst_4, main_call1_v0, main_call1_v1, main_call1_v2, main_call1_v3, main_call1_v4, main_v44, main_v45, main_v46, main_v47, main_v48, main_v49, main_v50, main_v51, main_v52, main_v53, main_v54, main_v55, main_v56, main_v57, main_cst_5, main_v58, main_v59, main_v60, main_v61, main_v62, main_v63, main_v64, main_v65, main_v66, main_cst_6, main_cst_7, main_call2_v0, main_call2_v1, main_call2_v2, main_call2_v3, main_call2_v4, main_v67, main_v68, main_v69, main_v70, main_v71, main_v72, main_call3_cst, main_call3_v0, main_call3_cst_0, main_call3_v1, main_call3_v2, main_call3_v3, main_call3_v4, main_call3_v5, main_call3_v6, main_call3_cst_1, main_call3_v7, main_call3_v8, main_call3_v9, main_call3_v10, main_v73]

set_option maxRecDepth 65536 in
set_option maxHeartbeats 4000000 in
/-- Each operation writes one of them, and nothing else. -/
theorem ops_writes : (ops : List (HloOp τ sig (Elt F))).Forall fun op => op.writes ⊆ (written.map (Proc.devRef (τ := τ) .tc)).toFinset := by
  simp only [List.Forall]
  repeat' apply And.intro
  all_goals
    simp only [nullary_writes, unary_writes, binary_writes, Finset.singleton_subset_iff, List.mem_toFinset]
    exact List.mem_map_of_mem (by decide)

/-- Every weakly fair execution of the reference ends, faulting nowhere, with each array that no operation
    writes holding its launch contents. -/
theorem keeps (m : (ℓ : Loc nD τ sig) → Buf (Elt F) ℓ) (ρ : Dev nD → PrngReg) :
    θ_run defs (onTc (τ := τ) (main (F := F))) ⟨m, fun _ => 0, ρ⟩ fun r => ∀ (c : Dev nD) (a : Ref sig .tc), a ∉ written →
      r.2.mem ((c.tc : Thread nD τ).loc a) = m ((c.tc : Thread nD τ).loc a) :=
  (θ_run defs _ _).mono (fun _ h c a ha => (h c a).trans (after_of_writes_sub ops _ ops_writes ha))
    (run_seq scopedRefs_eq scopedSems_eq defs main (fun _ => ops) main_eq (fun _ => ops_sub) m ρ)

/-- The frame conjunct: the twenty-one arguments are not among the written arrays. -/
theorem frame : Cert.frame_ReferenceIdeal := fun m ρ _ =>
  (θ_run Cert.ReferenceIdeal.defs _ _).mono (fun _ h c =>
    ⟨h c main_arg0 (by decide),
     h c main_arg1 (by decide),
     h c main_arg2 (by decide),
     h c main_arg3 (by decide),
     h c main_arg4 (by decide),
     h c main_arg5 (by decide),
     h c main_arg6 (by decide),
     h c main_arg7 (by decide),
     h c main_arg8 (by decide),
     h c main_arg9 (by decide),
     h c main_arg10 (by decide),
     h c main_arg11 (by decide),
     h c main_arg12 (by decide),
     h c main_arg13 (by decide),
     h c main_arg14 (by decide),
     h c main_arg15 (by decide),
     h c main_arg16 (by decide),
     h c main_arg17 (by decide),
     h c main_arg18 (by decide),
     h c main_arg19 (by decide),
     h c main_arg20 (by decide)⟩)
    (keeps (F := Ideal) m ρ)

end Cert.ReferenceIdeal.HandRun

end
-- ==== Proof.RegionFamily.lean ====
/-
  The four regions' proof data as one family.

  The program enters four kernel regions, one per layer, each with its own windows and grid. The launch theorems
  take the regions' proof data as one family indexed by the region; this module only puts four given data, one
  per region, side by side, so that each region can be treated with the other three left arbitrary.
-/
import proofs.«158226_j28930899706073_2_alg».proof.Proof.Gen.KernelIdeal.Regions

noncomputable section

namespace Cert.KernelIdeal.Regions

open Cert.KernelIdeal Cert.KernelIdeal.Gen
open Idealize.ShloMosaic Idealize.ShloMosaic.TcCoe
open Idealize.ShloMosaic.Pipeline (Dat)
open Idealize.SL Idealize.SL.RA Idealize.SL.BI
open scoped Idealize.SL.BI
open Idealize.SL.BI.BIBase Idealize.SL.Sem
open Idealize.ShloMosaic.Rounds

variable {F : FTy → Type} [FloatOps F]

/-- One region's proof data on every core, in the algebra all four share. -/
abbrev DataOf (cfg : Pipeline.Cfg sig Λ₀) : Type _ := (c : Dev nD) → Dat τ (Elt F) Unit ℕ (UR sig nD τ) ℕ cfg c

/-- The family: region p's data at p. -/
def fam (d0 : DataOf (F := F) cfg0) (d1 : DataOf (F := F) cfg1) (d2 : DataOf (F := F) cfg2) (d3 : DataOf (F := F) cfg3) :
    (p : Fin 4) → (c : Dev nD) → Dat τ (Elt F) Unit ℕ (UR sig nD τ) ℕ (cfgs p) c
  | ⟨0, _⟩ => d0
  | ⟨1, _⟩ => d1
  | ⟨2, _⟩ => d2
  | ⟨3, _⟩ => d3

/-- No core owes another anything in this program: no level is assigned. -/
abbrev Lv0 : GSem nD τ sig → Finset Unit := fun _ => ∅
abbrev lv0 : GSem nD τ sig → Unit → ℕ := fun _ _ => 0

/-- What rides beside the buffers between the program's items: the core owing nothing. -/
abbrev Rest (c : Dev nD) : Idealize.SL.BI.sProp (MT nD τ sig Unit (Elt F) ℕ (UR sig nD τ) ℕ) :=
  iprop(∃ W, owes (c : Thread nD τ) (0 : CellTallies nD τ sig Unit) W)

end Cert.KernelIdeal.Regions

end
-- ==== Proof.FrameOf.lean ====
/-
  The idealized kernel's frame, from its four regions.

  The program is eight items in a row: a stretch of host operations (casts, signs of the weights, reshapes of the
  parameter rows), then a kernel region, four times over. Given each region as a segment that is entered from
  the unscoped buffers as the stretch before it leaves them and left with them as the stretch after it finds
  them, the whole program runs to its end without a fault, and since no stretch and no region writes an
  argument, every argument ends as launched. Between the items nothing rides along but the fact that the core
  owes no other core anything; the launch provides that, and the end asks for no more.
-/
import proofs.«158226_j28930899706073_2_alg».proof.Proof.RegionFamily

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.KernelIdeal.Regions (fam DataOf Lv0 lv0 Rest)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the staging cells' and the pipelines' transfers' ghost state, nothing else. -/
def u₀ : UR sig nD τ := initOf (Pipeline.cells cfgs cellOf_inj) (Pipeline.launchToks cfgs cellOf_inj)

/-- The frame from four region segments whose entry and exit states are the valuations between the items. -/
theorem frame_of (outs : Gen.Outs (F := F))
    (pdats : (p : Fin 4) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (V1 m c) ∗ Rest (F := F) c) ⊢ R0.pre c)
    (hpost0 : ∀ c : Dev nD, R0.post c ⊢ iprop(StableHlo.held (c : Thread nD τ) (Pipeline.ucRefs τ sig) (V2 m outs c) ∗ Rest (F := F) c))
    (R1 : RegionSeg (pcfgs (F := F)) Gen.adm pdats () defs₀ Variants.none Lv0 lv0 1)
    (hpre1 : ∀ c : Dev nD, iprop(StableHlo.held (c : Thread nD τ) (Pipeline.ucRefs τ sig) (V3 m outs c) ∗ Rest (F := F) c) ⊢ R1.pre c)
    (hpost1 : ∀ c : Dev nD, R1.post c ⊢ iprop(StableHlo.held (c : Thread nD τ) (Pipeline.ucRefs τ sig) (V4 m outs c) ∗ Rest (F := F) c))
    (R2 : RegionSeg (pcfgs (F := F)) Gen.adm pdats () defs₀ Variants.none Lv0 lv0 2)
    (hpre2 : ∀ c : Dev nD, iprop(StableHlo.held (c : Thread nD τ) (Pipeline.ucRefs τ sig) (V5 m outs c) ∗ Rest (F := F) c) ⊢ R2.pre c)
    (hpost2 : ∀ c : Dev nD, R2.post c ⊢ iprop(StableHlo.held (c : Thread nD τ) (Pipeline.ucRefs τ sig) (V6 m outs c) ∗ Rest (F := F) c))
    (R3 : RegionSeg (pcfgs (F := F)) Gen.adm pdats () defs₀ Variants.none Lv0 lv0 3)
    (hpre3 : ∀ c : Dev nD, iprop(StableHlo.held (c : Thread nD τ) (Pipeline.ucRefs τ sig) (V7 m outs c) ∗ Rest (F := F) c) ⊢ R3.pre c)
    (hpost3 : ∀ c : Dev nD, R3.post c ⊢ iprop(StableHlo.held (c : Thread nD τ) (Pipeline.ucRefs τ sig) (V8 m outs c) ∗ Rest (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m (emb₁ : Emb (UR sig nD τ) 𝕄) () Variants.none Lv0 lv0 (fun _ _ => rfl) ρ outs pdats (fun _ => 0) (fun _ => iprop(emp)) u₀
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Rest (F := F) c)
    (by
      have hper : ∀ c : Dev nD, (iprop(unscopedSems0 c ∗ owes (c : Thread nD τ) (0 : CellTallies nD τ sig Unit) ∅
          ∗ Pipeline.launchCred (fun _ : Dev nD => (0 : CellTallies nD τ sig Unit)) c ∗ prngReg c (ρ c) ∗ emp) : sProp 𝕄) ⊢ Rest (F := F) c := fun c => by
        iintro ⟨-, HO, -, -, -⟩
        iexists ∅
        iexact HO
      have hmono := bigSep_mono (s := (Finset.univ : Finset (Dev nD))) fun c _ => hper c
      refine Entails.trans ?_ (Entails.trans hmono fupd_intro)
      iintro ⟨H, -⟩
      iexact H)
    (fun c => .rfl)
    R0 hpre0 hpost0 R1 hpre1 hpost1 R2 hpre2 hpost2 R3 hpre3 hpost3

end Cert.KernelIdeal.Whole

end
-- ==== Proof.ValueCond.lean ====
/-
  The whole program's run, read at the result.

  The four regions being segments between the contents followed item by item, the program runs to its end; at the
  end every unscoped buffer holds what the last item left in it. Read at an argument, that is the launch contents;
  read at the result array, it is what the last region's write-backs made of that array.
-/
import proofs.«158226_j28930899706073_2_alg».proof.Proof.RegionFamily

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch theorem's implicit arguments are found by unifying its conclusion with this one, which takes unfolding
-- plain definitions in a metavariable's type
set_option backward.isDefEq.respectTransparency.types false in
/-- The run of the whole program given its four regions as segments, read at the arguments AND at the result array:
    every weakly fair execution ends, faulting nowhere, with each argument as launched and the result array at what the
    last region left in it. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v26) = outs 8 main_v26 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v26) = outs 8 main_v26 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v26) (Finset.mem_filter.mpr ⟨StableHlo.devRef_mem_tcRefs main_v26, by decide⟩)).trans
          (by show Function.update (V7 m outs c) (Proc.devRef .tc main_v26) (outs 8 main_v26 c) (Proc.devRef .tc main_v26) = _; rw [Function.update_self]),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c),
        (h (Proc.devRef .tc main_arg14) (Finset.mem_filter.mpr ⟨StableHlo.devRef_mem_tcRefs main_arg14, by decide⟩)).trans (V8_main_arg14 m outs c),
        (h (Proc.devRef .tc main_arg15) (Finset.mem_filter.mpr ⟨StableHlo.devRef_mem_tcRefs main_arg15, by decide⟩)).trans (V8_main_arg15 m outs c),
        (h (Proc.devRef .tc main_arg16) (Finset.mem_filter.mpr ⟨StableHlo.devRef_mem_tcRefs main_arg16, by decide⟩)).trans (V8_main_arg16 m outs c),
        (h (Proc.devRef .tc main_arg17) (Finset.mem_filter.mpr ⟨StableHlo.devRef_mem_tcRefs main_arg17, by decide⟩)).trans (V8_main_arg17 m outs c),
        (h (Proc.devRef .tc main_arg18) (Finset.mem_filter.mpr ⟨StableHlo.devRef_mem_tcRefs main_arg18, by decide⟩)).trans (V8_main_arg18 m outs c),
        (h (Proc.devRef .tc main_arg19) (Finset.mem_filter.mpr ⟨StableHlo.devRef_mem_tcRefs main_arg19, by decide⟩)).trans (V8_main_arg19 m outs c),
        (h (Proc.devRef .tc main_arg20) (Finset.mem_filter.mpr ⟨StableHlo.devRef_mem_tcRefs main_arg20, by decide⟩)).trans (V8_main_arg20 m outs c)⟩
    · iexact HSI

end Cert.KernelIdeal.Whole

end
-- ==== Proof.ValueOf.lean ====
/-
  The idealized kernel's run, read at the result, from its four regions.

  As for the frame: given each region as a segment between the contents followed item by item, the program runs to
  its end without a fault; every argument ends as launched, and the result array ends at what the table of the
  regions' outputs names for the last region.
-/
import proofs.«158226_j28930899706073_2_alg».proof.Proof.RegionFamily
import proofs.«158226_j28930899706073_2_alg».proof.Proof.ValueCond

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.KernelIdeal.Regions (fam DataOf Lv0 lv0 Rest)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the staging cells' and the pipelines' transfers' ghost state, nothing else. -/
def u₀' : UR sig nD τ := initOf (Pipeline.cells cfgs cellOf_inj) (Pipeline.launchToks cfgs cellOf_inj)

/-- The run, read at the result and the arguments, from four region segments whose entry and exit states are the
    valuations between the items. -/
theorem value_of (outs : Gen.Outs (F := F))
    (pdats : (p : Fin 4) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (V1 m c) ∗ Rest (F := F) c) ⊢ R0.pre c)
    (hpost0 : ∀ c : Dev nD, R0.post c ⊢ iprop(StableHlo.held (c : Thread nD τ) (Pipeline.ucRefs τ sig) (V2 m outs c) ∗ Rest (F := F) c))
    (R1 : RegionSeg (pcfgs (F := F)) Gen.adm pdats () defs₀ Variants.none Lv0 lv0 1)
    (hpre1 : ∀ c : Dev nD, iprop(StableHlo.held (c : Thread nD τ) (Pipeline.ucRefs τ sig) (V3 m outs c) ∗ Rest (F := F) c) ⊢ R1.pre c)
    (hpost1 : ∀ c : Dev nD, R1.post c ⊢ iprop(StableHlo.held (c : Thread nD τ) (Pipeline.ucRefs τ sig) (V4 m outs c) ∗ Rest (F := F) c))
    (R2 : RegionSeg (pcfgs (F := F)) Gen.adm pdats () defs₀ Variants.none Lv0 lv0 2)
    (hpre2 : ∀ c : Dev nD, iprop(StableHlo.held (c : Thread nD τ) (Pipeline.ucRefs τ sig) (V5 m outs c) ∗ Rest (F := F) c) ⊢ R2.pre c)
    (hpost2 : ∀ c : Dev nD, R2.post c ⊢ iprop(StableHlo.held (c : Thread nD τ) (Pipeline.ucRefs τ sig) (V6 m outs c) ∗ Rest (F := F) c))
    (R3 : RegionSeg (pcfgs (F := F)) Gen.adm pdats () defs₀ Variants.none Lv0 lv0 3)
    (hpre3 : ∀ c : Dev nD, iprop(StableHlo.held (c : Thread nD τ) (Pipeline.ucRefs τ sig) (V7 m outs c) ∗ Rest (F := F) c) ⊢ R3.pre c)
    (hpost3 : ∀ c : Dev nD, R3.post c ⊢ iprop(StableHlo.held (c : Thread nD τ) (Pipeline.ucRefs τ sig) (V8 m outs c) ∗ Rest (F := F) c)) :
    θ_run defs (onTc (τ := τ) (main (F := F))) ⟨m, fun _ => 0, ρ⟩ (fun r => ∀ c : Dev nD,
      r.2.mem ((c.tc : Thread nD τ).loc main_v26) = outs 8 main_v26 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  value_cond m (emb₁ : Emb (UR sig nD τ) 𝕄) () Variants.none Lv0 lv0 (fun _ _ => rfl) ρ outs pdats (fun _ => 0) (fun _ => iprop(emp)) u₀'
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Rest (F := F) c)
    (by
      have hper : ∀ c : Dev nD, (iprop(unscopedSems0 c ∗ owes (c : Thread nD τ) (0 : CellTallies nD τ sig Unit) ∅
          ∗ Pipeline.launchCred (fun _ : Dev nD => (0 : CellTallies nD τ sig Unit)) c ∗ prngReg c (ρ c) ∗ emp) : sProp 𝕄) ⊢ Rest (F := F) c := fun c => by
        iintro ⟨-, HO, -, -, -⟩
        iexists ∅
        iexact HO
      have hmono := bigSep_mono (s := (Finset.univ : Finset (Dev nD))) fun c _ => hper c
      refine Entails.trans ?_ (Entails.trans hmono fupd_intro)
      iintro ⟨H, -⟩
      iexact H)
    (fun c => .rfl)
    R0 hpre0 hpost0 R1 hpre1 hpost1 R2 hpre2 hpost2 R3 hpre3 hpost3

end Cert.KernelIdeal.Whole

end
-- ==== Proof.Layer1Body.lean ====
/-
  Layer 1's kernel body at one grid point.

  Layer 1 contracts all 784 input features in a single block, so its reduction axis has one step: every
  grid point is both the first step of its reduction (the accumulator is cleared) and the last (the block is
  normalised and written out). From the two matrix blocks and the five parameter rows staged whole, the
  output block's buffer and the accumulator at any contents, the body runs to its return; it leaves the seven
  inputs as they were and, in the accumulator and in the output block's buffer, what its stores wrote: the
  cleared accumulator overwritten by the block product, and the sign of the batch-normalised sum.
  Stated for any float values, so that it serves the word-level reading and the extended-real one alike.
-/
import proofs.«158226_j28930899706073_2_alg».proof.Proof.Gen.KernelIdeal.Skeleton
import proofs.«158226_j28930899706073_2_alg».proof.Proof.Gen.KernelIdeal.Launch
import proofs.«158226_j28930899706073_2_alg».proof.Proof.Gen.KernelIdeal.Points
import Idealize.ShloMosaic.Lib.Tactic
import Idealize.ShloMosaic.Lib.Pipeline.Kit
import Idealize.ShloMosaic.Lib.Pipeline.Frame

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Layer 1 contracts all 784 input features in one block: its reduction axis has a single step. -/
theorem axis2_zero (i : grid0.Coords) : (i 2).val = 0 := Nat.lt_one_iff.mp (show (i 2).val < 1 from (i 2).isLt)

/-- So every point is the first step of its reduction (the accumulator is reset), -/
theorem first_step (i : grid0.Coords) :
    Scalar.cmpi .ne (Scalar.extui (Scalar.cmpi .eq (BitVec.ofNat 32 (i 2).val) 0#32)) 0#32 = 1#1 := by
  rw [axis2_zero i]; decide

/-- and the last (the block is normalised and written out). -/
theorem last_step (i : grid0.Coords) : k0_cond2 i = 1#1 := by
  unfold k0_cond2; rw [axis2_zero i]; decide

set_option maxHeartbeats 4000000 in
/-- At any point of layer 1's grid, from the seven input blocks staged whole, the output block's buffer and the
    accumulator at anything: the body runs to its return leaving the inputs as they were and, in the
    accumulator and in the output block's buffer, the pieces its stores wrote. -/
noncomputable def bodyRun (c : Dev nD) (i : grid0.Coords)
    (arg3 : Memref sig .tc .vmem S1024x784 .bf16) (harg3 : arg3.IsWhole) (arg4 : Memref sig .tc .vmem S1024x784 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x784 .bf16) (x2 x3 x4 x5 x6 : Vec F S1x1024 .f32) :
    Σ' (L7 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)) -∗ K ⟨⟩))
          ⊢ wp frame (wpE (defs₀ (F := F)) Variants.none c none) E
              (cc0__layer_kernel i arg3 harg3 arg4 harg4 arg5 harg5 arg6 harg6 arg7 harg7 arg8 harg8 arg9 harg9 arg10 harg10 arg11 harg11) K } := by
  refine ⟨?_, ?_, fun E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact first_step i | exact last_step i)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; iexact HS0

end Cert.KernelIdeal.Layer1

end
-- ==== Proof.Layer1Data.lean ====
/-
  Layer 1's region: what each staging buffer holds, point by point.

  The region walks its 24 grid points (four row blocks by six column blocks, one reduction step). At a point the
  two matrix windows and the five parameter windows hold the blocks of their arrays that the point's index
  selects, read off the arrays as the region finds them (the input and the binarized weights after the host's
  casts, the parameter rows after their reshapes). The output window's buffer holds, after the body, what the
  body's one store wrote: that store covers the whole block, so what it leaves does not depend on what the buffer
  held before. The accumulator is cleared and refilled at every point, so nothing is carried between points and
  the region's invariant is just "the scoped buffers the windows do not stage, at some contents".
-/
import proofs.«158226_j28930899706073_2_alg».proof.Proof.Layer1Body
import proofs.«158226_j28930899706073_2_alg».proof.Proof.Gen.KernelIdeal.Regions
import Idealize.ShloMosaic.Lib.Pipeline.FrameBody
import Idealize.ShloMosaic.Lib.Ring
import Idealize.ShloMosaic.Lib.Writes

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An array's contents when the region is entered: the launch contents after the host operations before it. -/
abbrev Vin (c : Dev nD) (b : Ref sig .tc) : Buf (Elt F) ((c : Thread nD τ).loc b) := Gen.V1 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

/-- Each window's current staging memref at point t, and its wholeness. -/
abbrev ms0 (t : Fin cfg0.N) : Memref sig .tc .vmem S1024x784 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x784 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .bf16 := win0_7.stage (cfg0.slots t 7)
abbrev hs7 (t : Fin cfg0.N) : (ms7 t).IsWhole := hstage0_7 ((cfg0.slots t 7).cast nbuf0_7)
/-- The accumulator: a whole scoped buffer of the kernel's own. -/
abbrev scM : Memref sig .tc .vmem S1024x1024 .f32 := Memref.whole cc0_scratch0
/-- One staging buffer of the output window, through which its contents are stated. -/
abbrev VO7 : View sig .tc .vmem S1024x1024 .bf16 := (Memref.whole cc0_stg7_0 : Memref sig .tc .vmem S1024x1024 .bf16).view

/-- The body's run at point t: on the point's staging memrefs, the inputs at their blocks. -/
abbrev runAt (c : Dev nD) (t : Fin cfg0.N) := bodyRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) (iblk m c 6 t)

/-- What the body leaves in the output block's buffer at point t: its store's pieces read back. -/
def out7 (c : Dev nD) (t : Fin cfg0.N) : Vec F S1024x1024 .bf16 :=
  VO7.read (Elt F) (VO7.writes (Elt F) VO7.junk (runAt m c t).1)

/-- The store covers the whole block. -/
theorem cover7 (c : Dev nD) (t : Fin cfg0.N) (y : S1024x1024.Idx) : ∃ pc ∈ (runAt m c t).1, y ∈ pc.1.set :=
  View.cover_of_tiledL (runAt m c t).1 S1024x1024.size (by sl_kernel_rfl) y

/-- The proof data of the region on core c. -/
def dat (c : Dev nD) : Dat τ (Elt F) Unit ℕ (UR sig nD τ) ℕ cfg0 c where
  A w := Vin m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ _ := Pipeline.scopedRest spec0 c
  q _ := fullShare
  owed _ := 0

theorem A_eq (c : Dev nD) (w : Fin cfg0.W) : (dat m c).A w = Vin m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem after6 (c : Dev nD) (t : Fin cfg0.N) : (dat m c).after 6 t = iblk m c 6 t := by dsimp only [dat]
theorem after7 (c : Dev nD) (t : Fin cfg0.N) : (dat m c).after 7 t = out7 m c t := by dsimp only [dat]

/-- Each input's current staging buffer holds its block at every point, fetched there or not. -/
theorem before0 (c : Dev nD) (t : Fin cfg0.N) (d) : (dat m c).before 0 t d = iblk m c 0 t :=
  ((dat m c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dat m c).before 5 t d = iblk m c 5 t :=
  ((dat m c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dat m c).before 6 t d = iblk m c 6 t :=
  ((dat m c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-- No window is idle at any point: every point is a last reduction step. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-! ## The body obligation, at a generic point -/

/-- The invariant, opened at the accumulator: it at some contents, beside the other scoped buffers. -/
theorem Phi_eq (c : Dev nD) :
    (Pipeline.scopedRest (Ix := Unit) (Name := ℕ) (U := UR sig nD τ) (Lvl := ℕ) (Val := Elt F) spec0 c : sProp 𝕄)
      = iprop((∃ d, owns (c : Thread nD τ) scM fullShare d)
          ∗ Pipeline.scopedRestBut (Ix := Unit) (Name := ℕ) (U := UR sig nD τ) (Lvl := ℕ) (Val := Elt F) spec0 c [cc0_scratch0]) := by
  rw [scopedRest0_split]; simp only [scM, owns_whole]; try rfl

/-- What the body is called with at point t, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t)

set_option maxHeartbeats 4800000 in
/-- The body at any point: the inputs' memrefs hold their blocks; the run applies; the accumulator goes back into
    the invariant at whatever the body left in it, the output block's buffer at what its store wrote. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dat m c).owesAt () t.succ = (dat m c).owesAt () t.castSucc from rfl]
  rw [show (dat m c).Φ t.succ = Pipeline.scopedRest spec0 c from rfl, show (dat m c).Φ t.castSucc = Pipeline.scopedRest spec0 c from rfl, Phi_eq]
  rw [show (dat m c).leavesExact 0 t = owns (c : Thread nD τ) (ms0 t) fullShare ((dat m c).after 0 t) from by
    unfold Dat.leavesExact; rw [live0 t], after0]
  rw [show (dat m c).leavesExact 1 t = owns (c : Thread nD τ) (ms1 t) fullShare ((dat m c).after 1 t) from by
    unfold Dat.leavesExact; rw [live1 t], after1]
  rw [show (dat m c).leavesExact 2 t = owns (c : Thread nD τ) (ms2 t) fullShare ((dat m c).after 2 t) from by
    unfold Dat.leavesExact; rw [live2 t], after2]
  rw [show (dat m c).leavesExact 3 t = owns (c : Thread nD τ) (ms3 t) fullShare ((dat m c).after 3 t) from by
    unfold Dat.leavesExact; rw [live3 t], after3]
  rw [show (dat m c).leavesExact 4 t = owns (c : Thread nD τ) (ms4 t) fullShare ((dat m c).after 4 t) from by
    unfold Dat.leavesExact; rw [live4 t], after4]
  rw [show (dat m c).leavesExact 5 t = owns (c : Thread nD τ) (ms5 t) fullShare ((dat m c).after 5 t) from by
    unfold Dat.leavesExact; rw [live5 t], after5]
  rw [show (dat m c).leavesExact 6 t = owns (c : Thread nD τ) (ms6 t) fullShare ((dat m c).after 6 t) from by
    unfold Dat.leavesExact; rw [live6 t], after6]
  rw [show (dat m c).leavesExact 7 t = owns (c : Thread nD τ) (ms7 t) fullShare ((dat m c).after 7 t) from by
    unfold Dat.leavesExact; rw [live7 t], after7]
  iintro ⟨⟨⟨%ds, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexists _; iexact HS
  iintro ⟨H0, H1, H2, H3, H4, H5, H6, ⟨%e7, H7⟩, ⟨%es, HS⟩⟩
  isplitl [HS Hrest]
  · isplitl [HS]
    · iexists _; unfold owns; iexists _; isplitr
      swap; · iexact HS
      ipureintro; rfl
    iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold out7 owns; iexists _; isplitr
  swap; · iexact H7
  ipureintro; exact View.read_writes_of_cover _ _ _ _ _ (cover7 m c t)

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Layer1

end
-- ==== Proof.Layer1Region.lean ====
/-
  Layer 1's region, as one segment of the program.

  Entered from the state the host's casts and reshapes leave: the region takes the eight arrays its windows stage
  (the bf16 input, the binarized weights, the five parameter rows, and the output array) out of the core's
  unscoped buffers, leaves the others aside untouched, and runs its 24 points. It needs nothing beyond the scoped
  buffers for its invariant and keeps no semaphore of its own. When it returns, the seven input arrays hold what
  they held at entry (a window that is only fetched never writes its array), the output array holds what the
  24 write-backs made of it, and the core's unscoped buffers are again held whole: at the entry contents, with
  the output array replaced by that final array.
-/
import proofs.«158226_j28930899706073_2_alg».proof.Proof.Layer1Data
import proofs.«158226_j28930899706073_2_alg».proof.Proof.RegionFamily

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Regions (fam DataOf Lv0 lv0 Rest)

variable {F : FTy → Type} [FloatOps F]

local notation "𝕄" => MT nD τ sig Unit (Elt F) ℕ (UR sig nD τ) ℕ

variable (m : (ℓ : Loc nD τ sig) → Buf (Elt F) ℓ) (outs : Gen.Outs (F := F))
variable (d1 : DataOf (F := F) cfg1) (d2 : DataOf (F := F) cfg2) (d3 : DataOf (F := F) cfg3)

/-- The family with this region's data in its place, the other three arbitrary. -/
abbrev pd : (p : Fin 4) → (c : Dev nD) → Dat τ (Elt F) Unit ℕ (UR sig nD τ) ℕ (cfgs p) c := fam (dat m) d1 d2 d3

/-- The output array after the region: what the write-backs made of it. -/
abbrev finalOut (c : Dev nD) : Buf (Elt F) ((cfg0.win 7).arr.view.loc (c : Thread nD τ)) := (dat m c).arrAt 7 cfg0.N

/-- Every window's array after the region, read in the valuation the next item starts from: an input's array is as at
    entry, which the update of the output array does not touch; the output array is the update. -/
theorem final_eq (houts : ∀ c, outs 2 main_v12 c = finalOut m c) (c : Dev nD) (w : Fin cfg0.W) :
    (dat m c).arrAt w cfg0.N = Gen.V2 m outs c (Proc.devRef .tc (Pipeline.arrRef spec0 w)) := by
  have hin : ∀ w : Fin cfg0.W, (cfg0.win w).isOut = false → Pipeline.arrRef spec0 w ∉ ([main_v12] : List (Ref sig .tc)) →
      (dat m c).arrAt w cfg0.N = Gen.V2 m outs c (Proc.devRef .tc (Pipeline.arrRef spec0 w)) := fun w hw hne =>
    ((dat m c).arrAt_in w hw _).trans ((A_eq m c w).trans (Gen.V2_of m outs c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show finalOut m c = Function.update (Gen.V1 m c) (Proc.devRef .tc main_v12) (outs 2 main_v12 c) (Proc.devRef .tc main_v12)
    rw [Function.update_self]; exact (houts c).symm

-- an entailment stated over `cfgs p` at the pinned configuration unifies only when unification may unfold plain
-- definitions in a metavariable's type
set_option backward.isDefEq.respectTransparency.types false in
/-- The region as a segment: entered from the unscoped buffers at the contents the first host stretch leaves, left
    with them at those contents but the output array at `finalOut`. -/
def region (houts : ∀ c, outs 2 main_v12 c = finalOut m c) :
    Pipeline.RegionSeg (pcfgs (F := F)) Gen.adm (pd m d1 d2 d3) () defs₀ Variants.none Lv0 lv0 0 where
  win := launch0.win.to₀
  block_pos := launch0.block_pos
  stage_whole := launch0.stage_whole
  K := PEmpty
  osem := fun k => k.elim
  ho := Pipeline.OwnSemFacts.none _
  hbody c := (body_obligation m c).loose
  hwaits := Pipeline.hwaits_of_owed_zero _ _ _ _ Lv0 lv0 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m outs c) ∗ Rest c)
  X c := iprop(emp)
  Y c := iprop(emp)
  Z c := Pipeline.unscopedRest spec0 c (Vin m c)
  hentry c := by
    rw [show StableHlo.held (c : Thread nD τ) (Pipeline.ucRefs τ sig) (Gen.V1 m c) = unscopedBufs c (Vin m c) from (Pipeline.unscopedBufs_held c _).symm]
    have hsplit := Pipeline.arrays_of_unscopedBufs (p := 0) (pcfgs (F := F)) Gen.adm (pd m d1 d2 d3) launch0.win launch0.arr_whole c
      ((pd m d1 d2 d3 0 c).share_full fun _ => rfl) (Vin m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd m d1 d2 d3 0 c).Φ 0 = Pipeline.scopedRest spec0 c from rfl]
    iintro ⟨-, -, Hr⟩
    iexact Hr
  hout c := by
    rw [show (pd m d1 d2 d3 0 c).Φ (Fin.last _) = Pipeline.scopedRest spec0 c from rfl, Pipeline.ownSems0_none]
    iintro Hr
    isplitr; · iempintro
    isplitr; · iempintro
    iexact Hr
  hexit c := by
    rw [show StableHlo.held (c : Thread nD τ) (Pipeline.ucRefs τ sig) (Gen.V2 m outs c)
        = unscopedBufs c (fun b => Gen.V2 m outs c (Proc.devRef .tc b)) from (Pipeline.unscopedBufs_held c _).symm,
      Pipeline.unscopedBufs_split (Pipeline.pin (pcfgs (F := F)) Gen.adm) 0 launch0.win.arr_unscoped launch0.win.arr_inj c _,
      Pipeline.arrays_eq (Pipeline.pin (pcfgs (F := F)) Gen.adm) (pd m d1 d2 d3) 0 c launch0.arr_whole ((pd m d1 d2 d3 0 c).share_full fun _ => rfl)]
    have harr : (bigSep Finset.univ fun w : Fin cfg0.W => (((c : Thread nD τ).loc (Pipeline.arrRef spec0 w)) ↦{fullShare} (dat m c).arrAt w cfg0.N : sProp 𝕄))
        = bigSep Finset.univ fun w : Fin cfg0.W => (((c : Thread nD τ).loc (Pipeline.arrRef spec0 w)) ↦{fullShare} Gen.V2 m outs c (Proc.devRef .tc (Pipeline.arrRef spec0 w)) : sProp 𝕄) :=
      bigSep_congr fun w _ => by rw [final_eq m outs houts c w]
    have hrest : (Pipeline.unscopedRest spec0 c (fun b => Gen.V2 m outs c (Proc.devRef .tc b)) : sProp 𝕄) = Pipeline.unscopedRest spec0 c (Vin m c) := by
      unfold Pipeline.unscopedRest
      exact bigSep_congr fun b hb => by
        have hb' : b ∉ ([main_v12] : List (Ref sig .tc)) := fun h => (Finset.mem_sdiff.mp hb).2
          (Finset.mem_image.mpr ⟨7, Finset.mem_univ _, (List.mem_singleton.mp h).symm⟩)
        dsimp only
        rw [Gen.V2_of m outs c b hb']
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%W, -, HO⟩; iexists W; iexact HO

end Cert.KernelIdeal.Layer1

end
-- ==== Proof.Layer2Body.lean ====
/-
  Layer 2's kernel body at one grid point.

  Layer 2 contracts its 6144 input features in four blocks of 1536, so its reduction axis has four steps. At the
  first the accumulator is cleared before the block product is added to it; at the last the accumulated sum is
  batch-normalised and its sign written to the output block; at the two steps between, the block product is only
  added. Three runs of the body, one per case, each from the two matrix blocks and the five parameter rows staged
  whole: each leaves the seven inputs as they were and names, as the pieces its stores wrote, what it leaves in
  the accumulator (and, at the last step, in the output block's buffer; before that the output block's buffer is
  handed back untouched). Stated for any float values, so that it serves the word-level reading and the
  extended-real one alike.
-/
import proofs.«158226_j28930899706073_2_alg».proof.Proof.Gen.KernelIdeal.Skeleton
import proofs.«158226_j28930899706073_2_alg».proof.Proof.Gen.KernelIdeal.Launch
import proofs.«158226_j28930899706073_2_alg».proof.Proof.Gen.KernelIdeal.Points
import Idealize.ShloMosaic.Lib.Tactic
import Idealize.ShloMosaic.Lib.Pipeline.Kit
import Idealize.ShloMosaic.Lib.Pipeline.Frame

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction axis has four steps. -/
theorem axis2_cases (i : grid1.Coords) : (i 2).val = 0 ∨ (i 2).val = 1 ∨ (i 2).val = 2 ∨ (i 2).val = 3 := by
  have hlt : (i 2).val < 4 := (i 2).isLt
  omega

/-- The accumulator is reset exactly at the first step of the reduction, -/
theorem first_iff (i : grid1.Coords) :
    Scalar.cmpi .ne (Scalar.extui (Scalar.cmpi .eq (BitVec.ofNat 32 (i 2).val) 0#32)) 0#32 = 1#1 ↔ (i 2).val = 0 := by
  rcases axis2_cases i with h | h | h | h <;> rw [h] <;> decide

/-- and the block is normalised and written out exactly at the last. -/
theorem last_iff (i : grid1.Coords) : k1_cond2 i = 1#1 ↔ (i 2).val = 3 := by
  unfold k1_cond2
  rcases axis2_cases i with h | h | h | h <;> rw [h] <;> decide

theorem first_pos (i : grid1.Coords) (h : (i 2).val = 0) :
    Scalar.cmpi .ne (Scalar.extui (Scalar.cmpi .eq (BitVec.ofNat 32 (i 2).val) 0#32)) 0#32 = 1#1 := (first_iff i).2 h

theorem first_neg (i : grid1.Coords) (h : (i 2).val ≠ 0) :
    ¬ Scalar.cmpi .ne (Scalar.extui (Scalar.cmpi .eq (BitVec.ofNat 32 (i 2).val) 0#32)) 0#32 = 1#1 := fun hc => h ((first_iff i).1 hc)

theorem last_pos (i : grid1.Coords) (h : (i 2).val = 3) : k1_cond2 i = 1#1 := (last_iff i).2 h

theorem last_neg (i : grid1.Coords) (h : (i 2).val ≠ 3) : ¬ k1_cond2 i = 1#1 := fun hc => h ((last_iff i).1 hc)

set_option maxHeartbeats 4000000 in
/-- At a point that is the first step of its reduction but not the last, from the seven input blocks staged whole,
    the output block's buffer at any known contents and the accumulator at anything: the body runs to its return
    leaving the inputs and the output block's buffer as they were and, in the accumulator, the pieces its two
    stores wrote (the reset, then the block product added to it). -/
noncomputable def bodyRunFirst (c : Dev nD) (i : grid1.Coords) (h : (i 2).val = 0)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ (∃ d, owns (c : Thread nD τ) arg11 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__layer_kernel i arg3 harg3 arg4 harg4 arg5 harg5 arg6 harg6 arg7 harg7 arg8 harg8 arg9 harg9 arg10 harg10 arg11 harg11) K } := by
  refine ⟨?_, fun d7 E K => ?run⟩
  case run =>
    have hnl : (i 2).val ≠ 3 := by omega
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | sl_exact first_pos i h | sl_exact last_neg i hnl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is neither the first step of its reduction nor the last, from the seven input blocks staged
    whole, the output block's buffer at any known contents and the accumulator at known contents: the body runs to
    its return leaving the inputs and the output block's buffer as they were and, in the accumulator, the piece its
    one store wrote (the block product added to what the accumulator held). -/
noncomputable def bodyRunMiddle (c : Dev nD) (i : grid1.Coords) (h0 : (i 2).val ≠ 0) (h3 : (i 2).val ≠ 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__layer_kernel i arg3 harg3 arg4 harg4 arg5 harg5 arg6 harg6 arg7 harg7 arg8 harg8 arg9 harg9 arg10 harg10 arg11 harg11) K } := by
  refine ⟨?_, fun d7 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i h0 | sl_exact last_neg i h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is the last step of its reduction but not the first, from the seven input blocks staged whole,
    the accumulator at known contents and the output block's buffer at anything: the body runs to its return
    leaving the inputs as they were and, in the accumulator and in the output block's buffer, the pieces its
    stores wrote (the block product added to what the accumulator held; the normalised sum's image). -/
noncomputable def bodyRunLast (c : Dev nD) (i : grid1.Coords) (h : (i 2).val = 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    Σ' (L7 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ (∃ d, owns (c : Thread nD τ) arg10 fullShare d) ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__layer_kernel i arg3 harg3 arg4 harg4 arg5 harg5 arg6 harg6 arg7 harg7 arg8 harg8 arg9 harg9 arg10 harg10 arg11 harg11) K } := by
  refine ⟨?_, ?_, fun E K => ?run⟩
  case run =>
    have hnf : (i 2).val ≠ 0 := by omega
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i hnf | sl_exact last_pos i h)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; iexact HS0

end Cert.KernelIdeal.Layer2

end
-- ==== Proof.Layer2Data.lean ====
/-
  Layer 2's region: what each staging buffer and the accumulator hold, point by point.

  The region walks its 96 grid points (four row blocks by six column blocks by four reduction steps, the reduction
  axis innermost). At a point the two matrix windows and the five parameter windows hold the blocks of their arrays
  that the point's index selects, read off the arrays as the region finds them. The accumulator is CARRIED across
  the four steps of a reduction: cleared and filled at the first, added to at the two between, added to and read
  out at the last; so its contents after each point are defined by recursion on the point's position, each step
  over what the step before left, and the region's invariant names them. The output window's buffer is written
  only at a last step, by a store that covers the whole block; at the other points the window is idle, its buffer
  handed back untouched and not written back.
-/
import proofs.«158226_j28930899706073_2_alg».proof.Proof.Layer2Body
import proofs.«158226_j28930899706073_2_alg».proof.Proof.Gen.KernelIdeal.Regions
import Idealize.ShloMosaic.Lib.Pipeline.FrameBody
import Idealize.ShloMosaic.Lib.Ring
import Idealize.ShloMosaic.Lib.Writes

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every core's unscoped buffers when the region is entered
variable (W : Dev nD → Valuation τ sig (Elt F))

/-- An array's contents when the region is entered. -/
abbrev Vin (c : Dev nD) (b : Ref sig .tc) : Buf (Elt F) ((c : Thread nD τ).loc b) := W c (Proc.devRef .tc b)

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vin W c (Pipeline.arrRef spec1 w))

/-- Each window's current staging memref at point t, and its wholeness. -/
abbrev ms0 (t : Fin cfg1.N) : Memref sig .tc .vmem S1024x1536 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1536 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x1024 .bf16 := win1_7.stage (cfg1.slots t 7)
abbrev hs7 (t : Fin cfg1.N) : (ms7 t).IsWhole := hstage1_7 ((cfg1.slots t 7).cast nbuf1_7)
/-- The accumulator: a whole scoped buffer of the kernel's own, and the view its contents are stated through. -/
abbrev scM : Memref sig .tc .vmem S1024x1024 .f32 := Memref.whole cc1_scratch0
abbrev VS : View sig .tc .vmem S1024x1024 .f32 := (scM : Memref sig .tc .vmem S1024x1024 .f32).view
/-- One staging buffer of the output window, through which its contents are stated. -/
abbrev VO7 : View sig .tc .vmem S1024x1024 .bf16 := (Memref.whole cc1_stg7_0 : Memref sig .tc .vmem S1024x1024 .bf16).view

/-! ## The reduction step of a point -/

/-- The grid is walked with the reduction axis innermost: point t is at reduction step t mod 4. -/
theorem axis2_mod : ∀ t : Fin cfg1.N, ((grid1.coords t) 2).val = t.val % 4 :=
  (by decide +kernel : ∀ t : Fin grid1.N, ((grid1.coords t) 2).val = t.val % 4)

/-- The output window is idle, and its block not written back, at every point but a last reduction step, -/
theorem idle7 : ∀ t : Fin cfg1.N, ¬t.val % 4 = 3 → cfg1.idle 7 (grid1.coords t) = true := by decide +kernel
theorem noFlush7 (t : Fin cfg1.N) (h : ¬t.val % 4 = 3) : (cfg1.win 7).flush t = false :=
  Bool.eq_false_iff.mpr fun hf => h ((flush1_7 t).mp hf)
/-- where it is live. -/
theorem live7 : ∀ t : Fin cfg1.N, t.val % 4 = 3 → cfg1.idle 7 (grid1.coords t) = false := by decide +kernel
/-- No input window is ever idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel

/-! ## The body's three runs at a point -/

/-- At a first reduction step: on the point's staging memrefs, the inputs at their blocks. -/
abbrev runFirst (c : Dev nD) (t : Fin cfg1.N) (h0 : t.val % 4 = 0) :=
  bodyRunFirst (F := F) c (grid1.coords t) ((axis2_mod t).trans h0) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t)
/-- At a step between: the same, the accumulator found at xs. -/
abbrev runMiddle (c : Dev nD) (t : Fin cfg1.N) (h0 : ¬t.val % 4 = 0) (h3 : ¬t.val % 4 = 3) (xs : Vec F S1024x1024 .f32) :=
  bodyRunMiddle (F := F) c (grid1.coords t) (fun h => h0 ((axis2_mod t).symm.trans h)) (fun h => h3 ((axis2_mod t).symm.trans h)) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs
/-- At a last step: the same. -/
abbrev runLast (c : Dev nD) (t : Fin cfg1.N) (h3 : t.val % 4 = 3) (xs : Vec F S1024x1024 .f32) :=
  bodyRunLast (F := F) c (grid1.coords t) ((axis2_mod t).trans h3) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs

/-- Each run's stores into the accumulator cover it, so what they leave there does not depend on what it held: -/
theorem coverFirst (c : Dev nD) (t : Fin cfg1.N) (h0 : t.val % 4 = 0) (y : S1024x1024.Idx) :
    ∃ pc ∈ (runFirst W c t h0).1, y ∈ pc.1.set :=
  View.cover_of_tiledL (runFirst W c t h0).1 S1024x1024.size (by sl_kernel_rfl) y
theorem coverMiddle (c : Dev nD) (t : Fin cfg1.N) (h0 : ¬t.val % 4 = 0) (h3 : ¬t.val % 4 = 3) (xs : Vec F S1024x1024 .f32) (y : S1024x1024.Idx) :
    ∃ pc ∈ (runMiddle W c t h0 h3 xs).1, y ∈ pc.1.set :=
  View.cover_of_tiledL (runMiddle W c t h0 h3 xs).1 S1024x1024.size (by sl_kernel_rfl) y
theorem coverAccLast (c : Dev nD) (t : Fin cfg1.N) (h3 : t.val % 4 = 3) (xs : Vec F S1024x1024 .f32) (y : S1024x1024.Idx) :
    ∃ pc ∈ (runLast W c t h3 xs).2.1, y ∈ pc.1.set :=
  View.cover_of_tiledL (runLast W c t h3 xs).2.1 S1024x1024.size (by sl_kernel_rfl) y
/-- and the last step's store into the output block covers the block. -/
theorem coverOutLast (c : Dev nD) (t : Fin cfg1.N) (h3 : t.val % 4 = 3) (xs : Vec F S1024x1024 .f32) (y : S1024x1024.Idx) :
    ∃ pc ∈ (runLast W c t h3 xs).1, y ∈ pc.1.set :=
  View.cover_of_tiledL (runLast W c t h3 xs).1 S1024x1024.size (by sl_kernel_rfl) y

/-- What each run leaves in the accumulator: its pieces read back. -/
def accFirst (c : Dev nD) (t : Fin cfg1.N) (h0 : t.val % 4 = 0) : Vec F S1024x1024 .f32 :=
  VS.read (Elt F) (VS.writes (Elt F) VS.junk (runFirst W c t h0).1)
def accMiddle (c : Dev nD) (t : Fin cfg1.N) (h0 : ¬t.val % 4 = 0) (h3 : ¬t.val % 4 = 3) (xs : Vec F S1024x1024 .f32) : Vec F S1024x1024 .f32 :=
  VS.read (Elt F) (VS.writes (Elt F) VS.junk (runMiddle W c t h0 h3 xs).1)
def accLast (c : Dev nD) (t : Fin cfg1.N) (h3 : t.val % 4 = 3) (xs : Vec F S1024x1024 .f32) : Vec F S1024x1024 .f32 :=
  VS.read (Elt F) (VS.writes (Elt F) VS.junk (runLast W c t h3 xs).2.1)
/-- What the last step leaves in the output block's buffer: its store's pieces read back. -/
def outLast (c : Dev nD) (t : Fin cfg1.N) (h3 : t.val % 4 = 3) (xs : Vec F S1024x1024 .f32) : Vec F S1024x1024 .bf16 :=
  VO7.read (Elt F) (VO7.writes (Elt F) VO7.junk (runLast W c t h3 xs).1)
/-- Before a last step nothing is stored into the output block's buffer; the window is idle there and its buffer
    neither written back nor named: a placeholder. -/
def outIdle : Vec F S1024x1024 .bf16 := VO7.read (Elt F) VO7.junk

/-! ## What the output block's buffer and the accumulator hold after each point -/

/-- THE ACCUMULATION. After the body at position n: at a first reduction step the accumulator holds the reset
    overwritten by the block product; at a later step what the step leaves over what the point before left in
    the accumulator; the output block's buffer is named only at a last step, where the normalised sum is stored. -/
def outsAt (c : Dev nD) : (n : ℕ) → n < cfg1.N → Vec F S1024x1024 .bf16 × Vec F S1024x1024 .f32
  | 0, hn => (outIdle, accFirst W c ⟨0, hn⟩ (Nat.zero_mod _))
  | n + 1, hn =>
    if h0 : (n + 1) % 4 = 0 then
      (outIdle, accFirst W c ⟨n + 1, hn⟩ h0)
    else
      if h3 : (n + 1) % 4 = 3 then
        (outLast W c ⟨n + 1, hn⟩ h3 (outsAt c n (Nat.lt_of_succ_lt hn)).2, accLast W c ⟨n + 1, hn⟩ h3 (outsAt c n (Nat.lt_of_succ_lt hn)).2)
      else
        (outIdle, accMiddle W c ⟨n + 1, hn⟩ h0 h3 (outsAt c n (Nat.lt_of_succ_lt hn)).2)

/-- At a first reduction step. -/
theorem outsAt_first (c : Dev nD) (t : Fin cfg1.N) (h0 : t.val % 4 = 0) :
    outsAt W c t.val t.isLt = (outIdle, accFirst W c t h0) := by
  obtain ⟨n, hn⟩ := t
  cases n with
  | zero => exact rfl
  | succ n => exact (dif_pos h0).trans rfl

/-- At a step between: over what the point before left. -/
theorem outsAt_middle (c : Dev nD) (t : Fin cfg1.N) (h0 : ¬t.val % 4 = 0) (h3 : ¬t.val % 4 = 3) :
    outsAt W c t.val t.isLt = (outIdle, accMiddle W c t h0 h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a last step: over what the point before left. -/
theorem outsAt_last (c : Dev nD) (t : Fin cfg1.N) (h0 : ¬t.val % 4 = 0) (h3 : t.val % 4 = 3) :
    outsAt W c t.val t.isLt = (outLast W c t h3 (outsAt W c (t.val - 1) (Nat.lt_of_le_of_lt (Nat.sub_le _ _) t.isLt)).2, accLast W c t h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The region's invariant -/

/-- Before position n: before the first point the scoped buffers the windows do not stage, at some contents; after
    a point, the accumulator at what that point left in it beside the others at some contents. -/
def PhiS (c : Dev nD) : (n : ℕ) → n ≤ cfg1.N → sProp 𝕄
  | 0, _ => Pipeline.scopedRest spec1 c
  | n + 1, hn => iprop(owns (c : Thread nD τ) scM fullShare (outsAt W c n hn).2
      ∗ Pipeline.scopedRestBut (Ix := Unit) (Name := ℕ) (U := UR sig nD τ) (Lvl := ℕ) (Val := Elt F) spec1 c [cc1_scratch0])

theorem PhiS_zero (c : Dev nD) (n : ℕ) (h : n ≤ cfg1.N) (hz : n = 0) : PhiS W c n h = Pipeline.scopedRest spec1 c := by
  subst hz; rfl

/-- After point n (before point n + 1): the accumulator at that point's contents. -/
theorem PhiS_succ (c : Dev nD) (n : ℕ) (hn : n < cfg1.N) :
    PhiS W c (n + 1) hn = iprop(owns (c : Thread nD τ) scM fullShare (outsAt W c n hn).2
      ∗ Pipeline.scopedRestBut (Ix := Unit) (Name := ℕ) (U := UR sig nD τ) (Lvl := ℕ) (Val := Elt F) spec1 c [cc1_scratch0]) := rfl

/-- Before a point that is not the first: the accumulator at what the point before left. -/
theorem PhiS_pos (c : Dev nD) (n : ℕ) (h : n ≤ cfg1.N) (hz : n ≠ 0) :
    PhiS W c n h = iprop(owns (c : Thread nD τ) scM fullShare (outsAt W c (n - 1) (by omega)).2
      ∗ Pipeline.scopedRestBut (Ix := Unit) (Name := ℕ) (U := UR sig nD τ) (Lvl := ℕ) (Val := Elt F) spec1 c [cc1_scratch0]) := by
  cases n with
  | zero => exact absurd rfl hz
  | succ n => rfl

/-- The scoped buffers the windows do not stage, opened at the accumulator: it at some contents, beside the others. -/
theorem Phi_eq (c : Dev nD) :
    (Pipeline.scopedRest (Ix := Unit) (Name := ℕ) (U := UR sig nD τ) (Lvl := ℕ) (Val := Elt F) spec1 c : sProp 𝕄)
      = iprop((∃ d, owns (c : Thread nD τ) scM fullShare d)
          ∗ Pipeline.scopedRestBut (Ix := Unit) (Name := ℕ) (U := UR sig nD τ) (Lvl := ℕ) (Val := Elt F) spec1 c [cc1_scratch0]) := by
  rw [scopedRest1_split]; simp only [scM, owns_whole]; try rfl

/-! ## The proof data -/

/-- The proof data of the region on core c: the arrays as the region finds them; after the body at point t each
    input's buffer at its block and the output's at the accumulation's first component; the invariant above;
    nothing owed; full shares. -/
def dat (c : Dev nD) : Dat τ (Elt F) Unit ℕ (UR sig nD τ) ℕ cfg1 c where
  A w := Vin W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
  Φ t := PhiS W c t.val (Nat.le_of_lt_succ t.isLt)
  q _ := fullShare
  owed _ := 0

theorem A_eq (c : Dev nD) (w : Fin cfg1.W) : (dat W c).A w = Vin W c (Pipeline.arrRef spec1 w) := by
  dsimp only [dat]

/-- The invariant at a point's start, restated at the point's position. -/
theorem PhiS_castSucc (c : Dev nD) (t : Fin cfg1.N) :
    (dat W c).Φ t.castSucc = PhiS W c t.val (Nat.le_of_lt t.isLt) := by
  dsimp only [dat]; simp only [Fin.coe_castSucc]

theorem after0 (c : Dev nD) (t : Fin cfg1.N) : (dat W c).after 0 t = iblk W c 0 t := by dsimp only [dat]
theorem after1 (c : Dev nD) (t : Fin cfg1.N) : (dat W c).after 1 t = iblk W c 1 t := by dsimp only [dat]
theorem after2 (c : Dev nD) (t : Fin cfg1.N) : (dat W c).after 2 t = iblk W c 2 t := by dsimp only [dat]
theorem after3 (c : Dev nD) (t : Fin cfg1.N) : (dat W c).after 3 t = iblk W c 3 t := by dsimp only [dat]
theorem after4 (c : Dev nD) (t : Fin cfg1.N) : (dat W c).after 4 t = iblk W c 4 t := by dsimp only [dat]
theorem after5 (c : Dev nD) (t : Fin cfg1.N) : (dat W c).after 5 t = iblk W c 5 t := by dsimp only [dat]
theorem after6 (c : Dev nD) (t : Fin cfg1.N) : (dat W c).after 6 t = iblk W c 6 t := by dsimp only [dat]
theorem after7 (c : Dev nD) (t : Fin cfg1.N) : (dat W c).after 7 t = (outsAt W c t.val t.isLt).1 := by dsimp only [dat]

/-- Each input's current staging buffer holds its block at every point, fetched there or not. -/
theorem before0 (c : Dev nD) (t : Fin cfg1.N) (d) : (dat W c).before 0 t d = iblk W c 0 t :=
  ((dat W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat W c).before 1 t d = iblk W c 1 t :=
  ((dat W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat W c).before 2 t d = iblk W c 2 t :=
  ((dat W c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg1.N) (d) : (dat W c).before 3 t d = iblk W c 3 t :=
  ((dat W c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg1.N) (d) : (dat W c).before 4 t d = iblk W c 4 t :=
  ((dat W c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg1.N) (d) : (dat W c).before 5 t d = iblk W c 5 t :=
  ((dat W c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg1.N) (d) : (dat W c).before 6 t d = iblk W c 6 t :=
  ((dat W c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d)))

/-- and what it returns. -/
def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t)

set_option maxHeartbeats 4800000 in
/-- The body at any point: the inputs' memrefs hold their blocks; the point's position says which reduction step
    it is at, hence which run applies; the invariant hands the body the accumulator at what the point before left
    (at anything before the first point) and takes it back at this point's contents, the stores covering it; the
    output block's buffer goes back untouched except at a last step, where it holds what the store wrote. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1, before2, before3, before4, before5, before6]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live0 t], after0]
  rw [show (dat W c).leavesExact 1 t = owns (c : Thread nD τ) (ms1 t) fullShare ((dat W c).after 1 t) from by
    unfold Dat.leavesExact; rw [live1 t], after1]
  rw [show (dat W c).leavesExact 2 t = owns (c : Thread nD τ) (ms2 t) fullShare ((dat W c).after 2 t) from by
    unfold Dat.leavesExact; rw [live2 t], after2]
  rw [show (dat W c).leavesExact 3 t = owns (c : Thread nD τ) (ms3 t) fullShare ((dat W c).after 3 t) from by
    unfold Dat.leavesExact; rw [live3 t], after3]
  rw [show (dat W c).leavesExact 4 t = owns (c : Thread nD τ) (ms4 t) fullShare ((dat W c).after 4 t) from by
    unfold Dat.leavesExact; rw [live4 t], after4]
  rw [show (dat W c).leavesExact 5 t = owns (c : Thread nD τ) (ms5 t) fullShare ((dat W c).after 5 t) from by
    unfold Dat.leavesExact; rw [live5 t], after5]
  rw [show (dat W c).leavesExact 6 t = owns (c : Thread nD τ) (ms6 t) fullShare ((dat W c).after 6 t) from by
    unfold Dat.leavesExact; rw [live6 t], after6]
  have hN : t.val < 96 := lt_of_lt_of_eq t.isLt (show cfg1.N = 96 from N_1)
  by_cases h0 : t.val % 4 = 0
  · have h3 : ¬t.val % 4 = 3 := by omega
    rw [Dat.leavesExact_idle (dat W c) 7 t (idle7 t h3) (noFlush7 t h3)]
    rw [outsAt_first W c t h0]
    unfold accFirst; (try dsimp only)
    by_cases hz : t.val = 0
    · rw [PhiS_castSucc W c t, PhiS_zero W c _ _ hz, Phi_eq]
      iintro ⟨⟨⟨%ds, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · by_cases h3 : t.val % 4 = 3
    · rw [show (dat W c).leavesExact 7 t = owns (c : Thread nD τ) (ms7 t) fullShare ((dat W c).after 7 t) from by
        unfold Dat.leavesExact; rw [live7 t h3], after7]
      rw [outsAt_last W c t h0 h3]
      unfold outLast accLast; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast W c t h3 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest]
      · isplitl [HS]
        · unfold owns; iexists _; isplitr
          swap; · iexact HS
          ipureintro; exact View.read_writes_of_cover _ _ _ _ _ (coverAccLast W c t h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverOutLast W c t h3 _)
    · rw [Dat.leavesExact_idle (dat W c) 7 t (idle7 t h3) (noFlush7 t h3)]
      rw [outsAt_middle W c t h0 h3]
      unfold accMiddle; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle W c t h0 h3 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverMiddle W c t h0 h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) W c) (defs₀ (F := F)) Variants.none () Set.univ := fun t => by
  rw [bigSep_W1, bigSep_W1]
  exact sound_body W c t

end Cert.KernelIdeal.Layer2

end
-- ==== Proof.Layer2Region.lean ====
/-
  Layer 2's region, as one segment of the program.

  Entered from any state of the core's unscoped buffers: the region takes the eight arrays its windows stage (the
  bf16 activations, the binarized weights, the five parameter rows, and the output array) out of them, leaves the
  others aside untouched, and runs its 96 points. Its invariant names what the accumulator holds between points and
  forgets it at the end; the region keeps no semaphore of its own. When it returns, the seven input arrays hold
  what they held at entry (a window that is only fetched never writes its array), the output array holds what the
  24 write-backs made of it, and the core's unscoped buffers are again held whole: at the entry contents, with the
  output array replaced by that final array.
-/
import proofs.«158226_j28930899706073_2_alg».proof.Proof.Layer2Data
import proofs.«158226_j28930899706073_2_alg».proof.Proof.RegionFamily

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Regions (fam DataOf Lv0 lv0 Rest)

variable {F : FTy → Type} [FloatOps F]

local notation "𝕄" => MT nD τ sig Unit (Elt F) ℕ (UR sig nD τ) ℕ

variable (W : Dev nD → Valuation τ sig (Elt F))
variable (d0 : DataOf (F := F) cfg0) (d2 : DataOf (F := F) cfg2) (d3 : DataOf (F := F) cfg3)

/-- The family with this region's data in its place, the other three arbitrary. -/
abbrev pd : (p : Fin 4) → (c : Dev nD) → Dat τ (Elt F) Unit ℕ (UR sig nD τ) ℕ (cfgs p) c := fam d0 (dat W) d2 d3

/-- The output array after the region: what the write-backs made of it. -/
abbrev finalOut (c : Dev nD) : Buf (Elt F) ((cfg1.win 7).arr.view.loc (c : Thread nD τ)) := (dat W c).arrAt 7 cfg1.N

/-- The unscoped buffers after the region: as at entry, the output array replaced by its final contents. -/
abbrev Vout (c : Dev nD) : Valuation τ sig (Elt F) := Function.update (W c) (Proc.devRef .tc main_v18) (finalOut W c)

/-- Any other array is as at entry. -/
theorem Vout_of (c : Dev nD) (b : Ref sig .tc) (h : b ≠ main_v18) : Vout W c (Proc.devRef .tc b) = W c (Proc.devRef .tc b) := by
  simp only [Vout, Function.update_of_ne (StableHlo.devRef_ne_of_ne h : (Proc.devRef .tc b : DevRef τ sig) ≠ Proc.devRef .tc main_v18)]

/-- Every window's array after the region, read in the valuation the next item starts from: an input's array is as at
    entry, which the update of the output array does not touch; the output array is the update. -/
theorem final_eq (c : Dev nD) (w : Fin cfg1.W) :
    (dat W c).arrAt w cfg1.N = Vout W c (Proc.devRef .tc (Pipeline.arrRef spec1 w)) := by
  have hin : ∀ w : Fin cfg1.W, (cfg1.win w).isOut = false → Pipeline.arrRef spec1 w ≠ main_v18 →
      (dat W c).arrAt w cfg1.N = Vout W c (Proc.devRef .tc (Pipeline.arrRef spec1 w)) := fun w hw hne =>
    ((dat W c).arrAt_in w hw _).trans ((A_eq W c w).trans (Vout_of W c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show finalOut W c = Function.update (W c) (Proc.devRef .tc main_v18) (finalOut W c) (Proc.devRef .tc main_v18)
    rw [Function.update_self]

/-- What the launch hands the region is the invariant before the first point. -/
theorem Phi_first (c : Dev nD) : (Pipeline.scopedRest spec1 c : sProp 𝕄) ⊢ (dat W c).Φ 0 := by
  rw [show (dat W c).Φ 0 = PhiS W c 0 (Nat.zero_le _) from rfl, PhiS_zero W c 0 _ rfl]
  try exact Idealize.SL.BI.Entails.refl _

/-- After any point the invariant gives the scoped buffers back: the accumulator's named contents are forgotten. -/
theorem Phi_out (c : Dev nD) (t : Fin (cfg1.N + 1)) (ht : t.val ≠ 0) : (dat W c).Φ t ⊢ (Pipeline.scopedRest spec1 c : sProp 𝕄) := by
  rw [show (dat W c).Φ t = PhiS W c t.val (Nat.le_of_lt_succ t.isLt) from rfl, PhiS_pos W c _ _ ht, Phi_eq]
  iintro ⟨HS, Hrest⟩
  isplitl [HS]
  · iexists _; iexact HS
  iexact Hrest

/-- The same after the last point. -/
theorem Phi_last (c : Dev nD) : (dat W c).Φ (Fin.last cfg1.N) ⊢ (Pipeline.scopedRest spec1 c : sProp 𝕄) :=
  Phi_out W c _ (by rw [Fin.val_last]; have : cfg1.N = 96 := N_1; omega)

-- an entailment stated over `cfgs p` at the pinned configuration unifies only when unification may unfold plain
-- definitions in a metavariable's type
set_option backward.isDefEq.respectTransparency.types false in
/-- The region as a segment: entered from the unscoped buffers at the contents W, left with them at those contents
    but the output array at `finalOut`. -/
def region :
    Pipeline.RegionSeg (pcfgs (F := F)) Gen.adm (pd W d0 d2 d3) () defs₀ Variants.none Lv0 lv0 1 where
  win := launch1.win.to₀
  block_pos := launch1.block_pos
  stage_whole := launch1.stage_whole
  K := PEmpty
  osem := fun k => k.elim
  ho := Pipeline.OwnSemFacts.none _
  hbody c := (body_obligation W c).loose
  hwaits := Pipeline.hwaits_of_owed_zero _ _ _ _ Lv0 lv0 1 fun _ _ => rfl
  pre c := iprop(StableHlo.held (c : Thread nD τ) (Pipeline.ucRefs τ sig) (W c) ∗ Rest c)
  post c := iprop(StableHlo.held (c : Thread nD τ) (Pipeline.ucRefs τ sig) (Function.update (W c) (Proc.devRef .tc main_v18) (finalOut W c)) ∗ Rest c)
  X c := iprop(emp)
  Y c := iprop(emp)
  Z c := Pipeline.unscopedRest spec1 c (Vin W c)
  hentry c := by
    rw [show StableHlo.held (c : Thread nD τ) (Pipeline.ucRefs τ sig) (W c) = unscopedBufs c (Vin W c) from (Pipeline.unscopedBufs_held c _).symm]
    have hsplit := Pipeline.arrays_of_unscopedBufs (p := 1) (pcfgs (F := F)) Gen.adm (pd W d0 d2 d3) launch1.win launch1.arr_whole c
      ((pd W d0 d2 d3 1 c).share_full fun _ => rfl) (Vin W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    iexact Hrest
  hin c := by
    rw [show (pd W d0 d2 d3 1 c).Φ 0 = (dat W c).Φ 0 from rfl]
    iintro ⟨-, -, Hr⟩
    iapply (Phi_first W c)
    iexact Hr
  hout c := by
    rw [show (pd W d0 d2 d3 1 c).Φ (Fin.last _) = (dat W c).Φ (Fin.last cfg1.N) from rfl, Pipeline.ownSems0_none]
    iintro Hr
    isplitr; · iempintro
    isplitr; · iempintro
    iapply (Phi_last W c)
    iexact Hr
  hexit c := by
    rw [show StableHlo.held (c : Thread nD τ) (Pipeline.ucRefs τ sig) (Function.update (W c) (Proc.devRef .tc main_v18) (finalOut W c))
        = unscopedBufs c (fun b => Vout W c (Proc.devRef .tc b)) from (Pipeline.unscopedBufs_held c _).symm,
      Pipeline.unscopedBufs_split (Pipeline.pin (pcfgs (F := F)) Gen.adm) 1 launch1.win.arr_unscoped launch1.win.arr_inj c _,
      Pipeline.arrays_eq (Pipeline.pin (pcfgs (F := F)) Gen.adm) (pd W d0 d2 d3) 1 c launch1.arr_whole ((pd W d0 d2 d3 1 c).share_full fun _ => rfl)]
    have harr : (bigSep Finset.univ fun w : Fin cfg1.W => (((c : Thread nD τ).loc (Pipeline.arrRef spec1 w)) ↦{fullShare} (dat W c).arrAt w cfg1.N : sProp 𝕄))
        = bigSep Finset.univ fun w : Fin cfg1.W => (((c : Thread nD τ).loc (Pipeline.arrRef spec1 w)) ↦{fullShare} Vout W c (Proc.devRef .tc (Pipeline.arrRef spec1 w)) : sProp 𝕄) :=
      bigSep_congr fun w _ => by rw [final_eq W c w]
    have hrest : (Pipeline.unscopedRest spec1 c (fun b => Vout W c (Proc.devRef .tc b)) : sProp 𝕄) = Pipeline.unscopedRest spec1 c (Vin W c) := by
      unfold Pipeline.unscopedRest
      exact bigSep_congr fun b hb => by
        have hb' : b ≠ main_v18 := fun h => (Finset.mem_sdiff.mp hb).2
          (Finset.mem_image.mpr ⟨7, Finset.mem_univ _, h.symm⟩)
        dsimp only
        rw [Vout_of W c b hb']
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%W', -, HO⟩; iexists W'; iexact HO

end Cert.KernelIdeal.Layer2

end
-- ==== Proof.Layer3Body.lean ====
/-
  Layer 3's kernel body at one grid point.

  Layer 3 contracts its 6144 input features in four blocks of 1536, so its reduction axis has four steps. At the
  first the accumulator is cleared before the block product is added to it; at the last the accumulated sum is
  batch-normalised, clamped to [-1, 1] and written to the output block; at the two steps between, the block product
  is only added. Three runs of the body, one per case, each from the two matrix blocks and the five parameter rows
  staged whole: each leaves the seven inputs as they were and names, as the pieces its stores wrote, what it leaves
  in the accumulator (and, at the last step, in the output block's buffer; before that the output block's buffer is
  handed back untouched). Stated for any float values, so that it serves the word-level reading and the
  extended-real one alike.
-/
import proofs.«158226_j28930899706073_2_alg».proof.Proof.Gen.KernelIdeal.Skeleton
import proofs.«158226_j28930899706073_2_alg».proof.Proof.Gen.KernelIdeal.Launch
import proofs.«158226_j28930899706073_2_alg».proof.Proof.Gen.KernelIdeal.Points
import Idealize.ShloMosaic.Lib.Tactic
import Idealize.ShloMosaic.Lib.Pipeline.Kit
import Idealize.ShloMosaic.Lib.Pipeline.Frame

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction axis has four steps. -/
theorem axis2_cases (i : grid2.Coords) : (i 2).val = 0 ∨ (i 2).val = 1 ∨ (i 2).val = 2 ∨ (i 2).val = 3 := by
  have hlt : (i 2).val < 4 := (i 2).isLt
  omega

/-- The accumulator is reset exactly at the first step of the reduction, -/
theorem first_iff (i : grid2.Coords) :
    Scalar.cmpi .ne (Scalar.extui (Scalar.cmpi .eq (BitVec.ofNat 32 (i 2).val) 0#32)) 0#32 = 1#1 ↔ (i 2).val = 0 := by
  rcases axis2_cases i with h | h | h | h <;> rw [h] <;> decide

/-- and the block is normalised and written out exactly at the last. -/
theorem last_iff (i : grid2.Coords) : k2_cond2 i = 1#1 ↔ (i 2).val = 3 := by
  unfold k2_cond2
  rcases axis2_cases i with h | h | h | h <;> rw [h] <;> decide

theorem first_pos (i : grid2.Coords) (h : (i 2).val = 0) :
    Scalar.cmpi .ne (Scalar.extui (Scalar.cmpi .eq (BitVec.ofNat 32 (i 2).val) 0#32)) 0#32 = 1#1 := (first_iff i).2 h

theorem first_neg (i : grid2.Coords) (h : (i 2).val ≠ 0) :
    ¬ Scalar.cmpi .ne (Scalar.extui (Scalar.cmpi .eq (BitVec.ofNat 32 (i 2).val) 0#32)) 0#32 = 1#1 := fun hc => h ((first_iff i).1 hc)

theorem last_pos (i : grid2.Coords) (h : (i 2).val = 3) : k2_cond2 i = 1#1 := (last_iff i).2 h

theorem last_neg (i : grid2.Coords) (h : (i 2).val ≠ 3) : ¬ k2_cond2 i = 1#1 := fun hc => h ((last_iff i).1 hc)

set_option maxHeartbeats 4000000 in
/-- At a point that is the first step of its reduction but not the last, from the seven input blocks staged whole,
    the output block's buffer at any known contents and the accumulator at anything: the body runs to its return
    leaving the inputs and the output block's buffer as they were and, in the accumulator, the pieces its two
    stores wrote (the reset, then the block product added to it). -/
noncomputable def bodyRunFirst (c : Dev nD) (i : grid2.Coords) (h : (i 2).val = 0)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ (∃ d, owns (c : Thread nD τ) arg11 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc2__layer_kernel i arg3 harg3 arg4 harg4 arg5 harg5 arg6 harg6 arg7 harg7 arg8 harg8 arg9 harg9 arg10 harg10 arg11 harg11) K } := by
  refine ⟨?_, fun d7 E K => ?run⟩
  case run =>
    have hnl : (i 2).val ≠ 3 := by omega
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | sl_exact first_pos i h | sl_exact last_neg i hnl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is neither the first step of its reduction nor the last, from the seven input blocks staged
    whole, the output block's buffer at any known contents and the accumulator at known contents: the body runs to
    its return leaving the inputs and the output block's buffer as they were and, in the accumulator, the piece its
    one store wrote (the block product added to what the accumulator held). -/
noncomputable def bodyRunMiddle (c : Dev nD) (i : grid2.Coords) (h0 : (i 2).val ≠ 0) (h3 : (i 2).val ≠ 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc2__layer_kernel i arg3 harg3 arg4 harg4 arg5 harg5 arg6 harg6 arg7 harg7 arg8 harg8 arg9 harg9 arg10 harg10 arg11 harg11) K } := by
  refine ⟨?_, fun d7 E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i h0 | sl_exact last_neg i h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is the last step of its reduction but not the first, from the seven input blocks staged whole,
    the accumulator at known contents and the output block's buffer at anything: the body runs to its return
    leaving the inputs as they were and, in the accumulator and in the output block's buffer, the pieces its
    stores wrote (the block product added to what the accumulator held; the normalised sum's image). -/
noncomputable def bodyRunLast (c : Dev nD) (i : grid2.Coords) (h : (i 2).val = 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    Σ' (L7 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ (∃ d, owns (c : Thread nD τ) arg10 fullShare d) ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)) -∗ K ⟨⟩))
          ⊢ wp frame (wpE (defs₀ (F := F)) Variants.none c none) E
              (cc2__layer_kernel i arg3 harg3 arg4 harg4 arg5 harg5 arg6 harg6 arg7 harg7 arg8 harg8 arg9 harg9 arg10 harg10 arg11 harg11) K } := by
  refine ⟨?_, ?_, fun E K => ?run⟩
  case run =>
    have hnf : (i 2).val ≠ 0 := by omega
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i hnf | sl_exact last_pos i h)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; iexact HS0

end Cert.KernelIdeal.Layer3

end
-- ==== Proof.Layer3Data.lean ====
/-
  Layer 3's region: what each staging buffer and the accumulator hold, point by point.

  The region walks its 96 grid points (four row blocks by six column blocks by four reduction steps, the reduction
  axis innermost). At a point the two matrix windows and the five parameter windows hold the blocks of their arrays
  that the point's index selects, read off the arrays as the region finds them. The accumulator is CARRIED across
  the four steps of a reduction: cleared and filled at the first, added to at the two between, added to and read
  out at the last; so its contents after each point are defined by recursion on the point's position, each step
  over what the step before left, and the region's invariant names them. The output window's buffer is written
  only at a last step, by a store that covers the whole block; at the other points the window is idle, its buffer
  handed back untouched and not written back.
-/
import proofs.«158226_j28930899706073_2_alg».proof.Proof.Layer3Body
import proofs.«158226_j28930899706073_2_alg».proof.Proof.Gen.KernelIdeal.Regions
import Idealize.ShloMosaic.Lib.Pipeline.FrameBody
import Idealize.ShloMosaic.Lib.Ring
import Idealize.ShloMosaic.Lib.Writes

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- every core's unscoped buffers when the region is entered
variable (W : Dev nD → Valuation τ sig (Elt F))

/-- An array's contents when the region is entered. -/
abbrev Vin (c : Dev nD) (b : Ref sig .tc) : Buf (Elt F) ((c : Thread nD τ).loc b) := W c (Proc.devRef .tc b)

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (Vin W c (Pipeline.arrRef spec2 w))

/-- Each window's current staging memref at point t, and its wholeness. -/
abbrev ms0 (t : Fin cfg2.N) : Memref sig .tc .vmem S1024x1536 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1536 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1024 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x1024 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1024x1024 .bf16 := win2_7.stage (cfg2.slots t 7)
abbrev hs7 (t : Fin cfg2.N) : (ms7 t).IsWhole := hstage2_7 ((cfg2.slots t 7).cast nbuf2_7)
/-- The accumulator: a whole scoped buffer of the kernel's own, and the view its contents are stated through. -/
abbrev scM : Memref sig .tc .vmem S1024x1024 .f32 := Memref.whole cc2_scratch0
abbrev VS : View sig .tc .vmem S1024x1024 .f32 := (scM : Memref sig .tc .vmem S1024x1024 .f32).view
/-- One staging buffer of the output window, through which its contents are stated. -/
abbrev VO7 : View sig .tc .vmem S1024x1024 .bf16 := (Memref.whole cc2_stg7_0 : Memref sig .tc .vmem S1024x1024 .bf16).view

/-! ## The reduction step of a point -/

/-- The grid is walked with the reduction axis innermost: point t is at reduction step t mod 4. -/
theorem axis2_mod : ∀ t : Fin cfg2.N, ((grid2.coords t) 2).val = t.val % 4 :=
  (by decide +kernel : ∀ t : Fin grid2.N, ((grid2.coords t) 2).val = t.val % 4)

/-- The output window is idle, and its block not written back, at every point but a last reduction step, -/
theorem idle7 : ∀ t : Fin cfg2.N, ¬t.val % 4 = 3 → cfg2.idle 7 (grid2.coords t) = true := by decide +kernel
theorem noFlush7 (t : Fin cfg2.N) (h : ¬t.val % 4 = 3) : (cfg2.win 7).flush t = false :=
  Bool.eq_false_iff.mpr fun hf => h ((flush2_7 t).mp hf)
/-- where it is live. -/
theorem live7 : ∀ t : Fin cfg2.N, t.val % 4 = 3 → cfg2.idle 7 (grid2.coords t) = false := by decide +kernel
/-- No input window is ever idle. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
theorem live5 : ∀ t : Fin cfg2.N, cfg2.idle 5 (grid2.coords t) = false := by decide +kernel
theorem live6 : ∀ t : Fin cfg2.N, cfg2.idle 6 (grid2.coords t) = false := by decide +kernel

/-! ## The body's three runs at a point -/

/-- At a first reduction step: on the point's staging memrefs, the inputs at their blocks. -/
abbrev runFirst (c : Dev nD) (t : Fin cfg2.N) (h0 : t.val % 4 = 0) :=
  bodyRunFirst (F := F) c (grid2.coords t) ((axis2_mod t).trans h0) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t)
/-- At a step between: the same, the accumulator found at xs. -/
abbrev runMiddle (c : Dev nD) (t : Fin cfg2.N) (h0 : ¬t.val % 4 = 0) (h3 : ¬t.val % 4 = 3) (xs : Vec F S1024x1024 .f32) :=
  bodyRunMiddle (F := F) c (grid2.coords t) (fun h => h0 ((axis2_mod t).symm.trans h)) (fun h => h3 ((axis2_mod t).symm.trans h)) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs
/-- At a last step: the same. -/
abbrev runLast (c : Dev nD) (t : Fin cfg2.N) (h3 : t.val % 4 = 3) (xs : Vec F S1024x1024 .f32) :=
  bodyRunLast (F := F) c (grid2.coords t) ((axis2_mod t).trans h3) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs

/-- Each run's stores into the accumulator cover it, so what they leave there does not depend on what it held: -/
theorem coverFirst (c : Dev nD) (t : Fin cfg2.N) (h0 : t.val % 4 = 0) (y : S1024x1024.Idx) :
    ∃ pc ∈ (runFirst W c t h0).1, y ∈ pc.1.set :=
  View.cover_of_tiledL (runFirst W c t h0).1 S1024x1024.size (by sl_kernel_rfl) y
theorem coverMiddle (c : Dev nD) (t : Fin cfg2.N) (h0 : ¬t.val % 4 = 0) (h3 : ¬t.val % 4 = 3) (xs : Vec F S1024x1024 .f32) (y : S1024x1024.Idx) :
    ∃ pc ∈ (runMiddle W c t h0 h3 xs).1, y ∈ pc.1.set :=
  View.cover_of_tiledL (runMiddle W c t h0 h3 xs).1 S1024x1024.size (by sl_kernel_rfl) y
theorem coverAccLast (c : Dev nD) (t : Fin cfg2.N) (h3 : t.val % 4 = 3) (xs : Vec F S1024x1024 .f32) (y : S1024x1024.Idx) :
    ∃ pc ∈ (runLast W c t h3 xs).2.1, y ∈ pc.1.set :=
  View.cover_of_tiledL (runLast W c t h3 xs).2.1 S1024x1024.size (by sl_kernel_rfl) y
/-- and the last step's store into the output block covers the block. -/
theorem coverOutLast (c : Dev nD) (t : Fin cfg2.N) (h3 : t.val % 4 = 3) (xs : Vec F S1024x1024 .f32) (y : S1024x1024.Idx) :
    ∃ pc ∈ (runLast W c t h3 xs).1, y ∈ pc.1.set :=
  View.cover_of_tiledL (runLast W c t h3 xs).1 S1024x1024.size (by sl_kernel_rfl) y

/-- What each run leaves in the accumulator: its pieces read back. -/
def accFirst (c : Dev nD) (t : Fin cfg2.N) (h0 : t.val % 4 = 0) : Vec F S1024x1024 .f32 :=
  VS.read (Elt F) (VS.writes (Elt F) VS.junk (runFirst W c t h0).1)
def accMiddle (c : Dev nD) (t : Fin cfg2.N) (h0 : ¬t.val % 4 = 0) (h3 : ¬t.val % 4 = 3) (xs : Vec F S1024x1024 .f32) : Vec F S1024x1024 .f32 :=
  VS.read (Elt F) (VS.writes (Elt F) VS.junk (runMiddle W c t h0 h3 xs).1)
def accLast (c : Dev nD) (t : Fin cfg2.N) (h3 : t.val % 4 = 3) (xs : Vec F S1024x1024 .f32) : Vec F S1024x1024 .f32 :=
  VS.read (Elt F) (VS.writes (Elt F) VS.junk (runLast W c t h3 xs).2.1)
/-- What the last step leaves in the output block's buffer: its store's pieces read back. -/
def outLast (c : Dev nD) (t : Fin cfg2.N) (h3 : t.val % 4 = 3) (xs : Vec F S1024x1024 .f32) : Vec F S1024x1024 .bf16 :=
  VO7.read (Elt F) (VO7.writes (Elt F) VO7.junk (runLast W c t h3 xs).1)
/-- Before a last step nothing is stored into the output block's buffer; the window is idle there and its buffer
    neither written back nor named: a placeholder. -/
def outIdle : Vec F S1024x1024 .bf16 := VO7.read (Elt F) VO7.junk

/-! ## What the output block's buffer and the accumulator hold after each point -/

/-- THE ACCUMULATION. After the body at position n: at a first reduction step the accumulator holds the reset
    overwritten by the block product; at a later step what the step leaves over what the point before left in
    the accumulator; the output block's buffer is named only at a last step, where the normalised sum is stored. -/
def outsAt (c : Dev nD) : (n : ℕ) → n < cfg2.N → Vec F S1024x1024 .bf16 × Vec F S1024x1024 .f32
  | 0, hn => (outIdle, accFirst W c ⟨0, hn⟩ (Nat.zero_mod _))
  | n + 1, hn =>
    if h0 : (n + 1) % 4 = 0 then
      (outIdle, accFirst W c ⟨n + 1, hn⟩ h0)
    else
      if h3 : (n + 1) % 4 = 3 then
        (outLast W c ⟨n + 1, hn⟩ h3 (outsAt c n (Nat.lt_of_succ_lt hn)).2, accLast W c ⟨n + 1, hn⟩ h3 (outsAt c n (Nat.lt_of_succ_lt hn)).2)
      else
        (outIdle, accMiddle W c ⟨n + 1, hn⟩ h0 h3 (outsAt c n (Nat.lt_of_succ_lt hn)).2)

/-- At a first reduction step. -/
theorem outsAt_first (c : Dev nD) (t : Fin cfg2.N) (h0 : t.val % 4 = 0) :
    outsAt W c t.val t.isLt = (outIdle, accFirst W c t h0) := by
  obtain ⟨n, hn⟩ := t
  cases n with
  | zero => exact rfl
  | succ n => exact (dif_pos h0).trans rfl

/-- At a step between: over what the point before left. -/
theorem outsAt_middle (c : Dev nD) (t : Fin cfg2.N) (h0 : ¬t.val % 4 = 0) (h3 : ¬t.val % 4 = 3) :
    outsAt W c t.val t.isLt = (outIdle, accMiddle W c t h0 h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a last step: over what the point before left. -/
theorem outsAt_last (c : Dev nD) (t : Fin cfg2.N) (h0 : ¬t.val % 4 = 0) (h3 : t.val % 4 = 3) :
    outsAt W c t.val t.isLt = (outLast W c t h3 (outsAt W c (t.val - 1) (Nat.lt_of_le_of_lt (Nat.sub_le _ _) t.isLt)).2, accLast W c t h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The region's invariant -/

/-- Before position n: before the first point the scoped buffers the windows do not stage, at some contents; after
    a point, the accumulator at what that point left in it beside the others at some contents. -/
def PhiS (c : Dev nD) : (n : ℕ) → n ≤ cfg2.N → sProp 𝕄
  | 0, _ => Pipeline.scopedRest spec2 c
  | n + 1, hn => iprop(owns (c : Thread nD τ) scM fullShare (outsAt W c n hn).2
      ∗ Pipeline.scopedRestBut (Ix := Unit) (Name := ℕ) (U := UR sig nD τ) (Lvl := ℕ) (Val := Elt F) spec2 c [cc2_scratch0])

theorem PhiS_zero (c : Dev nD) (n : ℕ) (h : n ≤ cfg2.N) (hz : n = 0) : PhiS W c n h = Pipeline.scopedRest spec2 c := by
  subst hz; rfl

/-- After point n (before point n + 1): the accumulator at that point's contents. -/
theorem PhiS_succ (c : Dev nD) (n : ℕ) (hn : n < cfg2.N) :
    PhiS W c (n + 1) hn = iprop(owns (c : Thread nD τ) scM fullShare (outsAt W c n hn).2
      ∗ Pipeline.scopedRestBut (Ix := Unit) (Name := ℕ) (U := UR sig nD τ) (Lvl := ℕ) (Val := Elt F) spec2 c [cc2_scratch0]) := rfl

/-- Before a point that is not the first: the accumulator at what the point before left. -/
theorem PhiS_pos (c : Dev nD) (n : ℕ) (h : n ≤ cfg2.N) (hz : n ≠ 0) :
    PhiS W c n h = iprop(owns (c : Thread nD τ) scM fullShare (outsAt W c (n - 1) (by omega)).2
      ∗ Pipeline.scopedRestBut (Ix := Unit) (Name := ℕ) (U := UR sig nD τ) (Lvl := ℕ) (Val := Elt F) spec2 c [cc2_scratch0]) := by
  cases n with
  | zero => exact absurd rfl hz
  | succ n => rfl

/-- The scoped buffers the windows do not stage, opened at the accumulator: it at some contents, beside the others. -/
theorem Phi_eq (c : Dev nD) :
    (Pipeline.scopedRest (Ix := Unit) (Name := ℕ) (U := UR sig nD τ) (Lvl := ℕ) (Val := Elt F) spec2 c : sProp 𝕄)
      = iprop((∃ d, owns (c : Thread nD τ) scM fullShare d)
          ∗ Pipeline.scopedRestBut (Ix := Unit) (Name := ℕ) (U := UR sig nD τ) (Lvl := ℕ) (Val := Elt F) spec2 c [cc2_scratch0]) := by
  rw [scopedRest2_split]; simp only [scM, owns_whole]; try rfl

/-! ## The proof data -/

/-- The proof data of the region on core c: the arrays as the region finds them; after the body at point t each
    input's buffer at its block and the output's at the accumulation's first component; the invariant above;
    nothing owed; full shares. -/
def dat (c : Dev nD) : Dat τ (Elt F) Unit ℕ (UR sig nD τ) ℕ cfg2 c where
  A w := Vin W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
  Φ t := PhiS W c t.val (Nat.le_of_lt_succ t.isLt)
  q _ := fullShare
  owed _ := 0

theorem A_eq (c : Dev nD) (w : Fin cfg2.W) : (dat W c).A w = Vin W c (Pipeline.arrRef spec2 w) := by
  dsimp only [dat]

/-- The invariant at a point's start, restated at the point's position. -/
theorem PhiS_castSucc (c : Dev nD) (t : Fin cfg2.N) :
    (dat W c).Φ t.castSucc = PhiS W c t.val (Nat.le_of_lt t.isLt) := by
  dsimp only [dat]; simp only [Fin.coe_castSucc]

theorem after0 (c : Dev nD) (t : Fin cfg2.N) : (dat W c).after 0 t = iblk W c 0 t := by dsimp only [dat]
theorem after1 (c : Dev nD) (t : Fin cfg2.N) : (dat W c).after 1 t = iblk W c 1 t := by dsimp only [dat]
theorem after2 (c : Dev nD) (t : Fin cfg2.N) : (dat W c).after 2 t = iblk W c 2 t := by dsimp only [dat]
theorem after3 (c : Dev nD) (t : Fin cfg2.N) : (dat W c).after 3 t = iblk W c 3 t := by dsimp only [dat]
theorem after4 (c : Dev nD) (t : Fin cfg2.N) : (dat W c).after 4 t = iblk W c 4 t := by dsimp only [dat]
theorem after5 (c : Dev nD) (t : Fin cfg2.N) : (dat W c).after 5 t = iblk W c 5 t := by dsimp only [dat]
theorem after6 (c : Dev nD) (t : Fin cfg2.N) : (dat W c).after 6 t = iblk W c 6 t := by dsimp only [dat]
theorem after7 (c : Dev nD) (t : Fin cfg2.N) : (dat W c).after 7 t = (outsAt W c t.val t.isLt).1 := by dsimp only [dat]

/-- Each input's current staging buffer holds its block at every point, fetched there or not. -/
theorem before0 (c : Dev nD) (t : Fin cfg2.N) (d) : (dat W c).before 0 t d = iblk W c 0 t :=
  ((dat W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat W c).before 1 t d = iblk W c 1 t :=
  ((dat W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat W c).before 2 t d = iblk W c 2 t :=
  ((dat W c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg2.N) (d) : (dat W c).before 3 t d = iblk W c 3 t :=
  ((dat W c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg2.N) (d) : (dat W c).before 4 t d = iblk W c 4 t :=
  ((dat W c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg2.N) (d) : (dat W c).before 5 t d = iblk W c 5 t :=
  ((dat W c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg2.N) (d) : (dat W c).before 6 t d = iblk W c 6 t :=
  ((dat W c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg2.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d)))

/-- and what it returns. -/
def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t)

set_option maxHeartbeats 4800000 in
/-- The body at any point: the inputs' memrefs hold their blocks; the point's position says which reduction step
    it is at, hence which run applies; the invariant hands the body the accumulator at what the point before left
    (at anything before the first point) and takes it back at this point's contents, the stores covering it; the
    output block's buffer goes back untouched except at a last step, where it holds what the store wrote. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before0, before1, before2, before3, before4, before5, before6]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live0 t], after0]
  rw [show (dat W c).leavesExact 1 t = owns (c : Thread nD τ) (ms1 t) fullShare ((dat W c).after 1 t) from by
    unfold Dat.leavesExact; rw [live1 t], after1]
  rw [show (dat W c).leavesExact 2 t = owns (c : Thread nD τ) (ms2 t) fullShare ((dat W c).after 2 t) from by
    unfold Dat.leavesExact; rw [live2 t], after2]
  rw [show (dat W c).leavesExact 3 t = owns (c : Thread nD τ) (ms3 t) fullShare ((dat W c).after 3 t) from by
    unfold Dat.leavesExact; rw [live3 t], after3]
  rw [show (dat W c).leavesExact 4 t = owns (c : Thread nD τ) (ms4 t) fullShare ((dat W c).after 4 t) from by
    unfold Dat.leavesExact; rw [live4 t], after4]
  rw [show (dat W c).leavesExact 5 t = owns (c : Thread nD τ) (ms5 t) fullShare ((dat W c).after 5 t) from by
    unfold Dat.leavesExact; rw [live5 t], after5]
  rw [show (dat W c).leavesExact 6 t = owns (c : Thread nD τ) (ms6 t) fullShare ((dat W c).after 6 t) from by
    unfold Dat.leavesExact; rw [live6 t], after6]
  have hN : t.val < 96 := lt_of_lt_of_eq t.isLt (show cfg2.N = 96 from N_2)
  by_cases h0 : t.val % 4 = 0
  · have h3 : ¬t.val % 4 = 3 := by omega
    rw [Dat.leavesExact_idle (dat W c) 7 t (idle7 t h3) (noFlush7 t h3)]
    rw [outsAt_first W c t h0]
    unfold accFirst; (try dsimp only)
    by_cases hz : t.val = 0
    · rw [PhiS_castSucc W c t, PhiS_zero W c _ _ hz, Phi_eq]
      iintro ⟨⟨⟨%ds, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · by_cases h3 : t.val % 4 = 3
    · rw [show (dat W c).leavesExact 7 t = owns (c : Thread nD τ) (ms7 t) fullShare ((dat W c).after 7 t) from by
        unfold Dat.leavesExact; rw [live7 t h3], after7]
      rw [outsAt_last W c t h0 h3]
      unfold outLast accLast; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast W c t h3 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest]
      · isplitl [HS]
        · unfold owns; iexists _; isplitr
          swap; · iexact HS
          ipureintro; exact View.read_writes_of_cover _ _ _ _ _ (coverAccLast W c t h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverOutLast W c t h3 _)
    · rw [Dat.leavesExact_idle (dat W c) 7 t (idle7 t h3) (noFlush7 t h3)]
      rw [outsAt_middle W c t h0 h3]
      unfold accMiddle; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle W c t h0 h3 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverMiddle W c t h0 h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) W c) (defs₀ (F := F)) Variants.none () Set.univ := fun t => by
  rw [bigSep_W2, bigSep_W2]
  exact sound_body W c t

end Cert.KernelIdeal.Layer3

end
-- ==== Proof.Layer3Region.lean ====
/-
  Layer 3's region, as one segment of the program.

  Entered from any state of the core's unscoped buffers: the region takes the eight arrays its windows stage (the
  bf16 activations, the binarized weights, the five parameter rows, and the output array) out of them, leaves the
  others aside untouched, and runs its 96 points. Its invariant names what the accumulator holds between points and
  forgets it at the end; the region keeps no semaphore of its own. When it returns, the seven input arrays hold
  what they held at entry (a window that is only fetched never writes its array), the output array holds what the
  24 write-backs made of it, and the core's unscoped buffers are again held whole: at the entry contents, with the
  output array replaced by that final array.
-/
import proofs.«158226_j28930899706073_2_alg».proof.Proof.Layer3Data
import proofs.«158226_j28930899706073_2_alg».proof.Proof.RegionFamily

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Regions (fam DataOf Lv0 lv0 Rest)

variable {F : FTy → Type} [FloatOps F]

local notation "𝕄" => MT nD τ sig Unit (Elt F) ℕ (UR sig nD τ) ℕ

variable (W : Dev nD → Valuation τ sig (Elt F))
variable (d0 : DataOf (F := F) cfg0) (d1 : DataOf (F := F) cfg1) (d3 : DataOf (F := F) cfg3)

/-- The family with this region's data in its place, the other three arbitrary. -/
abbrev pd : (p : Fin 4) → (c : Dev nD) → Dat τ (Elt F) Unit ℕ (UR sig nD τ) ℕ (cfgs p) c := fam d0 d1 (dat W) d3

/-- The output array after the region: what the write-backs made of it. -/
abbrev finalOut (c : Dev nD) : Buf (Elt F) ((cfg2.win 7).arr.view.loc (c : Thread nD τ)) := (dat W c).arrAt 7 cfg2.N

/-- The unscoped buffers after the region: as at entry, the output array replaced by its final contents. -/
abbrev Vout (c : Dev nD) : Valuation τ sig (Elt F) := Function.update (W c) (Proc.devRef .tc main_v24) (finalOut W c)

/-- Any other array is as at entry. -/
theorem Vout_of (c : Dev nD) (b : Ref sig .tc) (h : b ≠ main_v24) : Vout W c (Proc.devRef .tc b) = W c (Proc.devRef .tc b) := by
  simp only [Vout, Function.update_of_ne (StableHlo.devRef_ne_of_ne h : (Proc.devRef .tc b : DevRef τ sig) ≠ Proc.devRef .tc main_v24)]

/-- Every window's array after the region, read in the valuation the next item starts from: an input's array is as at
    entry, which the update of the output array does not touch; the output array is the update. -/
theorem final_eq (c : Dev nD) (w : Fin cfg2.W) :
    (dat W c).arrAt w cfg2.N = Vout W c (Proc.devRef .tc (Pipeline.arrRef spec2 w)) := by
  have hin : ∀ w : Fin cfg2.W, (cfg2.win w).isOut = false → Pipeline.arrRef spec2 w ≠ main_v24 →
      (dat W c).arrAt w cfg2.N = Vout W c (Proc.devRef .tc (Pipeline.arrRef spec2 w)) := fun w hw hne =>
    ((dat W c).arrAt_in w hw _).trans ((A_eq W c w).trans (Vout_of W c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show finalOut W c = Function.update (W c) (Proc.devRef .tc main_v24) (finalOut W c) (Proc.devRef .tc main_v24)
    rw [Function.update_self]

/-- What the launch hands the region is the invariant before the first point. -/
theorem Phi_first (c : Dev nD) : (Pipeline.scopedRest spec2 c : sProp 𝕄) ⊢ (dat W c).Φ 0 := by
  rw [show (dat W c).Φ 0 = PhiS W c 0 (Nat.zero_le _) from rfl, PhiS_zero W c 0 _ rfl]
  try exact Idealize.SL.BI.Entails.refl _

/-- After any point the invariant gives the scoped buffers back: the accumulator's named contents are forgotten. -/
theorem Phi_out (c : Dev nD) (t : Fin (cfg2.N + 1)) (ht : t.val ≠ 0) : (dat W c).Φ t ⊢ (Pipeline.scopedRest spec2 c : sProp 𝕄) := by
  rw [show (dat W c).Φ t = PhiS W c t.val (Nat.le_of_lt_succ t.isLt) from rfl, PhiS_pos W c _ _ ht, Phi_eq]
  iintro ⟨HS, Hrest⟩
  isplitl [HS]
  · iexists _; iexact HS
  iexact Hrest

/-- The same after the last point. -/
theorem Phi_last (c : Dev nD) : (dat W c).Φ (Fin.last cfg2.N) ⊢ (Pipeline.scopedRest spec2 c : sProp 𝕄) :=
  Phi_out W c _ (by rw [Fin.val_last]; have : cfg2.N = 96 := N_2; omega)

-- an entailment stated over `cfgs p` at the pinned configuration unifies only when unification may unfold plain
-- definitions in a metavariable's type
set_option backward.isDefEq.respectTransparency.types false in
/-- The region as a segment: entered from the unscoped buffers at the contents W, left with them at those contents
    but the output array at `finalOut`. -/
def region :
    Pipeline.RegionSeg (pcfgs (F := F)) Gen.adm (pd W d0 d1 d3) () defs₀ Variants.none Lv0 lv0 2 where
  win := launch2.win.to₀
  block_pos := launch2.block_pos
  stage_whole := launch2.stage_whole
  K := PEmpty
  osem := fun k => k.elim
  ho := Pipeline.OwnSemFacts.none _
  hbody c := (body_obligation W c).loose
  hwaits := Pipeline.hwaits_of_owed_zero _ _ _ _ Lv0 lv0 2 fun _ _ => rfl
  pre c := iprop(StableHlo.held (c : Thread nD τ) (Pipeline.ucRefs τ sig) (W c) ∗ Rest c)
  post c := iprop(StableHlo.held (c : Thread nD τ) (Pipeline.ucRefs τ sig) (Function.update (W c) (Proc.devRef .tc main_v24) (finalOut W c)) ∗ Rest c)
  X c := iprop(emp)
  Y c := iprop(emp)
  Z c := Pipeline.unscopedRest spec2 c (Vin W c)
  hentry c := by
    rw [show StableHlo.held (c : Thread nD τ) (Pipeline.ucRefs τ sig) (W c) = unscopedBufs c (Vin W c) from (Pipeline.unscopedBufs_held c _).symm]
    have hsplit := Pipeline.arrays_of_unscopedBufs (p := 2) (pcfgs (F := F)) Gen.adm (pd W d0 d1 d3) launch2.win launch2.arr_whole c
      ((pd W d0 d1 d3 2 c).share_full fun _ => rfl) (Vin W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    iexact Hrest
  hin c := by
    rw [show (pd W d0 d1 d3 2 c).Φ 0 = (dat W c).Φ 0 from rfl]
    iintro ⟨-, -, Hr⟩
    iapply (Phi_first W c)
    iexact Hr
  hout c := by
    rw [show (pd W d0 d1 d3 2 c).Φ (Fin.last _) = (dat W c).Φ (Fin.last cfg2.N) from rfl, Pipeline.ownSems0_none]
    iintro Hr
    isplitr; · iempintro
    isplitr; · iempintro
    iapply (Phi_last W c)
    iexact Hr
  hexit c := by
    rw [show StableHlo.held (c : Thread nD τ) (Pipeline.ucRefs τ sig) (Function.update (W c) (Proc.devRef .tc main_v24) (finalOut W c))
        = unscopedBufs c (fun b => Vout W c (Proc.devRef .tc b)) from (Pipeline.unscopedBufs_held c _).symm,
      Pipeline.unscopedBufs_split (Pipeline.pin (pcfgs (F := F)) Gen.adm) 2 launch2.win.arr_unscoped launch2.win.arr_inj c _,
      Pipeline.arrays_eq (Pipeline.pin (pcfgs (F := F)) Gen.adm) (pd W d0 d1 d3) 2 c launch2.arr_whole ((pd W d0 d1 d3 2 c).share_full fun _ => rfl)]
    have harr : (bigSep Finset.univ fun w : Fin cfg2.W => (((c : Thread nD τ).loc (Pipeline.arrRef spec2 w)) ↦{fullShare} (dat W c).arrAt w cfg2.N : sProp 𝕄))
        = bigSep Finset.univ fun w : Fin cfg2.W => (((c : Thread nD τ).loc (Pipeline.arrRef spec2 w)) ↦{fullShare} Vout W c (Proc.devRef .tc (Pipeline.arrRef spec2 w)) : sProp 𝕄) :=
      bigSep_congr fun w _ => by rw [final_eq W c w]
    have hrest : (Pipeline.unscopedRest spec2 c (fun b => Vout W c (Proc.devRef .tc b)) : sProp 𝕄) = Pipeline.unscopedRest spec2 c (Vin W c) := by
      unfold Pipeline.unscopedRest
      exact bigSep_congr fun b hb => by
        have hb' : b ≠ main_v24 := fun h => (Finset.mem_sdiff.mp hb).2
          (Finset.mem_image.mpr ⟨7, Finset.mem_univ _, h.symm⟩)
        dsimp only
        rw [Vout_of W c b hb']
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%W', -, HO⟩; iexists W'; iexact HO

end Cert.KernelIdeal.Layer3

end
-- ==== Proof.Layer4Body.lean ====
/-
  The last layer's kernel body at one grid point, by the step of its reduction.

  The last layer contracts its 6144 input features in four blocks of 1536: the second grid coordinate counts
  the reduction's steps, 0 to 3. At the first step the accumulator is cleared before the block product is
  added to it; at a middle step the product is added to what the accumulator holds; at the last step, after
  the product is added, the bias row is added to the sum, each row's log-softmax is taken, and the result is
  written to the output block. From the blocks staged whole the body runs to its return; it leaves the
  inputs as they were and, in each buffer it stores to, what its stores wrote. Stated for any float values.
-/
import proofs.«158226_j28930899706073_2_alg».proof.Proof.Gen.KernelIdeal.Skeleton
import proofs.«158226_j28930899706073_2_alg».proof.Proof.Gen.KernelIdeal.Launch
import proofs.«158226_j28930899706073_2_alg».proof.Proof.Gen.KernelIdeal.Points
import Idealize.ShloMosaic.Lib.Tactic
import Idealize.ShloMosaic.Lib.Pipeline.Kit
import Idealize.ShloMosaic.Lib.Pipeline.Frame

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, from the reduction step -/

/-- The accumulator is cleared at step 0, -/
theorem first_of_zero (i : grid3.Coords) (h : (i 1).val = 0) :
    Scalar.cmpi .ne (Scalar.extui (Scalar.cmpi .eq (BitVec.ofNat 32 (i 1).val) 0#32)) 0#32 = 1#1 := by
  rw [h]; decide

/-- and at no other step. -/
theorem not_first_of_ne (i : grid3.Coords) (h : (i 1).val ≠ 0) :
    ¬ Scalar.cmpi .ne (Scalar.extui (Scalar.cmpi .eq (BitVec.ofNat 32 (i 1).val) 0#32)) 0#32 = 1#1 := by
  have hlt : (i 1).val < 4 := (i 1).isLt
  generalize (i 1).val = n at h hlt ⊢
  obtain rfl | rfl | rfl | rfl : n = 0 ∨ n = 1 ∨ n = 2 ∨ n = 3 := by omega
  · exact absurd rfl h
  · decide
  · decide
  · decide

/-- The block is finished and written out at step 3, -/
theorem last_of_three (i : grid3.Coords) (h : (i 1).val = 3) : k3_cond2 i = 1#1 := by
  unfold k3_cond2; rw [h]; decide

/-- and at no other step. -/
theorem not_last_of_ne (i : grid3.Coords) (h : (i 1).val ≠ 3) : ¬ k3_cond2 i = 1#1 := by
  unfold k3_cond2
  have hlt : (i 1).val < 4 := (i 1).isLt
  generalize (i 1).val = n at h hlt ⊢
  obtain rfl | rfl | rfl | rfl : n = 0 ∨ n = 1 ∨ n = 2 ∨ n = 3 := by omega
  · decide
  · decide
  · decide
  · exact absurd rfl h

/-! ## The body, by the step -/

set_option maxHeartbeats 4000000 in
/-- At the first step of a reduction, from the three input blocks staged whole, the output block's buffer at
    any given contents and the accumulator at anything: the body runs to its return leaving the inputs and the
    output block's buffer as they were and, in the accumulator, the pieces its stores wrote (the cleared
    accumulator overwritten by the block product). -/
noncomputable def bodyRunFirst (c : Dev nD) (i : grid3.Coords) (h : (i 1).val = 0)
    (arg2 : Memref sig .tc .vmem S1024x1536 .bf16) (harg2 : arg2.IsWhole) (arg3 : Memref sig .tc .vmem S10x1536 .f32) (harg3 : arg3.IsWhole)
    (arg4 : Memref sig .tc .vmem S1x10 .f32) (harg4 : arg4.IsWhole) (arg5 : Memref sig .tc .vmem S1024x10 .f32) (harg5 : arg5.IsWhole)
    (arg6 : Memref sig .tc .vmem S1024x10 .f32) (harg6 : arg6.IsWhole)
    (x0 : Vec F S1024x1536 .bf16) (x1 : Vec F S10x1536 .f32) (x2 : Vec F S1x10 .f32) :
    { LS0 : List (View.Piece (Elt F) S1024x10 .f32) //
      ∀ (d3 : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare d3
                ∗ (∃ f, arg6.view.loc (c : Thread nD τ) ↦[arg6.view.set]{fullShare} arg6.view.writes (Elt F) f LS0)) -∗ K ⟨⟩))
          ⊢ wp frame (wpE (defs₀ (F := F)) Variants.none c none) E
              (cc3__final_kernel i arg2 harg2 arg3 harg3 arg4 harg4 arg5 harg5 arg6 harg6) K } := by
  refine ⟨?_, fun d3 E K => ?run⟩
  case run =>
    have hc1 := first_of_zero i h
    have hc2 := not_last_of_ne i (by omega)
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS0

set_option maxHeartbeats 4000000 in
/-- At a middle step of a reduction, the accumulator found at given contents: the body runs to its return
    leaving the inputs and the output block's buffer as they were and, in the accumulator, the piece its
    store wrote (the block product added to what the accumulator held). -/
noncomputable def bodyRunMiddle (c : Dev nD) (i : grid3.Coords) (h0 : (i 1).val ≠ 0) (h3 : (i 1).val ≠ 3)
    (arg2 : Memref sig .tc .vmem S1024x1536 .bf16) (harg2 : arg2.IsWhole) (arg3 : Memref sig .tc .vmem S10x1536 .f32) (harg3 : arg3.IsWhole)
    (arg4 : Memref sig .tc .vmem S1x10 .f32) (harg4 : arg4.IsWhole) (arg5 : Memref sig .tc .vmem S1024x10 .f32) (harg5 : arg5.IsWhole)
    (arg6 : Memref sig .tc .vmem S1024x10 .f32) (harg6 : arg6.IsWhole)
    (x0 : Vec F S1024x1536 .bf16) (x1 : Vec F S10x1536 .f32) (x2 : Vec F S1x10 .f32)
    (xs : Vec F S1024x10 .f32) :
    { LS0 : List (View.Piece (Elt F) S1024x10 .f32) //
      ∀ (d3 : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare d3
                ∗ (∃ f, arg6.view.loc (c : Thread nD τ) ↦[arg6.view.set]{fullShare} arg6.view.writes (Elt F) f LS0)) -∗ K ⟨⟩))
          ⊢ wp frame (wpE (defs₀ (F := F)) Variants.none c none) E
              (cc3__final_kernel i arg2 harg2 arg3 harg3 arg4 harg4 arg5 harg5 arg6 harg6) K } := by
  refine ⟨?_, fun d3 E K => ?run⟩
  case run =>
    have hc1 := not_first_of_ne i h0
    have hc2 := not_last_of_ne i h3
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg6.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS0

set_option maxHeartbeats 4000000 in
/-- At the last step of a reduction, the accumulator found at given contents and the output block's buffer
    at anything: the body runs to its return leaving the inputs as they were and, in the accumulator and in
    the output block's buffer, the pieces its stores wrote (the finished sum, and the log-softmax of its rows
    after the bias is added). -/
noncomputable def bodyRunLast (c : Dev nD) (i : grid3.Coords) (h : (i 1).val = 3)
    (arg2 : Memref sig .tc .vmem S1024x1536 .bf16) (harg2 : arg2.IsWhole) (arg3 : Memref sig .tc .vmem S10x1536 .f32) (harg3 : arg3.IsWhole)
    (arg4 : Memref sig .tc .vmem S1x10 .f32) (harg4 : arg4.IsWhole) (arg5 : Memref sig .tc .vmem S1024x10 .f32) (harg5 : arg5.IsWhole)
    (arg6 : Memref sig .tc .vmem S1024x10 .f32) (harg6 : arg6.IsWhole)
    (x0 : Vec F S1024x1536 .bf16) (x1 : Vec F S10x1536 .f32) (x2 : Vec F S1x10 .f32)
    (xs : Vec F S1024x10 .f32) :
    Σ' (L3 : List (View.Piece (Elt F) S1024x10 .f32)), { LS0 : List (View.Piece (Elt F) S1024x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E
              (cc3__final_kernel i arg2 harg2 arg3 harg3 arg4 harg4 arg5 harg5 arg6 harg6) K } := by
  refine ⟨?_, ?_, fun E K => ?run⟩
  case run =>
    have hc1 := not_first_of_ne i (by omega)
    have hc2 := last_of_three i h
    simp only [cc3__final_kernel_eq_skeleton]; unfold cc3__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Layer4

end
-- ==== Proof.Layer4Data.lean ====
/-
  The last layer's region: what each staging buffer and the accumulator hold, point by point.

  The region walks its 16 grid points: four row blocks, and for each the four steps of the reduction over the
  6144 input features. At a point the three input windows hold the blocks of their arrays that the point's
  index selects, read off the arrays as the region finds them. The accumulator is carried from step to step
  of one reduction: its contents after a point are defined by recursion on the point. At a first step they
  are what the body's stores wrote over the cleared accumulator; at a later step what its store wrote given
  the contents the point before left. The output window is written only at a last step, where its buffer
  holds the log-softmax rows the body stored; at the other steps the window is idle, its buffer is handed
  back as found and is not written back. The region's invariant names the accumulator's contents after every
  point, beside the scoped buffers the windows do not stage at some contents.
-/
import proofs.«158226_j28930899706073_2_alg».proof.Proof.Layer4Body
import proofs.«158226_j28930899706073_2_alg».proof.Proof.Gen.KernelIdeal.Regions
import Idealize.ShloMosaic.Lib.Pipeline.FrameBody
import Idealize.ShloMosaic.Lib.Ring
import Idealize.ShloMosaic.Lib.Writes

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- An array's contents when the region is entered. -/
abbrev Vin (c : Dev nD) (b : Ref sig .tc) : Buf (Elt F) ((c : Thread nD τ).loc b) := W c (Proc.devRef .tc b)

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (Vin W c (Pipeline.arrRef spec3 w))

/-- Each window's current staging memref at point t, and its wholeness. -/
abbrev ms0 (t : Fin cfg3.N) : Memref sig .tc .vmem S1024x1536 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S10x1536 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x10 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x10 .f32 := win3_3.stage (cfg3.slots t 3)
abbrev hs3 (t : Fin cfg3.N) : (ms3 t).IsWhole := hstage3_3 ((cfg3.slots t 3).cast nbuf3_3)
/-- The accumulator: a whole scoped buffer of the kernel's own, carried between the points. -/
abbrev scM : Memref sig .tc .vmem S1024x10 .f32 := Memref.whole cc3_scratch0
/-- The accumulator as a view: what it holds is stated through it. -/
abbrev VS : View sig .tc .vmem S1024x10 .f32 := (scM : Memref sig .tc .vmem S1024x10 .f32).view
/-- One staging buffer of the output window, through which its contents are stated. -/
abbrev VO3 : View sig .tc .vmem S1024x10 .f32 := (Memref.whole cc3_stg3_0 : Memref sig .tc .vmem S1024x10 .f32).view

/-! ## The grid in closed form -/

/-- The reduction step of point t: the points run through the four steps of one row block, then the next. -/
theorem step_eq : ∀ t : Fin cfg3.N, ((grid3.coords t) 1).val = t.val % 4 :=
  (by decide +kernel : ∀ t : Fin grid3.N, ((grid3.coords t) 1).val = t.val % 4)

theorem N_eq : cfg3.N = 16 := N_3

/-- No input window is idle at any point. -/
theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
/-- The output window is idle away from the last steps, where it is not written back either, -/
theorem idle3_of : ∀ t : Fin cfg3.N, t.val % 4 ≠ 3 → cfg3.idle 3 (grid3.coords t) = true := by decide +kernel
theorem noFlush3_of (t : Fin cfg3.N) (h : t.val % 4 ≠ 3) : (cfg3.win 3).flush t = false :=
  Bool.eq_false_iff.mpr fun hf => h ((flush3_3 t).mp hf)
/-- and live at the last steps. -/
theorem live3_of : ∀ t : Fin cfg3.N, t.val % 4 = 3 → cfg3.idle 3 (grid3.coords t) = false := by decide +kernel

/-! ## The body's run at a point, by its step -/

/-- At a first step: on the point's staging memrefs, the inputs at their blocks. -/
abbrev runFirst (c : Dev nD) (t : Fin cfg3.N) (h : t.val % 4 = 0) :=
  bodyRunFirst (F := F) c (grid3.coords t) ((step_eq t).trans h) (ms0 t) (hs0 t) (ms1 t) (hs1 t) (ms2 t) (hs2 t) (ms3 t) (hs3 t) scM (Memref.isWhole_whole _) (iblk W c 0 t) (iblk W c 1 t) (iblk W c 2 t)

/-- At a middle step, the accumulator at xs. -/
abbrev runMiddle (c : Dev nD) (t : Fin cfg3.N) (h0 : t.val % 4 ≠ 0) (h3 : t.val % 4 ≠ 3) (xs : Vec F S1024x10 .f32) :=
  bodyRunMiddle (F := F) c (grid3.coords t) (fun e => h0 ((step_eq t).symm.trans e)) (fun e => h3 ((step_eq t).symm.trans e)) (ms0 t) (hs0 t) (ms1 t) (hs1 t) (ms2 t) (hs2 t) (ms3 t) (hs3 t) scM (Memref.isWhole_whole _) (iblk W c 0 t) (iblk W c 1 t) (iblk W c 2 t) xs

/-- At a last step, the accumulator at xs. -/
abbrev runLast (c : Dev nD) (t : Fin cfg3.N) (h : t.val % 4 = 3) (xs : Vec F S1024x10 .f32) :=
  bodyRunLast (F := F) c (grid3.coords t) ((step_eq t).trans h) (ms0 t) (hs0 t) (ms1 t) (hs1 t) (ms2 t) (hs2 t) (ms3 t) (hs3 t) scM (Memref.isWhole_whole _) (iblk W c 0 t) (iblk W c 1 t) (iblk W c 2 t) xs

/-- Each list of pieces tiles its block, so it covers it. -/
theorem coverFirst (c : Dev nD) (t : Fin cfg3.N) (h : t.val % 4 = 0) (y : S1024x10.Idx) :
    ∃ pc ∈ (runFirst W c t h).1, y ∈ pc.1.set :=
  View.cover_of_tiledL (runFirst W c t h).1 S1024x10.size (by sl_kernel_rfl) y
theorem coverMiddle (c : Dev nD) (t : Fin cfg3.N) (h0 : t.val % 4 ≠ 0) (h3 : t.val % 4 ≠ 3) (xs : Vec F S1024x10 .f32) (y : S1024x10.Idx) :
    ∃ pc ∈ (runMiddle W c t h0 h3 xs).1, y ∈ pc.1.set :=
  View.cover_of_tiledL (runMiddle W c t h0 h3 xs).1 S1024x10.size (by sl_kernel_rfl) y
theorem coverLastOut (c : Dev nD) (t : Fin cfg3.N) (h : t.val % 4 = 3) (xs : Vec F S1024x10 .f32) (y : S1024x10.Idx) :
    ∃ pc ∈ (runLast W c t h xs).1, y ∈ pc.1.set :=
  View.cover_of_tiledL (runLast W c t h xs).1 S1024x10.size (by sl_kernel_rfl) y
theorem coverLastAcc (c : Dev nD) (t : Fin cfg3.N) (h : t.val % 4 = 3) (xs : Vec F S1024x10 .f32) (y : S1024x10.Idx) :
    ∃ pc ∈ (runLast W c t h xs).2.1, y ∈ pc.1.set :=
  View.cover_of_tiledL (runLast W c t h xs).2.1 S1024x10.size (by sl_kernel_rfl) y

/-- What each step leaves in the accumulator, and the last in the output block's buffer: its pieces read back. -/
def accFirst (c : Dev nD) (t : Fin cfg3.N) (h : t.val % 4 = 0) : Vec F S1024x10 .f32 :=
  VS.read (Elt F) (VS.writes (Elt F) VS.junk (runFirst W c t h).1)
def accMiddle (c : Dev nD) (t : Fin cfg3.N) (h0 : t.val % 4 ≠ 0) (h3 : t.val % 4 ≠ 3) (xs : Vec F S1024x10 .f32) : Vec F S1024x10 .f32 :=
  VS.read (Elt F) (VS.writes (Elt F) VS.junk (runMiddle W c t h0 h3 xs).1)
def accLast (c : Dev nD) (t : Fin cfg3.N) (h : t.val % 4 = 3) (xs : Vec F S1024x10 .f32) : Vec F S1024x10 .f32 :=
  VS.read (Elt F) (VS.writes (Elt F) VS.junk (runLast W c t h xs).2.1)
def outLast (c : Dev nD) (t : Fin cfg3.N) (h : t.val % 4 = 3) (xs : Vec F S1024x10 .f32) : Vec F S1024x10 .f32 :=
  VO3.read (Elt F) (VO3.writes (Elt F) VO3.junk (runLast W c t h xs).1)
/-- The output window's contents at a point that stores nothing into it: a placeholder nothing consults, since
    there the window is neither written back nor read at the next point. -/
def outIdle : Vec F S1024x10 .f32 := VO3.read (Elt F) VO3.junk

/-! ## What the output block's buffer and the accumulator hold after each point -/

/-- After the body at position n: the output block's buffer, then the accumulator. The step n % 4 selects the
    case; a later step runs at what the point before left in the accumulator. -/
def outsAt (c : Dev nD) : (n : ℕ) → n < cfg3.N → Vec F S1024x10 .f32 × Vec F S1024x10 .f32
  | 0, hn => (outIdle, accFirst W c ⟨0, hn⟩ (Nat.zero_mod _))
  | n + 1, hn =>
    if h0 : (n + 1) % 4 = 0 then
      (outIdle, accFirst W c ⟨n + 1, hn⟩ h0)
    else
      if h3 : (n + 1) % 4 = 3 then
        (outLast W c ⟨n + 1, hn⟩ h3 (outsAt c n (Nat.lt_of_succ_lt hn)).2, accLast W c ⟨n + 1, hn⟩ h3 (outsAt c n (Nat.lt_of_succ_lt hn)).2)
      else
        (outIdle, accMiddle W c ⟨n + 1, hn⟩ h0 h3 (outsAt c n (Nat.lt_of_succ_lt hn)).2)

/-- What the point before t left in the accumulator. -/
abbrev accBefore (c : Dev nD) (t : Fin cfg3.N) : Vec F S1024x10 .f32 :=
  (outsAt W c (t.val - 1) (Nat.lt_of_le_of_lt (Nat.sub_le _ _) t.isLt)).2

theorem outsAt_first (c : Dev nD) (t : Fin cfg3.N) (h0 : t.val % 4 = 0) :
    outsAt W c t.val t.isLt = (outIdle, accFirst W c t h0) := by
  obtain ⟨n, hn⟩ := t
  cases n with
  | zero => exact rfl
  | succ n => exact (dif_pos h0).trans rfl

theorem outsAt_middle (c : Dev nD) (t : Fin cfg3.N) (h0 : t.val % 4 ≠ 0) (h3 : t.val % 4 ≠ 3) :
    outsAt W c t.val t.isLt = (outIdle, accMiddle W c t h0 h3 (accBefore W c t)) := by
  obtain ⟨n, hn⟩ := t
  cases n with
  | zero => exact (by exfalso; (try dsimp only at h0); exact absurd (Nat.zero_mod _) h0)
  | succ n => exact (dif_neg h0).trans ((dif_neg h3).trans rfl)

theorem outsAt_last (c : Dev nD) (t : Fin cfg3.N) (h3 : t.val % 4 = 3) :
    outsAt W c t.val t.isLt = (outLast W c t h3 (accBefore W c t), accLast W c t h3 (accBefore W c t)) := by
  have h0 : t.val % 4 ≠ 0 := by omega
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position n: before the first point the scoped buffers the windows do not stage, at some contents;
    afterwards the accumulator at what the point before left in it, beside the others at some contents. -/
def PhiS (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) scM fullShare (outsAt W c n hn).2
      ∗ Pipeline.scopedRestBut (Ix := Unit) (Name := ℕ) (U := UR sig nD τ) (Lvl := ℕ) (Val := Elt F) spec3 c [cc3_scratch0])

theorem PhiS_zero (c : Dev nD) (n : ℕ) (h : n ≤ cfg3.N) (hz : n = 0) :
    PhiS W c n h = Pipeline.scopedRest (Ix := Unit) (Name := ℕ) (U := UR sig nD τ) (Lvl := ℕ) (Val := Elt F) spec3 c := by
  subst hz; rfl

theorem PhiS_succ (c : Dev nD) (n : ℕ) (hn : n < cfg3.N) :
    PhiS W c (n + 1) hn = iprop(owns (c : Thread nD τ) scM fullShare (outsAt W c n hn).2
      ∗ Pipeline.scopedRestBut (Ix := Unit) (Name := ℕ) (U := UR sig nD τ) (Lvl := ℕ) (Val := Elt F) spec3 c [cc3_scratch0]) := rfl

theorem PhiS_pos (c : Dev nD) (n : ℕ) (h : n ≤ cfg3.N) (hz : n ≠ 0) :
    PhiS W c n h = iprop(owns (c : Thread nD τ) scM fullShare (outsAt W c (n - 1) (by omega)).2
      ∗ Pipeline.scopedRestBut (Ix := Unit) (Name := ℕ) (U := UR sig nD τ) (Lvl := ℕ) (Val := Elt F) spec3 c [cc3_scratch0]) := by
  cases n with
  | zero => exact absurd rfl hz
  | succ n => rfl

/-- The scoped buffers opened at the accumulator: it at some contents, beside the others. -/
theorem Phi_eq (c : Dev nD) :
    (Pipeline.scopedRest (Ix := Unit) (Name := ℕ) (U := UR sig nD τ) (Lvl := ℕ) (Val := Elt F) spec3 c : sProp 𝕄)
      = iprop((∃ d, owns (c : Thread nD τ) scM fullShare d)
          ∗ Pipeline.scopedRestBut (Ix := Unit) (Name := ℕ) (U := UR sig nD τ) (Lvl := ℕ) (Val := Elt F) spec3 c [cc3_scratch0]) := by
  rw [scopedRest3_split]; simp only [scM, owns_whole]; try rfl

/-! ## The proof data -/

/-- The proof data of the region on core c. -/
def dat (c : Dev nD) : Dat τ (Elt F) Unit ℕ (UR sig nD τ) ℕ cfg3 c where
  A w := Vin W c (Pipeline.arrRef spec3 w)
  after w t := match w with
    | ⟨0, _⟩ => iblk W c 0 t
    | ⟨1, _⟩ => iblk W c 1 t
    | ⟨2, _⟩ => iblk W c 2 t
    | ⟨3, _⟩ => (outsAt W c t.val t.isLt).1
  Φ t := PhiS W c t.val (Nat.le_of_lt_succ t.isLt)
  q _ := fullShare
  owed _ := 0

theorem A_eq (c : Dev nD) (w : Fin cfg3.W) : (dat W c).A w = Vin W c (Pipeline.arrRef spec3 w) := by
  dsimp only [dat]

theorem Phi_castSucc (c : Dev nD) (t : Fin cfg3.N) :
    (dat W c).Φ t.castSucc = PhiS W c t.val (Nat.le_of_lt t.isLt) := by
  dsimp only [dat]; simp only [Fin.coe_castSucc]

theorem after0 (c : Dev nD) (t : Fin cfg3.N) : (dat W c).after 0 t = iblk W c 0 t := by dsimp only [dat]
theorem after1 (c : Dev nD) (t : Fin cfg3.N) : (dat W c).after 1 t = iblk W c 1 t := by dsimp only [dat]
theorem after2 (c : Dev nD) (t : Fin cfg3.N) : (dat W c).after 2 t = iblk W c 2 t := by dsimp only [dat]
theorem after3 (c : Dev nD) (t : Fin cfg3.N) : (dat W c).after 3 t = (outsAt W c t.val t.isLt).1 := by dsimp only [dat]

/-- Each input's current staging buffer holds its block at every point, fetched there or not. -/
theorem before0 (c : Dev nD) (t : Fin cfg3.N) (d) : (dat W c).before 0 t d = iblk W c 0 t :=
  ((dat W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat W c).before 1 t d = iblk W c 1 t :=
  ((dat W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat W c).before 2 t d = iblk W c 2 t :=
  ((dat W c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg3.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d)))

/-- and what it returns. -/
def bodyPost (c : Dev nD) (t : Fin cfg3.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t)

set_option maxHeartbeats 4800000 in
/-- The body at any point: the inputs' memrefs hold their blocks; the step says which case the point is in; the
    invariant hands the body the accumulator at what the point before left (at anything before the first point)
    and takes it back at this point's contents; the output block's buffer comes back as found away from the last
    steps, and at what the body stored at a last step. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0, before1, before2]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live0 t], after0]
  rw [show (dat W c).leavesExact 1 t = owns (c : Thread nD τ) (ms1 t) fullShare ((dat W c).after 1 t) from by
    unfold Dat.leavesExact; rw [live1 t], after1]
  rw [show (dat W c).leavesExact 2 t = owns (c : Thread nD τ) (ms2 t) fullShare ((dat W c).after 2 t) from by
    unfold Dat.leavesExact; rw [live2 t], after2]
  have hN : t.val < 16 := lt_of_lt_of_eq t.isLt N_eq
  by_cases h0 : t.val % 4 = 0
  · have h3 : t.val % 4 ≠ 3 := by omega
    rw [Dat.leavesExact_idle (dat W c) 3 t (idle3_of t h3) (noFlush3_of t h3)]
    rw [outsAt_first W c t h0]
    unfold accFirst; (try dsimp only)
    by_cases hz : t.val = 0
    · rw [Phi_castSucc W c t, PhiS_zero W c _ _ hz, Phi_eq]
      iintro ⟨⟨HS, Hrest⟩, Ho, ⟨%d0, H0⟩, ⟨%d1, H1⟩, ⟨%d2, H2⟩, ⟨%d3, H3⟩⟩
      iapply ((runFirst W c t h0).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      iexists _; iexact H3
    · rw [Phi_castSucc W c t, PhiS_pos W c _ _ hz]
      iintro ⟨⟨HS, Hrest⟩, Ho, ⟨%d0, H0⟩, ⟨%d1, H1⟩, ⟨%d2, H2⟩, ⟨%d3, H3⟩⟩
      iapply ((runFirst W c t h0).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      iexists _; iexact H3
  · have hz : t.val ≠ 0 := by omega
    by_cases h3 : t.val % 4 = 3
    · rw [show (dat W c).leavesExact 3 t = owns (c : Thread nD τ) (ms3 t) fullShare ((dat W c).after 3 t) from by
        unfold Dat.leavesExact; rw [live3_of t h3], after3]
      rw [outsAt_last W c t h3]
      unfold outLast accLast; (try dsimp only)
      rw [Phi_castSucc W c t, PhiS_pos W c _ _ hz]
      iintro ⟨⟨HS, Hrest⟩, Ho, ⟨%d0, H0⟩, ⟨%d1, H1⟩, ⟨%d2, H2⟩, ⟨%d3, H3⟩⟩
      iapply ((runLast W c t h3 (accBefore W c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (coverLastAcc W c t h3 _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut W c t h3 _)
    · rw [Dat.leavesExact_idle (dat W c) 3 t (idle3_of t h3) (noFlush3_of t h3)]
      rw [outsAt_middle W c t h0 h3]
      unfold accMiddle; (try dsimp only)
      rw [Phi_castSucc W c t, PhiS_pos W c _ _ hz]
      iintro ⟨⟨HS, Hrest⟩, Ho, ⟨%d0, H0⟩, ⟨%d1, H1⟩, ⟨%d2, H2⟩, ⟨%d3, H3⟩⟩
      iapply ((runMiddle W c t h0 h3 (accBefore W c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverMiddle W c t h0 h3 _)
        iexact Hrest
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) W c) (defs₀ (F := F)) Variants.none () Set.univ := fun t => by
  rw [bigSep_W3, bigSep_W3]
  exact sound_body W c t

/-! ## The invariant at the region's ends -/

/-- What the launch hands the region is the invariant before the first point. -/
theorem Phi_in (c : Dev nD) : (dat W c).Φ 0 = Pipeline.scopedRest (Ix := Unit) (Name := ℕ) (U := UR sig nD τ) (Lvl := ℕ) (Val := Elt F) spec3 c := by
  rw [show (dat W c).Φ 0 = PhiS W c 0 (Nat.zero_le _) from rfl, PhiS_zero W c 0 _ rfl]

/-- After any point but the first the invariant gives the scoped buffers back at some contents: the
    accumulator's named contents are forgotten. -/
theorem Phi_out (c : Dev nD) (t : Fin (cfg3.N + 1)) (ht : t.val ≠ 0) :
    (dat W c).Φ t ⊢ (Pipeline.scopedRest (Ix := Unit) (Name := ℕ) (U := UR sig nD τ) (Lvl := ℕ) (Val := Elt F) spec3 c : sProp 𝕄) := by
  rw [show (dat W c).Φ t = PhiS W c t.val (Nat.le_of_lt_succ t.isLt) from rfl, PhiS_pos W c _ _ ht, Phi_eq]
  iintro ⟨HS, Hrest⟩
  isplitl [HS]
  · iexists _; iexact HS
  iexact Hrest

/-- The same after the last point. -/
theorem Phi_last (c : Dev nD) : (dat W c).Φ (Fin.last cfg3.N) ⊢ (Pipeline.scopedRest (Ix := Unit) (Name := ℕ) (U := UR sig nD τ) (Lvl := ℕ) (Val := Elt F) spec3 c : sProp 𝕄) :=
  Phi_out W c _ (by rw [Fin.val_last]; have : cfg3.N = 16 := N_eq; omega)

end Cert.KernelIdeal.Layer4

end
-- ==== Proof.Layer4Region.lean ====
/-
  The last layer's region, as one segment of the program.

  Entered from the state the host's last reshape leaves: the region takes the four arrays its windows stage (the
  third layer's binarized output, the last weight matrix, the bias row, and the output array) out of the core's
  unscoped buffers, leaves the others aside untouched, and runs its 16 points. Its invariant needs nothing
  beyond the scoped buffers, and it keeps no semaphore of its own. When it returns, the three input arrays hold
  what they held at entry (a window that is only fetched never writes its array), the output array holds what
  the four write-backs made of it, and the core's unscoped buffers are again held whole: at the entry contents,
  with the output array replaced by that final array.
-/
import proofs.«158226_j28930899706073_2_alg».proof.Proof.Layer4Data
import proofs.«158226_j28930899706073_2_alg».proof.Proof.RegionFamily

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Regions (fam DataOf Lv0 lv0 Rest)

variable {F : FTy → Type} [FloatOps F]

local notation "𝕄" => MT nD τ sig Unit (Elt F) ℕ (UR sig nD τ) ℕ

variable (W : Dev nD → Valuation τ sig (Elt F))
variable (d0 : DataOf (F := F) cfg0) (d1 : DataOf (F := F) cfg1) (d2 : DataOf (F := F) cfg2)

/-- The family with this region's data in its place, the other three arbitrary. -/
abbrev pd : (p : Fin 4) → (c : Dev nD) → Dat τ (Elt F) Unit ℕ (UR sig nD τ) ℕ (cfgs p) c := fam d0 d1 d2 (dat W)

/-- The output array after the region: what the write-backs made of it. -/
abbrev finalOut (c : Dev nD) : Buf (Elt F) ((cfg3.win 3).arr.view.loc (c : Thread nD τ)) := (dat W c).arrAt 3 cfg3.N

/-- Every window's array after the region, read in the valuation the region leaves: an input's array is as at
    entry, which the update of the output array does not touch; the output array is the update. -/
theorem final_eq (c : Dev nD) (w : Fin cfg3.W) :
    (dat W c).arrAt w cfg3.N = (Function.update (W c) (Proc.devRef .tc main_v26) (finalOut W c)) (Proc.devRef .tc (Pipeline.arrRef spec3 w)) := by
  have hin : ∀ w : Fin cfg3.W, (cfg3.win w).isOut = false → Pipeline.arrRef spec3 w ≠ main_v26 →
      (dat W c).arrAt w cfg3.N = (Function.update (W c) (Proc.devRef .tc main_v26) (finalOut W c)) (Proc.devRef .tc (Pipeline.arrRef spec3 w)) := fun w hw hne =>
    ((dat W c).arrAt_in w hw _).trans ((A_eq W c w).trans (Function.update_of_ne (StableHlo.devRef_ne_of_ne hne) _ _).symm)
  match w with
  | ⟨0, _⟩ => exact hin 0 rfl (by decide)
  | ⟨1, _⟩ => exact hin 1 rfl (by decide)
  | ⟨2, _⟩ => exact hin 2 rfl (by decide)
  | ⟨3, _⟩ =>
    show finalOut W c = (Function.update (W c) (Proc.devRef .tc main_v26) (finalOut W c)) (Proc.devRef .tc main_v26)
    rw [Function.update_self]

-- an entailment stated over `cfgs p` at the pinned configuration unifies only when unification may unfold plain
-- definitions in a metavariable's type
set_option backward.isDefEq.respectTransparency.types false in
/-- The region as a segment: entered from the unscoped buffers at the contents W, left with them at those
    contents but the output array at `finalOut`. -/
def region : Pipeline.RegionSeg (pcfgs (F := F)) Gen.adm (pd W d0 d1 d2) () defs₀ Variants.none Lv0 lv0 3 where
  win := launch3.win.to₀
  block_pos := launch3.block_pos
  stage_whole := launch3.stage_whole
  K := PEmpty
  osem := fun k => k.elim
  ho := Pipeline.OwnSemFacts.none _
  hbody c := (body_obligation W c).loose
  hwaits := Pipeline.hwaits_of_owed_zero _ _ _ _ Lv0 lv0 3 fun _ _ => rfl
  pre c := iprop(StableHlo.held (c : Thread nD τ) (Pipeline.ucRefs τ sig) (W c) ∗ Rest c)
  post c := iprop(StableHlo.held (c : Thread nD τ) (Pipeline.ucRefs τ sig) (Function.update (W c) (Proc.devRef .tc main_v26) (finalOut W c)) ∗ Rest c)
  X c := iprop(emp)
  Y c := iprop(emp)
  Z c := Pipeline.unscopedRest spec3 c (Vin W c)
  hentry c := by
    rw [show StableHlo.held (c : Thread nD τ) (Pipeline.ucRefs τ sig) (W c) = unscopedBufs c (Vin W c) from (Pipeline.unscopedBufs_held c _).symm]
    have hsplit := Pipeline.arrays_of_unscopedBufs (p := 3) (pcfgs (F := F)) Gen.adm (pd W d0 d1 d2) launch3.win launch3.arr_whole c
      ((pd W d0 d1 d2 3 c).share_full fun _ => rfl) (Vin W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hrest
  hin c := by
    rw [show (pd W d0 d1 d2 3 c).Φ 0 = (dat W c).Φ 0 from rfl, Phi_in]
    iintro ⟨-, -, Hr⟩
    iexact Hr
  hout c := by
    rw [show (pd W d0 d1 d2 3 c).Φ (Fin.last _) = (dat W c).Φ (Fin.last cfg3.N) from rfl, Pipeline.ownSems0_none]
    iintro Hr
    isplitr; · iempintro
    isplitr; · iempintro
    iapply (Phi_last W c)
    iexact Hr
  hexit c := by
    rw [show StableHlo.held (c : Thread nD τ) (Pipeline.ucRefs τ sig) (Function.update (W c) (Proc.devRef .tc main_v26) (finalOut W c))
        = unscopedBufs c (fun b => (Function.update (W c) (Proc.devRef .tc main_v26) (finalOut W c)) (Proc.devRef .tc b)) from (Pipeline.unscopedBufs_held c _).symm,
      Pipeline.unscopedBufs_split (Pipeline.pin (pcfgs (F := F)) Gen.adm) 3 launch3.win.arr_unscoped launch3.win.arr_inj c _,
      Pipeline.arrays_eq (Pipeline.pin (pcfgs (F := F)) Gen.adm) (pd W d0 d1 d2) 3 c launch3.arr_whole ((pd W d0 d1 d2 3 c).share_full fun _ => rfl)]
    have harr : (bigSep Finset.univ fun w : Fin cfg3.W => (((c : Thread nD τ).loc (Pipeline.arrRef spec3 w)) ↦{fullShare} (dat W c).arrAt w cfg3.N : sProp 𝕄))
        = bigSep Finset.univ fun w : Fin cfg3.W => (((c : Thread nD τ).loc (Pipeline.arrRef spec3 w)) ↦{fullShare} (Function.update (W c) (Proc.devRef .tc main_v26) (finalOut W c)) (Proc.devRef .tc (Pipeline.arrRef spec3 w)) : sProp 𝕄) :=
      bigSep_congr fun w _ => by rw [final_eq W c w]
    have hrest : (Pipeline.unscopedRest spec3 c (fun b => (Function.update (W c) (Proc.devRef .tc main_v26) (finalOut W c)) (Proc.devRef .tc b)) : sProp 𝕄) = Pipeline.unscopedRest spec3 c (Vin W c) := by
      unfold Pipeline.unscopedRest
      exact bigSep_congr fun b hb => by
        have hb' : b ≠ main_v26 := fun h => (Finset.mem_sdiff.mp hb).2
          (Finset.mem_image.mpr ⟨3, Finset.mem_univ _, h.symm⟩)
        dsimp only
        rw [Function.update_of_ne (StableHlo.devRef_ne_of_ne hb')]
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%Wt, -, HO⟩; iexists Wt; iexact HO

end Cert.KernelIdeal.Layer4

end
-- ==== Proof.KernelIdealFrame.lean ====
/-
  The idealized kernel keeps its arguments.

  The contents of the core's unscoped buffers are followed item by item. They start at the launch contents; a host
  stretch replaces them by the fold of its operations; a region replaces one array, its layer's output, by what the
  region's write-backs made of it, and leaves the rest. Each region is a segment entered from the contents before
  it and left at the contents after it (the four region modules), so the program as a whole runs to its end, and
  what no item writes, every argument among it, ends as launched.
-/
import proofs.«158226_j28930899706073_2_alg».proof.Proof.FrameOf
import proofs.«158226_j28930899706073_2_alg».proof.Proof.ValueOf
import proofs.«158226_j28930899706073_2_alg».proof.Proof.Layer1Region
import proofs.«158226_j28930899706073_2_alg».proof.Proof.Layer2Region
import proofs.«158226_j28930899706073_2_alg».proof.Proof.Layer3Region
import proofs.«158226_j28930899706073_2_alg».proof.Proof.Layer4Region

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.KernelIdeal.Regions (fam DataOf Lv0 lv0 Rest)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents, item by item -/

/-- Layer 1's output array after its region. -/
def o1 (c : Dev nD) := Layer1.finalOut m c
/-- After layer 1's region, then after the second host stretch. -/
abbrev W2 (c : Dev nD) : Valuation τ sig (Elt F) := Function.update (V1 m c) (Proc.devRef .tc main_v12) (o1 m c)
abbrev W3 (c : Dev nD) : Valuation τ sig (Elt F) := StableHlo.after hostOps1 (W2 m c)
/-- Layer 2's output array after its region. -/
def o2 (c : Dev nD) := Layer2.finalOut (W3 m) c
abbrev W4 (c : Dev nD) : Valuation τ sig (Elt F) := Function.update (W3 m c) (Proc.devRef .tc main_v18) (o2 m c)
abbrev W5 (c : Dev nD) : Valuation τ sig (Elt F) := StableHlo.after hostOps2 (W4 m c)
/-- Layer 3's. -/
def o3 (c : Dev nD) := Layer3.finalOut (W5 m) c
abbrev W6 (c : Dev nD) : Valuation τ sig (Elt F) := Function.update (W5 m c) (Proc.devRef .tc main_v24) (o3 m c)
abbrev W7 (c : Dev nD) : Valuation τ sig (Elt F) := StableHlo.after hostOps3 (W6 m c)
/-- Layer 4's: the result. -/
def o4 (c : Dev nD) := Layer4.finalOut (W7 m) c

/-- What each region leaves in the array it may change, as one table: the four outputs at their places, anything
    (the launch contents) elsewhere. -/
def outs : Gen.Outs (F := F) := fun j r c =>
  if h : j = 2 ∧ r = main_v12 then h.2 ▸ o1 m c
  else if h : j = 4 ∧ r = main_v18 then h.2 ▸ o2 m c
  else if h : j = 6 ∧ r = main_v24 then h.2 ▸ o3 m c
  else if h : j = 8 ∧ r = main_v26 then h.2 ▸ o4 m c
  else m ((c : Thread nD τ).loc r)

theorem outs_2 (c : Dev nD) : outs m 2 main_v12 c = o1 m c := by
  unfold outs; rw [dif_pos ⟨rfl, rfl⟩]
theorem outs_4 (c : Dev nD) : outs m 4 main_v18 c = o2 m c := by
  unfold outs; rw [dif_neg (by decide), dif_pos ⟨rfl, rfl⟩]
theorem outs_6 (c : Dev nD) : outs m 6 main_v24 c = o3 m c := by
  unfold outs; rw [dif_neg (by decide), dif_neg (by decide), dif_pos ⟨rfl, rfl⟩]
theorem outs_8 (c : Dev nD) : outs m 8 main_v26 c = o4 m c := by
  unfold outs; rw [dif_neg (by decide), dif_neg (by decide), dif_neg (by decide), dif_pos ⟨rfl, rfl⟩]

/-- With that table the contents between the items are the ones followed above. -/
theorem V2_eq (c : Dev nD) : V2 m (outs m) c = W2 m c := by
  show Function.update (V1 m c) (Proc.devRef .tc main_v12) (outs m 2 main_v12 c) = _; rw [outs_2]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) (Proc.devRef .tc main_v18) (outs m 4 main_v18 c) = _; rw [outs_4, V3_eq]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) (Proc.devRef .tc main_v24) (outs m 6 main_v24 c) = _; rw [outs_6, V5_eq]
theorem V7_eq (c : Dev nD) : V7 m (outs m) c = W7 m c := by
  show StableHlo.after hostOps3 (V6 m (outs m) c) = _; rw [V6_eq]
theorem V8_eq (c : Dev nD) : V8 m (outs m) c = Function.update (W7 m c) (Proc.devRef .tc main_v26) (o4 m c) := by
  show Function.update (V7 m (outs m) c) (Proc.devRef .tc main_v26) (outs m 8 main_v26 c) = _; rw [outs_8, V7_eq]

/-! ## The four regions' data, and the frame -/

abbrev D0 : DataOf (F := F) cfg0 := Layer1.dat m
abbrev D1 : DataOf (F := F) cfg1 := Layer2.dat (W3 m)
abbrev D2 : DataOf (F := F) cfg2 := Layer3.dat (W5 m)
abbrev D3 : DataOf (F := F) cfg3 := Layer4.dat (W7 m)

/-- Every weakly fair execution of the idealized kernel ends, faulting nowhere, with its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (outs m) (fam (D0 m) (D1 m) (D2 m) (D3 m))
    (Layer1.region m (outs m) (D1 m) (D2 m) (D3 m) (fun c => outs_2 m c)) (fun c => .rfl) (fun c => .rfl)
    (Layer2.region (W3 m) (D0 m) (D2 m) (D3 m))
      (fun c => Entails.of_eq (by rw [V3_eq]; rfl)) (fun c => Entails.of_eq (by rw [V4_eq]; rfl))
    (Layer3.region (W5 m) (D0 m) (D1 m) (D3 m))
      (fun c => Entails.of_eq (by rw [V5_eq]; rfl)) (fun c => Entails.of_eq (by rw [V6_eq]; rfl))
    (Layer4.region (W7 m) (D0 m) (D1 m) (D2 m))
      (fun c => Entails.of_eq (by rw [V7_eq]; rfl)) (fun c => Entails.of_eq (by rw [V8_eq]; rfl))

/-- The same run read also at the result array: it ends holding layer 4's output. -/
theorem run_value : θ_run defs (onTc (τ := τ) (main (F := F))) ⟨m, fun _ => 0, ρ⟩ (fun r => ∀ c : Dev nD,
      r.2.mem ((c.tc : Thread nD τ).loc main_v26) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1.trans (outs_8 m c), (h c).2⟩)
    (value_of m ρ (outs m) (fam (D0 m) (D1 m) (D2 m) (D3 m))
      (Layer1.region m (outs m) (D1 m) (D2 m) (D3 m) (fun c => outs_2 m c)) (fun c => .rfl) (fun c => .rfl)
      (Layer2.region (W3 m) (D0 m) (D2 m) (D3 m))
        (fun c => Entails.of_eq (by rw [V3_eq]; rfl)) (fun c => Entails.of_eq (by rw [V4_eq]; rfl))
      (Layer3.region (W5 m) (D0 m) (D1 m) (D3 m))
        (fun c => Entails.of_eq (by rw [V5_eq]; rfl)) (fun c => Entails.of_eq (by rw [V6_eq]; rfl))
      (Layer4.region (W7 m) (D0 m) (D1 m) (D2 m))
        (fun c => Entails.of_eq (by rw [V7_eq]; rfl)) (fun c => Entails.of_eq (by rw [V8_eq]; rfl)))

end Cert.KernelIdeal.Whole

end
-- ==== Proof.KRegionFamily.lean ====
/-
  The four regions' proof data as one family.

  The program enters four kernel regions, one per layer, each with its own windows and grid. The launch theorems
  take the regions' proof data as one family indexed by the region; this module only puts four given data, one
  per region, side by side, so that each region can be treated with the other three left arbitrary.
-/
import proofs.«158226_j28930899706073_2_alg».proof.Proof.Gen.Kernel.Regions

noncomputable section

namespace Cert.Kernel.Regions

open Cert.Kernel Cert.Kernel.Gen
open Idealize.ShloMosaic Idealize.ShloMosaic.TcCoe
open Idealize.ShloMosaic.Pipeline (Dat)
open Idealize.SL Idealize.SL.RA Idealize.SL.BI
open scoped Idealize.SL.BI
open Idealize.SL.BI.BIBase Idealize.SL.Sem
open Idealize.ShloMosaic.Rounds

variable {F : FTy → Type} [BitOps F]

/-- One region's proof data on every core, in the algebra all four share. -/
abbrev DataOf (cfg : Pipeline.Cfg sig Λ₀) : Type _ := (c : Dev nD) → Dat τ (Elt F) Unit ℕ (UR sig nD τ) ℕ cfg c

/-- The family: region p's data at p. -/
def fam (d0 : DataOf (F := F) cfg0) (d1 : DataOf (F := F) cfg1) (d2 : DataOf (F := F) cfg2) (d3 : DataOf (F := F) cfg3) :
    (p : Fin 4) → (c : Dev nD) → Dat τ (Elt F) Unit ℕ (UR sig nD τ) ℕ (cfgs p) c
  | ⟨0, _⟩ => d0
  | ⟨1, _⟩ => d1
  | ⟨2, _⟩ => d2
  | ⟨3, _⟩ => d3

/-- No core owes another anything in this program: no level is assigned. -/
abbrev Lv0 : GSem nD τ sig → Finset Unit := fun _ => ∅
abbrev lv0 : GSem nD τ sig → Unit → ℕ := fun _ _ => 0

/-- What rides beside the buffers between the program's items: the core owing nothing. -/
abbrev Rest (c : Dev nD) : Idealize.SL.BI.sProp (MT nD τ sig Unit (Elt F) ℕ (UR sig nD τ) ℕ) :=
  iprop(∃ W, owes (c : Thread nD τ) (0 : CellTallies nD τ sig Unit) W)

end Cert.Kernel.Regions

end
-- ==== Proof.KFrameOf.lean ====
/-
  The word-level kernel's frame, from its four regions.

  The program is eight items in a row: a stretch of host operations (casts, signs of the weights, reshapes of the
  parameter rows), then a kernel region, four times over. Given each region as a segment that is entered from
  the unscoped buffers as the stretch before it leaves them and left with them as the stretch after it finds
  them, the whole program runs to its end without a fault, and since no stretch and no region writes an
  argument, every argument ends as launched. Between the items nothing rides along but the fact that the core
  owes no other core anything; the launch provides that, and the end asks for no more.
-/
import proofs.«158226_j28930899706073_2_alg».proof.Proof.KRegionFamily

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.Kernel.Regions (fam DataOf Lv0 lv0 Rest)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The launch element: the staging cells' and the pipelines' transfers' ghost state, nothing else. -/
def u₀ : UR sig nD τ := initOf (Pipeline.cells cfgs cellOf_inj) (Pipeline.launchToks cfgs cellOf_inj)

/-- The frame from four region segments whose entry and exit states are the valuations between the items. -/
theorem frame_of (outs : Gen.Outs (F := F))
    (pdats : (p : Fin 4) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (V1 m c) ∗ Rest (F := F) c) ⊢ R0.pre c)
    (hpost0 : ∀ c : Dev nD, R0.post c ⊢ iprop(StableHlo.held (c : Thread nD τ) (Pipeline.ucRefs τ sig) (V2 m outs c) ∗ Rest (F := F) c))
    (R1 : RegionSeg (pcfgs (F := F)) Gen.adm pdats () defs₀ Variants.none Lv0 lv0 1)
    (hpre1 : ∀ c : Dev nD, iprop(StableHlo.held (c : Thread nD τ) (Pipeline.ucRefs τ sig) (V3 m outs c) ∗ Rest (F := F) c) ⊢ R1.pre c)
    (hpost1 : ∀ c : Dev nD, R1.post c ⊢ iprop(StableHlo.held (c : Thread nD τ) (Pipeline.ucRefs τ sig) (V4 m outs c) ∗ Rest (F := F) c))
    (R2 : RegionSeg (pcfgs (F := F)) Gen.adm pdats () defs₀ Variants.none Lv0 lv0 2)
    (hpre2 : ∀ c : Dev nD, iprop(StableHlo.held (c : Thread nD τ) (Pipeline.ucRefs τ sig) (V5 m outs c) ∗ Rest (F := F) c) ⊢ R2.pre c)
    (hpost2 : ∀ c : Dev nD, R2.post c ⊢ iprop(StableHlo.held (c : Thread nD τ) (Pipeline.ucRefs τ sig) (V6 m outs c) ∗ Rest (F := F) c))
    (R3 : RegionSeg (pcfgs (F := F)) Gen.adm pdats () defs₀ Variants.none Lv0 lv0 3)
    (hpre3 : ∀ c : Dev nD, iprop(StableHlo.held (c : Thread nD τ) (Pipeline.ucRefs τ sig) (V7 m outs c) ∗ Rest (F := F) c) ⊢ R3.pre c)
    (hpost3 : ∀ c : Dev nD, R3.post c ⊢ iprop(StableHlo.held (c : Thread nD τ) (Pipeline.ucRefs τ sig) (V8 m outs c) ∗ Rest (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m (emb₁ : Emb (UR sig nD τ) 𝕄) () Variants.none Lv0 lv0 (fun _ _ => rfl) ρ outs pdats (fun _ => 0) (fun _ => iprop(emp)) u₀
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Rest (F := F) c)
    (by
      have hper : ∀ c : Dev nD, (iprop(unscopedSems0 c ∗ owes (c : Thread nD τ) (0 : CellTallies nD τ sig Unit) ∅
          ∗ Pipeline.launchCred (fun _ : Dev nD => (0 : CellTallies nD τ sig Unit)) c ∗ prngReg c (ρ c) ∗ emp) : sProp 𝕄) ⊢ Rest (F := F) c := fun c => by
        iintro ⟨-, HO, -, -, -⟩
        iexists ∅
        iexact HO
      have hmono := bigSep_mono (s := (Finset.univ : Finset (Dev nD))) fun c _ => hper c
      refine Entails.trans ?_ (Entails.trans hmono fupd_intro)
      iintro ⟨H, -⟩
      iexact H)
    (fun c => .rfl)
    R0 hpre0 hpost0 R1 hpre1 hpost1 R2 hpre2 hpost2 R3 hpre3 hpost3

end Cert.Kernel.Whole

end
-- ==== Proof.KValueCond.lean ====
/-
  The whole program's run, read at the result.

  The four regions being segments between the contents followed item by item, the program runs to its end; at the
  end every unscoped buffer holds what the last item left in it. Read at an argument, that is the launch contents;
  read at the result array, it is what the last region's write-backs made of that array.
-/
import proofs.«158226_j28930899706073_2_alg».proof.Proof.KRegionFamily

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [BitOps F]

-- the launch theorem's implicit arguments are found by unifying its conclusion with this one, which takes unfolding
-- plain definitions in a metavariable's type
set_option backward.isDefEq.respectTransparency.types false in
/-- The run of the whole program given its four regions as segments, read at the arguments AND at the result array:
    every weakly fair execution ends, faulting nowhere, with each argument as launched and the result array at what the
    last region left in it. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v26) = outs 8 main_v26 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v26) = outs 8 main_v26 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v26) (Finset.mem_filter.mpr ⟨StableHlo.devRef_mem_tcRefs main_v26, by decide⟩)).trans
          (by show Function.update (V7 m outs c) (Proc.devRef .tc main_v26) (outs 8 main_v26 c) (Proc.devRef .tc main_v26) = _; rw [Function.update_self]),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c),
        (h (Proc.devRef .tc main_arg14) (Finset.mem_filter.mpr ⟨StableHlo.devRef_mem_tcRefs main_arg14, by decide⟩)).trans (V8_main_arg14 m outs c),
        (h (Proc.devRef .tc main_arg15) (Finset.mem_filter.mpr ⟨StableHlo.devRef_mem_tcRefs main_arg15, by decide⟩)).trans (V8_main_arg15 m outs c),
        (h (Proc.devRef .tc main_arg16) (Finset.mem_filter.mpr ⟨StableHlo.devRef_mem_tcRefs main_arg16, by decide⟩)).trans (V8_main_arg16 m outs c),
        (h (Proc.devRef .tc main_arg17) (Finset.mem_filter.mpr ⟨StableHlo.devRef_mem_tcRefs main_arg17, by decide⟩)).trans (V8_main_arg17 m outs c),
        (h (Proc.devRef .tc main_arg18) (Finset.mem_filter.mpr ⟨StableHlo.devRef_mem_tcRefs main_arg18, by decide⟩)).trans (V8_main_arg18 m outs c),
        (h (Proc.devRef .tc main_arg19) (Finset.mem_filter.mpr ⟨StableHlo.devRef_mem_tcRefs main_arg19, by decide⟩)).trans (V8_main_arg19 m outs c),
        (h (Proc.devRef .tc main_arg20) (Finset.mem_filter.mpr ⟨StableHlo.devRef_mem_tcRefs main_arg20, by decide⟩)).trans (V8_main_arg20 m outs c)⟩
    · iexact HSI

end Cert.Kernel.Whole

end
-- ==== Proof.KValueOf.lean ====
/-
  The idealized kernel's run, read at the result, from its four regions.

  As for the frame: given each region as a segment between the contents followed item by item, the program runs to
  its end without a fault; every argument ends as launched, and the result array ends at what the table of the
  regions' outputs names for the last region.
-/
import proofs.«158226_j28930899706073_2_alg».proof.Proof.KRegionFamily
import proofs.«158226_j28930899706073_2_alg».proof.Proof.KValueCond

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.Kernel.Regions (fam DataOf Lv0 lv0 Rest)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The launch element: the staging cells' and the pipelines' transfers' ghost state, nothing else. -/
def u₀' : UR sig nD τ := initOf (Pipeline.cells cfgs cellOf_inj) (Pipeline.launchToks cfgs cellOf_inj)

/-- The run, read at the result and the arguments, from four region segments whose entry and exit states are the
    valuations between the items. -/
theorem value_of (outs : Gen.Outs (F := F))
    (pdats : (p : Fin 4) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (V1 m c) ∗ Rest (F := F) c) ⊢ R0.pre c)
    (hpost0 : ∀ c : Dev nD, R0.post c ⊢ iprop(StableHlo.held (c : Thread nD τ) (Pipeline.ucRefs τ sig) (V2 m outs c) ∗ Rest (F := F) c))
    (R1 : RegionSeg (pcfgs (F := F)) Gen.adm pdats () defs₀ Variants.none Lv0 lv0 1)
    (hpre1 : ∀ c : Dev nD, iprop(StableHlo.held (c : Thread nD τ) (Pipeline.ucRefs τ sig) (V3 m outs c) ∗ Rest (F := F) c) ⊢ R1.pre c)
    (hpost1 : ∀ c : Dev nD, R1.post c ⊢ iprop(StableHlo.held (c : Thread nD τ) (Pipeline.ucRefs τ sig) (V4 m outs c) ∗ Rest (F := F) c))
    (R2 : RegionSeg (pcfgs (F := F)) Gen.adm pdats () defs₀ Variants.none Lv0 lv0 2)
    (hpre2 : ∀ c : Dev nD, iprop(StableHlo.held (c : Thread nD τ) (Pipeline.ucRefs τ sig) (V5 m outs c) ∗ Rest (F := F) c) ⊢ R2.pre c)
    (hpost2 : ∀ c : Dev nD, R2.post c ⊢ iprop(StableHlo.held (c : Thread nD τ) (Pipeline.ucRefs τ sig) (V6 m outs c) ∗ Rest (F := F) c))
    (R3 : RegionSeg (pcfgs (F := F)) Gen.adm pdats () defs₀ Variants.none Lv0 lv0 3)
    (hpre3 : ∀ c : Dev nD, iprop(StableHlo.held (c : Thread nD τ) (Pipeline.ucRefs τ sig) (V7 m outs c) ∗ Rest (F := F) c) ⊢ R3.pre c)
    (hpost3 : ∀ c : Dev nD, R3.post c ⊢ iprop(StableHlo.held (c : Thread nD τ) (Pipeline.ucRefs τ sig) (V8 m outs c) ∗ Rest (F := F) c)) :
    θ_run defs (onTc (τ := τ) (main (F := F))) ⟨m, fun _ => 0, ρ⟩ (fun r => ∀ c : Dev nD,
      r.2.mem ((c.tc : Thread nD τ).loc main_v26) = outs 8 main_v26 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  value_cond m (emb₁ : Emb (UR sig nD τ) 𝕄) () Variants.none Lv0 lv0 (fun _ _ => rfl) ρ outs pdats (fun _ => 0) (fun _ => iprop(emp)) u₀'
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Rest (F := F) c)
    (by
      have hper : ∀ c : Dev nD, (iprop(unscopedSems0 c ∗ owes (c : Thread nD τ) (0 : CellTallies nD τ sig Unit) ∅
          ∗ Pipeline.launchCred (fun _ : Dev nD => (0 : CellTallies nD τ sig Unit)) c ∗ prngReg c (ρ c) ∗ emp) : sProp 𝕄) ⊢ Rest (F := F) c := fun c => by
        iintro ⟨-, HO, -, -, -⟩
        iexists ∅
        iexact HO
      have hmono := bigSep_mono (s := (Finset.univ : Finset (Dev nD))) fun c _ => hper c
      refine Entails.trans ?_ (Entails.trans hmono fupd_intro)
      iintro ⟨H, -⟩
      iexact H)
    (fun c => .rfl)
    R0 hpre0 hpost0 R1 hpre1 hpost1 R2 hpre2 hpost2 R3 hpre3 hpost3

end Cert.Kernel.Whole

end
-- ==== Proof.KLayer1Body.lean ====
/-
  Layer 1's kernel body at one grid point.

  Layer 1 contracts all 784 input features in a single block, so its reduction axis has one step: every
  grid point is both the first step of its reduction (the accumulator is cleared) and the last (the block is
  normalised and written out). From the two matrix blocks and the five parameter rows staged whole, the
  output block's buffer and the accumulator at any contents, the body runs to its return; it leaves the seven
  inputs as they were and, in the accumulator and in the output block's buffer, what its stores wrote: the
  cleared accumulator overwritten by the block product, and the sign of the batch-normalised sum.
  Stated for any float values, so that it serves the word-level reading and the extended-real one alike.
-/
import proofs.«158226_j28930899706073_2_alg».proof.Proof.Gen.Kernel.Skeleton
import proofs.«158226_j28930899706073_2_alg».proof.Proof.Gen.Kernel.Launch
import proofs.«158226_j28930899706073_2_alg».proof.Proof.Gen.Kernel.Points
import Idealize.ShloMosaic.Lib.Tactic
import Idealize.ShloMosaic.Lib.Pipeline.Kit
import Idealize.ShloMosaic.Lib.Pipeline.Frame

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- Layer 1 contracts all 784 input features in one block: its reduction axis has a single step. -/
theorem axis2_zero (i : grid0.Coords) : (i 2).val = 0 := Nat.lt_one_iff.mp (show (i 2).val < 1 from (i 2).isLt)

/-- So every point is the first step of its reduction (the accumulator is reset), -/
theorem first_step (i : grid0.Coords) :
    Scalar.cmpi .ne (Scalar.extui (Scalar.cmpi .eq (BitVec.ofNat 32 (i 2).val) 0#32)) 0#32 = 1#1 := by
  rw [axis2_zero i]; decide

/-- and the last (the block is normalised and written out). -/
theorem last_step (i : grid0.Coords) : k0_cond2 i = 1#1 := by
  unfold k0_cond2; rw [axis2_zero i]; decide

set_option maxHeartbeats 4000000 in
/-- At any point of layer 1's grid, from the seven input blocks staged whole, the output block's buffer and the
    accumulator at anything: the body runs to its return leaving the inputs as they were and, in the
    accumulator and in the output block's buffer, the pieces its stores wrote. -/
noncomputable def bodyRun (c : Dev nD) (i : grid0.Coords)
    (arg3 : Memref sig .tc .vmem S1024x784 .bf16) (harg3 : arg3.IsWhole) (arg4 : Memref sig .tc .vmem S1024x784 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x784 .bf16) (x2 x3 x4 x5 x6 : Vec F S1x1024 .f32) :
    Σ' (L7 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)) -∗ K ⟨⟩))
          ⊢ wp frame (wpE (defs₀ (F := F)) Variants.none c none) E
              (cc0__layer_kernel i arg3 harg3 arg4 harg4 arg5 harg5 arg6 harg6 arg7 harg7 arg8 harg8 arg9 harg9 arg10 harg10 arg11 harg11) K } := by
  refine ⟨?_, ?_, fun E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact first_step i | exact last_step i)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; iexact HS0

end Cert.Kernel.Layer1

end
-- ==== Proof.KLayer1Data.lean ====
/-
  Layer 1's region: what each staging buffer holds, point by point.

  The region walks its 24 grid points (four row blocks by six column blocks, one reduction step). At a point the
  two matrix windows and the five parameter windows hold the blocks of their arrays that the point's index
  selects, read off the arrays as the region finds them (the input and the binarized weights after the host's
  casts, the parameter rows after their reshapes). The output window's buffer holds, after the body, what the
  body's one store wrote: that store covers the whole block, so what it leaves does not depend on what the buffer
  held before. The accumulator is cleared and refilled at every point, so nothing is carried between points and
  the region's invariant is just "the scoped buffers the windows do not stage, at some contents".
-/
import proofs.«158226_j28930899706073_2_alg».proof.Proof.KLayer1Body
import proofs.«158226_j28930899706073_2_alg».proof.Proof.Gen.Kernel.Regions
import Idealize.ShloMosaic.Lib.Pipeline.FrameBody
import Idealize.ShloMosaic.Lib.Ring
import Idealize.ShloMosaic.Lib.Writes

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ)

/-- An array's contents when the region is entered: the launch contents after the host operations before it. -/
abbrev Vin (c : Dev nD) (b : Ref sig .tc) : Buf (Elt F) ((c : Thread nD τ).loc b) := Gen.V1 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

/-- Each window's current staging memref at point t, and its wholeness. -/
abbrev ms0 (t : Fin cfg0.N) : Memref sig .tc .vmem S1024x784 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x784 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .bf16 := win0_7.stage (cfg0.slots t 7)
abbrev hs7 (t : Fin cfg0.N) : (ms7 t).IsWhole := hstage0_7 ((cfg0.slots t 7).cast nbuf0_7)
/-- The accumulator: a whole scoped buffer of the kernel's own. -/
abbrev scM : Memref sig .tc .vmem S1024x1024 .f32 := Memref.whole cc0_scratch0
/-- One staging buffer of the output window, through which its contents are stated. -/
abbrev VO7 : View sig .tc .vmem S1024x1024 .bf16 := (Memref.whole cc0_stg7_0 : Memref sig .tc .vmem S1024x1024 .bf16).view

/-- The body's run at point t: on the point's staging memrefs, the inputs at their blocks. -/
abbrev runAt (c : Dev nD) (t : Fin cfg0.N) := bodyRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) (iblk m c 6 t)

/-- What the body leaves in the output block's buffer at point t: its store's pieces read back. -/
def out7 (c : Dev nD) (t : Fin cfg0.N) : Vec F S1024x1024 .bf16 :=
  VO7.read (Elt F) (VO7.writes (Elt F) VO7.junk (runAt m c t).1)

/-- The store covers the whole block. -/
theorem cover7 (c : Dev nD) (t : Fin cfg0.N) (y : S1024x1024.Idx) : ∃ pc ∈ (runAt m c t).1, y ∈ pc.1.set :=
  View.cover_of_tiledL (runAt m c t).1 S1024x1024.size (by sl_kernel_rfl) y

/-- The proof data of the region on core c. -/
def dat (c : Dev nD) : Dat τ (Elt F) Unit ℕ (UR sig nD τ) ℕ cfg0 c where
  A w := Vin m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ _ := Pipeline.scopedRest spec0 c
  q _ := fullShare
  owed _ := 0

theorem A_eq (c : Dev nD) (w : Fin cfg0.W) : (dat m c).A w = Vin m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem after6 (c : Dev nD) (t : Fin cfg0.N) : (dat m c).after 6 t = iblk m c 6 t := by dsimp only [dat]
theorem after7 (c : Dev nD) (t : Fin cfg0.N) : (dat m c).after 7 t = out7 m c t := by dsimp only [dat]

/-- Each input's current staging buffer holds its block at every point, fetched there or not. -/
theorem before0 (c : Dev nD) (t : Fin cfg0.N) (d) : (dat m c).before 0 t d = iblk m c 0 t :=
  ((dat m c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dat m c).before 5 t d = iblk m c 5 t :=
  ((dat m c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dat m c).before 6 t d = iblk m c 6 t :=
  ((dat m c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-- No window is idle at any point: every point is a last reduction step. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-! ## The body obligation, at a generic point -/

/-- The invariant, opened at the accumulator: it at some contents, beside the other scoped buffers. -/
theorem Phi_eq (c : Dev nD) :
    (Pipeline.scopedRest (Ix := Unit) (Name := ℕ) (U := UR sig nD τ) (Lvl := ℕ) (Val := Elt F) spec0 c : sProp 𝕄)
      = iprop((∃ d, owns (c : Thread nD τ) scM fullShare d)
          ∗ Pipeline.scopedRestBut (Ix := Unit) (Name := ℕ) (U := UR sig nD τ) (Lvl := ℕ) (Val := Elt F) spec0 c [cc0_scratch0]) := by
  rw [scopedRest0_split]; simp only [scM, owns_whole]; try rfl

/-- What the body is called with at point t, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t)

set_option maxHeartbeats 4800000 in
/-- The body at any point: the inputs' memrefs hold their blocks; the run applies; the accumulator goes back into
    the invariant at whatever the body left in it, the output block's buffer at what its store wrote. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dat m c).owesAt () t.succ = (dat m c).owesAt () t.castSucc from rfl]
  rw [show (dat m c).Φ t.succ = Pipeline.scopedRest spec0 c from rfl, show (dat m c).Φ t.castSucc = Pipeline.scopedRest spec0 c from rfl, Phi_eq]
  rw [show (dat m c).leavesExact 0 t = owns (c : Thread nD τ) (ms0 t) fullShare ((dat m c).after 0 t) from by
    unfold Dat.leavesExact; rw [live0 t], after0]
  rw [show (dat m c).leavesExact 1 t = owns (c : Thread nD τ) (ms1 t) fullShare ((dat m c).after 1 t) from by
    unfold Dat.leavesExact; rw [live1 t], after1]
  rw [show (dat m c).leavesExact 2 t = owns (c : Thread nD τ) (ms2 t) fullShare ((dat m c).after 2 t) from by
    unfold Dat.leavesExact; rw [live2 t], after2]
  rw [show (dat m c).leavesExact 3 t = owns (c : Thread nD τ) (ms3 t) fullShare ((dat m c).after 3 t) from by
    unfold Dat.leavesExact; rw [live3 t], after3]
  rw [show (dat m c).leavesExact 4 t = owns (c : Thread nD τ) (ms4 t) fullShare ((dat m c).after 4 t) from by
    unfold Dat.leavesExact; rw [live4 t], after4]
  rw [show (dat m c).leavesExact 5 t = owns (c : Thread nD τ) (ms5 t) fullShare ((dat m c).after 5 t) from by
    unfold Dat.leavesExact; rw [live5 t], after5]
  rw [show (dat m c).leavesExact 6 t = owns (c : Thread nD τ) (ms6 t) fullShare ((dat m c).after 6 t) from by
    unfold Dat.leavesExact; rw [live6 t], after6]
  rw [show (dat m c).leavesExact 7 t = owns (c : Thread nD τ) (ms7 t) fullShare ((dat m c).after 7 t) from by
    unfold Dat.leavesExact; rw [live7 t], after7]
  iintro ⟨⟨⟨%ds, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexists _; iexact HS
  iintro ⟨H0, H1, H2, H3, H4, H5, H6, ⟨%e7, H7⟩, ⟨%es, HS⟩⟩
  isplitl [HS Hrest]
  · isplitl [HS]
    · iexists _; unfold owns; iexists _; isplitr
      swap; · iexact HS
      ipureintro; rfl
    iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold out7 owns; iexists _; isplitr
  swap; · iexact H7
  ipureintro; exact View.read_writes_of_cover _ _ _ _ _ (cover7 m c t)

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Layer1

end
-- ==== Proof.KLayer1Region.lean ====
/-
  Layer 1's region, as one segment of the program.

  Entered from the state the host's casts and reshapes leave: the region takes the eight arrays its windows stage
  (the bf16 input, the binarized weights, the five parameter rows, and the output array) out of the core's
  unscoped buffers, leaves the others aside untouched, and runs its 24 points. It needs nothing beyond the scoped
  buffers for its invariant and keeps no semaphore of its own. When it returns, the seven input arrays hold what
  they held at entry (a window that is only fetched never writes its array), the output array holds what the
  24 write-backs made of it, and the core's unscoped buffers are again held whole: at the entry contents, with
  the output array replaced by that final array.
-/
import proofs.«158226_j28930899706073_2_alg».proof.Proof.KLayer1Data
import proofs.«158226_j28930899706073_2_alg».proof.Proof.KRegionFamily

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Regions (fam DataOf Lv0 lv0 Rest)

variable {F : FTy → Type} [BitOps F]

local notation "𝕄" => MT nD τ sig Unit (Elt F) ℕ (UR sig nD τ) ℕ

variable (m : (ℓ : Loc nD τ sig) → Buf (Elt F) ℓ) (outs : Gen.Outs (F := F))
variable (d1 : DataOf (F := F) cfg1) (d2 : DataOf (F := F) cfg2) (d3 : DataOf (F := F) cfg3)

/-- The family with this region's data in its place, the other three arbitrary. -/
abbrev pd : (p : Fin 4) → (c : Dev nD) → Dat τ (Elt F) Unit ℕ (UR sig nD τ) ℕ (cfgs p) c := fam (dat m) d1 d2 d3

/-- The output array after the region: what the write-backs made of it. -/
abbrev finalOut (c : Dev nD) : Buf (Elt F) ((cfg0.win 7).arr.view.loc (c : Thread nD τ)) := (dat m c).arrAt 7 cfg0.N

/-- Every window's array after the region, read in the valuation the next item starts from: an input's array is as at
    entry, which the update of the output array does not touch; the output array is the update. -/
theorem final_eq (houts : ∀ c, outs 2 main_v12 c = finalOut m c) (c : Dev nD) (w : Fin cfg0.W) :
    (dat m c).arrAt w cfg0.N = Gen.V2 m outs c (Proc.devRef .tc (Pipeline.arrRef spec0 w)) := by
  have hin : ∀ w : Fin cfg0.W, (cfg0.win w).isOut = false → Pipeline.arrRef spec0 w ∉ ([main_v12] : List (Ref sig .tc)) →
      (dat m c).arrAt w cfg0.N = Gen.V2 m outs c (Proc.devRef .tc (Pipeline.arrRef spec0 w)) := fun w hw hne =>
    ((dat m c).arrAt_in w hw _).trans ((A_eq m c w).trans (Gen.V2_of m outs c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show finalOut m c = Function.update (Gen.V1 m c) (Proc.devRef .tc main_v12) (outs 2 main_v12 c) (Proc.devRef .tc main_v12)
    rw [Function.update_self]; exact (houts c).symm

-- an entailment stated over `cfgs p` at the pinned configuration unifies only when unification may unfold plain
-- definitions in a metavariable's type
set_option backward.isDefEq.respectTransparency.types false in
/-- The region as a segment: entered from the unscoped buffers at the contents the first host stretch leaves, left
    with them at those contents but the output array at `finalOut`. -/
def region (houts : ∀ c, outs 2 main_v12 c = finalOut m c) :
    Pipeline.RegionSeg (pcfgs (F := F)) Gen.adm (pd m d1 d2 d3) () defs₀ Variants.none Lv0 lv0 0 where
  win := launch0.win.to₀
  block_pos := launch0.block_pos
  stage_whole := launch0.stage_whole
  K := PEmpty
  osem := fun k => k.elim
  ho := Pipeline.OwnSemFacts.none _
  hbody c := (body_obligation m c).loose
  hwaits := Pipeline.hwaits_of_owed_zero _ _ _ _ Lv0 lv0 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m outs c) ∗ Rest c)
  X c := iprop(emp)
  Y c := iprop(emp)
  Z c := Pipeline.unscopedRest spec0 c (Vin m c)
  hentry c := by
    rw [show StableHlo.held (c : Thread nD τ) (Pipeline.ucRefs τ sig) (Gen.V1 m c) = unscopedBufs c (Vin m c) from (Pipeline.unscopedBufs_held c _).symm]
    have hsplit := Pipeline.arrays_of_unscopedBufs (p := 0) (pcfgs (F := F)) Gen.adm (pd m d1 d2 d3) launch0.win launch0.arr_whole c
      ((pd m d1 d2 d3 0 c).share_full fun _ => rfl) (Vin m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd m d1 d2 d3 0 c).Φ 0 = Pipeline.scopedRest spec0 c from rfl]
    iintro ⟨-, -, Hr⟩
    iexact Hr
  hout c := by
    rw [show (pd m d1 d2 d3 0 c).Φ (Fin.last _) = Pipeline.scopedRest spec0 c from rfl, Pipeline.ownSems0_none]
    iintro Hr
    isplitr; · iempintro
    isplitr; · iempintro
    iexact Hr
  hexit c := by
    rw [show StableHlo.held (c : Thread nD τ) (Pipeline.ucRefs τ sig) (Gen.V2 m outs c)
        = unscopedBufs c (fun b => Gen.V2 m outs c (Proc.devRef .tc b)) from (Pipeline.unscopedBufs_held c _).symm,
      Pipeline.unscopedBufs_split (Pipeline.pin (pcfgs (F := F)) Gen.adm) 0 launch0.win.arr_unscoped launch0.win.arr_inj c _,
      Pipeline.arrays_eq (Pipeline.pin (pcfgs (F := F)) Gen.adm) (pd m d1 d2 d3) 0 c launch0.arr_whole ((pd m d1 d2 d3 0 c).share_full fun _ => rfl)]
    have harr : (bigSep Finset.univ fun w : Fin cfg0.W => (((c : Thread nD τ).loc (Pipeline.arrRef spec0 w)) ↦{fullShare} (dat m c).arrAt w cfg0.N : sProp 𝕄))
        = bigSep Finset.univ fun w : Fin cfg0.W => (((c : Thread nD τ).loc (Pipeline.arrRef spec0 w)) ↦{fullShare} Gen.V2 m outs c (Proc.devRef .tc (Pipeline.arrRef spec0 w)) : sProp 𝕄) :=
      bigSep_congr fun w _ => by rw [final_eq m outs houts c w]
    have hrest : (Pipeline.unscopedRest spec0 c (fun b => Gen.V2 m outs c (Proc.devRef .tc b)) : sProp 𝕄) = Pipeline.unscopedRest spec0 c (Vin m c) := by
      unfold Pipeline.unscopedRest
      exact bigSep_congr fun b hb => by
        have hb' : b ∉ ([main_v12] : List (Ref sig .tc)) := fun h => (Finset.mem_sdiff.mp hb).2
          (Finset.mem_image.mpr ⟨7, Finset.mem_univ _, (List.mem_singleton.mp h).symm⟩)
        dsimp only
        rw [Gen.V2_of m outs c b hb']
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%W, -, HO⟩; iexists W; iexact HO

end Cert.Kernel.Layer1

end
-- ==== Proof.KLayer2Body.lean ====
/-
  Layer 2's kernel body at one grid point.

  Layer 2 contracts its 6144 input features in four blocks of 1536, so its reduction axis has four steps. At the
  first the accumulator is cleared before the block product is added to it; at the last the accumulated sum is
  batch-normalised and its sign written to the output block; at the two steps between, the block product is only
  added. Three runs of the body, one per case, each from the two matrix blocks and the five parameter rows staged
  whole: each leaves the seven inputs as they were and names, as the pieces its stores wrote, what it leaves in
  the accumulator (and, at the last step, in the output block's buffer; before that the output block's buffer is
  handed back untouched). Stated for any float values, so that it serves the word-level reading and the
  extended-real one alike.
-/
import proofs.«158226_j28930899706073_2_alg».proof.Proof.Gen.Kernel.Skeleton
import proofs.«158226_j28930899706073_2_alg».proof.Proof.Gen.Kernel.Launch
import proofs.«158226_j28930899706073_2_alg».proof.Proof.Gen.Kernel.Points
import Idealize.ShloMosaic.Lib.Tactic
import Idealize.ShloMosaic.Lib.Pipeline.Kit
import Idealize.ShloMosaic.Lib.Pipeline.Frame

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The reduction axis has four steps. -/
theorem axis2_cases (i : grid1.Coords) : (i 2).val = 0 ∨ (i 2).val = 1 ∨ (i 2).val = 2 ∨ (i 2).val = 3 := by
  have hlt : (i 2).val < 4 := (i 2).isLt
  omega

/-- The accumulator is reset exactly at the first step of the reduction, -/
theorem first_iff (i : grid1.Coords) :
    Scalar.cmpi .ne (Scalar.extui (Scalar.cmpi .eq (BitVec.ofNat 32 (i 2).val) 0#32)) 0#32 = 1#1 ↔ (i 2).val = 0 := by
  rcases axis2_cases i with h | h | h | h <;> rw [h] <;> decide

/-- and the block is normalised and written out exactly at the last. -/
theorem last_iff (i : grid1.Coords) : k1_cond2 i = 1#1 ↔ (i 2).val = 3 := by
  unfold k1_cond2
  rcases axis2_cases i with h | h | h | h <;> rw [h] <;> decide

theorem first_pos (i : grid1.Coords) (h : (i 2).val = 0) :
    Scalar.cmpi .ne (Scalar.extui (Scalar.cmpi .eq (BitVec.ofNat 32 (i 2).val) 0#32)) 0#32 = 1#1 := (first_iff i).2 h

theorem first_neg (i : grid1.Coords) (h : (i 2).val ≠ 0) :
    ¬ Scalar.cmpi .ne (Scalar.extui (Scalar.cmpi .eq (BitVec.ofNat 32 (i 2).val) 0#32)) 0#32 = 1#1 := fun hc => h ((first_iff i).1 hc)

theorem last_pos (i : grid1.Coords) (h : (i 2).val = 3) : k1_cond2 i = 1#1 := (last_iff i).2 h

theorem last_neg (i : grid1.Coords) (h : (i 2).val ≠ 3) : ¬ k1_cond2 i = 1#1 := fun hc => h ((last_iff i).1 hc)

set_option maxHeartbeats 4000000 in
/-- At a point that is the first step of its reduction but not the last, from the seven input blocks staged whole,
    the output block's buffer at any known contents and the accumulator at anything: the body runs to its return
    leaving the inputs and the output block's buffer as they were and, in the accumulator, the pieces its two
    stores wrote (the reset, then the block product added to it). -/
noncomputable def bodyRunFirst (c : Dev nD) (i : grid1.Coords) (h : (i 2).val = 0)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ (∃ d, owns (c : Thread nD τ) arg11 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__layer_kernel i arg3 harg3 arg4 harg4 arg5 harg5 arg6 harg6 arg7 harg7 arg8 harg8 arg9 harg9 arg10 harg10 arg11 harg11) K } := by
  refine ⟨?_, fun d7 E K => ?run⟩
  case run =>
    have hnl : (i 2).val ≠ 3 := by omega
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | sl_exact first_pos i h | sl_exact last_neg i hnl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is neither the first step of its reduction nor the last, from the seven input blocks staged
    whole, the output block's buffer at any known contents and the accumulator at known contents: the body runs to
    its return leaving the inputs and the output block's buffer as they were and, in the accumulator, the piece its
    one store wrote (the block product added to what the accumulator held). -/
noncomputable def bodyRunMiddle (c : Dev nD) (i : grid1.Coords) (h0 : (i 2).val ≠ 0) (h3 : (i 2).val ≠ 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__layer_kernel i arg3 harg3 arg4 harg4 arg5 harg5 arg6 harg6 arg7 harg7 arg8 harg8 arg9 harg9 arg10 harg10 arg11 harg11) K } := by
  refine ⟨?_, fun d7 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i h0 | sl_exact last_neg i h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is the last step of its reduction but not the first, from the seven input blocks staged whole,
    the accumulator at known contents and the output block's buffer at anything: the body runs to its return
    leaving the inputs as they were and, in the accumulator and in the output block's buffer, the pieces its
    stores wrote (the block product added to what the accumulator held; the normalised sum's image). -/
noncomputable def bodyRunLast (c : Dev nD) (i : grid1.Coords) (h : (i 2).val = 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    Σ' (L7 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ (∃ d, owns (c : Thread nD τ) arg10 fullShare d) ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__layer_kernel i arg3 harg3 arg4 harg4 arg5 harg5 arg6 harg6 arg7 harg7 arg8 harg8 arg9 harg9 arg10 harg10 arg11 harg11) K } := by
  refine ⟨?_, ?_, fun E K => ?run⟩
  case run =>
    have hnf : (i 2).val ≠ 0 := by omega
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i hnf | sl_exact last_pos i h)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; iexact HS0

end Cert.Kernel.Layer2

end
-- ==== Proof.KLayer2Data.lean ====
/-
  Layer 2's region: what each staging buffer and the accumulator hold, point by point.

  The region walks its 96 grid points (four row blocks by six column blocks by four reduction steps, the reduction
  axis innermost). At a point the two matrix windows and the five parameter windows hold the blocks of their arrays
  that the point's index selects, read off the arrays as the region finds them. The accumulator is CARRIED across
  the four steps of a reduction: cleared and filled at the first, added to at the two between, added to and read
  out at the last; so its contents after each point are defined by recursion on the point's position, each step
  over what the step before left, and the region's invariant names them. The output window's buffer is written
  only at a last step, by a store that covers the whole block; at the other points the window is idle, its buffer
  handed back untouched and not written back.
-/
import proofs.«158226_j28930899706073_2_alg».proof.Proof.KLayer2Body
import proofs.«158226_j28930899706073_2_alg».proof.Proof.Gen.Kernel.Regions
import Idealize.ShloMosaic.Lib.Pipeline.FrameBody
import Idealize.ShloMosaic.Lib.Ring
import Idealize.ShloMosaic.Lib.Writes

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- every core's unscoped buffers when the region is entered
variable (W : Dev nD → Valuation τ sig (Elt F))

/-- An array's contents when the region is entered. -/
abbrev Vin (c : Dev nD) (b : Ref sig .tc) : Buf (Elt F) ((c : Thread nD τ).loc b) := W c (Proc.devRef .tc b)

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vin W c (Pipeline.arrRef spec1 w))

/-- Each window's current staging memref at point t, and its wholeness. -/
abbrev ms0 (t : Fin cfg1.N) : Memref sig .tc .vmem S1024x1536 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1536 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x1024 .bf16 := win1_7.stage (cfg1.slots t 7)
abbrev hs7 (t : Fin cfg1.N) : (ms7 t).IsWhole := hstage1_7 ((cfg1.slots t 7).cast nbuf1_7)
/-- The accumulator: a whole scoped buffer of the kernel's own, and the view its contents are stated through. -/
abbrev scM : Memref sig .tc .vmem S1024x1024 .f32 := Memref.whole cc1_scratch0
abbrev VS : View sig .tc .vmem S1024x1024 .f32 := (scM : Memref sig .tc .vmem S1024x1024 .f32).view
/-- One staging buffer of the output window, through which its contents are stated. -/
abbrev VO7 : View sig .tc .vmem S1024x1024 .bf16 := (Memref.whole cc1_stg7_0 : Memref sig .tc .vmem S1024x1024 .bf16).view

/-! ## The reduction step of a point -/

/-- The grid is walked with the reduction axis innermost: point t is at reduction step t mod 4. -/
theorem axis2_mod : ∀ t : Fin cfg1.N, ((grid1.coords t) 2).val = t.val % 4 :=
  (by decide +kernel : ∀ t : Fin grid1.N, ((grid1.coords t) 2).val = t.val % 4)

/-- The output window is idle, and its block not written back, at every point but a last reduction step, -/
theorem idle7 : ∀ t : Fin cfg1.N, ¬t.val % 4 = 3 → cfg1.idle 7 (grid1.coords t) = true := by decide +kernel
theorem noFlush7 (t : Fin cfg1.N) (h : ¬t.val % 4 = 3) : (cfg1.win 7).flush t = false :=
  Bool.eq_false_iff.mpr fun hf => h ((flush1_7 t).mp hf)
/-- where it is live. -/
theorem live7 : ∀ t : Fin cfg1.N, t.val % 4 = 3 → cfg1.idle 7 (grid1.coords t) = false := by decide +kernel
/-- No input window is ever idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel

/-! ## The body's three runs at a point -/

/-- At a first reduction step: on the point's staging memrefs, the inputs at their blocks. -/
abbrev runFirst (c : Dev nD) (t : Fin cfg1.N) (h0 : t.val % 4 = 0) :=
  bodyRunFirst (F := F) c (grid1.coords t) ((axis2_mod t).trans h0) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t)
/-- At a step between: the same, the accumulator found at xs. -/
abbrev runMiddle (c : Dev nD) (t : Fin cfg1.N) (h0 : ¬t.val % 4 = 0) (h3 : ¬t.val % 4 = 3) (xs : Vec F S1024x1024 .f32) :=
  bodyRunMiddle (F := F) c (grid1.coords t) (fun h => h0 ((axis2_mod t).symm.trans h)) (fun h => h3 ((axis2_mod t).symm.trans h)) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs
/-- At a last step: the same. -/
abbrev runLast (c : Dev nD) (t : Fin cfg1.N) (h3 : t.val % 4 = 3) (xs : Vec F S1024x1024 .f32) :=
  bodyRunLast (F := F) c (grid1.coords t) ((axis2_mod t).trans h3) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs

/-- Each run's stores into the accumulator cover it, so what they leave there does not depend on what it held: -/
theorem coverFirst (c : Dev nD) (t : Fin cfg1.N) (h0 : t.val % 4 = 0) (y : S1024x1024.Idx) :
    ∃ pc ∈ (runFirst W c t h0).1, y ∈ pc.1.set :=
  View.cover_of_tiledL (runFirst W c t h0).1 S1024x1024.size (by sl_kernel_rfl) y
theorem coverMiddle (c : Dev nD) (t : Fin cfg1.N) (h0 : ¬t.val % 4 = 0) (h3 : ¬t.val % 4 = 3) (xs : Vec F S1024x1024 .f32) (y : S1024x1024.Idx) :
    ∃ pc ∈ (runMiddle W c t h0 h3 xs).1, y ∈ pc.1.set :=
  View.cover_of_tiledL (runMiddle W c t h0 h3 xs).1 S1024x1024.size (by sl_kernel_rfl) y
theorem coverAccLast (c : Dev nD) (t : Fin cfg1.N) (h3 : t.val % 4 = 3) (xs : Vec F S1024x1024 .f32) (y : S1024x1024.Idx) :
    ∃ pc ∈ (runLast W c t h3 xs).2.1, y ∈ pc.1.set :=
  View.cover_of_tiledL (runLast W c t h3 xs).2.1 S1024x1024.size (by sl_kernel_rfl) y
/-- and the last step's store into the output block covers the block. -/
theorem coverOutLast (c : Dev nD) (t : Fin cfg1.N) (h3 : t.val % 4 = 3) (xs : Vec F S1024x1024 .f32) (y : S1024x1024.Idx) :
    ∃ pc ∈ (runLast W c t h3 xs).1, y ∈ pc.1.set :=
  View.cover_of_tiledL (runLast W c t h3 xs).1 S1024x1024.size (by sl_kernel_rfl) y

/-- What each run leaves in the accumulator: its pieces read back. -/
def accFirst (c : Dev nD) (t : Fin cfg1.N) (h0 : t.val % 4 = 0) : Vec F S1024x1024 .f32 :=
  VS.read (Elt F) (VS.writes (Elt F) VS.junk (runFirst W c t h0).1)
def accMiddle (c : Dev nD) (t : Fin cfg1.N) (h0 : ¬t.val % 4 = 0) (h3 : ¬t.val % 4 = 3) (xs : Vec F S1024x1024 .f32) : Vec F S1024x1024 .f32 :=
  VS.read (Elt F) (VS.writes (Elt F) VS.junk (runMiddle W c t h0 h3 xs).1)
def accLast (c : Dev nD) (t : Fin cfg1.N) (h3 : t.val % 4 = 3) (xs : Vec F S1024x1024 .f32) : Vec F S1024x1024 .f32 :=
  VS.read (Elt F) (VS.writes (Elt F) VS.junk (runLast W c t h3 xs).2.1)
/-- What the last step leaves in the output block's buffer: its store's pieces read back. -/
def outLast (c : Dev nD) (t : Fin cfg1.N) (h3 : t.val % 4 = 3) (xs : Vec F S1024x1024 .f32) : Vec F S1024x1024 .bf16 :=
  VO7.read (Elt F) (VO7.writes (Elt F) VO7.junk (runLast W c t h3 xs).1)
/-- Before a last step nothing is stored into the output block's buffer; the window is idle there and its buffer
    neither written back nor named: a placeholder. -/
def outIdle : Vec F S1024x1024 .bf16 := VO7.read (Elt F) VO7.junk

/-! ## What the output block's buffer and the accumulator hold after each point -/

/-- THE ACCUMULATION. After the body at position n: at a first reduction step the accumulator holds the reset
    overwritten by the block product; at a later step what the step leaves over what the point before left in
    the accumulator; the output block's buffer is named only at a last step, where the normalised sum is stored. -/
def outsAt (c : Dev nD) : (n : ℕ) → n < cfg1.N → Vec F S1024x1024 .bf16 × Vec F S1024x1024 .f32
  | 0, hn => (outIdle, accFirst W c ⟨0, hn⟩ (Nat.zero_mod _))
  | n + 1, hn =>
    if h0 : (n + 1) % 4 = 0 then
      (outIdle, accFirst W c ⟨n + 1, hn⟩ h0)
    else
      if h3 : (n + 1) % 4 = 3 then
        (outLast W c ⟨n + 1, hn⟩ h3 (outsAt c n (Nat.lt_of_succ_lt hn)).2, accLast W c ⟨n + 1, hn⟩ h3 (outsAt c n (Nat.lt_of_succ_lt hn)).2)
      else
        (outIdle, accMiddle W c ⟨n + 1, hn⟩ h0 h3 (outsAt c n (Nat.lt_of_succ_lt hn)).2)

/-- At a first reduction step. -/
theorem outsAt_first (c : Dev nD) (t : Fin cfg1.N) (h0 : t.val % 4 = 0) :
    outsAt W c t.val t.isLt = (outIdle, accFirst W c t h0) := by
  obtain ⟨n, hn⟩ := t
  cases n with
  | zero => exact rfl
  | succ n => exact (dif_pos h0).trans rfl

/-- At a step between: over what the point before left. -/
theorem outsAt_middle (c : Dev nD) (t : Fin cfg1.N) (h0 : ¬t.val % 4 = 0) (h3 : ¬t.val % 4 = 3) :
    outsAt W c t.val t.isLt = (outIdle, accMiddle W c t h0 h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a last step: over what the point before left. -/
theorem outsAt_last (c : Dev nD) (t : Fin cfg1.N) (h0 : ¬t.val % 4 = 0) (h3 : t.val % 4 = 3) :
    outsAt W c t.val t.isLt = (outLast W c t h3 (outsAt W c (t.val - 1) (Nat.lt_of_le_of_lt (Nat.sub_le _ _) t.isLt)).2, accLast W c t h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The region's invariant -/

/-- Before position n: before the first point the scoped buffers the windows do not stage, at some contents; after
    a point, the accumulator at what that point left in it beside the others at some contents. -/
def PhiS (c : Dev nD) : (n : ℕ) → n ≤ cfg1.N → sProp 𝕄
  | 0, _ => Pipeline.scopedRest spec1 c
  | n + 1, hn => iprop(owns (c : Thread nD τ) scM fullShare (outsAt W c n hn).2
      ∗ Pipeline.scopedRestBut (Ix := Unit) (Name := ℕ) (U := UR sig nD τ) (Lvl := ℕ) (Val := Elt F) spec1 c [cc1_scratch0])

theorem PhiS_zero (c : Dev nD) (n : ℕ) (h : n ≤ cfg1.N) (hz : n = 0) : PhiS W c n h = Pipeline.scopedRest spec1 c := by
  subst hz; rfl

/-- After point n (before point n + 1): the accumulator at that point's contents. -/
theorem PhiS_succ (c : Dev nD) (n : ℕ) (hn : n < cfg1.N) :
    PhiS W c (n + 1) hn = iprop(owns (c : Thread nD τ) scM fullShare (outsAt W c n hn).2
      ∗ Pipeline.scopedRestBut (Ix := Unit) (Name := ℕ) (U := UR sig nD τ) (Lvl := ℕ) (Val := Elt F) spec1 c [cc1_scratch0]) := rfl

/-- Before a point that is not the first: the accumulator at what the point before left. -/
theorem PhiS_pos (c : Dev nD) (n : ℕ) (h : n ≤ cfg1.N) (hz : n ≠ 0) :
    PhiS W c n h = iprop(owns (c : Thread nD τ) scM fullShare (outsAt W c (n - 1) (by omega)).2
      ∗ Pipeline.scopedRestBut (Ix := Unit) (Name := ℕ) (U := UR sig nD τ) (Lvl := ℕ) (Val := Elt F) spec1 c [cc1_scratch0]) := by
  cases n with
  | zero => exact absurd rfl hz
  | succ n => rfl

/-- The scoped buffers the windows do not stage, opened at the accumulator: it at some contents, beside the others. -/
theorem Phi_eq (c : Dev nD) :
    (Pipeline.scopedRest (Ix := Unit) (Name := ℕ) (U := UR sig nD τ) (Lvl := ℕ) (Val := Elt F) spec1 c : sProp 𝕄)
      = iprop((∃ d, owns (c : Thread nD τ) scM fullShare d)
          ∗ Pipeline.scopedRestBut (Ix := Unit) (Name := ℕ) (U := UR sig nD τ) (Lvl := ℕ) (Val := Elt F) spec1 c [cc1_scratch0]) := by
  rw [scopedRest1_split]; simp only [scM, owns_whole]; try rfl

/-! ## The proof data -/

/-- The proof data of the region on core c: the arrays as the region finds them; after the body at point t each
    input's buffer at its block and the output's at the accumulation's first component; the invariant above;
    nothing owed; full shares. -/
def dat (c : Dev nD) : Dat τ (Elt F) Unit ℕ (UR sig nD τ) ℕ cfg1 c where
  A w := Vin W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
  Φ t := PhiS W c t.val (Nat.le_of_lt_succ t.isLt)
  q _ := fullShare
  owed _ := 0

theorem A_eq (c : Dev nD) (w : Fin cfg1.W) : (dat W c).A w = Vin W c (Pipeline.arrRef spec1 w) := by
  dsimp only [dat]

/-- The invariant at a point's start, restated at the point's position. -/
theorem PhiS_castSucc (c : Dev nD) (t : Fin cfg1.N) :
    (dat W c).Φ t.castSucc = PhiS W c t.val (Nat.le_of_lt t.isLt) := by
  dsimp only [dat]; simp only [Fin.coe_castSucc]

theorem after0 (c : Dev nD) (t : Fin cfg1.N) : (dat W c).after 0 t = iblk W c 0 t := by dsimp only [dat]
theorem after1 (c : Dev nD) (t : Fin cfg1.N) : (dat W c).after 1 t = iblk W c 1 t := by dsimp only [dat]
theorem after2 (c : Dev nD) (t : Fin cfg1.N) : (dat W c).after 2 t = iblk W c 2 t := by dsimp only [dat]
theorem after3 (c : Dev nD) (t : Fin cfg1.N) : (dat W c).after 3 t = iblk W c 3 t := by dsimp only [dat]
theorem after4 (c : Dev nD) (t : Fin cfg1.N) : (dat W c).after 4 t = iblk W c 4 t := by dsimp only [dat]
theorem after5 (c : Dev nD) (t : Fin cfg1.N) : (dat W c).after 5 t = iblk W c 5 t := by dsimp only [dat]
theorem after6 (c : Dev nD) (t : Fin cfg1.N) : (dat W c).after 6 t = iblk W c 6 t := by dsimp only [dat]
theorem after7 (c : Dev nD) (t : Fin cfg1.N) : (dat W c).after 7 t = (outsAt W c t.val t.isLt).1 := by dsimp only [dat]

/-- Each input's current staging buffer holds its block at every point, fetched there or not. -/
theorem before0 (c : Dev nD) (t : Fin cfg1.N) (d) : (dat W c).before 0 t d = iblk W c 0 t :=
  ((dat W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat W c).before 1 t d = iblk W c 1 t :=
  ((dat W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat W c).before 2 t d = iblk W c 2 t :=
  ((dat W c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg1.N) (d) : (dat W c).before 3 t d = iblk W c 3 t :=
  ((dat W c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg1.N) (d) : (dat W c).before 4 t d = iblk W c 4 t :=
  ((dat W c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg1.N) (d) : (dat W c).before 5 t d = iblk W c 5 t :=
  ((dat W c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg1.N) (d) : (dat W c).before 6 t d = iblk W c 6 t :=
  ((dat W c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d)))

/-- and what it returns. -/
def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t)

set_option maxHeartbeats 4800000 in
/-- The body at any point: the inputs' memrefs hold their blocks; the point's position says which reduction step
    it is at, hence which run applies; the invariant hands the body the accumulator at what the point before left
    (at anything before the first point) and takes it back at this point's contents, the stores covering it; the
    output block's buffer goes back untouched except at a last step, where it holds what the store wrote. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1, before2, before3, before4, before5, before6]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live0 t], after0]
  rw [show (dat W c).leavesExact 1 t = owns (c : Thread nD τ) (ms1 t) fullShare ((dat W c).after 1 t) from by
    unfold Dat.leavesExact; rw [live1 t], after1]
  rw [show (dat W c).leavesExact 2 t = owns (c : Thread nD τ) (ms2 t) fullShare ((dat W c).after 2 t) from by
    unfold Dat.leavesExact; rw [live2 t], after2]
  rw [show (dat W c).leavesExact 3 t = owns (c : Thread nD τ) (ms3 t) fullShare ((dat W c).after 3 t) from by
    unfold Dat.leavesExact; rw [live3 t], after3]
  rw [show (dat W c).leavesExact 4 t = owns (c : Thread nD τ) (ms4 t) fullShare ((dat W c).after 4 t) from by
    unfold Dat.leavesExact; rw [live4 t], after4]
  rw [show (dat W c).leavesExact 5 t = owns (c : Thread nD τ) (ms5 t) fullShare ((dat W c).after 5 t) from by
    unfold Dat.leavesExact; rw [live5 t], after5]
  rw [show (dat W c).leavesExact 6 t = owns (c : Thread nD τ) (ms6 t) fullShare ((dat W c).after 6 t) from by
    unfold Dat.leavesExact; rw [live6 t], after6]
  have hN : t.val < 96 := lt_of_lt_of_eq t.isLt (show cfg1.N = 96 from N_1)
  by_cases h0 : t.val % 4 = 0
  · have h3 : ¬t.val % 4 = 3 := by omega
    rw [Dat.leavesExact_idle (dat W c) 7 t (idle7 t h3) (noFlush7 t h3)]
    rw [outsAt_first W c t h0]
    unfold accFirst; (try dsimp only)
    by_cases hz : t.val = 0
    · rw [PhiS_castSucc W c t, PhiS_zero W c _ _ hz, Phi_eq]
      iintro ⟨⟨⟨%ds, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · by_cases h3 : t.val % 4 = 3
    · rw [show (dat W c).leavesExact 7 t = owns (c : Thread nD τ) (ms7 t) fullShare ((dat W c).after 7 t) from by
        unfold Dat.leavesExact; rw [live7 t h3], after7]
      rw [outsAt_last W c t h0 h3]
      unfold outLast accLast; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast W c t h3 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest]
      · isplitl [HS]
        · unfold owns; iexists _; isplitr
          swap; · iexact HS
          ipureintro; exact View.read_writes_of_cover _ _ _ _ _ (coverAccLast W c t h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverOutLast W c t h3 _)
    · rw [Dat.leavesExact_idle (dat W c) 7 t (idle7 t h3) (noFlush7 t h3)]
      rw [outsAt_middle W c t h0 h3]
      unfold accMiddle; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle W c t h0 h3 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverMiddle W c t h0 h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) W c) (defs₀ (F := F)) Variants.none () Set.univ := fun t => by
  rw [bigSep_W1, bigSep_W1]
  exact sound_body W c t

end Cert.Kernel.Layer2

end
-- ==== Proof.KLayer2Region.lean ====
/-
  Layer 2's region, as one segment of the program.

  Entered from any state of the core's unscoped buffers: the region takes the eight arrays its windows stage (the
  bf16 activations, the binarized weights, the five parameter rows, and the output array) out of them, leaves the
  others aside untouched, and runs its 96 points. Its invariant names what the accumulator holds between points and
  forgets it at the end; the region keeps no semaphore of its own. When it returns, the seven input arrays hold
  what they held at entry (a window that is only fetched never writes its array), the output array holds what the
  24 write-backs made of it, and the core's unscoped buffers are again held whole: at the entry contents, with the
  output array replaced by that final array.
-/
import proofs.«158226_j28930899706073_2_alg».proof.Proof.KLayer2Data
import proofs.«158226_j28930899706073_2_alg».proof.Proof.KRegionFamily

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Regions (fam DataOf Lv0 lv0 Rest)

variable {F : FTy → Type} [BitOps F]

local notation "𝕄" => MT nD τ sig Unit (Elt F) ℕ (UR sig nD τ) ℕ

variable (W : Dev nD → Valuation τ sig (Elt F))
variable (d0 : DataOf (F := F) cfg0) (d2 : DataOf (F := F) cfg2) (d3 : DataOf (F := F) cfg3)

/-- The family with this region's data in its place, the other three arbitrary. -/
abbrev pd : (p : Fin 4) → (c : Dev nD) → Dat τ (Elt F) Unit ℕ (UR sig nD τ) ℕ (cfgs p) c := fam d0 (dat W) d2 d3

/-- The output array after the region: what the write-backs made of it. -/
abbrev finalOut (c : Dev nD) : Buf (Elt F) ((cfg1.win 7).arr.view.loc (c : Thread nD τ)) := (dat W c).arrAt 7 cfg1.N

/-- The unscoped buffers after the region: as at entry, the output array replaced by its final contents. -/
abbrev Vout (c : Dev nD) : Valuation τ sig (Elt F) := Function.update (W c) (Proc.devRef .tc main_v18) (finalOut W c)

/-- Any other array is as at entry. -/
theorem Vout_of (c : Dev nD) (b : Ref sig .tc) (h : b ≠ main_v18) : Vout W c (Proc.devRef .tc b) = W c (Proc.devRef .tc b) := by
  simp only [Vout, Function.update_of_ne (StableHlo.devRef_ne_of_ne h : (Proc.devRef .tc b : DevRef τ sig) ≠ Proc.devRef .tc main_v18)]

/-- Every window's array after the region, read in the valuation the next item starts from: an input's array is as at
    entry, which the update of the output array does not touch; the output array is the update. -/
theorem final_eq (c : Dev nD) (w : Fin cfg1.W) :
    (dat W c).arrAt w cfg1.N = Vout W c (Proc.devRef .tc (Pipeline.arrRef spec1 w)) := by
  have hin : ∀ w : Fin cfg1.W, (cfg1.win w).isOut = false → Pipeline.arrRef spec1 w ≠ main_v18 →
      (dat W c).arrAt w cfg1.N = Vout W c (Proc.devRef .tc (Pipeline.arrRef spec1 w)) := fun w hw hne =>
    ((dat W c).arrAt_in w hw _).trans ((A_eq W c w).trans (Vout_of W c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show finalOut W c = Function.update (W c) (Proc.devRef .tc main_v18) (finalOut W c) (Proc.devRef .tc main_v18)
    rw [Function.update_self]

/-- What the launch hands the region is the invariant before the first point. -/
theorem Phi_first (c : Dev nD) : (Pipeline.scopedRest spec1 c : sProp 𝕄) ⊢ (dat W c).Φ 0 := by
  rw [show (dat W c).Φ 0 = PhiS W c 0 (Nat.zero_le _) from rfl, PhiS_zero W c 0 _ rfl]
  try exact Idealize.SL.BI.Entails.refl _

/-- After any point the invariant gives the scoped buffers back: the accumulator's named contents are forgotten. -/
theorem Phi_out (c : Dev nD) (t : Fin (cfg1.N + 1)) (ht : t.val ≠ 0) : (dat W c).Φ t ⊢ (Pipeline.scopedRest spec1 c : sProp 𝕄) := by
  rw [show (dat W c).Φ t = PhiS W c t.val (Nat.le_of_lt_succ t.isLt) from rfl, PhiS_pos W c _ _ ht, Phi_eq]
  iintro ⟨HS, Hrest⟩
  isplitl [HS]
  · iexists _; iexact HS
  iexact Hrest

/-- The same after the last point. -/
theorem Phi_last (c : Dev nD) : (dat W c).Φ (Fin.last cfg1.N) ⊢ (Pipeline.scopedRest spec1 c : sProp 𝕄) :=
  Phi_out W c _ (by rw [Fin.val_last]; have : cfg1.N = 96 := N_1; omega)

-- an entailment stated over `cfgs p` at the pinned configuration unifies only when unification may unfold plain
-- definitions in a metavariable's type
set_option backward.isDefEq.respectTransparency.types false in
/-- The region as a segment: entered from the unscoped buffers at the contents W, left with them at those contents
    but the output array at `finalOut`. -/
def region :
    Pipeline.RegionSeg (pcfgs (F := F)) Gen.adm (pd W d0 d2 d3) () defs₀ Variants.none Lv0 lv0 1 where
  win := launch1.win.to₀
  block_pos := launch1.block_pos
  stage_whole := launch1.stage_whole
  K := PEmpty
  osem := fun k => k.elim
  ho := Pipeline.OwnSemFacts.none _
  hbody c := (body_obligation W c).loose
  hwaits := Pipeline.hwaits_of_owed_zero _ _ _ _ Lv0 lv0 1 fun _ _ => rfl
  pre c := iprop(StableHlo.held (c : Thread nD τ) (Pipeline.ucRefs τ sig) (W c) ∗ Rest c)
  post c := iprop(StableHlo.held (c : Thread nD τ) (Pipeline.ucRefs τ sig) (Function.update (W c) (Proc.devRef .tc main_v18) (finalOut W c)) ∗ Rest c)
  X c := iprop(emp)
  Y c := iprop(emp)
  Z c := Pipeline.unscopedRest spec1 c (Vin W c)
  hentry c := by
    rw [show StableHlo.held (c : Thread nD τ) (Pipeline.ucRefs τ sig) (W c) = unscopedBufs c (Vin W c) from (Pipeline.unscopedBufs_held c _).symm]
    have hsplit := Pipeline.arrays_of_unscopedBufs (p := 1) (pcfgs (F := F)) Gen.adm (pd W d0 d2 d3) launch1.win launch1.arr_whole c
      ((pd W d0 d2 d3 1 c).share_full fun _ => rfl) (Vin W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    iexact Hrest
  hin c := by
    rw [show (pd W d0 d2 d3 1 c).Φ 0 = (dat W c).Φ 0 from rfl]
    iintro ⟨-, -, Hr⟩
    iapply (Phi_first W c)
    iexact Hr
  hout c := by
    rw [show (pd W d0 d2 d3 1 c).Φ (Fin.last _) = (dat W c).Φ (Fin.last cfg1.N) from rfl, Pipeline.ownSems0_none]
    iintro Hr
    isplitr; · iempintro
    isplitr; · iempintro
    iapply (Phi_last W c)
    iexact Hr
  hexit c := by
    rw [show StableHlo.held (c : Thread nD τ) (Pipeline.ucRefs τ sig) (Function.update (W c) (Proc.devRef .tc main_v18) (finalOut W c))
        = unscopedBufs c (fun b => Vout W c (Proc.devRef .tc b)) from (Pipeline.unscopedBufs_held c _).symm,
      Pipeline.unscopedBufs_split (Pipeline.pin (pcfgs (F := F)) Gen.adm) 1 launch1.win.arr_unscoped launch1.win.arr_inj c _,
      Pipeline.arrays_eq (Pipeline.pin (pcfgs (F := F)) Gen.adm) (pd W d0 d2 d3) 1 c launch1.arr_whole ((pd W d0 d2 d3 1 c).share_full fun _ => rfl)]
    have harr : (bigSep Finset.univ fun w : Fin cfg1.W => (((c : Thread nD τ).loc (Pipeline.arrRef spec1 w)) ↦{fullShare} (dat W c).arrAt w cfg1.N : sProp 𝕄))
        = bigSep Finset.univ fun w : Fin cfg1.W => (((c : Thread nD τ).loc (Pipeline.arrRef spec1 w)) ↦{fullShare} Vout W c (Proc.devRef .tc (Pipeline.arrRef spec1 w)) : sProp 𝕄) :=
      bigSep_congr fun w _ => by rw [final_eq W c w]
    have hrest : (Pipeline.unscopedRest spec1 c (fun b => Vout W c (Proc.devRef .tc b)) : sProp 𝕄) = Pipeline.unscopedRest spec1 c (Vin W c) := by
      unfold Pipeline.unscopedRest
      exact bigSep_congr fun b hb => by
        have hb' : b ≠ main_v18 := fun h => (Finset.mem_sdiff.mp hb).2
          (Finset.mem_image.mpr ⟨7, Finset.mem_univ _, h.symm⟩)
        dsimp only
        rw [Vout_of W c b hb']
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%W', -, HO⟩; iexists W'; iexact HO

end Cert.Kernel.Layer2

end
-- ==== Proof.KLayer3Body.lean ====
/-
  Layer 3's kernel body at one grid point.

  Layer 3 contracts its 6144 input features in four blocks of 1536, so its reduction axis has four steps. At the
  first the accumulator is cleared before the block product is added to it; at the last the accumulated sum is
  batch-normalised, clamped to [-1, 1] and written to the output block; at the two steps between, the block product
  is only added. Three runs of the body, one per case, each from the two matrix blocks and the five parameter rows
  staged whole: each leaves the seven inputs as they were and names, as the pieces its stores wrote, what it leaves
  in the accumulator (and, at the last step, in the output block's buffer; before that the output block's buffer is
  handed back untouched). Stated for any float values, so that it serves the word-level reading and the
  extended-real one alike.
-/
import proofs.«158226_j28930899706073_2_alg».proof.Proof.Gen.Kernel.Skeleton
import proofs.«158226_j28930899706073_2_alg».proof.Proof.Gen.Kernel.Launch
import proofs.«158226_j28930899706073_2_alg».proof.Proof.Gen.Kernel.Points
import Idealize.ShloMosaic.Lib.Tactic
import Idealize.ShloMosaic.Lib.Pipeline.Kit
import Idealize.ShloMosaic.Lib.Pipeline.Frame

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The reduction axis has four steps. -/
theorem axis2_cases (i : grid2.Coords) : (i 2).val = 0 ∨ (i 2).val = 1 ∨ (i 2).val = 2 ∨ (i 2).val = 3 := by
  have hlt : (i 2).val < 4 := (i 2).isLt
  omega

/-- The accumulator is reset exactly at the first step of the reduction, -/
theorem first_iff (i : grid2.Coords) :
    Scalar.cmpi .ne (Scalar.extui (Scalar.cmpi .eq (BitVec.ofNat 32 (i 2).val) 0#32)) 0#32 = 1#1 ↔ (i 2).val = 0 := by
  rcases axis2_cases i with h | h | h | h <;> rw [h] <;> decide

/-- and the block is normalised and written out exactly at the last. -/
theorem last_iff (i : grid2.Coords) : k2_cond2 i = 1#1 ↔ (i 2).val = 3 := by
  unfold k2_cond2
  rcases axis2_cases i with h | h | h | h <;> rw [h] <;> decide

theorem first_pos (i : grid2.Coords) (h : (i 2).val = 0) :
    Scalar.cmpi .ne (Scalar.extui (Scalar.cmpi .eq (BitVec.ofNat 32 (i 2).val) 0#32)) 0#32 = 1#1 := (first_iff i).2 h

theorem first_neg (i : grid2.Coords) (h : (i 2).val ≠ 0) :
    ¬ Scalar.cmpi .ne (Scalar.extui (Scalar.cmpi .eq (BitVec.ofNat 32 (i 2).val) 0#32)) 0#32 = 1#1 := fun hc => h ((first_iff i).1 hc)

theorem last_pos (i : grid2.Coords) (h : (i 2).val = 3) : k2_cond2 i = 1#1 := (last_iff i).2 h

theorem last_neg (i : grid2.Coords) (h : (i 2).val ≠ 3) : ¬ k2_cond2 i = 1#1 := fun hc => h ((last_iff i).1 hc)

set_option maxHeartbeats 4000000 in
/-- At a point that is the first step of its reduction but not the last, from the seven input blocks staged whole,
    the output block's buffer at any known contents and the accumulator at anything: the body runs to its return
    leaving the inputs and the output block's buffer as they were and, in the accumulator, the pieces its two
    stores wrote (the reset, then the block product added to it). -/
noncomputable def bodyRunFirst (c : Dev nD) (i : grid2.Coords) (h : (i 2).val = 0)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ (∃ d, owns (c : Thread nD τ) arg11 fullShare d)
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc2__layer_kernel i arg3 harg3 arg4 harg4 arg5 harg5 arg6 harg6 arg7 harg7 arg8 harg8 arg9 harg9 arg10 harg10 arg11 harg11) K } := by
  refine ⟨?_, fun d7 E K => ?run⟩
  case run =>
    have hnl : (i 2).val ≠ 3 := by omega
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | sl_exact first_pos i h | sl_exact last_neg i hnl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is neither the first step of its reduction nor the last, from the seven input blocks staged
    whole, the output block's buffer at any known contents and the accumulator at known contents: the body runs to
    its return leaving the inputs and the output block's buffer as they were and, in the accumulator, the piece its
    one store wrote (the block product added to what the accumulator held). -/
noncomputable def bodyRunMiddle (c : Dev nD) (i : grid2.Coords) (h0 : (i 2).val ≠ 0) (h3 : (i 2).val ≠ 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    { LS0 : List (View.Piece (Elt F) S1024x1024 .f32) //
      ∀ (d7 : Vec F S1024x1024 .bf16) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ owns (c : Thread nD τ) arg10 fullShare d7 ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ owns (c : Thread nD τ) arg10 fullShare d7
                ∗ (∃ f, arg11.view.loc (c : Thread nD τ) ↦[arg11.view.set]{fullShare} arg11.view.writes (Elt F) f LS0)) -∗ K ⟨⟩))
          ⊢ wp frame (wpE (defs₀ (F := F)) Variants.none c none) E
              (cc2__layer_kernel i arg3 harg3 arg4 harg4 arg5 harg5 arg6 harg6 arg7 harg7 arg8 harg8 arg9 harg9 arg10 harg10 arg11 harg11) K } := by
  refine ⟨?_, fun d7 E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i h0 | sl_exact last_neg i h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact hf7
      iexact H7
    iexists _; iexact HS0

set_option maxHeartbeats 4000000 in
/-- At a point that is the last step of its reduction but not the first, from the seven input blocks staged whole,
    the accumulator at known contents and the output block's buffer at anything: the body runs to its return
    leaving the inputs as they were and, in the accumulator and in the output block's buffer, the pieces its
    stores wrote (the block product added to what the accumulator held; the normalised sum's image). -/
noncomputable def bodyRunLast (c : Dev nD) (i : grid2.Coords) (h : (i 2).val = 3)
    (arg3 : Memref sig .tc .vmem S1024x1536 .bf16) (harg3 : arg3.IsWhole) (arg4 : Memref sig .tc .vmem S1024x1536 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1024x1024 .bf16) (harg10 : arg10.IsWhole)
    (arg11 : Memref sig .tc .vmem S1024x1024 .f32) (harg11 : arg11.IsWhole)
    (x0 x1 : Vec F S1024x1536 .bf16) (x2 x3 x4 x5 x6 : Vec F S1x1024 .f32)
    (xs : Vec F S1024x1024 .f32) :
    Σ' (L7 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4 ∗ owns (c : Thread nD τ) arg8 fullShare x5
            ∗ owns (c : Thread nD τ) arg9 fullShare x6
            ∗ (∃ d, owns (c : Thread nD τ) arg10 fullShare d) ∗ owns (c : Thread nD τ) arg11 fullShare xs
            ∗ (iprop(owns (c : Thread nD τ) arg3 fullShare x0 ∗ owns (c : Thread nD τ) arg4 fullShare x1
                ∗ owns (c : Thread nD τ) arg5 fullShare x2 ∗ owns (c : Thread nD τ) arg6 fullShare x3
                ∗ owns (c : Thread nD τ) arg7 fullShare x4 ∗ owns (c : Thread nD τ) arg8 fullShare x5
                ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)) -∗ K ⟨⟩))
          ⊢ wp frame (wpE (defs₀ (F := F)) Variants.none c none) E
              (cc2__layer_kernel i arg3 harg3 arg4 harg4 arg5 harg5 arg6 harg6 arg7 harg7 arg8 harg8 arg9 harg9 arg10 harg10 arg11 harg11) K } := by
  refine ⟨?_, ?_, fun E K => ?run⟩
  case run =>
    have hnf : (i 2).val ≠ 0 := by omega
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg11.eq_unread hfs0
    sl_exec (disch := first | sl_exact first_neg i hnf | sl_exact last_pos i h)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; iexact HS0

end Cert.Kernel.Layer3

end
-- ==== Proof.KLayer3Data.lean ====
/-
  Layer 3's region: what each staging buffer and the accumulator hold, point by point.

  The region walks its 96 grid points (four row blocks by six column blocks by four reduction steps, the reduction
  axis innermost). At a point the two matrix windows and the five parameter windows hold the blocks of their arrays
  that the point's index selects, read off the arrays as the region finds them. The accumulator is CARRIED across
  the four steps of a reduction: cleared and filled at the first, added to at the two between, added to and read
  out at the last; so its contents after each point are defined by recursion on the point's position, each step
  over what the step before left, and the region's invariant names them. The output window's buffer is written
  only at a last step, by a store that covers the whole block; at the other points the window is idle, its buffer
  handed back untouched and not written back.
-/
import proofs.«158226_j28930899706073_2_alg».proof.Proof.KLayer3Body
import proofs.«158226_j28930899706073_2_alg».proof.Proof.Gen.Kernel.Regions
import Idealize.ShloMosaic.Lib.Pipeline.FrameBody
import Idealize.ShloMosaic.Lib.Ring
import Idealize.ShloMosaic.Lib.Writes

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- every core's unscoped buffers when the region is entered
variable (W : Dev nD → Valuation τ sig (Elt F))

/-- An array's contents when the region is entered. -/
abbrev Vin (c : Dev nD) (b : Ref sig .tc) : Buf (Elt F) ((c : Thread nD τ).loc b) := W c (Proc.devRef .tc b)

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (Vin W c (Pipeline.arrRef spec2 w))

/-- Each window's current staging memref at point t, and its wholeness. -/
abbrev ms0 (t : Fin cfg2.N) : Memref sig .tc .vmem S1024x1536 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1536 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1024 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x1024 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1024x1024 .bf16 := win2_7.stage (cfg2.slots t 7)
abbrev hs7 (t : Fin cfg2.N) : (ms7 t).IsWhole := hstage2_7 ((cfg2.slots t 7).cast nbuf2_7)
/-- The accumulator: a whole scoped buffer of the kernel's own, and the view its contents are stated through. -/
abbrev scM : Memref sig .tc .vmem S1024x1024 .f32 := Memref.whole cc2_scratch0
abbrev VS : View sig .tc .vmem S1024x1024 .f32 := (scM : Memref sig .tc .vmem S1024x1024 .f32).view
/-- One staging buffer of the output window, through which its contents are stated. -/
abbrev VO7 : View sig .tc .vmem S1024x1024 .bf16 := (Memref.whole cc2_stg7_0 : Memref sig .tc .vmem S1024x1024 .bf16).view

/-! ## The reduction step of a point -/

/-- The grid is walked with the reduction axis innermost: point t is at reduction step t mod 4. -/
theorem axis2_mod : ∀ t : Fin cfg2.N, ((grid2.coords t) 2).val = t.val % 4 :=
  (by decide +kernel : ∀ t : Fin grid2.N, ((grid2.coords t) 2).val = t.val % 4)

/-- The output window is idle, and its block not written back, at every point but a last reduction step, -/
theorem idle7 : ∀ t : Fin cfg2.N, ¬t.val % 4 = 3 → cfg2.idle 7 (grid2.coords t) = true := by decide +kernel
theorem noFlush7 (t : Fin cfg2.N) (h : ¬t.val % 4 = 3) : (cfg2.win 7).flush t = false :=
  Bool.eq_false_iff.mpr fun hf => h ((flush2_7 t).mp hf)
/-- where it is live. -/
theorem live7 : ∀ t : Fin cfg2.N, t.val % 4 = 3 → cfg2.idle 7 (grid2.coords t) = false := by decide +kernel
/-- No input window is ever idle. -/
theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem live4 : ∀ t : Fin cfg2.N, cfg2.idle 4 (grid2.coords t) = false := by decide +kernel
theorem live5 : ∀ t : Fin cfg2.N, cfg2.idle 5 (grid2.coords t) = false := by decide +kernel
theorem live6 : ∀ t : Fin cfg2.N, cfg2.idle 6 (grid2.coords t) = false := by decide +kernel

/-! ## The body's three runs at a point -/

/-- At a first reduction step: on the point's staging memrefs, the inputs at their blocks. -/
abbrev runFirst (c : Dev nD) (t : Fin cfg2.N) (h0 : t.val % 4 = 0) :=
  bodyRunFirst (F := F) c (grid2.coords t) ((axis2_mod t).trans h0) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t)
/-- At a step between: the same, the accumulator found at xs. -/
abbrev runMiddle (c : Dev nD) (t : Fin cfg2.N) (h0 : ¬t.val % 4 = 0) (h3 : ¬t.val % 4 = 3) (xs : Vec F S1024x1024 .f32) :=
  bodyRunMiddle (F := F) c (grid2.coords t) (fun h => h0 ((axis2_mod t).symm.trans h)) (fun h => h3 ((axis2_mod t).symm.trans h)) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs
/-- At a last step: the same. -/
abbrev runLast (c : Dev nD) (t : Fin cfg2.N) (h3 : t.val % 4 = 3) (xs : Vec F S1024x1024 .f32) :=
  bodyRunLast (F := F) c (grid2.coords t) ((axis2_mod t).trans h3) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk W c 0 t) (iblk W c 1 t) (iblk W c 2 t) (iblk W c 3 t) (iblk W c 4 t) (iblk W c 5 t) (iblk W c 6 t) xs

/-- Each run's stores into the accumulator cover it, so what they leave there does not depend on what it held: -/
theorem coverFirst (c : Dev nD) (t : Fin cfg2.N) (h0 : t.val % 4 = 0) (y : S1024x1024.Idx) :
    ∃ pc ∈ (runFirst W c t h0).1, y ∈ pc.1.set :=
  View.cover_of_tiledL (runFirst W c t h0).1 S1024x1024.size (by sl_kernel_rfl) y
theorem coverMiddle (c : Dev nD) (t : Fin cfg2.N) (h0 : ¬t.val % 4 = 0) (h3 : ¬t.val % 4 = 3) (xs : Vec F S1024x1024 .f32) (y : S1024x1024.Idx) :
    ∃ pc ∈ (runMiddle W c t h0 h3 xs).1, y ∈ pc.1.set :=
  View.cover_of_tiledL (runMiddle W c t h0 h3 xs).1 S1024x1024.size (by sl_kernel_rfl) y
theorem coverAccLast (c : Dev nD) (t : Fin cfg2.N) (h3 : t.val % 4 = 3) (xs : Vec F S1024x1024 .f32) (y : S1024x1024.Idx) :
    ∃ pc ∈ (runLast W c t h3 xs).2.1, y ∈ pc.1.set :=
  View.cover_of_tiledL (runLast W c t h3 xs).2.1 S1024x1024.size (by sl_kernel_rfl) y
/-- and the last step's store into the output block covers the block. -/
theorem coverOutLast (c : Dev nD) (t : Fin cfg2.N) (h3 : t.val % 4 = 3) (xs : Vec F S1024x1024 .f32) (y : S1024x1024.Idx) :
    ∃ pc ∈ (runLast W c t h3 xs).1, y ∈ pc.1.set :=
  View.cover_of_tiledL (runLast W c t h3 xs).1 S1024x1024.size (by sl_kernel_rfl) y

/-- What each run leaves in the accumulator: its pieces read back. -/
def accFirst (c : Dev nD) (t : Fin cfg2.N) (h0 : t.val % 4 = 0) : Vec F S1024x1024 .f32 :=
  VS.read (Elt F) (VS.writes (Elt F) VS.junk (runFirst W c t h0).1)
def accMiddle (c : Dev nD) (t : Fin cfg2.N) (h0 : ¬t.val % 4 = 0) (h3 : ¬t.val % 4 = 3) (xs : Vec F S1024x1024 .f32) : Vec F S1024x1024 .f32 :=
  VS.read (Elt F) (VS.writes (Elt F) VS.junk (runMiddle W c t h0 h3 xs).1)
def accLast (c : Dev nD) (t : Fin cfg2.N) (h3 : t.val % 4 = 3) (xs : Vec F S1024x1024 .f32) : Vec F S1024x1024 .f32 :=
  VS.read (Elt F) (VS.writes (Elt F) VS.junk (runLast W c t h3 xs).2.1)
/-- What the last step leaves in the output block's buffer: its store's pieces read back. -/
def outLast (c : Dev nD) (t : Fin cfg2.N) (h3 : t.val % 4 = 3) (xs : Vec F S1024x1024 .f32) : Vec F S1024x1024 .bf16 :=
  VO7.read (Elt F) (VO7.writes (Elt F) VO7.junk (runLast W c t h3 xs).1)
/-- Before a last step nothing is stored into the output block's buffer; the window is idle there and its buffer
    neither written back nor named: a placeholder. -/
def outIdle : Vec F S1024x1024 .bf16 := VO7.read (Elt F) VO7.junk

/-! ## What the output block's buffer and the accumulator hold after each point -/

/-- THE ACCUMULATION. After the body at position n: at a first reduction step the accumulator holds the reset
    overwritten by the block product; at a later step what the step leaves over what the point before left in
    the accumulator; the output block's buffer is named only at a last step, where the normalised sum is stored. -/
def outsAt (c : Dev nD) : (n : ℕ) → n < cfg2.N → Vec F S1024x1024 .bf16 × Vec F S1024x1024 .f32
  | 0, hn => (outIdle, accFirst W c ⟨0, hn⟩ (Nat.zero_mod _))
  | n + 1, hn =>
    if h0 : (n + 1) % 4 = 0 then
      (outIdle, accFirst W c ⟨n + 1, hn⟩ h0)
    else
      if h3 : (n + 1) % 4 = 3 then
        (outLast W c ⟨n + 1, hn⟩ h3 (outsAt c n (Nat.lt_of_succ_lt hn)).2, accLast W c ⟨n + 1, hn⟩ h3 (outsAt c n (Nat.lt_of_succ_lt hn)).2)
      else
        (outIdle, accMiddle W c ⟨n + 1, hn⟩ h0 h3 (outsAt c n (Nat.lt_of_succ_lt hn)).2)

/-- At a first reduction step. -/
theorem outsAt_first (c : Dev nD) (t : Fin cfg2.N) (h0 : t.val % 4 = 0) :
    outsAt W c t.val t.isLt = (outIdle, accFirst W c t h0) := by
  obtain ⟨n, hn⟩ := t
  cases n with
  | zero => exact rfl
  | succ n => exact (dif_pos h0).trans rfl

/-- At a step between: over what the point before left. -/
theorem outsAt_middle (c : Dev nD) (t : Fin cfg2.N) (h0 : ¬t.val % 4 = 0) (h3 : ¬t.val % 4 = 3) :
    outsAt W c t.val t.isLt = (outIdle, accMiddle W c t h0 h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

/-- At a last step: over what the point before left. -/
theorem outsAt_last (c : Dev nD) (t : Fin cfg2.N) (h0 : ¬t.val % 4 = 0) (h3 : t.val % 4 = 3) :
    outsAt W c t.val t.isLt = (outLast W c t h3 (outsAt W c (t.val - 1) (Nat.lt_of_le_of_lt (Nat.sub_le _ _) t.isLt)).2, accLast W c t h3 (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The region's invariant -/

/-- Before position n: before the first point the scoped buffers the windows do not stage, at some contents; after
    a point, the accumulator at what that point left in it beside the others at some contents. -/
def PhiS (c : Dev nD) : (n : ℕ) → n ≤ cfg2.N → sProp 𝕄
  | 0, _ => Pipeline.scopedRest spec2 c
  | n + 1, hn => iprop(owns (c : Thread nD τ) scM fullShare (outsAt W c n hn).2
      ∗ Pipeline.scopedRestBut (Ix := Unit) (Name := ℕ) (U := UR sig nD τ) (Lvl := ℕ) (Val := Elt F) spec2 c [cc2_scratch0])

theorem PhiS_zero (c : Dev nD) (n : ℕ) (h : n ≤ cfg2.N) (hz : n = 0) : PhiS W c n h = Pipeline.scopedRest spec2 c := by
  subst hz; rfl

/-- After point n (before point n + 1): the accumulator at that point's contents. -/
theorem PhiS_succ (c : Dev nD) (n : ℕ) (hn : n < cfg2.N) :
    PhiS W c (n + 1) hn = iprop(owns (c : Thread nD τ) scM fullShare (outsAt W c n hn).2
      ∗ Pipeline.scopedRestBut (Ix := Unit) (Name := ℕ) (U := UR sig nD τ) (Lvl := ℕ) (Val := Elt F) spec2 c [cc2_scratch0]) := rfl

/-- Before a point that is not the first: the accumulator at what the point before left. -/
theorem PhiS_pos (c : Dev nD) (n : ℕ) (h : n ≤ cfg2.N) (hz : n ≠ 0) :
    PhiS W c n h = iprop(owns (c : Thread nD τ) scM fullShare (outsAt W c (n - 1) (by omega)).2
      ∗ Pipeline.scopedRestBut (Ix := Unit) (Name := ℕ) (U := UR sig nD τ) (Lvl := ℕ) (Val := Elt F) spec2 c [cc2_scratch0]) := by
  cases n with
  | zero => exact absurd rfl hz
  | succ n => rfl

/-- The scoped buffers the windows do not stage, opened at the accumulator: it at some contents, beside the others. -/
theorem Phi_eq (c : Dev nD) :
    (Pipeline.scopedRest (Ix := Unit) (Name := ℕ) (U := UR sig nD τ) (Lvl := ℕ) (Val := Elt F) spec2 c : sProp 𝕄)
      = iprop((∃ d, owns (c : Thread nD τ) scM fullShare d)
          ∗ Pipeline.scopedRestBut (Ix := Unit) (Name := ℕ) (U := UR sig nD τ) (Lvl := ℕ) (Val := Elt F) spec2 c [cc2_scratch0]) := by
  rw [scopedRest2_split]; simp only [scM, owns_whole]; try rfl

/-! ## The proof data -/

/-- The proof data of the region on core c: the arrays as the region finds them; after the body at point t each
    input's buffer at its block and the output's at the accumulation's first component; the invariant above;
    nothing owed; full shares. -/
def dat (c : Dev nD) : Dat τ (Elt F) Unit ℕ (UR sig nD τ) ℕ cfg2 c where
  A w := Vin W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
  Φ t := PhiS W c t.val (Nat.le_of_lt_succ t.isLt)
  q _ := fullShare
  owed _ := 0

theorem A_eq (c : Dev nD) (w : Fin cfg2.W) : (dat W c).A w = Vin W c (Pipeline.arrRef spec2 w) := by
  dsimp only [dat]

/-- The invariant at a point's start, restated at the point's position. -/
theorem PhiS_castSucc (c : Dev nD) (t : Fin cfg2.N) :
    (dat W c).Φ t.castSucc = PhiS W c t.val (Nat.le_of_lt t.isLt) := by
  dsimp only [dat]; simp only [Fin.coe_castSucc]

theorem after0 (c : Dev nD) (t : Fin cfg2.N) : (dat W c).after 0 t = iblk W c 0 t := by dsimp only [dat]
theorem after1 (c : Dev nD) (t : Fin cfg2.N) : (dat W c).after 1 t = iblk W c 1 t := by dsimp only [dat]
theorem after2 (c : Dev nD) (t : Fin cfg2.N) : (dat W c).after 2 t = iblk W c 2 t := by dsimp only [dat]
theorem after3 (c : Dev nD) (t : Fin cfg2.N) : (dat W c).after 3 t = iblk W c 3 t := by dsimp only [dat]
theorem after4 (c : Dev nD) (t : Fin cfg2.N) : (dat W c).after 4 t = iblk W c 4 t := by dsimp only [dat]
theorem after5 (c : Dev nD) (t : Fin cfg2.N) : (dat W c).after 5 t = iblk W c 5 t := by dsimp only [dat]
theorem after6 (c : Dev nD) (t : Fin cfg2.N) : (dat W c).after 6 t = iblk W c 6 t := by dsimp only [dat]
theorem after7 (c : Dev nD) (t : Fin cfg2.N) : (dat W c).after 7 t = (outsAt W c t.val t.isLt).1 := by dsimp only [dat]

/-- Each input's current staging buffer holds its block at every point, fetched there or not. -/
theorem before0 (c : Dev nD) (t : Fin cfg2.N) (d) : (dat W c).before 0 t d = iblk W c 0 t :=
  ((dat W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat W c).before 1 t d = iblk W c 1 t :=
  ((dat W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat W c).before 2 t d = iblk W c 2 t :=
  ((dat W c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg2.N) (d) : (dat W c).before 3 t d = iblk W c 3 t :=
  ((dat W c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg2.N) (d) : (dat W c).before 4 t d = iblk W c 4 t :=
  ((dat W c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg2.N) (d) : (dat W c).before 5 t d = iblk W c 5 t :=
  ((dat W c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg2.N) (d) : (dat W c).before 6 t d = iblk W c 6 t :=
  ((dat W c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg2.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d)))

/-- and what it returns. -/
def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t)

set_option maxHeartbeats 4800000 in
/-- The body at any point: the inputs' memrefs hold their blocks; the point's position says which reduction step
    it is at, hence which run applies; the invariant hands the body the accumulator at what the point before left
    (at anything before the first point) and takes it back at this point's contents, the stores covering it; the
    output block's buffer goes back untouched except at a last step, where it holds what the store wrote. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before0, before1, before2, before3, before4, before5, before6]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live0 t], after0]
  rw [show (dat W c).leavesExact 1 t = owns (c : Thread nD τ) (ms1 t) fullShare ((dat W c).after 1 t) from by
    unfold Dat.leavesExact; rw [live1 t], after1]
  rw [show (dat W c).leavesExact 2 t = owns (c : Thread nD τ) (ms2 t) fullShare ((dat W c).after 2 t) from by
    unfold Dat.leavesExact; rw [live2 t], after2]
  rw [show (dat W c).leavesExact 3 t = owns (c : Thread nD τ) (ms3 t) fullShare ((dat W c).after 3 t) from by
    unfold Dat.leavesExact; rw [live3 t], after3]
  rw [show (dat W c).leavesExact 4 t = owns (c : Thread nD τ) (ms4 t) fullShare ((dat W c).after 4 t) from by
    unfold Dat.leavesExact; rw [live4 t], after4]
  rw [show (dat W c).leavesExact 5 t = owns (c : Thread nD τ) (ms5 t) fullShare ((dat W c).after 5 t) from by
    unfold Dat.leavesExact; rw [live5 t], after5]
  rw [show (dat W c).leavesExact 6 t = owns (c : Thread nD τ) (ms6 t) fullShare ((dat W c).after 6 t) from by
    unfold Dat.leavesExact; rw [live6 t], after6]
  have hN : t.val < 96 := lt_of_lt_of_eq t.isLt (show cfg2.N = 96 from N_2)
  by_cases h0 : t.val % 4 = 0
  · have h3 : ¬t.val % 4 = 3 := by omega
    rw [Dat.leavesExact_idle (dat W c) 7 t (idle7 t h3) (noFlush7 t h3)]
    rw [outsAt_first W c t h0]
    unfold accFirst; (try dsimp only)
    by_cases hz : t.val = 0
    · rw [PhiS_castSucc W c t, PhiS_zero W c _ _ hz, Phi_eq]
      iintro ⟨⟨⟨%ds, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst W c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · by_cases h3 : t.val % 4 = 3
    · rw [show (dat W c).leavesExact 7 t = owns (c : Thread nD τ) (ms7 t) fullShare ((dat W c).after 7 t) from by
        unfold Dat.leavesExact; rw [live7 t h3], after7]
      rw [outsAt_last W c t h0 h3]
      unfold outLast accLast; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast W c t h3 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hrest]
      · isplitl [HS]
        · unfold owns; iexists _; isplitr
          swap; · iexact HS
          ipureintro; exact View.read_writes_of_cover _ _ _ _ _ (coverAccLast W c t h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverOutLast W c t h3 _)
    · rw [Dat.leavesExact_idle (dat W c) 7 t (idle7 t h3) (noFlush7 t h3)]
      rw [outsAt_middle W c t h0 h3]
      unfold accMiddle; (try dsimp only)
      have hz : t.val ≠ 0 := by omega
      rw [PhiS_castSucc W c t, PhiS_pos W c _ _ hz]
      iintro ⟨⟨HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMiddle W c t h0 h3 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hrest]
      · isplitl [HS]
        · unfold owns; iexists _; isplitr
          swap; · iexact HS
          ipureintro; exact View.read_writes_of_cover _ _ _ _ _ (coverMiddle W c t h0 h3 _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) W c) (defs₀ (F := F)) Variants.none () Set.univ := fun t => by
  rw [bigSep_W2, bigSep_W2]
  exact sound_body W c t

end Cert.Kernel.Layer3

end
-- ==== Proof.KLayer3Region.lean ====
/-
  Layer 3's region, as one segment of the program.

  Entered from any state of the core's unscoped buffers: the region takes the eight arrays its windows stage (the
  bf16 activations, the binarized weights, the five parameter rows, and the output array) out of them, leaves the
  others aside untouched, and runs its 96 points. Its invariant names what the accumulator holds between points and
  forgets it at the end; the region keeps no semaphore of its own. When it returns, the seven input arrays hold
  what they held at entry (a window that is only fetched never writes its array), the output array holds what the
  24 write-backs made of it, and the core's unscoped buffers are again held whole: at the entry contents, with the
  output array replaced by that final array.
-/
import proofs.«158226_j28930899706073_2_alg».proof.Proof.KLayer3Data
import proofs.«158226_j28930899706073_2_alg».proof.Proof.KRegionFamily

set_option maxRecDepth 16384

noncomputable section

namespace Cert.Kernel.Layer3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Regions (fam DataOf Lv0 lv0 Rest)

variable {F : FTy → Type} [BitOps F]

local notation "𝕄" => MT nD τ sig Unit (Elt F) ℕ (UR sig nD τ) ℕ

variable (W : Dev nD → Valuation τ sig (Elt F))
variable (d0 : DataOf (F := F) cfg0) (d1 : DataOf (F := F) cfg1) (d3 : DataOf (F := F) cfg3)

/-- The family with this region's data in its place, the other three arbitrary. -/
abbrev pd : (p : Fin 4) → (c : Dev nD) → Dat τ (Elt F) Unit ℕ (UR sig nD τ) ℕ (cfgs p) c := fam d0 d1 (dat W) d3

/-- The output array after the region: what the write-backs made of it. -/
abbrev finalOut (c : Dev nD) : Buf (Elt F) ((cfg2.win 7).arr.view.loc (c : Thread nD τ)) := (dat W c).arrAt 7 cfg2.N

/-- The unscoped buffers after the region: as at entry, the output array replaced by its final contents. -/
abbrev Vout (c : Dev nD) : Valuation τ sig (Elt F) := Function.update (W c) (Proc.devRef .tc main_v24) (finalOut W c)

/-- Any other array is as at entry. -/
theorem Vout_of (c : Dev nD) (b : Ref sig .tc) (h : b ≠ main_v24) : Vout W c (Proc.devRef .tc b) = W c (Proc.devRef .tc b) := by
  simp only [Vout, Function.update_of_ne (StableHlo.devRef_ne_of_ne h : (Proc.devRef .tc b : DevRef τ sig) ≠ Proc.devRef .tc main_v24)]

/-- Every window's array after the region, read in the valuation the next item starts from: an input's array is as at
    entry, which the update of the output array does not touch; the output array is the update. -/
theorem final_eq (c : Dev nD) (w : Fin cfg2.W) :
    (dat W c).arrAt w cfg2.N = Vout W c (Proc.devRef .tc (Pipeline.arrRef spec2 w)) := by
  have hin : ∀ w : Fin cfg2.W, (cfg2.win w).isOut = false → Pipeline.arrRef spec2 w ≠ main_v24 →
      (dat W c).arrAt w cfg2.N = Vout W c (Proc.devRef .tc (Pipeline.arrRef spec2 w)) := fun w hw hne =>
    ((dat W c).arrAt_in w hw _).trans ((A_eq W c w).trans (Vout_of W c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show finalOut W c = Function.update (W c) (Proc.devRef .tc main_v24) (finalOut W c) (Proc.devRef .tc main_v24)
    rw [Function.update_self]

/-- What the launch hands the region is the invariant before the first point. -/
theorem Phi_first (c : Dev nD) : (Pipeline.scopedRest spec2 c : sProp 𝕄) ⊢ (dat W c).Φ 0 := by
  rw [show (dat W c).Φ 0 = PhiS W c 0 (Nat.zero_le _) from rfl, PhiS_zero W c 0 _ rfl]
  try exact Idealize.SL.BI.Entails.refl _

/-- After any point the invariant gives the scoped buffers back: the accumulator's named contents are forgotten. -/
theorem Phi_out (c : Dev nD) (t : Fin (cfg2.N + 1)) (ht : t.val ≠ 0) : (dat W c).Φ t ⊢ (Pipeline.scopedRest spec2 c : sProp 𝕄) := by
  rw [show (dat W c).Φ t = PhiS W c t.val (Nat.le_of_lt_succ t.isLt) from rfl, PhiS_pos W c _ _ ht, Phi_eq]
  iintro ⟨HS, Hrest⟩
  isplitl [HS]
  · iexists _; iexact HS
  iexact Hrest

/-- The same after the last point. -/
theorem Phi_last (c : Dev nD) : (dat W c).Φ (Fin.last cfg2.N) ⊢ (Pipeline.scopedRest spec2 c : sProp 𝕄) :=
  Phi_out W c _ (by rw [Fin.val_last]; have : cfg2.N = 96 := N_2; omega)

-- an entailment stated over `cfgs p` at the pinned configuration unifies only when unification may unfold plain
-- definitions in a metavariable's type
set_option backward.isDefEq.respectTransparency.types false in
/-- The region as a segment: entered from the unscoped buffers at the contents W, left with them at those contents
    but the output array at `finalOut`. -/
def region :
    Pipeline.RegionSeg (pcfgs (F := F)) Gen.adm (pd W d0 d1 d3) () defs₀ Variants.none Lv0 lv0 2 where
  win := launch2.win.to₀
  block_pos := launch2.block_pos
  stage_whole := launch2.stage_whole
  K := PEmpty
  osem := fun k => k.elim
  ho := Pipeline.OwnSemFacts.none _
  hbody c := (body_obligation W c).loose
  hwaits := Pipeline.hwaits_of_owed_zero _ _ _ _ Lv0 lv0 2 fun _ _ => rfl
  pre c := iprop(StableHlo.held (c : Thread nD τ) (Pipeline.ucRefs τ sig) (W c) ∗ Rest c)
  post c := iprop(StableHlo.held (c : Thread nD τ) (Pipeline.ucRefs τ sig) (Function.update (W c) (Proc.devRef .tc main_v24) (finalOut W c)) ∗ Rest c)
  X c := iprop(emp)
  Y c := iprop(emp)
  Z c := Pipeline.unscopedRest spec2 c (Vin W c)
  hentry c := by
    rw [show StableHlo.held (c : Thread nD τ) (Pipeline.ucRefs τ sig) (W c) = unscopedBufs c (Vin W c) from (Pipeline.unscopedBufs_held c _).symm]
    have hsplit := Pipeline.arrays_of_unscopedBufs (p := 2) (pcfgs (F := F)) Gen.adm (pd W d0 d1 d3) launch2.win launch2.arr_whole c
      ((pd W d0 d1 d3 2 c).share_full fun _ => rfl) (Vin W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    iexact Hrest
  hin c := by
    rw [show (pd W d0 d1 d3 2 c).Φ 0 = (dat W c).Φ 0 from rfl]
    iintro ⟨-, -, Hr⟩
    iapply (Phi_first W c)
    iexact Hr
  hout c := by
    rw [show (pd W d0 d1 d3 2 c).Φ (Fin.last _) = (dat W c).Φ (Fin.last cfg2.N) from rfl, Pipeline.ownSems0_none]
    iintro Hr
    isplitr; · iempintro
    isplitr; · iempintro
    iapply (Phi_last W c)
    iexact Hr
  hexit c := by
    rw [show StableHlo.held (c : Thread nD τ) (Pipeline.ucRefs τ sig) (Function.update (W c) (Proc.devRef .tc main_v24) (finalOut W c))
        = unscopedBufs c (fun b => Vout W c (Proc.devRef .tc b)) from (Pipeline.unscopedBufs_held c _).symm,
      Pipeline.unscopedBufs_split (Pipeline.pin (pcfgs (F := F)) Gen.adm) 2 launch2.win.arr_unscoped launch2.win.arr_inj c _,
      Pipeline.arrays_eq (Pipeline.pin (pcfgs (F := F)) Gen.adm) (pd W d0 d1 d3) 2 c launch2.arr_whole ((pd W d0 d1 d3 2 c).share_full fun _ => rfl)]
    have harr : (bigSep Finset.univ fun w : Fin cfg2.W => (((c : Thread nD τ).loc (Pipeline.arrRef spec2 w)) ↦{fullShare} (dat W c).arrAt w cfg2.N : sProp 𝕄))
        = bigSep Finset.univ fun w : Fin cfg2.W => (((c : Thread nD τ).loc (Pipeline.arrRef spec2 w)) ↦{fullShare} Vout W c (Proc.devRef .tc (Pipeline.arrRef spec2 w)) : sProp 𝕄) :=
      bigSep_congr fun w _ => by rw [final_eq W c w]
    have hrest : (Pipeline.unscopedRest spec2 c (fun b => Vout W c (Proc.devRef .tc b)) : sProp 𝕄) = Pipeline.unscopedRest spec2 c (Vin W c) := by
      unfold Pipeline.unscopedRest
      exact bigSep_congr fun b hb => by
        have hb' : b ≠ main_v24 := fun h => (Finset.mem_sdiff.mp hb).2
          (Finset.mem_image.mpr ⟨7, Finset.mem_univ _, h.symm⟩)
        dsimp only
        rw [Vout_of W c b hb']
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%W', -, HO⟩; iexists W'; iexact HO

end Cert.Kernel.Layer3

end
-- ==== Proof.KLayer4Body.lean ====
/-
  The last layer's kernel body at one grid point, by the step of its reduction.

  The last layer contracts its 6144 input features in four blocks of 1536: the second grid coordinate counts
  the reduction's steps, 0 to 3. At the first step the accumulator is cleared before the block product is
  added to it; at a middle step the product is added to what the accumulator holds; at the last step, after
  the product is added, the bias row is added to the sum, each row's log-softmax is taken, and the result is
  written to the output block. From the blocks staged whole the body runs to its return; it leaves the
  inputs as they were and, in each buffer it stores to, what its stores wrote. Stated for any float values.
-/
import proofs.«158226_j28930899706073_2_alg».proof.Proof.Gen.Kernel.Skeleton
import proofs.«158226_j28930899706073_2_alg».proof.Proof.Gen.Kernel.Launch
import proofs.«158226_j28930899706073_2_alg».proof.Proof.Gen.Kernel.Points
import Idealize.ShloMosaic.Lib.Tactic
import Idealize.ShloMosaic.Lib.Pipeline.Kit
import Idealize.ShloMosaic.Lib.Pipeline.Frame

set_option maxRecDepth 16384

noncomputable section

namespace Cert.Kernel.Layer4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The two conditions, from the reduction step -/

/-- The accumulator is cleared at step 0, -/
theorem first_of_zero (i : grid3.Coords) (h : (i 1).val = 0) :
    Scalar.cmpi .ne (Scalar.extui (Scalar.cmpi .eq (BitVec.ofNat 32 (i 1).val) 0#32)) 0#32 = 1#1 := by
  rw [h]; decide

/-- and at no other step. -/
theorem not_first_of_ne (i : grid3.Coords) (h : (i 1).val ≠ 0) :
    ¬ Scalar.cmpi .ne (Scalar.extui (Scalar.cmpi .eq (BitVec.ofNat 32 (i 1).val) 0#32)) 0#32 = 1#1 := by
  have hlt : (i 1).val < 4 := (i 1).isLt
  generalize (i 1).val = n at h hlt ⊢
  obtain rfl | rfl | rfl | rfl : n = 0 ∨ n = 1 ∨ n = 2 ∨ n = 3 := by omega
  · exact absurd rfl h
  · decide
  · decide
  · decide

/-- The block is finished and written out at step 3, -/
theorem last_of_three (i : grid3.Coords) (h : (i 1).val = 3) : k3_cond2 i = 1#1 := by
  unfold k3_cond2; rw [h]; decide

/-- and at no other step. -/
theorem not_last_of_ne (i : grid3.Coords) (h : (i 1).val ≠ 3) : ¬ k3_cond2 i = 1#1 := by
  unfold k3_cond2
  have hlt : (i 1).val < 4 := (i 1).isLt
  generalize (i 1).val = n at h hlt ⊢
  obtain rfl | rfl | rfl | rfl : n = 0 ∨ n = 1 ∨ n = 2 ∨ n = 3 := by omega
  · decide
  · decide
  · decide
  · exact absurd rfl h

/-! ## The body, by the step -/

set_option maxHeartbeats 4000000 in
/-- At the first step of a reduction, from the three input blocks staged whole, the output block's buffer at
    any given contents and the accumulator at anything: the body runs to its return leaving the inputs and the
    output block's buffer as they were and, in the accumulator, the pieces its stores wrote (the cleared
    accumulator overwritten by the block product). -/
noncomputable def bodyRunFirst (c : Dev nD) (i : grid3.Coords) (h : (i 1).val = 0)
    (arg2 : Memref sig .tc .vmem S1024x1536 .bf16) (harg2 : arg2.IsWhole) (arg3 : Memref sig .tc .vmem S10x1536 .f32) (harg3 : arg3.IsWhole)
    (arg4 : Memref sig .tc .vmem S1x10 .f32) (harg4 : arg4.IsWhole) (arg5 : Memref sig .tc .vmem S1024x10 .f32) (harg5 : arg5.IsWhole)
    (arg6 : Memref sig .tc .vmem S1024x10 .f32) (harg6 : arg6.IsWhole)
    (x0 : Vec F S1024x1536 .bf16) (x1 : Vec F S10x1536 .f32) (x2 : Vec F S1x10 .f32) :
    { LS0 : List (View.Piece (Elt F) S1024x10 .f32) //
      ∀ (d3 : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare d3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare d3
                ∗ (∃ f, arg6.view.loc (c : Thread nD τ) ↦[arg6.view.set]{fullShare} arg6.view.writes (Elt F) f LS0)) -∗ K ⟨⟩))
          ⊢ wp frame (wpE (defs₀ (F := F)) Variants.none c none) E
              (cc3__final_kernel i arg2 harg2 arg3 harg3 arg4 harg4 arg5 harg5 arg6 harg6) K } := by
  refine ⟨?_, fun d3 E K => ?run⟩
  case run =>
    have hc1 := first_of_zero i h
    have hc2 := not_last_of_ne i (by omega)
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS0

set_option maxHeartbeats 4000000 in
/-- At a middle step of a reduction, the accumulator found at given contents: the body runs to its return
    leaving the inputs and the output block's buffer as they were and, in the accumulator, the piece its
    store wrote (the block product added to what the accumulator held). -/
noncomputable def bodyRunMiddle (c : Dev nD) (i : grid3.Coords) (h0 : (i 1).val ≠ 0) (h3 : (i 1).val ≠ 3)
    (arg2 : Memref sig .tc .vmem S1024x1536 .bf16) (harg2 : arg2.IsWhole) (arg3 : Memref sig .tc .vmem S10x1536 .f32) (harg3 : arg3.IsWhole)
    (arg4 : Memref sig .tc .vmem S1x10 .f32) (harg4 : arg4.IsWhole) (arg5 : Memref sig .tc .vmem S1024x10 .f32) (harg5 : arg5.IsWhole)
    (arg6 : Memref sig .tc .vmem S1024x10 .f32) (harg6 : arg6.IsWhole)
    (x0 : Vec F S1024x1536 .bf16) (x1 : Vec F S10x1536 .f32) (x2 : Vec F S1x10 .f32)
    (xs : Vec F S1024x10 .f32) :
    { LS0 : List (View.Piece (Elt F) S1024x10 .f32) //
      ∀ (d3 : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare d3
                ∗ (∃ f, arg6.view.loc (c : Thread nD τ) ↦[arg6.view.set]{fullShare} arg6.view.writes (Elt F) f LS0)) -∗ K ⟨⟩))
          ⊢ wp frame (wpE (defs₀ (F := F)) Variants.none c none) E
              (cc3__final_kernel i arg2 harg2 arg3 harg3 arg4 harg4 arg5 harg5 arg6 harg6) K } := by
  refine ⟨?_, fun d3 E K => ?run⟩
  case run =>
    have hc1 := not_first_of_ne i h0
    have hc2 := not_last_of_ne i h3
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg6.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    iexists _; iexact HS0

set_option maxHeartbeats 4000000 in
/-- At the last step of a reduction, the accumulator found at given contents and the output block's buffer
    at anything: the body runs to its return leaving the inputs as they were and, in the accumulator and in
    the output block's buffer, the pieces its stores wrote (the finished sum, and the log-softmax of its rows
    after the bias is added). -/
noncomputable def bodyRunLast (c : Dev nD) (i : grid3.Coords) (h : (i 1).val = 3)
    (arg2 : Memref sig .tc .vmem S1024x1536 .bf16) (harg2 : arg2.IsWhole) (arg3 : Memref sig .tc .vmem S10x1536 .f32) (harg3 : arg3.IsWhole)
    (arg4 : Memref sig .tc .vmem S1x10 .f32) (harg4 : arg4.IsWhole) (arg5 : Memref sig .tc .vmem S1024x10 .f32) (harg5 : arg5.IsWhole)
    (arg6 : Memref sig .tc .vmem S1024x10 .f32) (harg6 : arg6.IsWhole)
    (x0 : Vec F S1024x1536 .bf16) (x1 : Vec F S10x1536 .f32) (x2 : Vec F S1x10 .f32)
    (xs : Vec F S1024x10 .f32) :
    Σ' (L3 : List (View.Piece (Elt F) S1024x10 .f32)), { LS0 : List (View.Piece (Elt F) S1024x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E
              (cc3__final_kernel i arg2 harg2 arg3 harg3 arg4 harg4 arg5 harg5 arg6 harg6) K } := by
  refine ⟨?_, ?_, fun E K => ?run⟩
  case run =>
    have hc1 := not_first_of_ne i (by omega)
    have hc2 := last_of_three i h
    simp only [cc3__final_kernel_eq_skeleton]; unfold cc3__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Layer4

end
-- ==== Proof.KLayer4Data.lean ====
/-
  The last layer's region: what each staging buffer and the accumulator hold, point by point.

  The region walks its 16 grid points: four row blocks, and for each the four steps of the reduction over the
  6144 input features. At a point the three input windows hold the blocks of their arrays that the point's
  index selects, read off the arrays as the region finds them. The accumulator is carried from step to step
  of one reduction: its contents after a point are defined by recursion on the point. At a first step they
  are what the body's stores wrote over the cleared accumulator; at a later step what its store wrote given
  the contents the point before left. The output window is written only at a last step, where its buffer
  holds the log-softmax rows the body stored; at the other steps the window is idle, its buffer is handed
  back as found and is not written back. The region's invariant names the accumulator's contents after every
  point, beside the scoped buffers the windows do not stage at some contents.
-/
import proofs.«158226_j28930899706073_2_alg».proof.Proof.KLayer4Body
import proofs.«158226_j28930899706073_2_alg».proof.Proof.Gen.Kernel.Regions
import Idealize.ShloMosaic.Lib.Pipeline.FrameBody
import Idealize.ShloMosaic.Lib.Ring
import Idealize.ShloMosaic.Lib.Writes

set_option maxRecDepth 16384

noncomputable section

namespace Cert.Kernel.Layer4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (W : Dev nD → Valuation τ sig (Elt F))

/-- An array's contents when the region is entered. -/
abbrev Vin (c : Dev nD) (b : Ref sig .tc) : Buf (Elt F) ((c : Thread nD τ).loc b) := W c (Proc.devRef .tc b)

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (Vin W c (Pipeline.arrRef spec3 w))

/-- Each window's current staging memref at point t, and its wholeness. -/
abbrev ms0 (t : Fin cfg3.N) : Memref sig .tc .vmem S1024x1536 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S10x1536 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x10 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x10 .f32 := win3_3.stage (cfg3.slots t 3)
abbrev hs3 (t : Fin cfg3.N) : (ms3 t).IsWhole := hstage3_3 ((cfg3.slots t 3).cast nbuf3_3)
/-- The accumulator: a whole scoped buffer of the kernel's own, carried between the points. -/
abbrev scM : Memref sig .tc .vmem S1024x10 .f32 := Memref.whole cc3_scratch0
/-- The accumulator as a view: what it holds is stated through it. -/
abbrev VS : View sig .tc .vmem S1024x10 .f32 := (scM : Memref sig .tc .vmem S1024x10 .f32).view
/-- One staging buffer of the output window, through which its contents are stated. -/
abbrev VO3 : View sig .tc .vmem S1024x10 .f32 := (Memref.whole cc3_stg3_0 : Memref sig .tc .vmem S1024x10 .f32).view

/-! ## The grid in closed form -/

/-- The reduction step of point t: the points run through the four steps of one row block, then the next. -/
theorem step_eq : ∀ t : Fin cfg3.N, ((grid3.coords t) 1).val = t.val % 4 :=
  (by decide +kernel : ∀ t : Fin grid3.N, ((grid3.coords t) 1).val = t.val % 4)

theorem N_eq : cfg3.N = 16 := N_3

/-- No input window is idle at any point. -/
theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
/-- The output window is idle away from the last steps, where it is not written back either, -/
theorem idle3_of : ∀ t : Fin cfg3.N, t.val % 4 ≠ 3 → cfg3.idle 3 (grid3.coords t) = true := by decide +kernel
theorem noFlush3_of (t : Fin cfg3.N) (h : t.val % 4 ≠ 3) : (cfg3.win 3).flush t = false :=
  Bool.eq_false_iff.mpr fun hf => h ((flush3_3 t).mp hf)
/-- and live at the last steps. -/
theorem live3_of : ∀ t : Fin cfg3.N, t.val % 4 = 3 → cfg3.idle 3 (grid3.coords t) = false := by decide +kernel

/-! ## The body's run at a point, by its step -/

/-- At a first step: on the point's staging memrefs, the inputs at their blocks. -/
abbrev runFirst (c : Dev nD) (t : Fin cfg3.N) (h : t.val % 4 = 0) :=
  bodyRunFirst (F := F) c (grid3.coords t) ((step_eq t).trans h) (ms0 t) (hs0 t) (ms1 t) (hs1 t) (ms2 t) (hs2 t) (ms3 t) (hs3 t) scM (Memref.isWhole_whole _) (iblk W c 0 t) (iblk W c 1 t) (iblk W c 2 t)

/-- At a middle step, the accumulator at xs. -/
abbrev runMiddle (c : Dev nD) (t : Fin cfg3.N) (h0 : t.val % 4 ≠ 0) (h3 : t.val % 4 ≠ 3) (xs : Vec F S1024x10 .f32) :=
  bodyRunMiddle (F := F) c (grid3.coords t) (fun e => h0 ((step_eq t).symm.trans e)) (fun e => h3 ((step_eq t).symm.trans e)) (ms0 t) (hs0 t) (ms1 t) (hs1 t) (ms2 t) (hs2 t) (ms3 t) (hs3 t) scM (Memref.isWhole_whole _) (iblk W c 0 t) (iblk W c 1 t) (iblk W c 2 t) xs

/-- At a last step, the accumulator at xs. -/
abbrev runLast (c : Dev nD) (t : Fin cfg3.N) (h : t.val % 4 = 3) (xs : Vec F S1024x10 .f32) :=
  bodyRunLast (F := F) c (grid3.coords t) ((step_eq t).trans h) (ms0 t) (hs0 t) (ms1 t) (hs1 t) (ms2 t) (hs2 t) (ms3 t) (hs3 t) scM (Memref.isWhole_whole _) (iblk W c 0 t) (iblk W c 1 t) (iblk W c 2 t) xs

/-- Each list of pieces tiles its block, so it covers it. -/
theorem coverFirst (c : Dev nD) (t : Fin cfg3.N) (h : t.val % 4 = 0) (y : S1024x10.Idx) :
    ∃ pc ∈ (runFirst W c t h).1, y ∈ pc.1.set :=
  View.cover_of_tiledL (runFirst W c t h).1 S1024x10.size (by sl_kernel_rfl) y
theorem coverMiddle (c : Dev nD) (t : Fin cfg3.N) (h0 : t.val % 4 ≠ 0) (h3 : t.val % 4 ≠ 3) (xs : Vec F S1024x10 .f32) (y : S1024x10.Idx) :
    ∃ pc ∈ (runMiddle W c t h0 h3 xs).1, y ∈ pc.1.set :=
  View.cover_of_tiledL (runMiddle W c t h0 h3 xs).1 S1024x10.size (by sl_kernel_rfl) y
theorem coverLastOut (c : Dev nD) (t : Fin cfg3.N) (h : t.val % 4 = 3) (xs : Vec F S1024x10 .f32) (y : S1024x10.Idx) :
    ∃ pc ∈ (runLast W c t h xs).1, y ∈ pc.1.set :=
  View.cover_of_tiledL (runLast W c t h xs).1 S1024x10.size (by sl_kernel_rfl) y
theorem coverLastAcc (c : Dev nD) (t : Fin cfg3.N) (h : t.val % 4 = 3) (xs : Vec F S1024x10 .f32) (y : S1024x10.Idx) :
    ∃ pc ∈ (runLast W c t h xs).2.1, y ∈ pc.1.set :=
  View.cover_of_tiledL (runLast W c t h xs).2.1 S1024x10.size (by sl_kernel_rfl) y

/-- What each step leaves in the accumulator, and the last in the output block's buffer: its pieces read back. -/
def accFirst (c : Dev nD) (t : Fin cfg3.N) (h : t.val % 4 = 0) : Vec F S1024x10 .f32 :=
  VS.read (Elt F) (VS.writes (Elt F) VS.junk (runFirst W c t h).1)
def accMiddle (c : Dev nD) (t : Fin cfg3.N) (h0 : t.val % 4 ≠ 0) (h3 : t.val % 4 ≠ 3) (xs : Vec F S1024x10 .f32) : Vec F S1024x10 .f32 :=
  VS.read (Elt F) (VS.writes (Elt F) VS.junk (runMiddle W c t h0 h3 xs).1)
def accLast (c : Dev nD) (t : Fin cfg3.N) (h : t.val % 4 = 3) (xs : Vec F S1024x10 .f32) : Vec F S1024x10 .f32 :=
  VS.read (Elt F) (VS.writes (Elt F) VS.junk (runLast W c t h xs).2.1)
def outLast (c : Dev nD) (t : Fin cfg3.N) (h : t.val % 4 = 3) (xs : Vec F S1024x10 .f32) : Vec F S1024x10 .f32 :=
  VO3.read (Elt F) (VO3.writes (Elt F) VO3.junk (runLast W c t h xs).1)
/-- The output window's contents at a point that stores nothing into it: a placeholder nothing consults, since
    there the window is neither written back nor read at the next point. -/
def outIdle : Vec F S1024x10 .f32 := VO3.read (Elt F) VO3.junk

/-! ## What the output block's buffer and the accumulator hold after each point -/

/-- After the body at position n: the output block's buffer, then the accumulator. The step n % 4 selects the
    case; a later step runs at what the point before left in the accumulator. -/
def outsAt (c : Dev nD) : (n : ℕ) → n < cfg3.N → Vec F S1024x10 .f32 × Vec F S1024x10 .f32
  | 0, hn => (outIdle, accFirst W c ⟨0, hn⟩ (Nat.zero_mod _))
  | n + 1, hn =>
    if h0 : (n + 1) % 4 = 0 then
      (outIdle, accFirst W c ⟨n + 1, hn⟩ h0)
    else
      if h3 : (n + 1) % 4 = 3 then
        (outLast W c ⟨n + 1, hn⟩ h3 (outsAt c n (Nat.lt_of_succ_lt hn)).2, accLast W c ⟨n + 1, hn⟩ h3 (outsAt c n (Nat.lt_of_succ_lt hn)).2)
      else
        (outIdle, accMiddle W c ⟨n + 1, hn⟩ h0 h3 (outsAt c n (Nat.lt_of_succ_lt hn)).2)

/-- What the point before t left in the accumulator. -/
abbrev accBefore (c : Dev nD) (t : Fin cfg3.N) : Vec F S1024x10 .f32 :=
  (outsAt W c (t.val - 1) (Nat.lt_of_le_of_lt (Nat.sub_le _ _) t.isLt)).2

theorem outsAt_first (c : Dev nD) (t : Fin cfg3.N) (h0 : t.val % 4 = 0) :
    outsAt W c t.val t.isLt = (outIdle, accFirst W c t h0) := by
  obtain ⟨n, hn⟩ := t
  cases n with
  | zero => exact rfl
  | succ n => exact (dif_pos h0).trans rfl

theorem outsAt_middle (c : Dev nD) (t : Fin cfg3.N) (h0 : t.val % 4 ≠ 0) (h3 : t.val % 4 ≠ 3) :
    outsAt W c t.val t.isLt = (outIdle, accMiddle W c t h0 h3 (accBefore W c t)) := by
  obtain ⟨n, hn⟩ := t
  cases n with
  | zero => exact (by exfalso; (try dsimp only at h0); exact absurd (Nat.zero_mod _) h0)
  | succ n => exact (dif_neg h0).trans ((dif_neg h3).trans rfl)

theorem outsAt_last (c : Dev nD) (t : Fin cfg3.N) (h3 : t.val % 4 = 3) :
    outsAt W c t.val t.isLt = (outLast W c t h3 (accBefore W c t), accLast W c t h3 (accBefore W c t)) := by
  have h0 : t.val % 4 ≠ 0 := by omega
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position n: before the first point the scoped buffers the windows do not stage, at some contents;
    afterwards the accumulator at what the point before left in it, beside the others at some contents. -/
def PhiS (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) scM fullShare (outsAt W c n hn).2
      ∗ Pipeline.scopedRestBut (Ix := Unit) (Name := ℕ) (U := UR sig nD τ) (Lvl := ℕ) (Val := Elt F) spec3 c [cc3_scratch0])

theorem PhiS_zero (c : Dev nD) (n : ℕ) (h : n ≤ cfg3.N) (hz : n = 0) :
    PhiS W c n h = Pipeline.scopedRest (Ix := Unit) (Name := ℕ) (U := UR sig nD τ) (Lvl := ℕ) (Val := Elt F) spec3 c := by
  subst hz; rfl

theorem PhiS_succ (c : Dev nD) (n : ℕ) (hn : n < cfg3.N) :
    PhiS W c (n + 1) hn = iprop(owns (c : Thread nD τ) scM fullShare (outsAt W c n hn).2
      ∗ Pipeline.scopedRestBut (Ix := Unit) (Name := ℕ) (U := UR sig nD τ) (Lvl := ℕ) (Val := Elt F) spec3 c [cc3_scratch0]) := rfl

theorem PhiS_pos (c : Dev nD) (n : ℕ) (h : n ≤ cfg3.N) (hz : n ≠ 0) :
    PhiS W c n h = iprop(owns (c : Thread nD τ) scM fullShare (outsAt W c (n - 1) (by omega)).2
      ∗ Pipeline.scopedRestBut (Ix := Unit) (Name := ℕ) (U := UR sig nD τ) (Lvl := ℕ) (Val := Elt F) spec3 c [cc3_scratch0]) := by
  cases n with
  | zero => exact absurd rfl hz
  | succ n => rfl

/-- The scoped buffers opened at the accumulator: it at some contents, beside the others. -/
theorem Phi_eq (c : Dev nD) :
    (Pipeline.scopedRest (Ix := Unit) (Name := ℕ) (U := UR sig nD τ) (Lvl := ℕ) (Val := Elt F) spec3 c : sProp 𝕄)
      = iprop((∃ d, owns (c : Thread nD τ) scM fullShare d)
          ∗ Pipeline.scopedRestBut (Ix := Unit) (Name := ℕ) (U := UR sig nD τ) (Lvl := ℕ) (Val := Elt F) spec3 c [cc3_scratch0]) := by
  rw [scopedRest3_split]; simp only [scM, owns_whole]; try rfl

/-! ## The proof data -/

/-- The proof data of the region on core c. -/
def dat (c : Dev nD) : Dat τ (Elt F) Unit ℕ (UR sig nD τ) ℕ cfg3 c where
  A w := Vin W c (Pipeline.arrRef spec3 w)
  after w t := match w with
    | ⟨0, _⟩ => iblk W c 0 t
    | ⟨1, _⟩ => iblk W c 1 t
    | ⟨2, _⟩ => iblk W c 2 t
    | ⟨3, _⟩ => (outsAt W c t.val t.isLt).1
  Φ t := PhiS W c t.val (Nat.le_of_lt_succ t.isLt)
  q _ := fullShare
  owed _ := 0

theorem A_eq (c : Dev nD) (w : Fin cfg3.W) : (dat W c).A w = Vin W c (Pipeline.arrRef spec3 w) := by
  dsimp only [dat]

theorem Phi_castSucc (c : Dev nD) (t : Fin cfg3.N) :
    (dat W c).Φ t.castSucc = PhiS W c t.val (Nat.le_of_lt t.isLt) := by
  dsimp only [dat]; simp only [Fin.coe_castSucc]

theorem after0 (c : Dev nD) (t : Fin cfg3.N) : (dat W c).after 0 t = iblk W c 0 t := by dsimp only [dat]
theorem after1 (c : Dev nD) (t : Fin cfg3.N) : (dat W c).after 1 t = iblk W c 1 t := by dsimp only [dat]
theorem after2 (c : Dev nD) (t : Fin cfg3.N) : (dat W c).after 2 t = iblk W c 2 t := by dsimp only [dat]
theorem after3 (c : Dev nD) (t : Fin cfg3.N) : (dat W c).after 3 t = (outsAt W c t.val t.isLt).1 := by dsimp only [dat]

/-- Each input's current staging buffer holds its block at every point, fetched there or not. -/
theorem before0 (c : Dev nD) (t : Fin cfg3.N) (d) : (dat W c).before 0 t d = iblk W c 0 t :=
  ((dat W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat W c).before 1 t d = iblk W c 1 t :=
  ((dat W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat W c).before 2 t d = iblk W c 2 t :=
  ((dat W c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg3.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d)))

/-- and what it returns. -/
def bodyPost (c : Dev nD) (t : Fin cfg3.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t)

set_option maxHeartbeats 4800000 in
/-- The body at any point: the inputs' memrefs hold their blocks; the step says which case the point is in; the
    invariant hands the body the accumulator at what the point before left (at anything before the first point)
    and takes it back at this point's contents; the output block's buffer comes back as found away from the last
    steps, and at what the body stored at a last step. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0, before1, before2]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live0 t], after0]
  rw [show (dat W c).leavesExact 1 t = owns (c : Thread nD τ) (ms1 t) fullShare ((dat W c).after 1 t) from by
    unfold Dat.leavesExact; rw [live1 t], after1]
  rw [show (dat W c).leavesExact 2 t = owns (c : Thread nD τ) (ms2 t) fullShare ((dat W c).after 2 t) from by
    unfold Dat.leavesExact; rw [live2 t], after2]
  have hN : t.val < 16 := lt_of_lt_of_eq t.isLt N_eq
  by_cases h0 : t.val % 4 = 0
  · have h3 : t.val % 4 ≠ 3 := by omega
    rw [Dat.leavesExact_idle (dat W c) 3 t (idle3_of t h3) (noFlush3_of t h3)]
    rw [outsAt_first W c t h0]
    unfold accFirst; (try dsimp only)
    by_cases hz : t.val = 0
    · rw [Phi_castSucc W c t, PhiS_zero W c _ _ hz, Phi_eq]
      iintro ⟨⟨HS, Hrest⟩, Ho, ⟨%d0, H0⟩, ⟨%d1, H1⟩, ⟨%d2, H2⟩, ⟨%d3, H3⟩⟩
      iapply ((runFirst W c t h0).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      iexists _; iexact H3
    · rw [Phi_castSucc W c t, PhiS_pos W c _ _ hz]
      iintro ⟨⟨HS, Hrest⟩, Ho, ⟨%d0, H0⟩, ⟨%d1, H1⟩, ⟨%d2, H2⟩, ⟨%d3, H3⟩⟩
      iapply ((runFirst W c t h0).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverFirst W c t h0)
        iexact Hrest
      isplitl [Ho]; · iexact Ho
      isplitl [H0]; · iexact H0
      isplitl [H1]; · iexact H1
      isplitl [H2]; · iexact H2
      iexists _; iexact H3
  · have hz : t.val ≠ 0 := by omega
    by_cases h3 : t.val % 4 = 3
    · rw [show (dat W c).leavesExact 3 t = owns (c : Thread nD τ) (ms3 t) fullShare ((dat W c).after 3 t) from by
        unfold Dat.leavesExact; rw [live3_of t h3], after3]
      rw [outsAt_last W c t h3]
      unfold outLast accLast; (try dsimp only)
      rw [Phi_castSucc W c t, PhiS_pos W c _ _ hz]
      iintro ⟨⟨HS, Hrest⟩, Ho, ⟨%d0, H0⟩, ⟨%d1, H1⟩, ⟨%d2, H2⟩, ⟨%d3, H3⟩⟩
      iapply ((runLast W c t h3 (accBefore W c t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (coverLastAcc W c t h3 _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut W c t h3 _)
    · rw [Dat.leavesExact_idle (dat W c) 3 t (idle3_of t h3) (noFlush3_of t h3)]
      rw [outsAt_middle W c t h0 h3]
      unfold accMiddle; (try dsimp only)
      rw [Phi_castSucc W c t, PhiS_pos W c _ _ hz]
      iintro ⟨⟨HS, Hrest⟩, Ho, ⟨%d0, H0⟩, ⟨%d1, H1⟩, ⟨%d2, H2⟩, ⟨%d3, H3⟩⟩
      iapply ((runMiddle W c t h0 h3 (accBefore W c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest]
      · isplitl [HS]
        · unfold owns; iexists _; isplitr
          swap; · iexact HS
          ipureintro; exact View.read_writes_of_cover _ _ _ _ _ (coverMiddle W c t h0 h3 _)
        iexact Hrest
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) W c) (defs₀ (F := F)) Variants.none () Set.univ := fun t => by
  rw [bigSep_W3, bigSep_W3]
  exact sound_body W c t

/-! ## The invariant at the region's ends -/

/-- What the launch hands the region is the invariant before the first point. -/
theorem Phi_in (c : Dev nD) : (dat W c).Φ 0 = Pipeline.scopedRest (Ix := Unit) (Name := ℕ) (U := UR sig nD τ) (Lvl := ℕ) (Val := Elt F) spec3 c := by
  rw [show (dat W c).Φ 0 = PhiS W c 0 (Nat.zero_le _) from rfl, PhiS_zero W c 0 _ rfl]

/-- After any point but the first the invariant gives the scoped buffers back at some contents: the
    accumulator's named contents are forgotten. -/
theorem Phi_out (c : Dev nD) (t : Fin (cfg3.N + 1)) (ht : t.val ≠ 0) :
    (dat W c).Φ t ⊢ (Pipeline.scopedRest (Ix := Unit) (Name := ℕ) (U := UR sig nD τ) (Lvl := ℕ) (Val := Elt F) spec3 c : sProp 𝕄) := by
  rw [show (dat W c).Φ t = PhiS W c t.val (Nat.le_of_lt_succ t.isLt) from rfl, PhiS_pos W c _ _ ht, Phi_eq]
  iintro ⟨HS, Hrest⟩
  isplitl [HS]
  · iexists _; iexact HS
  iexact Hrest

/-- The same after the last point. -/
theorem Phi_last (c : Dev nD) : (dat W c).Φ (Fin.last cfg3.N) ⊢ (Pipeline.scopedRest (Ix := Unit) (Name := ℕ) (U := UR sig nD τ) (Lvl := ℕ) (Val := Elt F) spec3 c : sProp 𝕄) :=
  Phi_out W c _ (by rw [Fin.val_last]; have : cfg3.N = 16 := N_eq; omega)

end Cert.Kernel.Layer4

end
-- ==== Proof.KLayer4Region.lean ====
/-
  The last layer's region, as one segment of the program.

  Entered from the state the host's last reshape leaves: the region takes the four arrays its windows stage (the
  third layer's binarized output, the last weight matrix, the bias row, and the output array) out of the core's
  unscoped buffers, leaves the others aside untouched, and runs its 16 points. Its invariant needs nothing
  beyond the scoped buffers, and it keeps no semaphore of its own. When it returns, the three input arrays hold
  what they held at entry (a window that is only fetched never writes its array), the output array holds what
  the four write-backs made of it, and the core's unscoped buffers are again held whole: at the entry contents,
  with the output array replaced by that final array.
-/
import proofs.«158226_j28930899706073_2_alg».proof.Proof.KLayer4Data
import proofs.«158226_j28930899706073_2_alg».proof.Proof.KRegionFamily

set_option maxRecDepth 16384

noncomputable section

namespace Cert.Kernel.Layer4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Regions (fam DataOf Lv0 lv0 Rest)

variable {F : FTy → Type} [BitOps F]

local notation "𝕄" => MT nD τ sig Unit (Elt F) ℕ (UR sig nD τ) ℕ

variable (W : Dev nD → Valuation τ sig (Elt F))
variable (d0 : DataOf (F := F) cfg0) (d1 : DataOf (F := F) cfg1) (d2 : DataOf (F := F) cfg2)

/-- The family with this region's data in its place, the other three arbitrary. -/
abbrev pd : (p : Fin 4) → (c : Dev nD) → Dat τ (Elt F) Unit ℕ (UR sig nD τ) ℕ (cfgs p) c := fam d0 d1 d2 (dat W)

/-- The output array after the region: what the write-backs made of it. -/
abbrev finalOut (c : Dev nD) : Buf (Elt F) ((cfg3.win 3).arr.view.loc (c : Thread nD τ)) := (dat W c).arrAt 3 cfg3.N

/-- Every window's array after the region, read in the valuation the region leaves: an input's array is as at
    entry, which the update of the output array does not touch; the output array is the update. -/
theorem final_eq (c : Dev nD) (w : Fin cfg3.W) :
    (dat W c).arrAt w cfg3.N = (Function.update (W c) (Proc.devRef .tc main_v26) (finalOut W c)) (Proc.devRef .tc (Pipeline.arrRef spec3 w)) := by
  have hin : ∀ w : Fin cfg3.W, (cfg3.win w).isOut = false → Pipeline.arrRef spec3 w ≠ main_v26 →
      (dat W c).arrAt w cfg3.N = (Function.update (W c) (Proc.devRef .tc main_v26) (finalOut W c)) (Proc.devRef .tc (Pipeline.arrRef spec3 w)) := fun w hw hne =>
    ((dat W c).arrAt_in w hw _).trans ((A_eq W c w).trans (Function.update_of_ne (StableHlo.devRef_ne_of_ne hne) _ _).symm)
  match w with
  | ⟨0, _⟩ => exact hin 0 rfl (by decide)
  | ⟨1, _⟩ => exact hin 1 rfl (by decide)
  | ⟨2, _⟩ => exact hin 2 rfl (by decide)
  | ⟨3, _⟩ =>
    show finalOut W c = (Function.update (W c) (Proc.devRef .tc main_v26) (finalOut W c)) (Proc.devRef .tc main_v26)
    rw [Function.update_self]

-- an entailment stated over `cfgs p` at the pinned configuration unifies only when unification may unfold plain
-- definitions in a metavariable's type
set_option backward.isDefEq.respectTransparency.types false in
/-- The region as a segment: entered from the unscoped buffers at the contents W, left with them at those
    contents but the output array at `finalOut`. -/
def region : Pipeline.RegionSeg (pcfgs (F := F)) Gen.adm (pd W d0 d1 d2) () defs₀ Variants.none Lv0 lv0 3 where
  win := launch3.win.to₀
  block_pos := launch3.block_pos
  stage_whole := launch3.stage_whole
  K := PEmpty
  osem := fun k => k.elim
  ho := Pipeline.OwnSemFacts.none _
  hbody c := (body_obligation W c).loose
  hwaits := Pipeline.hwaits_of_owed_zero _ _ _ _ Lv0 lv0 3 fun _ _ => rfl
  pre c := iprop(StableHlo.held (c : Thread nD τ) (Pipeline.ucRefs τ sig) (W c) ∗ Rest c)
  post c := iprop(StableHlo.held (c : Thread nD τ) (Pipeline.ucRefs τ sig) (Function.update (W c) (Proc.devRef .tc main_v26) (finalOut W c)) ∗ Rest c)
  X c := iprop(emp)
  Y c := iprop(emp)
  Z c := Pipeline.unscopedRest spec3 c (Vin W c)
  hentry c := by
    rw [show StableHlo.held (c : Thread nD τ) (Pipeline.ucRefs τ sig) (W c) = unscopedBufs c (Vin W c) from (Pipeline.unscopedBufs_held c _).symm]
    have hsplit := Pipeline.arrays_of_unscopedBufs (p := 3) (pcfgs (F := F)) Gen.adm (pd W d0 d1 d2) launch3.win launch3.arr_whole c
      ((pd W d0 d1 d2 3 c).share_full fun _ => rfl) (Vin W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hrest
  hin c := by
    rw [show (pd W d0 d1 d2 3 c).Φ 0 = (dat W c).Φ 0 from rfl, Phi_in]
    iintro ⟨-, -, Hr⟩
    iexact Hr
  hout c := by
    rw [show (pd W d0 d1 d2 3 c).Φ (Fin.last _) = (dat W c).Φ (Fin.last cfg3.N) from rfl, Pipeline.ownSems0_none]
    iintro Hr
    isplitr; · iempintro
    isplitr; · iempintro
    iapply (Phi_last W c)
    iexact Hr
  hexit c := by
    rw [show StableHlo.held (c : Thread nD τ) (Pipeline.ucRefs τ sig) (Function.update (W c) (Proc.devRef .tc main_v26) (finalOut W c))
        = unscopedBufs c (fun b => (Function.update (W c) (Proc.devRef .tc main_v26) (finalOut W c)) (Proc.devRef .tc b)) from (Pipeline.unscopedBufs_held c _).symm,
      Pipeline.unscopedBufs_split (Pipeline.pin (pcfgs (F := F)) Gen.adm) 3 launch3.win.arr_unscoped launch3.win.arr_inj c _,
      Pipeline.arrays_eq (Pipeline.pin (pcfgs (F := F)) Gen.adm) (pd W d0 d1 d2) 3 c launch3.arr_whole ((pd W d0 d1 d2 3 c).share_full fun _ => rfl)]
    have harr : (bigSep Finset.univ fun w : Fin cfg3.W => (((c : Thread nD τ).loc (Pipeline.arrRef spec3 w)) ↦{fullShare} (dat W c).arrAt w cfg3.N : sProp 𝕄))
        = bigSep Finset.univ fun w : Fin cfg3.W => (((c : Thread nD τ).loc (Pipeline.arrRef spec3 w)) ↦{fullShare} (Function.update (W c) (Proc.devRef .tc main_v26) (finalOut W c)) (Proc.devRef .tc (Pipeline.arrRef spec3 w)) : sProp 𝕄) :=
      bigSep_congr fun w _ => by rw [final_eq W c w]
    have hrest : (Pipeline.unscopedRest spec3 c (fun b => (Function.update (W c) (Proc.devRef .tc main_v26) (finalOut W c)) (Proc.devRef .tc b)) : sProp 𝕄) = Pipeline.unscopedRest spec3 c (Vin W c) := by
      unfold Pipeline.unscopedRest
      exact bigSep_congr fun b hb => by
        have hb' : b ≠ main_v26 := fun h => (Finset.mem_sdiff.mp hb).2
          (Finset.mem_image.mpr ⟨3, Finset.mem_univ _, h.symm⟩)
        dsimp only
        rw [Function.update_of_ne (StableHlo.devRef_ne_of_ne hb')]
    iintro ⟨Ha, HO, -, HZ⟩
    imodintro
    isplitr [HO]
    · isplitl [Ha]
      · iapply (Entails.of_eq harr); iexact Ha
      · iapply (Entails.of_eq hrest.symm); iexact HZ
    · unfold Pipeline.Dat.owesAt Pipeline.owesWithin
      icases HO with ⟨%Wt, -, HO⟩; iexists Wt; iexact HO

end Cert.Kernel.Layer4

end
-- ==== Proof.KKernelIdealFrame.lean ====
/-
  The word-level kernel keeps its arguments.

  The contents of the core's unscoped buffers are followed item by item. They start at the launch contents; a host
  stretch replaces them by the fold of its operations; a region replaces one array, its layer's output, by what the
  region's write-backs made of it, and leaves the rest. Each region is a segment entered from the contents before
  it and left at the contents after it (the four region modules), so the program as a whole runs to its end, and
  what no item writes, every argument among it, ends as launched.
-/
import proofs.«158226_j28930899706073_2_alg».proof.Proof.KFrameOf
import proofs.«158226_j28930899706073_2_alg».proof.Proof.KValueOf
import proofs.«158226_j28930899706073_2_alg».proof.Proof.KLayer1Region
import proofs.«158226_j28930899706073_2_alg».proof.Proof.KLayer2Region
import proofs.«158226_j28930899706073_2_alg».proof.Proof.KLayer3Region
import proofs.«158226_j28930899706073_2_alg».proof.Proof.KLayer4Region

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.Kernel.Regions (fam DataOf Lv0 lv0 Rest)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffers' contents, item by item -/

/-- Layer 1's output array after its region. -/
def o1 (c : Dev nD) := Layer1.finalOut m c
/-- After layer 1's region, then after the second host stretch. -/
abbrev W2 (c : Dev nD) : Valuation τ sig (Elt F) := Function.update (V1 m c) (Proc.devRef .tc main_v12) (o1 m c)
abbrev W3 (c : Dev nD) : Valuation τ sig (Elt F) := StableHlo.after hostOps1 (W2 m c)
/-- Layer 2's output array after its region. -/
def o2 (c : Dev nD) := Layer2.finalOut (W3 m) c
abbrev W4 (c : Dev nD) : Valuation τ sig (Elt F) := Function.update (W3 m c) (Proc.devRef .tc main_v18) (o2 m c)
abbrev W5 (c : Dev nD) : Valuation τ sig (Elt F) := StableHlo.after hostOps2 (W4 m c)
/-- Layer 3's. -/
def o3 (c : Dev nD) := Layer3.finalOut (W5 m) c
abbrev W6 (c : Dev nD) : Valuation τ sig (Elt F) := Function.update (W5 m c) (Proc.devRef .tc main_v24) (o3 m c)
abbrev W7 (c : Dev nD) : Valuation τ sig (Elt F) := StableHlo.after hostOps3 (W6 m c)
/-- Layer 4's: the result. -/
def o4 (c : Dev nD) := Layer4.finalOut (W7 m) c

/-- What each region leaves in the array it may change, as one table: the four outputs at their places, anything
    (the launch contents) elsewhere. -/
def outs : Gen.Outs (F := F) := fun j r c =>
  if h : j = 2 ∧ r = main_v12 then h.2 ▸ o1 m c
  else if h : j = 4 ∧ r = main_v18 then h.2 ▸ o2 m c
  else if h : j = 6 ∧ r = main_v24 then h.2 ▸ o3 m c
  else if h : j = 8 ∧ r = main_v26 then h.2 ▸ o4 m c
  else m ((c : Thread nD τ).loc r)

theorem outs_2 (c : Dev nD) : outs m 2 main_v12 c = o1 m c := by
  unfold outs; rw [dif_pos ⟨rfl, rfl⟩]
theorem outs_4 (c : Dev nD) : outs m 4 main_v18 c = o2 m c := by
  unfold outs; rw [dif_neg (by decide), dif_pos ⟨rfl, rfl⟩]
theorem outs_6 (c : Dev nD) : outs m 6 main_v24 c = o3 m c := by
  unfold outs; rw [dif_neg (by decide), dif_neg (by decide), dif_pos ⟨rfl, rfl⟩]
theorem outs_8 (c : Dev nD) : outs m 8 main_v26 c = o4 m c := by
  unfold outs; rw [dif_neg (by decide), dif_neg (by decide), dif_neg (by decide), dif_pos ⟨rfl, rfl⟩]

/-- With that table the contents between the items are the ones followed above. -/
theorem V2_eq (c : Dev nD) : V2 m (outs m) c = W2 m c := by
  show Function.update (V1 m c) (Proc.devRef .tc main_v12) (outs m 2 main_v12 c) = _; rw [outs_2]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) (Proc.devRef .tc main_v18) (outs m 4 main_v18 c) = _; rw [outs_4, V3_eq]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) (Proc.devRef .tc main_v24) (outs m 6 main_v24 c) = _; rw [outs_6, V5_eq]
theorem V7_eq (c : Dev nD) : V7 m (outs m) c = W7 m c := by
  show StableHlo.after hostOps3 (V6 m (outs m) c) = _; rw [V6_eq]
theorem V8_eq (c : Dev nD) : V8 m (outs m) c = Function.update (W7 m c) (Proc.devRef .tc main_v26) (o4 m c) := by
  show Function.update (V7 m (outs m) c) (Proc.devRef .tc main_v26) (outs m 8 main_v26 c) = _; rw [outs_8, V7_eq]

/-! ## The four regions' data, and the frame -/

abbrev D0 : DataOf (F := F) cfg0 := Layer1.dat m
abbrev D1 : DataOf (F := F) cfg1 := Layer2.dat (W3 m)
abbrev D2 : DataOf (F := F) cfg2 := Layer3.dat (W5 m)
abbrev D3 : DataOf (F := F) cfg3 := Layer4.dat (W7 m)

/-- Every weakly fair execution of the word-level kernel ends, faulting nowhere, with its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (outs m) (fam (D0 m) (D1 m) (D2 m) (D3 m))
    (Layer1.region m (outs m) (D1 m) (D2 m) (D3 m) (fun c => outs_2 m c)) (fun c => .rfl) (fun c => .rfl)
    (Layer2.region (W3 m) (D0 m) (D2 m) (D3 m))
      (fun c => Entails.of_eq (by rw [V3_eq]; rfl)) (fun c => Entails.of_eq (by rw [V4_eq]; rfl))
    (Layer3.region (W5 m) (D0 m) (D1 m) (D3 m))
      (fun c => Entails.of_eq (by rw [V5_eq]; rfl)) (fun c => Entails.of_eq (by rw [V6_eq]; rfl))
    (Layer4.region (W7 m) (D0 m) (D1 m) (D2 m))
      (fun c => Entails.of_eq (by rw [V7_eq]; rfl)) (fun c => Entails.of_eq (by rw [V8_eq]; rfl))

/-- The same run read also at the result array: it ends holding layer 4's output. -/
theorem run_value : θ_run defs (onTc (τ := τ) (main (F := F))) ⟨m, fun _ => 0, ρ⟩ (fun r => ∀ c : Dev nD,
      r.2.mem ((c.tc : Thread nD τ).loc main_v26) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1.trans (outs_8 m c), (h c).2⟩)
    (value_of m ρ (outs m) (fam (D0 m) (D1 m) (D2 m) (D3 m))
      (Layer1.region m (outs m) (D1 m) (D2 m) (D3 m) (fun c => outs_2 m c)) (fun c => .rfl) (fun c => .rfl)
      (Layer2.region (W3 m) (D0 m) (D2 m) (D3 m))
        (fun c => Entails.of_eq (by rw [V3_eq]; rfl)) (fun c => Entails.of_eq (by rw [V4_eq]; rfl))
      (Layer3.region (W5 m) (D0 m) (D1 m) (D3 m))
        (fun c => Entails.of_eq (by rw [V5_eq]; rfl)) (fun c => Entails.of_eq (by rw [V6_eq]; rfl))
      (Layer4.region (W7 m) (D0 m) (D1 m) (D2 m))
        (fun c => Entails.of_eq (by rw [V7_eq]; rfl)) (fun c => Entails.of_eq (by rw [V8_eq]; rfl)))

end Cert.Kernel.Whole

end
-- ==== Proof.LibSignClamp.lean ====
/-
  Clamping to the interval from minus one to one never carries a value across zero.

  On the extended reals, for every y (the two infinities included), the clamp min(1, max(-1, y)) is negative
  exactly when y is, zero exactly when y is, and positive exactly when y is: both bounds lie strictly on their
  own side of zero, so the clamp can move a value only away from the far bound, never past zero. Hence the
  sign of the clamped value is the sign of the value. A layer that hands its successor only the SIGN of its
  result may therefore skip the clamp (the hard tanh) that a reference applies before taking the sign.

  Stated three ways: on the extended reals; for the f32 bit patterns of one and minus one as an idealized
  program writes them; and for whole arrays, a host sign of the clamped array against the sign an idealized
  kernel spells by comparisons (minus one below zero, one above, the value itself at zero).
-/
import Idealize.ShloMosaic.PureOps.Ideal.Laws

noncomputable section

namespace Idealize.ShloMosaic.Ideal

/-- The sign of a value clamped to [-1, 1] is the sign of the value, at every extended real. -/
theorem sign_clamp_unit (y : EReal) : Ideal.sign (min 1 (max (-1) y)) = Ideal.sign y := by
  have hm : (-1 : EReal) < 0 := by
    have h : ((-1 : ℝ) : EReal) < ((0 : ℝ) : EReal) := EReal.coe_lt_coe_iff.mpr (by norm_num)
    simpa using h
  have hp : (0 : EReal) < 1 := zero_lt_one
  rcases lt_trichotomy y 0 with h | h | h
  · have hc : min 1 (max (-1) y) < 0 := lt_of_le_of_lt (min_le_right _ _) (max_lt hm h)
    rw [sign_of_neg hc, sign_of_neg h]
  · subst h
    rw [max_eq_right hm.le, min_eq_right hp.le]
  · have hc : 0 < min 1 (max (-1) y) := lt_min hp (lt_max_of_lt_right h)
    rw [sign_of_pos hc, sign_of_pos h]

/-- The same over the f32 patterns of 1.0 and -1.0, with the float maximum and minimum. -/
theorem sign_clamp_unit_f32 (y : Ideal .f32) :
    Ideal.sign (FloatOps.minimumf (Ideal.ofBits .f32 0x3F800000#32) (FloatOps.maximumf (Ideal.ofBits .f32 0xBF800000#32) y))
      = Ideal.sign y := by
  have h1 : Ideal.ofBits .f32 0x3F800000#32 = 1 := IdealRules.sign_bit.ideal_onePat .f32
  have hn : Ideal.ofBits .f32 0xBF800000#32 = -1 := IdealRules.sign_bit.ideal_negOnePat .f32
  rw [maximumf_def, minimumf_def, h1, hn]
  exact sign_clamp_unit y

/-- For whole arrays: the sign (taken on the host) of an array clamped to [-1, 1] is, entry by entry, the sign
    a kernel spells by comparisons on the array itself. -/
theorem host_sign_clamp_eq_select_sign {s : Shape} (y : FVec Ideal s .f32) (lo hi : FVec Ideal s .f32)
    (hlo : ∀ i, lo i = Ideal.ofBits .f32 0xBF800000#32) (hhi : ∀ i, hi i = Ideal.ofBits .f32 0x3F800000#32) :
    Host.sign (minimumf hi (maximumf lo y))
      = select (cmpf .ogt (absf y) (broadcast s (Scalar.ofBits .f32 0x00000000#32)))
          (select (cmpf .olt y (constant s .f32 0x00000000#32)) (constant s .f32 0xBF800000#32)
            (constant s .f32 0x3F800000#32)) y := by
  funext i
  rw [host_sign_eq_sign]
  refine Eq.trans ?_ (jnp_sign_eq_sign_f32 (y i)).symm
  show Ideal.sign (FloatOps.minimumf (hi i) (FloatOps.maximumf (lo i) (y i))) = Ideal.sign (y i)
  rw [hlo i, hhi i]
  exact sign_clamp_unit_f32 (y i)

end Idealize.ShloMosaic.Ideal

end
-- ==== Proof.LibColumnForms.lean ====
/-
  COLUMN AND ROW FORMS READ AT AN INDEX.

  The small layout steps between a vector and a matrix with a unit axis, for every extent and element type:
  * `broadcastTo_col_apply`: a column `[a, 1]` broadcast along the lanes to `[a, b]` reads, at `(p, q)`, the column at `(p, 0)`;
  * `broadcastTo_row_apply`: a row `[1, b]` broadcast along the rows to `[a, b]` reads, at `(p, q)`, the row at `(0, q)`;
  * `shapeCast_col_apply`: a vector `[a]` reshaped to a column `[a, 1]` reads, at `(p, 0)`, the vector at `p`;
  * `shapeCast_row_apply`: a vector `[b]` reshaped to a row `[1, b]` reads, at `(0, q)`, the vector at `q`.
-/
import Idealize.ShloMosaic.Lib.Pipeline.Value
import Idealize.ShloMosaic.Lib.ValueIdx

noncomputable section

namespace Cert.Lib.ColumnForms

open Idealize.ShloMosaic Idealize.ShloMosaic.ValueIdx

variable {α : Type} {a b : Nat}

/-- A column broadcast along the lanes. -/
theorem broadcastTo_col_apply (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A row broadcast along the rows. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A vector reshaped to a column. -/
theorem shapeCast_col_apply (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) :=
  shapeCast_apply v h (ix2 p 0) (ix1 p) (by
    rw [Shape.rowMajor_val_one, Shape.rowMajor_val_two]
    show p.val = p.val * 1 + 0
    omega)

/-- A vector reshaped to a row. -/
theorem shapeCast_row_apply (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) :=
  shapeCast_apply v h (ix2 0 q) (ix1 q) (by
    rw [Shape.rowMajor_val_one, Shape.rowMajor_val_two]
    show q.val = 0 * b + q.val
    omega)

end Cert.Lib.ColumnForms

end
-- ==== Proof.KernelEntries.lean ====
/-
  What each region finds in its windows' arrays.

  Between the regions the host only casts (the identity on the extended reals), takes the weights' signs, and
  reshapes parameter vectors into rows. So layer 1 reads the input itself, the signs of the first weights and its
  five parameter vectors as rows; each later layer reads the previous layer's output array as the region left it,
  the signs of its own weights (computed before the first region and untouched since), and its own parameter rows;
  the last layer reads layer 3's output, the last weights as launched, and its bias as a row.
-/
import proofs.«158226_j28930899706073_2_alg».proof.Proof.KernelIdealFrame
import proofs.«158226_j28930899706073_2_alg».proof.Proof.LibColumnForms
import Idealize.ShloMosaic.Lib.StableHlo.Run
import Idealize.ShloMosaic.PureOps.Ideal.Laws

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- An argument is as launched in every valuation followed: no stretch and no region writes it. -/
theorem V1_arg (a : Ref sig .tc) (h : a ∉ hostOps0_W) : V1 m c (Proc.devRef .tc a) = m ((c : Thread nD τ).loc a) :=
  Gen.V1_of m c a h

/-! ## Layer 1 -/

theorem in1_act (i : S4096x784.Idx) : (V1 m c (Proc.devRef .tc main_v0) : FVec Ideal S4096x784 .bf16) i = ((m ((c : Thread nD τ).loc main_arg0)) : FVec Ideal S4096x784 .f32) i := by
  have e : (V1 m c (Proc.devRef .tc main_v0) : FVec Ideal S4096x784 .bf16) = truncf (F := Ideal) .bf16 ((m ((c : Thread nD τ).loc main_arg0)) : FVec Ideal S4096x784 .f32) bitsLt_bf16_f32 := by
    show StableHlo.after hostOps0 (V0 m c) (Proc.devRef .tc main_v0) = _
    after_results
  rw [e]; rfl
theorem in1_wt (i : S6144x784.Idx) : (V1 m c (Proc.devRef .tc main_v2) : FVec Ideal S6144x784 .bf16) i = Ideal.sign (((m ((c : Thread nD τ).loc main_arg1)) : FVec Ideal S6144x784 .f32) i) := by
  have e : (V1 m c (Proc.devRef .tc main_v2) : FVec Ideal S6144x784 .bf16) = truncf (F := Ideal) .bf16 (Host.sign ((m ((c : Thread nD τ).loc main_arg1)) : FVec Ideal S6144x784 .f32)) bitsLt_bf16_f32 := by
    show StableHlo.after hostOps0 (V0 m c) (Proc.devRef .tc main_v2) = _
    after_results
  rw [e]; rfl
/-- The signs of the second and third weight matrices, computed before the first region. -/
theorem in1_wt2 (i : S6144x6144.Idx) : (V1 m c (Proc.devRef .tc main_v4) : FVec Ideal S6144x6144 .bf16) i = Ideal.sign (((m ((c : Thread nD τ).loc main_arg7)) : FVec Ideal S6144x6144 .f32) i) := by
  have e : (V1 m c (Proc.devRef .tc main_v4) : FVec Ideal S6144x6144 .bf16) = truncf (F := Ideal) .bf16 (Host.sign ((m ((c : Thread nD τ).loc main_arg7)) : FVec Ideal S6144x6144 .f32)) bitsLt_bf16_f32 := by
    show StableHlo.after hostOps0 (V0 m c) (Proc.devRef .tc main_v4) = _
    after_results
  rw [e]; rfl
theorem in1_wt3 (i : S6144x6144.Idx) : (V1 m c (Proc.devRef .tc main_v6) : FVec Ideal S6144x6144 .bf16) i = Ideal.sign (((m ((c : Thread nD τ).loc main_arg13)) : FVec Ideal S6144x6144 .f32) i) := by
  have e : (V1 m c (Proc.devRef .tc main_v6) : FVec Ideal S6144x6144 .bf16) = truncf (F := Ideal) .bf16 (Host.sign ((m ((c : Thread nD τ).loc main_arg13)) : FVec Ideal S6144x6144 .f32)) bitsLt_bf16_f32 := by
    show StableHlo.after hostOps0 (V0 m c) (Proc.devRef .tc main_v6) = _
    after_results
  rw [e]; rfl
theorem in1_row0 (q : Fin 6144) : (V1 m c (Proc.devRef .tc main_v7) : FVec Ideal S1x6144 .f32) (ix2 0 q) = ((m ((c : Thread nD τ).loc main_arg2)) : FVec Ideal S6144 .f32) (ix1 q) := by
  have e : (V1 m c (Proc.devRef .tc main_v7) : FVec Ideal S1x6144 .f32) = shapeCast S1x6144 ((m ((c : Thread nD τ).loc main_arg2)) : FVec Ideal S6144 .f32) shapeCasts_S6144_S1x6144 := by
    show StableHlo.after hostOps0 (V0 m c) (Proc.devRef .tc main_v7) = _
    after_results <;> rfl
  rw [e]; exact Cert.Lib.ColumnForms.shapeCast_row_apply _ _ q
theorem in1_row1 (q : Fin 6144) : (V1 m c (Proc.devRef .tc main_v8) : FVec Ideal S1x6144 .f32) (ix2 0 q) = ((m ((c : Thread nD τ).loc main_arg3)) : FVec Ideal S6144 .f32) (ix1 q) := by
  have e : (V1 m c (Proc.devRef .tc main_v8) : FVec Ideal S1x6144 .f32) = shapeCast S1x6144 ((m ((c : Thread nD τ).loc main_arg3)) : FVec Ideal S6144 .f32) shapeCasts_S6144_S1x6144 := by
    show StableHlo.after hostOps0 (V0 m c) (Proc.devRef .tc main_v8) = _
    after_results <;> rfl
  rw [e]; exact Cert.Lib.ColumnForms.shapeCast_row_apply _ _ q
theorem in1_row2 (q : Fin 6144) : (V1 m c (Proc.devRef .tc main_v9) : FVec Ideal S1x6144 .f32) (ix2 0 q) = ((m ((c : Thread nD τ).loc main_arg4)) : FVec Ideal S6144 .f32) (ix1 q) := by
  have e : (V1 m c (Proc.devRef .tc main_v9) : FVec Ideal S1x6144 .f32) = shapeCast S1x6144 ((m ((c : Thread nD τ).loc main_arg4)) : FVec Ideal S6144 .f32) shapeCasts_S6144_S1x6144 := by
    show StableHlo.after hostOps0 (V0 m c) (Proc.devRef .tc main_v9) = _
    after_results <;> rfl
  rw [e]; exact Cert.Lib.ColumnForms.shapeCast_row_apply _ _ q
theorem in1_row3 (q : Fin 6144) : (V1 m c (Proc.devRef .tc main_v10) : FVec Ideal S1x6144 .f32) (ix2 0 q) = ((m ((c : Thread nD τ).loc main_arg5)) : FVec Ideal S6144 .f32) (ix1 q) := by
  have e : (V1 m c (Proc.devRef .tc main_v10) : FVec Ideal S1x6144 .f32) = shapeCast S1x6144 ((m ((c : Thread nD τ).loc main_arg5)) : FVec Ideal S6144 .f32) shapeCasts_S6144_S1x6144 := by
    show StableHlo.after hostOps0 (V0 m c) (Proc.devRef .tc main_v10) = _
    after_results <;> rfl
  rw [e]; exact Cert.Lib.ColumnForms.shapeCast_row_apply _ _ q
theorem in1_row4 (q : Fin 6144) : (V1 m c (Proc.devRef .tc main_v11) : FVec Ideal S1x6144 .f32) (ix2 0 q) = ((m ((c : Thread nD τ).loc main_arg6)) : FVec Ideal S6144 .f32) (ix1 q) := by
  have e : (V1 m c (Proc.devRef .tc main_v11) : FVec Ideal S1x6144 .f32) = shapeCast S1x6144 ((m ((c : Thread nD τ).loc main_arg6)) : FVec Ideal S6144 .f32) shapeCasts_S6144_S1x6144 := by
    show StableHlo.after hostOps0 (V0 m c) (Proc.devRef .tc main_v11) = _
    after_results <;> rfl
  rw [e]; exact Cert.Lib.ColumnForms.shapeCast_row_apply _ _ q

/-! ## What the later stretches and regions leave alone -/

theorem keep2 (a : Ref sig .tc) (hne : a ≠ main_v12) : W2 m c (Proc.devRef .tc a) = V1 m c (Proc.devRef .tc a) :=
  Function.update_of_ne (StableHlo.devRef_ne_of_ne hne) _ _
theorem keep3 (a : Ref sig .tc) (h : a ∉ hostOps1_W) (hne : a ≠ main_v12) : W3 m c (Proc.devRef .tc a) = V1 m c (Proc.devRef .tc a) :=
  (StableHlo.after_of_writes_sub hostOps1 _ Gen.hostOps1_writes h).trans (keep2 m c a hne)
theorem keep4 (a : Ref sig .tc) (hne : a ≠ main_v18) : W4 m c (Proc.devRef .tc a) = W3 m c (Proc.devRef .tc a) :=
  Function.update_of_ne (StableHlo.devRef_ne_of_ne hne) _ _
theorem keep5 (a : Ref sig .tc) (h : a ∉ hostOps2_W) (hne : a ≠ main_v18) : W5 m c (Proc.devRef .tc a) = W3 m c (Proc.devRef .tc a) :=
  (StableHlo.after_of_writes_sub hostOps2 _ Gen.hostOps2_writes h).trans (keep4 m c a hne)
theorem keep6 (a : Ref sig .tc) (hne : a ≠ main_v24) : W6 m c (Proc.devRef .tc a) = W5 m c (Proc.devRef .tc a) :=
  Function.update_of_ne (StableHlo.devRef_ne_of_ne hne) _ _
theorem keep7 (a : Ref sig .tc) (h : a ∉ hostOps3_W) (hne : a ≠ main_v24) : W7 m c (Proc.devRef .tc a) = W5 m c (Proc.devRef .tc a) :=
  (StableHlo.after_of_writes_sub hostOps3 _ Gen.hostOps3_writes h).trans (keep6 m c a hne)

/-! ## Layer 2 -/

theorem in2_act : W3 m c (Proc.devRef .tc main_v12) = o1 m c :=
  (StableHlo.after_of_writes_sub hostOps1 _ Gen.hostOps1_writes (by decide : main_v12 ∉ hostOps1_W)).trans (Function.update_self ..)
theorem in2_wt (i : S6144x6144.Idx) : (W3 m c (Proc.devRef .tc main_v4) : FVec Ideal S6144x6144 .bf16) i = Ideal.sign (((m ((c : Thread nD τ).loc main_arg7)) : FVec Ideal S6144x6144 .f32) i) := by
  rw [keep3 m c main_v4 (by decide) (by decide)]; exact in1_wt2 m c i
theorem in2_row0 (q : Fin 6144) : (W3 m c (Proc.devRef .tc main_v13) : FVec Ideal S1x6144 .f32) (ix2 0 q) = ((m ((c : Thread nD τ).loc main_arg8)) : FVec Ideal S6144 .f32) (ix1 q) := by
  have e : (W3 m c (Proc.devRef .tc main_v13) : FVec Ideal S1x6144 .f32) = shapeCast S1x6144 (W2 m c (Proc.devRef .tc main_arg8) : FVec Ideal S6144 .f32) shapeCasts_S6144_S1x6144 := by
    show StableHlo.after hostOps1 (W2 m c) (Proc.devRef .tc main_v13) = _
    after_results <;> rfl
  rw [e, keep2 m c main_arg8 (by decide), V1_arg m c main_arg8 (by decide)]
  exact Cert.Lib.ColumnForms.shapeCast_row_apply _ _ q
theorem in2_row1 (q : Fin 6144) : (W3 m c (Proc.devRef .tc main_v14) : FVec Ideal S1x6144 .f32) (ix2 0 q) = ((m ((c : Thread nD τ).loc main_arg9)) : FVec Ideal S6144 .f32) (ix1 q) := by
  have e : (W3 m c (Proc.devRef .tc main_v14) : FVec Ideal S1x6144 .f32) = shapeCast S1x6144 (W2 m c (Proc.devRef .tc main_arg9) : FVec Ideal S6144 .f32) shapeCasts_S6144_S1x6144 := by
    show StableHlo.after hostOps1 (W2 m c) (Proc.devRef .tc main_v14) = _
    after_results <;> rfl
  rw [e, keep2 m c main_arg9 (by decide), V1_arg m c main_arg9 (by decide)]
  exact Cert.Lib.ColumnForms.shapeCast_row_apply _ _ q
theorem in2_row2 (q : Fin 6144) : (W3 m c (Proc.devRef .tc main_v15) : FVec Ideal S1x6144 .f32) (ix2 0 q) = ((m ((c : Thread nD τ).loc main_arg10)) : FVec Ideal S6144 .f32) (ix1 q) := by
  have e : (W3 m c (Proc.devRef .tc main_v15) : FVec Ideal S1x6144 .f32) = shapeCast S1x6144 (W2 m c (Proc.devRef .tc main_arg10) : FVec Ideal S6144 .f32) shapeCasts_S6144_S1x6144 := by
    show StableHlo.after hostOps1 (W2 m c) (Proc.devRef .tc main_v15) = _
    after_results <;> rfl
  rw [e, keep2 m c main_arg10 (by decide), V1_arg m c main_arg10 (by decide)]
  exact Cert.Lib.ColumnForms.shapeCast_row_apply _ _ q
theorem in2_row3 (q : Fin 6144) : (W3 m c (Proc.devRef .tc main_v16) : FVec Ideal S1x6144 .f32) (ix2 0 q) = ((m ((c : Thread nD τ).loc main_arg11)) : FVec Ideal S6144 .f32) (ix1 q) := by
  have e : (W3 m c (Proc.devRef .tc main_v16) : FVec Ideal S1x6144 .f32) = shapeCast S1x6144 (W2 m c (Proc.devRef .tc main_arg11) : FVec Ideal S6144 .f32) shapeCasts_S6144_S1x6144 := by
    show StableHlo.after hostOps1 (W2 m c) (Proc.devRef .tc main_v16) = _
    after_results <;> rfl
  rw [e, keep2 m c main_arg11 (by decide), V1_arg m c main_arg11 (by decide)]
  exact Cert.Lib.ColumnForms.shapeCast_row_apply _ _ q
theorem in2_row4 (q : Fin 6144) : (W3 m c (Proc.devRef .tc main_v17) : FVec Ideal S1x6144 .f32) (ix2 0 q) = ((m ((c : Thread nD τ).loc main_arg12)) : FVec Ideal S6144 .f32) (ix1 q) := by
  have e : (W3 m c (Proc.devRef .tc main_v17) : FVec Ideal S1x6144 .f32) = shapeCast S1x6144 (W2 m c (Proc.devRef .tc main_arg12) : FVec Ideal S6144 .f32) shapeCasts_S6144_S1x6144 := by
    show StableHlo.after hostOps1 (W2 m c) (Proc.devRef .tc main_v17) = _
    after_results <;> rfl
  rw [e, keep2 m c main_arg12 (by decide), V1_arg m c main_arg12 (by decide)]
  exact Cert.Lib.ColumnForms.shapeCast_row_apply _ _ q

/-! ## Layer 3 -/

theorem in3_act : W5 m c (Proc.devRef .tc main_v18) = o2 m c :=
  (StableHlo.after_of_writes_sub hostOps2 _ Gen.hostOps2_writes (by decide : main_v18 ∉ hostOps2_W)).trans (Function.update_self ..)
theorem in3_wt (i : S6144x6144.Idx) : (W5 m c (Proc.devRef .tc main_v6) : FVec Ideal S6144x6144 .bf16) i = Ideal.sign (((m ((c : Thread nD τ).loc main_arg13)) : FVec Ideal S6144x6144 .f32) i) := by
  rw [keep5 m c main_v6 (by decide) (by decide), keep3 m c main_v6 (by decide) (by decide)]; exact in1_wt3 m c i
theorem in3_row0 (q : Fin 6144) : (W5 m c (Proc.devRef .tc main_v19) : FVec Ideal S1x6144 .f32) (ix2 0 q) = ((m ((c : Thread nD τ).loc main_arg14)) : FVec Ideal S6144 .f32) (ix1 q) := by
  have e : (W5 m c (Proc.devRef .tc main_v19) : FVec Ideal S1x6144 .f32) = shapeCast S1x6144 (W4 m c (Proc.devRef .tc main_arg14) : FVec Ideal S6144 .f32) shapeCasts_S6144_S1x6144 := by
    show StableHlo.after hostOps2 (W4 m c) (Proc.devRef .tc main_v19) = _
    after_results <;> rfl
  rw [e, keep4 m c main_arg14 (by decide), keep3 m c main_arg14 (by decide) (by decide), V1_arg m c main_arg14 (by decide)]
  exact Cert.Lib.ColumnForms.shapeCast_row_apply _ _ q
theorem in3_row1 (q : Fin 6144) : (W5 m c (Proc.devRef .tc main_v20) : FVec Ideal S1x6144 .f32) (ix2 0 q) = ((m ((c : Thread nD τ).loc main_arg15)) : FVec Ideal S6144 .f32) (ix1 q) := by
  have e : (W5 m c (Proc.devRef .tc main_v20) : FVec Ideal S1x6144 .f32) = shapeCast S1x6144 (W4 m c (Proc.devRef .tc main_arg15) : FVec Ideal S6144 .f32) shapeCasts_S6144_S1x6144 := by
    show StableHlo.after hostOps2 (W4 m c) (Proc.devRef .tc main_v20) = _
    after_results <;> rfl
  rw [e, keep4 m c main_arg15 (by decide), keep3 m c main_arg15 (by decide) (by decide), V1_arg m c main_arg15 (by decide)]
  exact Cert.Lib.ColumnForms.shapeCast_row_apply _ _ q
theorem in3_row2 (q : Fin 6144) : (W5 m c (Proc.devRef .tc main_v21) : FVec Ideal S1x6144 .f32) (ix2 0 q) = ((m ((c : Thread nD τ).loc main_arg16)) : FVec Ideal S6144 .f32) (ix1 q) := by
  have e : (W5 m c (Proc.devRef .tc main_v21) : FVec Ideal S1x6144 .f32) = shapeCast S1x6144 (W4 m c (Proc.devRef .tc main_arg16) : FVec Ideal S6144 .f32) shapeCasts_S6144_S1x6144 := by
    show StableHlo.after hostOps2 (W4 m c) (Proc.devRef .tc main_v21) = _
    after_results <;> rfl
  rw [e, keep4 m c main_arg16 (by decide), keep3 m c main_arg16 (by decide) (by decide), V1_arg m c main_arg16 (by decide)]
  exact Cert.Lib.ColumnForms.shapeCast_row_apply _ _ q
theorem in3_row3 (q : Fin 6144) : (W5 m c (Proc.devRef .tc main_v22) : FVec Ideal S1x6144 .f32) (ix2 0 q) = ((m ((c : Thread nD τ).loc main_arg17)) : FVec Ideal S6144 .f32) (ix1 q) := by
  have e : (W5 m c (Proc.devRef .tc main_v22) : FVec Ideal S1x6144 .f32) = shapeCast S1x6144 (W4 m c (Proc.devRef .tc main_arg17) : FVec Ideal S6144 .f32) shapeCasts_S6144_S1x6144 := by
    show StableHlo.after hostOps2 (W4 m c) (Proc.devRef .tc main_v22) = _
    after_results <;> rfl
  rw [e, keep4 m c main_arg17 (by decide), keep3 m c main_arg17 (by decide) (by decide), V1_arg m c main_arg17 (by decide)]
  exact Cert.Lib.ColumnForms.shapeCast_row_apply _ _ q
theorem in3_row4 (q : Fin 6144) : (W5 m c (Proc.devRef .tc main_v23) : FVec Ideal S1x6144 .f32) (ix2 0 q) = ((m ((c : Thread nD τ).loc main_arg18)) : FVec Ideal S6144 .f32) (ix1 q) := by
  have e : (W5 m c (Proc.devRef .tc main_v23) : FVec Ideal S1x6144 .f32) = shapeCast S1x6144 (W4 m c (Proc.devRef .tc main_arg18) : FVec Ideal S6144 .f32) shapeCasts_S6144_S1x6144 := by
    show StableHlo.after hostOps2 (W4 m c) (Proc.devRef .tc main_v23) = _
    after_results <;> rfl
  rw [e, keep4 m c main_arg18 (by decide), keep3 m c main_arg18 (by decide) (by decide), V1_arg m c main_arg18 (by decide)]
  exact Cert.Lib.ColumnForms.shapeCast_row_apply _ _ q

/-! ## Layer 4 -/

theorem in4_act : W7 m c (Proc.devRef .tc main_v24) = o3 m c :=
  (StableHlo.after_of_writes_sub hostOps3 _ Gen.hostOps3_writes (by decide : main_v24 ∉ hostOps3_W)).trans (Function.update_self ..)
theorem in4_wt : W7 m c (Proc.devRef .tc main_arg19) = m ((c : Thread nD τ).loc main_arg19) := by
  rw [keep7 m c main_arg19 (by decide) (by decide), keep5 m c main_arg19 (by decide) (by decide), keep3 m c main_arg19 (by decide) (by decide)]
  exact V1_arg m c main_arg19 (by decide)
theorem in4_row (r : Fin 10) : (W7 m c (Proc.devRef .tc main_v25) : FVec Ideal S1x10 .f32) (ix2 0 r) = ((m ((c : Thread nD τ).loc main_arg20)) : FVec Ideal S10 .f32) (ix1 r) := by
  have e : (W7 m c (Proc.devRef .tc main_v25) : FVec Ideal S1x10 .f32) = shapeCast S1x10 (W6 m c (Proc.devRef .tc main_arg20) : FVec Ideal S10 .f32) shapeCasts_S10_S1x10 := by
    show StableHlo.after hostOps3 (W6 m c) (Proc.devRef .tc main_v25) = _
    after_results <;> rfl
  rw [e, keep6 m c main_arg20 (by decide), keep5 m c main_arg20 (by decide) (by decide), keep3 m c main_arg20 (by decide) (by decide), V1_arg m c main_arg20 (by decide)]
  exact Cert.Lib.ColumnForms.shapeCast_row_apply _ _ r

end Cert.KernelIdeal.Whole

end
-- ==== Proof.Layer1Pieces.lean ====
/-
  Layer 1's kernel body: what its last store leaves, as the printed arithmetic of the blocks.

  Layer 1's reduction has one step, so the body resets the accumulator, adds the block product, and stores the
  batch-normalised image at every point. Each store covers its whole buffer, so reading the found pieces back
  gives the last store's payload: the image, over the five parameter rows, of the block product added to the zero
  block. Stated for any float values.
-/
import proofs.«158226_j28930899706073_2_alg».proof.Proof.Layer1Data
import Idealize.ShloMosaic.Lib.Pipeline.Value
import Idealize.ShloMosaic.Lib.Tactic
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open Cert

variable {F : FTy → Type} [FloatOps F]
variable (m : (ℓ : Loc nD τ sig) → Buf (Elt F) ℓ)

theorem hz : (![0, 0] : Fin 2 → Nat) = fun _ => 0 := funext fun a => by fin_cases a <;> rfl

/-- What the body leaves in the output block's buffer: the batch-normalised image, over the five parameter rows,
    of the block product added to the zero block the reset stored. -/
theorem out7_eq (c : Dev nD) (t : Fin cfg0.N) :
    out7 m c t = k0_pay3 (k0_pay2 (iblk m c 0 t) (iblk m c 1 t) (k0_pay1 (F := F))) (iblk m c 2 t) (iblk m c 3 t) (iblk m c 5 t) (iblk m c 6 t) (iblk m c 4 t) := by
  unfold out7
  rw [View.read_writes_eq_canon _ _ _ (cover7 m c t)]
  unfold runAt bodyRun
  dsimp only
  sl_unfold_words
  rw [View.canon_unit_zero hz, View.readCov_cons_toLoadRect, View.readCov_unit_zero (S := S1024x1024) _ hz]
  simp only [View.readAt_eq_ld, (hs0 t).read_unread, (hs1 t).read_unread, (hs2 t).read_unread, (hs3 t).read_unread,
    (hs4 t).read_unread, (hs5 t).read_unread, (hs6 t).read_unread,
    View.ld_unit_zero (S := S1024x784) hz, View.ld_unit_zero (S := S1x1024) hz]

end Cert.KernelIdeal.Layer1

end
-- ==== Proof.NetSpec.lean ====
/-
  The network's layers as functions on extended reals, entry by entry.

  A binarized layer takes a row a of activations and a row w of weights (already signs), contracts them, adds
  the bias, normalises: g * ((sum_k a_k * w_k + b) - mu) * rsqrt(v + eps) + be. Layers 1 and 2 hand on the sign of
  that, layer 3 its clamp to [-1, 1]. The last layer contracts with real weights, adds its bias, and
  subtracts from each of the ten logits of a row the row's maximum and then the logarithm of the sum of the
  exponentials of the shifted logits. Every operation is the exact one on the extended reals, spelt with the float
  operations read at that instance so that a program's printed operation and this text are the same symbol.
-/
import Idealize.ShloMosaic.PureOps.Ideal.Laws

noncomputable section

namespace Cert.Net

open Idealize.ShloMosaic

/-- The batch-norm epsilon: the f32 nearest 1e-5, as both programs write it. -/
abbrev eps : Ideal .f32 := Ideal.ofBits .f32 0x3727C5AC#32
abbrev one : Ideal .f32 := Ideal.ofBits .f32 0x3F800000#32
abbrev negOne : Ideal .f32 := Ideal.ofBits .f32 0xBF800000#32

/-- The contraction of two rows of length K. -/
def dot {K : Nat} (a w : Fin K → EReal) : EReal := ∑ k : Fin K, a k * w k

/-- Bias, then batch normalisation, of one pre-activation h, in the order both programs apply it. -/
def bn (h b g be mu v : Ideal .f32) : Ideal .f32 :=
  FloatOps.addf (FloatOps.mulf (FloatOps.mulf g (FloatOps.subf (FloatOps.addf h b) mu)) (FloatOps.rsqrt (FloatOps.addf v eps))) be

/-- The clamp to [-1, 1] (the hard tanh), in the operand order both programs use. -/
def clamp (y : Ideal .f32) : Ideal .f32 := FloatOps.minimumf one (FloatOps.maximumf negOne y)

/-- Clamping never changes the sign (stated here over `clamp`). -/
theorem sign_clamp (y : Ideal .f32) : Ideal.sign (clamp y) = Ideal.sign y := by
  unfold clamp one negOne
  have h1 : Ideal.ofBits .f32 0x3F800000#32 = 1 := IdealRules.sign_bit.ideal_onePat .f32
  have hn : Ideal.ofBits .f32 0xBF800000#32 = -1 := IdealRules.sign_bit.ideal_negOnePat .f32
  rw [Ideal.maximumf_def, Ideal.minimumf_def, h1, hn]
  have hm : (-1 : EReal) < 0 := by
    have h : ((-1 : ℝ) : EReal) < ((0 : ℝ) : EReal) := EReal.coe_lt_coe_iff.mpr (by norm_num)
    simpa using h
  have hp : (0 : EReal) < 1 := zero_lt_one
  rcases lt_trichotomy y 0 with h | h | h
  · rw [Ideal.sign_of_neg (lt_of_le_of_lt (min_le_right _ _) (max_lt hm h)), Ideal.sign_of_neg h]
  · subst h; rw [max_eq_right hm.le, min_eq_right hp.le]
  · rw [Ideal.sign_of_pos (lt_min hp (lt_max_of_lt_right h)), Ideal.sign_of_pos h]

end Cert.Net

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.Layer1Payload.lean ====
/-
  Layer 1's printed arithmetic, entry by entry, on extended reals.

  The reset stores zeros. The one reduction step adds to the accumulator's entry (p, q) the contraction of row p of the
  activation block with row q of the weight block (both operands are contracted along their second axis). The last
  step adds the bias entry of column q, subtracts the running mean, scales by the weight and by the reciprocal
  square root of the variance plus epsilon, adds the offset, and stores the sign of that: the parameter
  rows are [1, 1024] rows broadcast down the block, so entry (p, q) reads each at (0, q); narrowing to bf16 changes
  nothing on extended reals.
-/
import proofs.«158226_j28930899706073_2_alg».proof.Proof.Gen.KernelIdeal.Skeleton
import proofs.«158226_j28930899706073_2_alg».proof.Proof.NetSpec
import proofs.«158226_j28930899706073_2_alg».proof.Proof.LibMatmulRows
import Idealize.ShloMosaic.Lib.ValueIdx
import Idealize.ShloMosaic.Lib.Pipeline.Value
import Idealize.ShloMosaic.PureOps.Ideal.Laws

set_option maxRecDepth 16384

noncomputable section

namespace Cert.KernelIdeal.Layer1

open Cert.KernelIdeal Cert.KernelIdeal.Gen
open Idealize.ShloMosaic Idealize.ShloMosaic.ValueIdx
open Cert

/-- The reset stores zeros. -/
theorem pay1_apply (p q : Fin 1024) : k0_pay1 (F := Ideal) (ix2 p q) = 0 := by
  unfold k0_pay1
  simp only [shapeCast_self]
  exact Ideal.ofBits_zero_f32

/-- A row [1, 1024] broadcast down the 1024 rows of the block reads, at (p, q), the row's entry q. -/
theorem bcast_row_apply (x : FVec Ideal S1x1024 .f32) (h : S1x1024.Broadcasts S1024x1024) (p q : Fin 1024) :
    broadcastTo S1024x1024 x h (ix2 p q) = x (ix2 0 q) :=
  broadcastTo_apply x h (ix2 p q) (ix2 0 q) fun a => by
    match a with
    | ⟨0, _⟩ => rfl
    | ⟨1, _⟩ => rfl

/-- One reduction step adds, to what the accumulator held at (p, q), row p of the activation block against row q
    of the weight block. -/
theorem pay2_apply (a w : Vec Ideal S1024x784 .bf16) (acc : Vec Ideal S1024x1024 .f32) (p q : Fin 1024) :
    k0_pay2 (F := Ideal) a w acc (ix2 p q) = acc (ix2 p q) + ∑ j : Fin 784, a (ix2 p j) * w (ix2 q j) := by
  unfold k0_pay2
  simp only [shapeCast_self]
  refine (addf_apply _ _ _).trans ?_
  exact congrArg (acc (ix2 p q) + ·)
    (Cert.MatmulRows.matmul_rows_apply dot_S1024x784_S1024x784_S1024x1024_1_1_0_0_n_n none rfl rfl rfl rfl rfl rfl a w p q)

/-- The pre-activation block as printed: the bias added to the accumulated sums, the running mean subtracted, the
    scale, the reciprocal square root of the variance plus epsilon, the offset; each parameter a row broadcast
    down the block. -/
abbrev pre (acc : Vec Ideal S1024x1024 .f32) (b g mu v be : Vec Ideal S1x1024 .f32) : FVec Ideal S1024x1024 .f32 :=
  addf (mulf (mulf (broadcastTo S1024x1024 g broadcasts_S1x1024_S1024x1024)
      (subf (addf acc (broadcastTo S1024x1024 b broadcasts_S1x1024_S1024x1024)) (broadcastTo S1024x1024 mu broadcasts_S1x1024_S1024x1024)))
      (broadcastTo S1024x1024 (rsqrt (addf v (broadcast S1x1024 (Scalar.ofBits (F := Ideal) .f32 0x3727C5AC#32)))) broadcasts_S1x1024_S1024x1024))
    (broadcastTo S1024x1024 be broadcasts_S1x1024_S1024x1024)

/-- Its entry (p, q) is the batch normalisation of the accumulated entry over the parameters' entries q. -/
theorem bn_apply (acc : Vec Ideal S1024x1024 .f32) (b g mu v be : Vec Ideal S1x1024 .f32) (p q : Fin 1024) :
    pre acc b g mu v be (ix2 p q)
      = Net.bn (acc (ix2 p q)) (b (ix2 0 q)) (g (ix2 0 q)) (be (ix2 0 q)) (mu (ix2 0 q)) (v (ix2 0 q)) := by
  unfold Net.bn
  have eb := bcast_row_apply b broadcasts_S1x1024_S1024x1024 p q
  have eg := bcast_row_apply g broadcasts_S1x1024_S1024x1024 p q
  have em := bcast_row_apply mu broadcasts_S1x1024_S1024x1024 p q
  have ee := bcast_row_apply be broadcasts_S1x1024_S1024x1024 p q
  have er : broadcastTo S1024x1024 (rsqrt (addf v (broadcast S1x1024 (Scalar.ofBits (F := Ideal) .f32 0x3727C5AC#32)))) broadcasts_S1x1024_S1024x1024 (ix2 p q)
      = FloatOps.rsqrt (FloatOps.addf (v (ix2 0 q)) Net.eps) :=
    (bcast_row_apply _ broadcasts_S1x1024_S1024x1024 p q).trans rfl
  show FloatOps.addf (FloatOps.mulf (FloatOps.mulf (broadcastTo S1024x1024 g broadcasts_S1x1024_S1024x1024 (ix2 p q))
      (FloatOps.subf (FloatOps.addf (acc (ix2 p q)) (broadcastTo S1024x1024 b broadcasts_S1x1024_S1024x1024 (ix2 p q)))
        (broadcastTo S1024x1024 mu broadcasts_S1x1024_S1024x1024 (ix2 p q))))
      (broadcastTo S1024x1024 (rsqrt (addf v (broadcast S1x1024 (Scalar.ofBits (F := Ideal) .f32 0x3727C5AC#32)))) broadcasts_S1x1024_S1024x1024 (ix2 p q)))
      (broadcastTo S1024x1024 be broadcasts_S1x1024_S1024x1024 (ix2 p q)) = _
  rw [eb, eg, em, ee, er]

/-- The last step stores, at (p, q), the sign of the batch-normalised sum at that entry. -/
theorem pay3_apply (acc : Vec Ideal S1024x1024 .f32) (b g mu v be : Vec Ideal S1x1024 .f32) (p q : Fin 1024) :
    k0_pay3 (F := Ideal) acc b g mu v be (ix2 p q)
      = Ideal.sign (Net.bn (acc (ix2 p q)) (b (ix2 0 q)) (g (ix2 0 q)) (be (ix2 0 q)) (mu (ix2 0 q)) (v (ix2 0 q))) := by
  unfold k0_pay3
  simp only [shapeCast_self]
  refine (truncf_apply (ψ := .bf16) (φ := .f32) _ bitsLt_bf16_f32 (ix2 p q)).trans ?_
  refine (Ideal.jnp_sign_eq_sign_f32 (pre acc b g mu v be (ix2 p q))).trans ?_
  exact congrArg Ideal.sign (bn_apply acc b g mu v be p q)

end Cert.KernelIdeal.Layer1

end
-- ==== Proof.Layer1Blocks.lean ====
/-
  Layer 1's windows over the grid: which block of its array each window holds at each point.

  Point t of the 24 is at row block t / 6 and column block t mod 6 (the reduction axis has one step). The input
  window holds rows 1024 * (t / 6) … of the input, all 784 columns; the weight window rows 1024 * (t mod 6) … of the
  weights; each parameter window columns 1024 * (t mod 6) … of its row; the output window rows 1024 * (t / 6) … and
  columns 1024 * (t mod 6) … of the output array. Decided once over the grid; then each block read at an entry is
  its array read at the shifted entry.
-/
import proofs.«158226_j28930899706073_2_alg».proof.Proof.Layer1Data
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open Cert

variable {F : FTy → Type} [FloatOps F]
variable (m : (ℓ : Loc nD τ sig) → Buf (Elt F) ℓ)

theorem idx0 : ∀ t : Fin cfg0.N, win0_0.index t 0 = t.val / 6 ∧ win0_0.index t 1 = 0 := by decide +kernel
theorem idx1 : ∀ t : Fin cfg0.N, win0_1.index t 0 = t.val % 6 ∧ win0_1.index t 1 = 0 := by decide +kernel
theorem idx7 : ∀ t : Fin cfg0.N, win0_7.index t 0 = t.val / 6 ∧ win0_7.index t 1 = t.val % 6 := by decide +kernel

/-- The input block at point t, entry (p, j): the input at row 1024 * (t / 6) + p, column j. -/
theorem iblk0_apply (c : Dev nD) (t : Fin cfg0.N) (p : Fin 1024) (j : Fin 784) (r : Fin 4096)
    (hr : r.val = 1024 * (t.val / 6) + p.val) :
    (iblk m c 0 t : Vec F S1024x784 .bf16) (ix2 p j) = (Vin m c main_v0 : S4096x784.Idx → Elt F .bf16) (ix2 r j) := by
  have hi := idx0 t
  unfold iblk
  rw [View.read_apply]
  show Gen.V1 m c _ _ = Gen.V1 m c _ _
  congr 1
  funext a
  apply Fin.ext
  match a with
  | ⟨0, _⟩ => show win0_0.index t 0 * 1024 + 1 * p.val = r.val; rw [hi.1, hr]; omega
  | ⟨1, _⟩ => show win0_0.index t 1 * 784 + 1 * j.val = j.val; rw [hi.2]; omega

/-- The weight block at point t, entry (q, j): the weights at row 1024 * (t mod 6) + q, column j. -/
theorem iblk1_apply (c : Dev nD) (t : Fin cfg0.N) (q : Fin 1024) (j : Fin 784) (r : Fin 6144)
    (hr : r.val = 1024 * (t.val % 6) + q.val) :
    (iblk m c 1 t : Vec F S1024x784 .bf16) (ix2 q j) = (Vin m c main_v2 : S6144x784.Idx → Elt F .bf16) (ix2 r j) := by
  have hi := idx1 t
  unfold iblk
  rw [View.read_apply]
  show Gen.V1 m c _ _ = Gen.V1 m c _ _
  congr 1
  funext a
  apply Fin.ext
  match a with
  | ⟨0, _⟩ => show win0_1.index t 0 * 1024 + 1 * q.val = r.val; rw [hi.1, hr]; omega
  | ⟨1, _⟩ => show win0_1.index t 1 * 784 + 1 * j.val = j.val; rw [hi.2]; omega

theorem idx2 : ∀ t : Fin cfg0.N, win0_2.index t 0 = 0 ∧ win0_2.index t 1 = t.val % 6 := by decide +kernel

/-- Parameter window 2's block at point t is columns 1024 * (t mod 6) … of its row. -/
theorem iblk2_apply (c : Dev nD) (t : Fin cfg0.N) (q : Fin 1024) (k : Fin 6144) (hk : k.val = 1024 * (t.val % 6) + q.val) :
    (iblk m c 2 t : Vec F S1x1024 .f32) (ix2 0 q) = (Vin m c main_v7 : S1x6144.Idx → Elt F .f32) (ix2 0 k) := by
  have hi := idx2 t
  unfold iblk
  rw [View.read_apply]
  show Gen.V1 m c _ _ = Gen.V1 m c _ _
  congr 1
  funext a
  apply Fin.ext
  match a with
  | ⟨0, _⟩ => show win0_2.index t 0 * 1 + 1 * (0 : Fin 1).val = (0 : Fin 1).val; rw [hi.1]; first | rfl | simp
  | ⟨1, _⟩ => show win0_2.index t 1 * 1024 + 1 * q.val = k.val; rw [hi.2, hk]; omega

theorem idx3 : ∀ t : Fin cfg0.N, win0_3.index t 0 = 0 ∧ win0_3.index t 1 = t.val % 6 := by decide +kernel

/-- Parameter window 3's block at point t is columns 1024 * (t mod 6) … of its row. -/
theorem iblk3_apply (c : Dev nD) (t : Fin cfg0.N) (q : Fin 1024) (k : Fin 6144) (hk : k.val = 1024 * (t.val % 6) + q.val) :
    (iblk m c 3 t : Vec F S1x1024 .f32) (ix2 0 q) = (Vin m c main_v8 : S1x6144.Idx → Elt F .f32) (ix2 0 k) := by
  have hi := idx3 t
  unfold iblk
  rw [View.read_apply]
  show Gen.V1 m c _ _ = Gen.V1 m c _ _
  congr 1
  funext a
  apply Fin.ext
  match a with
  | ⟨0, _⟩ => show win0_3.index t 0 * 1 + 1 * (0 : Fin 1).val = (0 : Fin 1).val; rw [hi.1]; first | rfl | simp
  | ⟨1, _⟩ => show win0_3.index t 1 * 1024 + 1 * q.val = k.val; rw [hi.2, hk]; omega

theorem idx4 : ∀ t : Fin cfg0.N, win0_4.index t 0 = 0 ∧ win0_4.index t 1 = t.val % 6 := by decide +kernel

/-- Parameter window 4's block at point t is columns 1024 * (t mod 6) … of its row. -/
theorem iblk4_apply (c : Dev nD) (t : Fin cfg0.N) (q : Fin 1024) (k : Fin 6144) (hk : k.val = 1024 * (t.val % 6) + q.val) :
    (iblk m c 4 t : Vec F S1x1024 .f32) (ix2 0 q) = (Vin m c main_v9 : S1x6144.Idx → Elt F .f32) (ix2 0 k) := by
  have hi := idx4 t
  unfold iblk
  rw [View.read_apply]
  show Gen.V1 m c _ _ = Gen.V1 m c _ _
  congr 1
  funext a
  apply Fin.ext
  match a with
  | ⟨0, _⟩ => show win0_4.index t 0 * 1 + 1 * (0 : Fin 1).val = (0 : Fin 1).val; rw [hi.1]; first | rfl | simp
  | ⟨1, _⟩ => show win0_4.index t 1 * 1024 + 1 * q.val = k.val; rw [hi.2, hk]; omega

theorem idx5 : ∀ t : Fin cfg0.N, win0_5.index t 0 = 0 ∧ win0_5.index t 1 = t.val % 6 := by decide +kernel

/-- Parameter window 5's block at point t is columns 1024 * (t mod 6) … of its row. -/
theorem iblk5_apply (c : Dev nD) (t : Fin cfg0.N) (q : Fin 1024) (k : Fin 6144) (hk : k.val = 1024 * (t.val % 6) + q.val) :
    (iblk m c 5 t : Vec F S1x1024 .f32) (ix2 0 q) = (Vin m c main_v10 : S1x6144.Idx → Elt F .f32) (ix2 0 k) := by
  have hi := idx5 t
  unfold iblk
  rw [View.read_apply]
  show Gen.V1 m c _ _ = Gen.V1 m c _ _
  congr 1
  funext a
  apply Fin.ext
  match a with
  | ⟨0, _⟩ => show win0_5.index t 0 * 1 + 1 * (0 : Fin 1).val = (0 : Fin 1).val; rw [hi.1]; first | rfl | simp
  | ⟨1, _⟩ => show win0_5.index t 1 * 1024 + 1 * q.val = k.val; rw [hi.2, hk]; omega

theorem idx6 : ∀ t : Fin cfg0.N, win0_6.index t 0 = 0 ∧ win0_6.index t 1 = t.val % 6 := by decide +kernel

/-- Parameter window 6's block at point t is columns 1024 * (t mod 6) … of its row. -/
theorem iblk6_apply (c : Dev nD) (t : Fin cfg0.N) (q : Fin 1024) (k : Fin 6144) (hk : k.val = 1024 * (t.val % 6) + q.val) :
    (iblk m c 6 t : Vec F S1x1024 .f32) (ix2 0 q) = (Vin m c main_v11 : S1x6144.Idx → Elt F .f32) (ix2 0 k) := by
  have hi := idx6 t
  unfold iblk
  rw [View.read_apply]
  show Gen.V1 m c _ _ = Gen.V1 m c _ _
  congr 1
  funext a
  apply Fin.ext
  match a with
  | ⟨0, _⟩ => show win0_6.index t 0 * 1 + 1 * (0 : Fin 1).val = (0 : Fin 1).val; rw [hi.1]; first | rfl | simp
  | ⟨1, _⟩ => show win0_6.index t 1 * 1024 + 1 * q.val = k.val; rw [hi.2, hk]; omega

end Cert.KernelIdeal.Layer1

end
-- ==== Proof.Layer1Value.lean ====
/-
  Layer 1's region: the value of its output array, entry by entry, on extended reals.

  Every point writes its block back, holding the image of the block's full contraction (all 784 features are in
  the one block). The block of point t sits at rows 1024 * (t / 6) … and columns 1024 * (t mod 6) … of the output
  array, and these 24 blocks tile it. So after the region the output array's entry (P, Q) is the closed form: the
  contraction of row P of the input with row Q of the weights, batch-normalised with the parameters' entries Q,
  then its sign.
-/
import proofs.«158226_j28930899706073_2_alg».proof.Proof.Layer1Pieces
import proofs.«158226_j28930899706073_2_alg».proof.Proof.Layer1Payload
import proofs.«158226_j28930899706073_2_alg».proof.Proof.Layer1Blocks
import proofs.«158226_j28930899706073_2_alg».proof.Proof.Layer1Region

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open Cert

section Value

variable (m : (ℓ : Loc nD τ sig) → Buf (Elt Ideal) ℓ)

theorem lt24 (t : Fin cfg0.N) : t.val < 24 := lt_of_lt_of_eq t.isLt (show cfg0.N = 24 from N_0)

/-- The closed form of the output array's entry (P, Q): the sign of the batch-normalised contraction of row P of the
    input with row Q of the weights, over the parameters' entries Q. -/
def outEntry (c : Dev nD) (P : Fin 4096) (Q : Fin 6144) : EReal :=
  Ideal.sign (Net.bn (Net.dot (fun k : Fin 784 => (Vin m c main_v0 : S4096x784.Idx → Elt Ideal .bf16) (ix2 P k))
      (fun k : Fin 784 => (Vin m c main_v2 : S6144x784.Idx → Elt Ideal .bf16) (ix2 Q k)))
    ((Vin m c main_v7 : S1x6144.Idx → Elt Ideal .f32) (ix2 0 Q)) ((Vin m c main_v8 : S1x6144.Idx → Elt Ideal .f32) (ix2 0 Q))
    ((Vin m c main_v9 : S1x6144.Idx → Elt Ideal .f32) (ix2 0 Q)) ((Vin m c main_v10 : S1x6144.Idx → Elt Ideal .f32) (ix2 0 Q))
    ((Vin m c main_v11 : S1x6144.Idx → Elt Ideal .f32) (ix2 0 Q)))

/-- The output block's buffer after point t holds, at (p, q), the closed form at the block's place in the array. -/
theorem out7_apply (c : Dev nD) (t : Fin cfg0.N) (p q : Fin 1024) (P : Fin 4096) (Q : Fin 6144)
    (hP : P.val = 1024 * (t.val / 6) + p.val) (hQ : Q.val = 1024 * (t.val % 6) + q.val) :
    out7 m c t (ix2 p q) = outEntry m c P Q := by
  refine (congrFun (out7_eq m c t) (ix2 p q)).trans ?_
  rw [pay3_apply, pay2_apply, pay1_apply, zero_add]
  unfold outEntry Net.dot
  rw [iblk2_apply m c t q Q hQ, iblk3_apply m c t q Q hQ, iblk4_apply m c t q Q hQ, iblk5_apply m c t q Q hQ,
    iblk6_apply m c t q Q hQ]
  refine congrArg Ideal.sign ?_
  refine congrArg (fun s => Net.bn s _ _ _ _ _) ?_
  exact Finset.sum_congr rfl fun j _ => by rw [iblk0_apply m c t p j P hP, iblk1_apply m c t q j Q hQ]

/-- The output array's closed form. -/
def G (c : Dev nD) : Buf (Elt Ideal) ((cfg0.win 7).arr.view.loc (c : Thread nD τ)) :=
  fun idx => outEntry m c (idx 0) (idx 1)

/-- Each write-back writes the closed form's block: the block of point t sits at rows 1024 * (t / 6) … and columns
    1024 * (t mod 6) … of the array. -/
theorem flushed_eq (c : Dev nD) (t : Fin cfg0.N) (hf : (cfg0.win 7).flush t = true) :
    (dat m c).flushed 7 t = ((cfg0.win 7).blk t).view.read (Elt Ideal) (G m c) := by
  have hN := lt24 t
  have hi := idx7 t
  funext x
  have hx0 : (x 0).val < 1024 := (x 0).isLt
  have hx1 : (x 1).val < 1024 := (x 1).isLt
  have hP : 1024 * (t.val / 6) + (x 0).val < 4096 := by omega
  have hQ : 1024 * (t.val % 6) + (x 1).val < 6144 := by omega
  have hxi : (cfg0.win 7).xinj (grid0.coords t) x = ix2 (⟨(x 0).val, hx0⟩ : Fin 1024) (⟨(x 1).val, hx1⟩ : Fin 1024) :=
    funext fun a => by
      match a with
      | ⟨0, _⟩ => rfl
      | ⟨1, _⟩ => rfl
  show (cfg0.win 7).cut (grid0.coords t) ((dat m c).after 7 t) x = _
  rw [after7, View.read_apply]
  refine (congrArg (out7 m c t) hxi).trans ?_
  refine (out7_apply m c t ⟨_, hx0⟩ ⟨_, hx1⟩ ⟨_, hP⟩ ⟨_, hQ⟩ rfl rfl).trans ?_
  show outEntry m c _ _ = outEntry m c ((((cfg0.win 7).blk t).view.emb x) 0) ((((cfg0.win 7).blk t).view.emb x) 1)
  congr 1
  · apply Fin.ext
    show 1024 * (t.val / 6) + (x 0).val = win0_7.index t 0 * 1024 + 1 * (x 0).val
    rw [hi.1]; omega
  · apply Fin.ext
    show 1024 * (t.val % 6) + (x 1).val = win0_7.index t 1 * 1024 + 1 * (x 1).val
    rw [hi.2]; omega

/-- The 24 blocks tile the array: entry (P, Q) is in the block of row block P / 1024 and column block Q / 1024. -/
theorem cover (c : Dev nD) (i : ((cfg0.win 7).arr.view.loc (c : Thread nD τ)).2.ty.Idx) :
    ∃ t : Fin cfg0.N, (cfg0.win 7).flush t = true ∧ i ∈ ((cfg0.win 7).blk t).view.set := by
  have h0 : (i 0 : Nat) < 4096 := (i 0).isLt
  have h1 : (i 1 : Nat) < 6144 := (i 1).isLt
  obtain ⟨t, ht⟩ : ∃ t : Fin cfg0.N, t.val = 6 * ((i 0 : Nat) / 1024) + (i 1 : Nat) / 1024 :=
    ⟨⟨6 * ((i 0 : Nat) / 1024) + (i 1 : Nat) / 1024, by rw [show cfg0.N = 24 from N_0]; omega⟩, rfl⟩
  have hi := idx7 t
  refine ⟨t, flush0_7 t, ?_⟩
  show i ∈ ((View.whole main_v12).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + 1024
    rw [hi.1, ht]; omega
  | ⟨1, _⟩ =>
    show win0_7.index t 1 * 1024 ≤ (i 1 : Nat) ∧ (i 1 : Nat) < win0_7.index t 1 * 1024 + 1024
    rw [hi.2, ht]; omega

/-- So the output array ends holding the closed form, -/
theorem finalOut_eq (c : Dev nD) : (dat m c).arrAt 7 cfg0.N = G m c :=
  (dat m c).arrAt_eq_of_cover 7 (G m c) (flushed_eq m c) (cover c)

/-- entry by entry: -/
theorem finalOut_entry (c : Dev nD) (p : Fin 4096) (q : Fin 6144) :
    (finalOut m c : S4096x6144.Idx → Elt Ideal .bf16) (ix2 p q) = outEntry m c p q :=
  congrFun (finalOut_eq m c) (ix2 p q)

/-- THE REGION'S VALUE. The output array's entry (p, q) after the region is the sign of the batch-normalised
    contraction, over all 784 features, of row p of the entry input with row q of the entry weights, the five
    parameters read at column q. -/
theorem finalOut_apply (c : Dev nD) (p : Fin 4096) (q : Fin 6144) :
    (finalOut m c : S4096x6144.Idx → Elt Ideal .bf16) (ix2 p q)
      = Ideal.sign (Net.bn (Net.dot (fun k : Fin 784 => (Vin m c main_v0 : S4096x784.Idx → Elt Ideal .bf16) (ix2 p k))
            (fun k : Fin 784 => (Vin m c main_v2 : S6144x784.Idx → Elt Ideal .bf16) (ix2 q k)))
          ((Vin m c main_v7 : S1x6144.Idx → Elt Ideal .f32) (ix2 0 q)) ((Vin m c main_v8 : S1x6144.Idx → Elt Ideal .f32) (ix2 0 q))
          ((Vin m c main_v9 : S1x6144.Idx → Elt Ideal .f32) (ix2 0 q)) ((Vin m c main_v10 : S1x6144.Idx → Elt Ideal .f32) (ix2 0 q))
          ((Vin m c main_v11 : S1x6144.Idx → Elt Ideal .f32) (ix2 0 q))) :=
  finalOut_entry m c p q

end Value

end Cert.KernelIdeal.Layer1

end
-- ==== Proof.Layer2Pieces.lean ====
/-
  Layer 2's kernel body, case by case: what its stores leave, as the printed arithmetic of the blocks.

  Each run of the body found the pieces its stores wrote; each piece covers its whole buffer, so reading the
  pieces back gives the last store's payload, whatever the buffer held. At a first reduction step the accumulator
  ends holding the block product added to the zero block it was just reset to; at a later step the block product
  added to what it held; and at a last step the output block's buffer ends holding the batch-normalised image of
  that new accumulator. Stated for any float values.
-/
import proofs.«158226_j28930899706073_2_alg».proof.Proof.Layer2Data
import Idealize.ShloMosaic.Lib.Pipeline.Value
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (W : Dev nD → Valuation τ sig (Elt F))

theorem hz : (![0, 0] : Fin 2 → Nat) = fun _ => 0 := funext fun a => by fin_cases a <;> rfl

/-- The accumulator read through its own whole buffer is what it was stated to hold. -/
theorem read_scratch (xs : Vec F S1024x1024 .f32) :
    (View.whole cc1_scratch0).read (Elt F) ((Memref.isWhole_whole (sig := sig) (κ := .tc) cc1_scratch0).unread xs) = xs :=
  (Memref.isWhole_whole (sig := sig) (κ := .tc) cc1_scratch0).read_unread xs

/-- At a step between: the block product added to what the accumulator held. -/
theorem accMiddle_eq (c : Dev nD) (t : Fin cfg1.N) (h0 : ¬t.val % 4 = 0) (h3 : ¬t.val % 4 = 3) (xs : Vec F S1024x1024 .f32) :
    accMiddle W c t h0 h3 xs = k1_pay2 (iblk W c 0 t) (iblk W c 1 t) xs := by
  unfold accMiddle
  rw [View.read_writes_eq_canon _ _ _ (coverMiddle W c t h0 h3 xs)]
  unfold runMiddle bodyRunMiddle
  dsimp only
  rw [View.canon_unit_zero hz]
  simp only [View.readAt_eq_ld, (hs0 t).read_unread, (hs1 t).read_unread, read_scratch,
    View.ld_unit_zero (S := S1024x1536) hz, View.ld_unit_zero (S := S1024x1024) hz]

/-- At a first step: the block product added to the zero block the reset stored (read back from that store). -/
theorem accFirst_eq (c : Dev nD) (t : Fin cfg1.N) (h0 : t.val % 4 = 0) :
    accFirst W c t h0 = k1_pay2 (iblk W c 0 t) (iblk W c 1 t) (k1_pay1 (F := F)) := by
  unfold accFirst
  rw [View.read_writes_eq_canon _ _ _ (coverFirst W c t h0)]
  unfold runFirst bodyRunFirst
  dsimp only
  sl_unfold_words
  rw [View.canon_cons_unit_zero (S := S1024x1024) hz, View.readCov_unit_zero (S := S1024x1024) _ hz]
  simp only [View.readAt_eq_ld, (hs0 t).read_unread, (hs1 t).read_unread,
    View.ld_unit_zero (S := S1024x1536) hz]

/-- At a last step the accumulator likewise ends at the block product added to what it held, -/
theorem accLast_eq (c : Dev nD) (t : Fin cfg1.N) (h3 : t.val % 4 = 3) (xs : Vec F S1024x1024 .f32) :
    accLast W c t h3 xs = k1_pay2 (iblk W c 0 t) (iblk W c 1 t) xs := by
  unfold accLast
  rw [View.read_writes_eq_canon _ _ _ (coverAccLast W c t h3 xs)]
  unfold runLast bodyRunLast
  dsimp only
  sl_unfold_words
  rw [View.canon_unit_zero hz]
  simp only [View.readAt_eq_ld, (hs0 t).read_unread, (hs1 t).read_unread, read_scratch,
    View.ld_unit_zero (S := S1024x1536) hz, View.ld_unit_zero (S := S1024x1024) hz]

/-- and the output block's buffer at the batch-normalised image of that sum, over the five parameter rows. -/
theorem outLast_eq (c : Dev nD) (t : Fin cfg1.N) (h3 : t.val % 4 = 3) (xs : Vec F S1024x1024 .f32) :
    outLast W c t h3 xs = k1_pay3 (k1_pay2 (iblk W c 0 t) (iblk W c 1 t) xs) (iblk W c 2 t) (iblk W c 3 t) (iblk W c 5 t) (iblk W c 6 t) (iblk W c 4 t) := by
  unfold outLast
  rw [View.read_writes_eq_canon _ _ _ (coverOutLast W c t h3 xs)]
  unfold runLast bodyRunLast
  dsimp only
  sl_unfold_words
  rw [View.canon_unit_zero hz, View.readCov_unit_zero (S := S1024x1024) _ hz]
  simp only [View.readAt_eq_ld, (hs0 t).read_unread, (hs1 t).read_unread, (hs2 t).read_unread, (hs3 t).read_unread,
    (hs4 t).read_unread, (hs5 t).read_unread, (hs6 t).read_unread, read_scratch,
    View.ld_unit_zero (S := S1024x1536) hz, View.ld_unit_zero (S := S1024x1024) hz, View.ld_unit_zero (S := S1x1024) hz]

end Cert.KernelIdeal.Layer2

end
-- ==== Proof.Layer2Payload.lean ====
/-
  Layer 2's printed arithmetic, entry by entry, on extended reals.

  The reset stores zeros. One reduction step adds to the accumulator's entry (p, q) the contraction of row p of the
  activation block with row q of the weight block (both operands are contracted along their second axis). The last
  step adds the bias entry of column q, subtracts the running mean, scales by the weight and by the reciprocal
  square root of the variance plus epsilon, adds the offset, and stores the sign of that: the parameter
  rows are [1, 1024] rows broadcast down the block, so entry (p, q) reads each at (0, q); narrowing to bf16 changes
  nothing on extended reals.
-/
import proofs.«158226_j28930899706073_2_alg».proof.Proof.Gen.KernelIdeal.Skeleton
import proofs.«158226_j28930899706073_2_alg».proof.Proof.NetSpec
import proofs.«158226_j28930899706073_2_alg».proof.Proof.LibMatmulRows
import Idealize.ShloMosaic.Lib.ValueIdx
import Idealize.ShloMosaic.Lib.Pipeline.Value
import Idealize.ShloMosaic.PureOps.Ideal.Laws

set_option maxRecDepth 16384

noncomputable section

namespace Cert.KernelIdeal.Layer2

open Cert.KernelIdeal Cert.KernelIdeal.Gen
open Idealize.ShloMosaic Idealize.ShloMosaic.ValueIdx
open Cert

/-- The reset stores zeros. -/
theorem pay1_apply (p q : Fin 1024) : k1_pay1 (F := Ideal) (ix2 p q) = 0 := by
  unfold k1_pay1
  simp only [shapeCast_self]
  exact Ideal.ofBits_zero_f32

/-- A row [1, 1024] broadcast down the 1024 rows of the block reads, at (p, q), the row's entry q. -/
theorem bcast_row_apply (x : FVec Ideal S1x1024 .f32) (h : S1x1024.Broadcasts S1024x1024) (p q : Fin 1024) :
    broadcastTo S1024x1024 x h (ix2 p q) = x (ix2 0 q) :=
  broadcastTo_apply x h (ix2 p q) (ix2 0 q) fun a => by
    match a with
    | ⟨0, _⟩ => rfl
    | ⟨1, _⟩ => rfl

/-- One reduction step adds, to what the accumulator held at (p, q), row p of the activation block against row q
    of the weight block. -/
theorem pay2_apply (a w : Vec Ideal S1024x1536 .bf16) (acc : Vec Ideal S1024x1024 .f32) (p q : Fin 1024) :
    k1_pay2 (F := Ideal) a w acc (ix2 p q) = acc (ix2 p q) + ∑ j : Fin 1536, a (ix2 p j) * w (ix2 q j) := by
  unfold k1_pay2
  simp only [shapeCast_self]
  refine (addf_apply _ _ _).trans ?_
  exact congrArg (acc (ix2 p q) + ·)
    (Cert.MatmulRows.matmul_rows_apply dot_S1024x1536_S1024x1536_S1024x1024_1_1_0_0_n_n none rfl rfl rfl rfl rfl rfl a w p q)

/-- The pre-activation block as printed: the bias added to the accumulated sums, the running mean subtracted, the
    scale, the reciprocal square root of the variance plus epsilon, the offset; each parameter a row broadcast
    down the block. -/
abbrev pre (acc : Vec Ideal S1024x1024 .f32) (b g mu v be : Vec Ideal S1x1024 .f32) : FVec Ideal S1024x1024 .f32 :=
  addf (mulf (mulf (broadcastTo S1024x1024 g broadcasts_S1x1024_S1024x1024)
      (subf (addf acc (broadcastTo S1024x1024 b broadcasts_S1x1024_S1024x1024)) (broadcastTo S1024x1024 mu broadcasts_S1x1024_S1024x1024)))
      (broadcastTo S1024x1024 (rsqrt (addf v (broadcast S1x1024 (Scalar.ofBits (F := Ideal) .f32 0x3727C5AC#32)))) broadcasts_S1x1024_S1024x1024))
    (broadcastTo S1024x1024 be broadcasts_S1x1024_S1024x1024)

/-- Its entry (p, q) is the batch normalisation of the accumulated entry over the parameters' entries q. -/
theorem bn_apply (acc : Vec Ideal S1024x1024 .f32) (b g mu v be : Vec Ideal S1x1024 .f32) (p q : Fin 1024) :
    pre acc b g mu v be (ix2 p q)
      = Net.bn (acc (ix2 p q)) (b (ix2 0 q)) (g (ix2 0 q)) (be (ix2 0 q)) (mu (ix2 0 q)) (v (ix2 0 q)) := by
  unfold Net.bn
  have eb := bcast_row_apply b broadcasts_S1x1024_S1024x1024 p q
  have eg := bcast_row_apply g broadcasts_S1x1024_S1024x1024 p q
  have em := bcast_row_apply mu broadcasts_S1x1024_S1024x1024 p q
  have ee := bcast_row_apply be broadcasts_S1x1024_S1024x1024 p q
  have er : broadcastTo S1024x1024 (rsqrt (addf v (broadcast S1x1024 (Scalar.ofBits (F := Ideal) .f32 0x3727C5AC#32)))) broadcasts_S1x1024_S1024x1024 (ix2 p q)
      = FloatOps.rsqrt (FloatOps.addf (v (ix2 0 q)) Net.eps) :=
    (bcast_row_apply _ broadcasts_S1x1024_S1024x1024 p q).trans rfl
  show FloatOps.addf (FloatOps.mulf (FloatOps.mulf (broadcastTo S1024x1024 g broadcasts_S1x1024_S1024x1024 (ix2 p q))
      (FloatOps.subf (FloatOps.addf (acc (ix2 p q)) (broadcastTo S1024x1024 b broadcasts_S1x1024_S1024x1024 (ix2 p q)))
        (broadcastTo S1024x1024 mu broadcasts_S1x1024_S1024x1024 (ix2 p q))))
      (broadcastTo S1024x1024 (rsqrt (addf v (broadcast S1x1024 (Scalar.ofBits (F := Ideal) .f32 0x3727C5AC#32)))) broadcasts_S1x1024_S1024x1024 (ix2 p q)))
      (broadcastTo S1024x1024 be broadcasts_S1x1024_S1024x1024 (ix2 p q)) = _
  rw [eb, eg, em, ee, er]

/-- The last step stores, at (p, q), the sign of the batch-normalised sum at that entry. -/
theorem pay3_apply (acc : Vec Ideal S1024x1024 .f32) (b g mu v be : Vec Ideal S1x1024 .f32) (p q : Fin 1024) :
    k1_pay3 (F := Ideal) acc b g mu v be (ix2 p q)
      = Ideal.sign (Net.bn (acc (ix2 p q)) (b (ix2 0 q)) (g (ix2 0 q)) (be (ix2 0 q)) (mu (ix2 0 q)) (v (ix2 0 q))) := by
  unfold k1_pay3
  simp only [shapeCast_self]
  refine (truncf_apply (ψ := .bf16) (φ := .f32) _ bitsLt_bf16_f32 (ix2 p q)).trans ?_
  refine (Ideal.jnp_sign_eq_sign_f32 (pre acc b g mu v be (ix2 p q))).trans ?_
  exact congrArg Ideal.sign (bn_apply acc b g mu v be p q)

end Cert.KernelIdeal.Layer2

end
-- ==== Proof.Layer2Blocks.lean ====
/-
  Layer 2's windows over the grid: which block of its array each window holds at each point.

  Point t of the 96 is at row block t / 24, column block (t / 4) mod 6 and reduction step t mod 4. The activation
  window holds rows 1024 * (t / 24) … and columns 1536 * (t mod 4) … of the activations; the weight window rows
  1024 * ((t / 4) mod 6) … and the same columns of the weights; each parameter window columns 1024 * ((t / 4) mod 6) …
  of its row; the output window rows 1024 * (t / 24) … and columns 1024 * ((t / 4) mod 6) … of the output array.
  Decided once over the grid; then each block read at an entry is its array read at the shifted entry.
-/
import proofs.«158226_j28930899706073_2_alg».proof.Proof.Layer2Data
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (W : Dev nD → Valuation τ sig (Elt F))

theorem idx0 : ∀ t : Fin cfg1.N, win1_0.index t 0 = t.val / 24 ∧ win1_0.index t 1 = t.val % 4 := by decide +kernel
theorem idx1 : ∀ t : Fin cfg1.N, win1_1.index t 0 = (t.val / 4) % 6 ∧ win1_1.index t 1 = t.val % 4 := by decide +kernel
theorem idx7 : ∀ t : Fin cfg1.N, win1_7.index t 0 = t.val / 24 ∧ win1_7.index t 1 = (t.val / 4) % 6 := by decide +kernel

/-- The activation block at point t, entry (p, j): the activations at row 1024 * (t / 24) + p, column 1536 * (t mod 4) + j. -/
theorem iblk0_apply (c : Dev nD) (t : Fin cfg1.N) (p : Fin 1024) (j : Fin 1536) (r : Fin 4096) (k : Fin 6144)
    (hr : r.val = 1024 * (t.val / 24) + p.val) (hk : k.val = 1536 * (t.val % 4) + j.val) :
    (iblk W c 0 t : Vec F S1024x1536 .bf16) (ix2 p j) = (Vin W c main_v12 : S4096x6144.Idx → Elt F .bf16) (ix2 r k) := by
  have hi := idx0 t
  unfold iblk
  rw [View.read_apply]
  show W c _ _ = W c _ _
  congr 1
  funext a
  apply Fin.ext
  match a with
  | ⟨0, _⟩ => show win1_0.index t 0 * 1024 + 1 * p.val = r.val; rw [hi.1, hr]; omega
  | ⟨1, _⟩ => show win1_0.index t 1 * 1536 + 1 * j.val = k.val; rw [hi.2, hk]; omega

/-- The weight block at point t, entry (q, j): the weights at row 1024 * ((t / 4) mod 6) + q, column 1536 * (t mod 4) + j. -/
theorem iblk1_apply (c : Dev nD) (t : Fin cfg1.N) (q : Fin 1024) (j : Fin 1536) (r : Fin 6144) (k : Fin 6144)
    (hr : r.val = 1024 * ((t.val / 4) % 6) + q.val) (hk : k.val = 1536 * (t.val % 4) + j.val) :
    (iblk W c 1 t : Vec F S1024x1536 .bf16) (ix2 q j) = (Vin W c main_v4 : S6144x6144.Idx → Elt F .bf16) (ix2 r k) := by
  have hi := idx1 t
  unfold iblk
  rw [View.read_apply]
  show W c _ _ = W c _ _
  congr 1
  funext a
  apply Fin.ext
  match a with
  | ⟨0, _⟩ => show win1_1.index t 0 * 1024 + 1 * q.val = r.val; rw [hi.1, hr]; omega
  | ⟨1, _⟩ => show win1_1.index t 1 * 1536 + 1 * j.val = k.val; rw [hi.2, hk]; omega

theorem idx2 : ∀ t : Fin cfg1.N, win1_2.index t 0 = 0 ∧ win1_2.index t 1 = (t.val / 4) % 6 := by decide +kernel

/-- Parameter window 2's block at point t is columns 1024 * ((t / 4) mod 6) … of its row. -/
theorem iblk2_apply (c : Dev nD) (t : Fin cfg1.N) (q : Fin 1024) (k : Fin 6144) (hk : k.val = 1024 * ((t.val / 4) % 6) + q.val) :
    (iblk W c 2 t : Vec F S1x1024 .f32) (ix2 0 q) = (Vin W c main_v13 : S1x6144.Idx → Elt F .f32) (ix2 0 k) := by
  have hi := idx2 t
  unfold iblk
  rw [View.read_apply]
  show W c _ _ = W c _ _
  congr 1
  funext a
  apply Fin.ext
  match a with
  | ⟨0, _⟩ => show win1_2.index t 0 * 1 + 1 * (0 : Fin 1).val = (0 : Fin 1).val; rw [hi.1]; first | rfl | simp
  | ⟨1, _⟩ => show win1_2.index t 1 * 1024 + 1 * q.val = k.val; rw [hi.2, hk]; omega

theorem idx3 : ∀ t : Fin cfg1.N, win1_3.index t 0 = 0 ∧ win1_3.index t 1 = (t.val / 4) % 6 := by decide +kernel

/-- Parameter window 3's block at point t is columns 1024 * ((t / 4) mod 6) … of its row. -/
theorem iblk3_apply (c : Dev nD) (t : Fin cfg1.N) (q : Fin 1024) (k : Fin 6144) (hk : k.val = 1024 * ((t.val / 4) % 6) + q.val) :
    (iblk W c 3 t : Vec F S1x1024 .f32) (ix2 0 q) = (Vin W c main_v14 : S1x6144.Idx → Elt F .f32) (ix2 0 k) := by
  have hi := idx3 t
  unfold iblk
  rw [View.read_apply]
  show W c _ _ = W c _ _
  congr 1
  funext a
  apply Fin.ext
  match a with
  | ⟨0, _⟩ => show win1_3.index t 0 * 1 + 1 * (0 : Fin 1).val = (0 : Fin 1).val; rw [hi.1]; first | rfl | simp
  | ⟨1, _⟩ => show win1_3.index t 1 * 1024 + 1 * q.val = k.val; rw [hi.2, hk]; omega

theorem idx4 : ∀ t : Fin cfg1.N, win1_4.index t 0 = 0 ∧ win1_4.index t 1 = (t.val / 4) % 6 := by decide +kernel

/-- Parameter window 4's block at point t is columns 1024 * ((t / 4) mod 6) … of its row. -/
theorem iblk4_apply (c : Dev nD) (t : Fin cfg1.N) (q : Fin 1024) (k : Fin 6144) (hk : k.val = 1024 * ((t.val / 4) % 6) + q.val) :
    (iblk W c 4 t : Vec F S1x1024 .f32) (ix2 0 q) = (Vin W c main_v15 : S1x6144.Idx → Elt F .f32) (ix2 0 k) := by
  have hi := idx4 t
  unfold iblk
  rw [View.read_apply]
  show W c _ _ = W c _ _
  congr 1
  funext a
  apply Fin.ext
  match a with
  | ⟨0, _⟩ => show win1_4.index t 0 * 1 + 1 * (0 : Fin 1).val = (0 : Fin 1).val; rw [hi.1]; first | rfl | simp
  | ⟨1, _⟩ => show win1_4.index t 1 * 1024 + 1 * q.val = k.val; rw [hi.2, hk]; omega

theorem idx5 : ∀ t : Fin cfg1.N, win1_5.index t 0 = 0 ∧ win1_5.index t 1 = (t.val / 4) % 6 := by decide +kernel

/-- Parameter window 5's block at point t is columns 1024 * ((t / 4) mod 6) … of its row. -/
theorem iblk5_apply (c : Dev nD) (t : Fin cfg1.N) (q : Fin 1024) (k : Fin 6144) (hk : k.val = 1024 * ((t.val / 4) % 6) + q.val) :
    (iblk W c 5 t : Vec F S1x1024 .f32) (ix2 0 q) = (Vin W c main_v16 : S1x6144.Idx → Elt F .f32) (ix2 0 k) := by
  have hi := idx5 t
  unfold iblk
  rw [View.read_apply]
  show W c _ _ = W c _ _
  congr 1
  funext a
  apply Fin.ext
  match a with
  | ⟨0, _⟩ => show win1_5.index t 0 * 1 + 1 * (0 : Fin 1).val = (0 : Fin 1).val; rw [hi.1]; first | rfl | simp
  | ⟨1, _⟩ => show win1_5.index t 1 * 1024 + 1 * q.val = k.val; rw [hi.2, hk]; omega

theorem idx6 : ∀ t : Fin cfg1.N, win1_6.index t 0 = 0 ∧ win1_6.index t 1 = (t.val / 4) % 6 := by decide +kernel

/-- Parameter window 6's block at point t is columns 1024 * ((t / 4) mod 6) … of its row. -/
theorem iblk6_apply (c : Dev nD) (t : Fin cfg1.N) (q : Fin 1024) (k : Fin 6144) (hk : k.val = 1024 * ((t.val / 4) % 6) + q.val) :
    (iblk W c 6 t : Vec F S1x1024 .f32) (ix2 0 q) = (Vin W c main_v17 : S1x6144.Idx → Elt F .f32) (ix2 0 k) := by
  have hi := idx6 t
  unfold iblk
  rw [View.read_apply]
  show W c _ _ = W c _ _
  congr 1
  funext a
  apply Fin.ext
  match a with
  | ⟨0, _⟩ => show win1_6.index t 0 * 1 + 1 * (0 : Fin 1).val = (0 : Fin 1).val; rw [hi.1]; first | rfl | simp
  | ⟨1, _⟩ => show win1_6.index t 1 * 1024 + 1 * q.val = k.val; rw [hi.2, hk]; omega

end Cert.KernelIdeal.Layer2

end
-- ==== Proof.LibBlockSum.lean ====
/-
  A long sum cut into blocks.

  A sum of a * b consecutive terms f 0, f 1, …, f (a * b - 1) in a commutative additive monoid is the sum, over the
  a blocks i = 0, …, a - 1, of the b consecutive terms f (b * i), …, f (b * i + b - 1) of block i: the terms are the
  same and only the bracketing changes. By induction on the number of blocks: one more block appends b more terms.
-/
import Mathlib.Algebra.BigOperators.Fin
import Mathlib.Algebra.BigOperators.Group.Finset.Basic

namespace Cert.BlockSum

variable {M : Type*} [AddCommMonoid M]

/-- Over ranges: the sum of the first a * b terms is the sum over a blocks of b terms. -/
theorem sum_range_blocks (a b : ℕ) (f : ℕ → M) :
    ∑ k ∈ Finset.range (a * b), f k = ∑ i ∈ Finset.range a, ∑ j ∈ Finset.range b, f (b * i + j) := by
  induction a with
  | zero => rw [Nat.zero_mul, Finset.range_zero, Finset.sum_empty, Finset.sum_empty]
  | succ a ih =>
    rw [Nat.succ_mul, Finset.sum_range_add f (a * b) b,
      Finset.sum_range_succ (fun i => ∑ j ∈ Finset.range b, f (b * i + j)) a, ih, Nat.mul_comm a b]

/-- A sum over a * b consecutive terms is the sum over a blocks of b terms. -/
theorem sum_blocks (a b : ℕ) (f : ℕ → M) :
    ∑ k : Fin (a * b), f k.val = ∑ i ∈ Finset.range a, ∑ j : Fin b, f (b * i + j.val) := by
  rw [Fin.sum_univ_eq_sum_range (fun k => f k) (a * b), sum_range_blocks]
  refine Finset.sum_congr rfl fun i _ => ?_
  exact (Fin.sum_univ_eq_sum_range (fun j => f (b * i + j)) b).symm

/-- 4096 terms as 8 blocks of 512. -/
theorem sum_8_512 (f : ℕ → M) :
    ∑ k : Fin 4096, f k.val = ∑ i ∈ Finset.range 8, ∑ j : Fin 512, f (512 * i + j.val) :=
  sum_blocks 8 512 f

end Cert.BlockSum
-- ==== Proof.Layer2Acc.lean ====
/-
  Layer 2's accumulator, entry by entry, on extended reals.

  Within one output block the four reduction steps run at four consecutive points. The first leaves in the
  accumulator the zero block plus the product of the first 1536 columns; each later one adds the product of its own
  1536 columns to what the point before left. So after the step at position n the entry (p, q) is the sum of the
  contributions of the steps up to n mod 4, and after a last step it is the contraction over all 6144 columns: the
  terms are the same, only the bracketing differs, and on extended reals that does not matter.
-/
import proofs.«158226_j28930899706073_2_alg».proof.Proof.Layer2Pieces
import proofs.«158226_j28930899706073_2_alg».proof.Proof.Layer2Payload
import proofs.«158226_j28930899706073_2_alg».proof.Proof.Layer2Blocks
import proofs.«158226_j28930899706073_2_alg».proof.Proof.LibBlockSum

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL.Sem
open Idealize.ShloMosaic.Pipeline (Dat)
open Cert

section AnyFloat

variable {F : FTy → Type} [FloatOps F]
variable (W : Dev nD → Valuation τ sig (Elt F))

/-- At a first reduction step the accumulator ends at the block product added to the zero block; -/
theorem acc_first (c : Dev nD) (t : Fin cfg1.N) (h0 : t.val % 4 = 0) :
    (outsAt W c t.val t.isLt).2 = k1_pay2 (iblk W c 0 t) (iblk W c 1 t) (k1_pay1 (F := F)) := by
  rw [outsAt_first W c t h0]
  dsimp only
  exact accFirst_eq W c t h0

/-- at a later one, at the block product added to what the point before left; -/
theorem acc_step (c : Dev nD) (t : Fin cfg1.N) (h0 : ¬t.val % 4 = 0) :
    (outsAt W c t.val t.isLt).2
      = k1_pay2 (iblk W c 0 t) (iblk W c 1 t) (outsAt W c (t.val - 1) (Nat.lt_of_le_of_lt (Nat.sub_le _ _) t.isLt)).2 := by
  by_cases h3 : t.val % 4 = 3
  · rw [outsAt_last W c t h0 h3]
    dsimp only
    exact accLast_eq W c t h3 (outsAt W c (t.val - 1) (Nat.lt_of_le_of_lt (Nat.sub_le _ _) t.isLt)).2
  · rw [outsAt_middle W c t h0 h3]
    dsimp only
    exact accMiddle_eq W c t h0 h3 (outsAt W c (t.val - 1) (Nat.lt_of_le_of_lt (Nat.sub_le _ _) t.isLt)).2

/-- and at a last one the output block's buffer ends at the image of that point's accumulator. -/
theorem out_last (c : Dev nD) (t : Fin cfg1.N) (h3 : t.val % 4 = 3) :
    (outsAt W c t.val t.isLt).1
      = k1_pay3 (outsAt W c t.val t.isLt).2 (iblk W c 2 t) (iblk W c 3 t) (iblk W c 5 t) (iblk W c 6 t) (iblk W c 4 t) := by
  have h0 : ¬t.val % 4 = 0 := by omega
  rw [outsAt_last W c t h0 h3]
  dsimp only
  rw [outLast_eq W c t h3 (outsAt W c (t.val - 1) (Nat.lt_of_le_of_lt (Nat.sub_le _ _) t.isLt)).2,
    accLast_eq W c t h3 (outsAt W c (t.val - 1) (Nat.lt_of_le_of_lt (Nat.sub_le _ _) t.isLt)).2]

end AnyFloat

section Exact

variable (W : Dev nD → Valuation τ sig (Elt Ideal))

/-- The activations and the weights as functions of natural coordinates (zero outside the arrays), so that a
    sum over a block's columns is a sum of consecutive terms. -/
def actAt (c : Dev nD) (r k : ℕ) : EReal :=
  if h : r < 4096 ∧ k < 6144 then (Vin W c main_v12 : S4096x6144.Idx → Elt Ideal .bf16) (ix2 ⟨r, h.1⟩ ⟨k, h.2⟩) else 0
def wgtAt (c : Dev nD) (r k : ℕ) : EReal :=
  if h : r < 6144 ∧ k < 6144 then (Vin W c main_v4 : S6144x6144.Idx → Elt Ideal .bf16) (ix2 ⟨r, h.1⟩ ⟨k, h.2⟩) else 0

theorem actAt_fin (c : Dev nD) (r : Fin 4096) (k : Fin 6144) :
    actAt W c r.val k.val = (Vin W c main_v12 : S4096x6144.Idx → Elt Ideal .bf16) (ix2 r k) := by
  unfold actAt; rw [dif_pos ⟨r.isLt, k.isLt⟩]
theorem wgtAt_fin (c : Dev nD) (r : Fin 6144) (k : Fin 6144) :
    wgtAt W c r.val k.val = (Vin W c main_v4 : S6144x6144.Idx → Elt Ideal .bf16) (ix2 r k) := by
  unfold wgtAt; rw [dif_pos ⟨r.isLt, k.isLt⟩]

theorem lt96 (t : Fin cfg1.N) : t.val < 96 := lt_of_lt_of_eq t.isLt (show cfg1.N = 96 from N_1)

/-- The activation block at point t, entry (p, j). -/
theorem iblk0_act (c : Dev nD) (t : Fin cfg1.N) (p : Fin 1024) (j : Fin 1536) :
    (iblk W c 0 t : Vec Ideal S1024x1536 .bf16) (ix2 p j) = actAt W c (1024 * (t.val / 24) + p.val) (1536 * (t.val % 4) + j.val) := by
  have hN := lt96 t
  have hp := p.isLt
  have hj := j.isLt
  have hr : 1024 * (t.val / 24) + p.val < 4096 := by omega
  have hk : 1536 * (t.val % 4) + j.val < 6144 := by omega
  unfold actAt; rw [dif_pos ⟨hr, hk⟩]
  exact iblk0_apply W c t p j ⟨_, hr⟩ ⟨_, hk⟩ rfl rfl

/-- The weight block at point t, entry (q, j). -/
theorem iblk1_wgt (c : Dev nD) (t : Fin cfg1.N) (q : Fin 1024) (j : Fin 1536) :
    (iblk W c 1 t : Vec Ideal S1024x1536 .bf16) (ix2 q j) = wgtAt W c (1024 * ((t.val / 4) % 6) + q.val) (1536 * (t.val % 4) + j.val) := by
  have hN := lt96 t
  have hq := q.isLt
  have hj := j.isLt
  have hr : 1024 * ((t.val / 4) % 6) + q.val < 6144 := by omega
  have hk : 1536 * (t.val % 4) + j.val < 6144 := by omega
  unfold wgtAt; rw [dif_pos ⟨hr, hk⟩]
  exact iblk1_apply W c t q j ⟨_, hr⟩ ⟨_, hk⟩ rfl rfl

/-- One step's contribution at (p, q): the 1536 columns of reduction step s. -/
def part (c : Dev nD) (R Q s : ℕ) : EReal := ∑ j : Fin 1536, actAt W c R (1536 * s + j.val) * wgtAt W c Q (1536 * s + j.val)

/-- One reduction step at entry (p, q): what the accumulator held there plus the point's contribution. -/
theorem step_apply (c : Dev nD) (t : Fin cfg1.N) (acc : Vec Ideal S1024x1024 .f32) (p q : Fin 1024) :
    k1_pay2 (F := Ideal) (iblk W c 0 t) (iblk W c 1 t) acc (ix2 p q)
      = acc (ix2 p q) + part W c (1024 * (t.val / 24) + p.val) (1024 * ((t.val / 4) % 6) + q.val) (t.val % 4) := by
  refine (pay2_apply (iblk W c 0 t) (iblk W c 1 t) acc p q).trans ?_
  refine congrArg (acc (ix2 p q) + ·) ?_
  unfold part
  exact Finset.sum_congr rfl fun j _ => by rw [iblk0_act W c t p j, iblk1_wgt W c t q j]

/-- THE ACCUMULATION, entry by entry: after the point at position n the accumulator's entry (p, q) is the sum of the
    contributions of the reduction steps 0 … n mod 4 of the point's row and column blocks. By induction on the
    position: a first step starts from zero, a later one adds to what the point before left, which belongs to the
    same row and column blocks. -/
theorem acc_apply (c : Dev nD) : ∀ (n : ℕ) (hn : n < cfg1.N) (p q : Fin 1024),
    (outsAt W c n hn).2 (ix2 p q)
      = ∑ s ∈ Finset.range (n % 4 + 1), part W c (1024 * (n / 24) + p.val) (1024 * ((n / 4) % 6) + q.val) s
  | 0, hn, p, q => by
    have e := acc_first W c ⟨0, hn⟩ rfl
    refine (congrFun e (ix2 p q)).trans ?_
    refine (step_apply W c ⟨0, hn⟩ (k1_pay1 (F := Ideal)) p q).trans ?_
    rw [pay1_apply, zero_add]
    exact (Finset.sum_range_one _).symm
  | m + 1, hn, p, q => by
    by_cases h0 : (m + 1) % 4 = 0
    · have e := acc_first W c ⟨m + 1, hn⟩ h0
      refine (congrFun e (ix2 p q)).trans ?_
      refine (step_apply W c ⟨m + 1, hn⟩ (k1_pay1 (F := Ideal)) p q).trans ?_
      rw [pay1_apply, zero_add]
      show part W c _ _ ((m + 1) % 4) = _
      rw [h0]
      exact (Finset.sum_range_one _).symm
    · have e := acc_step W c ⟨m + 1, hn⟩ h0
      refine (congrFun e (ix2 p q)).trans ?_
      refine (step_apply W c ⟨m + 1, hn⟩ (outsAt W c m (Nat.lt_of_succ_lt hn)).2 p q).trans ?_
      have ih := acc_apply c m (Nat.lt_of_succ_lt hn) p q
      have hN : m + 1 < 96 := lt_of_lt_of_eq hn (show cfg1.N = 96 from N_1)
      have e1 : m % 4 + 1 = (m + 1) % 4 := by omega
      have e2 : m / 24 = (m + 1) / 24 := by omega
      have e3 : (m / 4) % 6 = ((m + 1) / 4) % 6 := by omega
      rw [e1, e2, e3] at ih
      show (outsAt W c m _).2 (ix2 p q) + part W c _ _ ((m + 1) % 4) = _
      rw [ih, Finset.sum_range_succ]

/-- So at a last reduction step the accumulator's entry (p, q) is the whole contraction, all 6144 columns, of the
    point's activation row against its weight row: four consecutive runs of 1536 terms. -/
theorem acc_full (c : Dev nD) (t : Fin cfg1.N) (h3 : t.val % 4 = 3) (p q : Fin 1024) :
    (outsAt W c t.val t.isLt).2 (ix2 p q)
      = ∑ k : Fin 6144, actAt W c (1024 * (t.val / 24) + p.val) k.val * wgtAt W c (1024 * ((t.val / 4) % 6) + q.val) k.val := by
  rw [acc_apply W c t.val t.isLt p q, h3]
  exact (Cert.BlockSum.sum_blocks 4 1536 fun k =>
    actAt W c (1024 * (t.val / 24) + p.val) k * wgtAt W c (1024 * ((t.val / 4) % 6) + q.val) k).symm

end Exact

end Cert.KernelIdeal.Layer2

end
-- ==== Proof.Layer2Value.lean ====
/-
  Layer 2's region: the value of its output array, entry by entry, on extended reals.

  A write-back happens at a last reduction step, where the output block's buffer holds the image of the full
  contraction; the block of point t sits at rows 1024 * (t / 24) … and columns 1024 * ((t / 4) mod 6) … of the output
  array, and these 24 blocks tile it. So after the region the output array's entry (P, Q) is the closed form: the
  contraction of row P of the activations with row Q of the weights, batch-normalised with the parameters' entries
  Q, then its sign.
-/
import proofs.«158226_j28930899706073_2_alg».proof.Proof.Layer2Acc
import proofs.«158226_j28930899706073_2_alg».proof.Proof.Layer2Region

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL.Sem
open Idealize.ShloMosaic.Pipeline (Dat)
open Cert

section Value

variable (W : Dev nD → Valuation τ sig (Elt Ideal))

/-- The closed form of the output array's entry (P, Q): the sign of the batch-normalised contraction of row P of the
    activations with row Q of the weights, over the parameters' entries Q. -/
def outEntry (c : Dev nD) (P : Fin 4096) (Q : Fin 6144) : EReal :=
  Ideal.sign (Net.bn (Net.dot (fun k : Fin 6144 => (Vin W c main_v12 : S4096x6144.Idx → Elt Ideal .bf16) (ix2 P k))
      (fun k : Fin 6144 => (Vin W c main_v4 : S6144x6144.Idx → Elt Ideal .bf16) (ix2 Q k)))
    ((Vin W c main_v13 : S1x6144.Idx → Elt Ideal .f32) (ix2 0 Q)) ((Vin W c main_v14 : S1x6144.Idx → Elt Ideal .f32) (ix2 0 Q))
    ((Vin W c main_v15 : S1x6144.Idx → Elt Ideal .f32) (ix2 0 Q)) ((Vin W c main_v16 : S1x6144.Idx → Elt Ideal .f32) (ix2 0 Q))
    ((Vin W c main_v17 : S1x6144.Idx → Elt Ideal .f32) (ix2 0 Q)))

/-- At a last reduction step the output block's buffer holds, at (p, q), the closed form at the block's place in
    the array. -/
theorem out_apply (c : Dev nD) (t : Fin cfg1.N) (h3 : t.val % 4 = 3) (p q : Fin 1024) (P : Fin 4096) (Q : Fin 6144)
    (hP : P.val = 1024 * (t.val / 24) + p.val) (hQ : Q.val = 1024 * ((t.val / 4) % 6) + q.val) :
    (outsAt W c t.val t.isLt).1 (ix2 p q) = outEntry W c P Q := by
  refine (congrFun (out_last W c t h3) (ix2 p q)).trans ?_
  rw [pay3_apply, acc_full W c t h3 p q, ← hP, ← hQ]
  unfold outEntry Net.dot
  simp only [actAt_fin, wgtAt_fin]
  rw [iblk2_apply W c t q Q hQ, iblk3_apply W c t q Q hQ, iblk4_apply W c t q Q hQ, iblk5_apply W c t q Q hQ,
    iblk6_apply W c t q Q hQ]

/-- The output array's closed form. -/
def G (c : Dev nD) : Buf (Elt Ideal) ((cfg1.win 7).arr.view.loc (c : Thread nD τ)) :=
  fun idx => outEntry W c (idx 0) (idx 1)

/-- Each write-back writes the closed form's block: a write-back happens at a last reduction step, and the block
    of point t sits at rows 1024 * (t / 24) … and columns 1024 * ((t / 4) mod 6) … of the array. -/
theorem flushed_eq (c : Dev nD) (t : Fin cfg1.N) (hf : (cfg1.win 7).flush t = true) :
    (dat W c).flushed 7 t = ((cfg1.win 7).blk t).view.read (Elt Ideal) (G W c) := by
  have h3 : t.val % 4 = 3 := (flush1_7 t).mp hf
  have hN := lt96 t
  have hi := idx7 t
  funext x
  have hx0 : (x 0).val < 1024 := (x 0).isLt
  have hx1 : (x 1).val < 1024 := (x 1).isLt
  have hP : 1024 * (t.val / 24) + (x 0).val < 4096 := by omega
  have hQ : 1024 * ((t.val / 4) % 6) + (x 1).val < 6144 := by omega
  have hxi : (cfg1.win 7).xinj (grid1.coords t) x = ix2 (⟨(x 0).val, hx0⟩ : Fin 1024) (⟨(x 1).val, hx1⟩ : Fin 1024) :=
    funext fun a => by
      match a with
      | ⟨0, _⟩ => rfl
      | ⟨1, _⟩ => rfl
  show (cfg1.win 7).cut (grid1.coords t) ((dat W c).after 7 t) x = _
  rw [after7, View.read_apply]
  refine (congrArg (outsAt W c t.val t.isLt).1 hxi).trans ?_
  refine (out_apply W c t h3 ⟨_, hx0⟩ ⟨_, hx1⟩ ⟨_, hP⟩ ⟨_, hQ⟩ rfl rfl).trans ?_
  show outEntry W c _ _ = outEntry W c ((((cfg1.win 7).blk t).view.emb x) 0) ((((cfg1.win 7).blk t).view.emb x) 1)
  congr 1
  · apply Fin.ext
    show 1024 * (t.val / 24) + (x 0).val = win1_7.index t 0 * 1024 + 1 * (x 0).val
    rw [hi.1]; omega
  · apply Fin.ext
    show 1024 * ((t.val / 4) % 6) + (x 1).val = win1_7.index t 1 * 1024 + 1 * (x 1).val
    rw [hi.2]; omega

/-- The write-backs' blocks cover the array: entry (P, Q) is in the block of the last reduction step of row block
    P / 1024 and column block Q / 1024. -/
theorem cover (c : Dev nD) (i : ((cfg1.win 7).arr.view.loc (c : Thread nD τ)).2.ty.Idx) :
    ∃ t : Fin cfg1.N, (cfg1.win 7).flush t = true ∧ i ∈ ((cfg1.win 7).blk t).view.set := by
  have h0 : (i 0 : Nat) < 4096 := (i 0).isLt
  have h1 : (i 1 : Nat) < 6144 := (i 1).isLt
  obtain ⟨t, ht⟩ : ∃ t : Fin cfg1.N, t.val = 24 * ((i 0 : Nat) / 1024) + 4 * ((i 1 : Nat) / 1024) + 3 :=
    ⟨⟨24 * ((i 0 : Nat) / 1024) + 4 * ((i 1 : Nat) / 1024) + 3, by rw [show cfg1.N = 96 from N_1]; omega⟩, rfl⟩
  have hi := idx7 t
  refine ⟨t, (flush1_7 t).mpr (by omega), ?_⟩
  show i ∈ ((View.whole main_v18).slice (win1_7.rect t)).set
  rw [View.set_slice_whole, Rect.mem_set_unit]
  intro a
  match a with
  | ⟨0, _⟩ =>
    show win1_7.index t 0 * 1024 ≤ (i 0 : Nat) ∧ (i 0 : Nat) < win1_7.index t 0 * 1024 + 1024
    rw [hi.1, ht]; omega
  | ⟨1, _⟩ =>
    show win1_7.index t 1 * 1024 ≤ (i 1 : Nat) ∧ (i 1 : Nat) < win1_7.index t 1 * 1024 + 1024
    rw [hi.2, ht]; omega

/-- So the output array ends holding the closed form, -/
theorem finalOut_eq (c : Dev nD) : (dat W c).arrAt 7 cfg1.N = G W c :=
  (dat W c).arrAt_eq_of_cover 7 (G W c) (flushed_eq W c) (cover c)

/-- entry by entry: -/
theorem finalOut_entry (c : Dev nD) (p : Fin 4096) (q : Fin 6144) :
    (finalOut W c : S4096x6144.Idx → Elt Ideal .bf16) (ix2 p q) = outEntry W c p q :=
  congrFun (finalOut_eq W c) (ix2 p q)

/-- THE REGION'S VALUE. The output array's entry (p, q) after the region is the sign of the batch-normalised
    contraction, over all 6144 features, of row p of the entry activations with row q of the entry weights, the
    five parameters read at column q. -/
theorem finalOut_apply (c : Dev nD) (p : Fin 4096) (q : Fin 6144) :
    (finalOut W c : S4096x6144.Idx → Elt Ideal .bf16) (ix2 p q)
      = Ideal.sign (Net.bn (Net.dot (fun k : Fin 6144 => (Vin W c main_v12 : S4096x6144.Idx → Elt Ideal .bf16) (ix2 p k))
            (fun k : Fin 6144 => (Vin W c main_v4 : S6144x6144.Idx → Elt Ideal .bf16) (ix2 q k)))
          ((Vin W c main_v13 : S1x6144.Idx → Elt Ideal .f32) (ix2 0 q)) ((Vin W c main_v14 : S1x6144.Idx → Elt Ideal .f32) (ix2 0 q))
          ((Vin W c main_v15 : S1x6144.Idx → Elt Ideal .f32) (ix2 0 q)) ((Vin W c main_v16 : S1x6144.Idx → Elt Ideal .f32) (ix2 0 q))
          ((Vin W c main_v17 : S1x6144.Idx → Elt Ideal .f32) (ix2 0 q))) :=
  finalOut_entry W c p q

end Value

end Cert.KernelIdeal.Layer2

end
-- ==== Proof.Layer3Pieces.lean ====
/-
  Layer 3's kernel body, case by case: what its stores leave, as the printed arithmetic of the blocks.

  Each run of the body found the pieces its stores wrote; each piece covers its whole buffer, so reading the
  pieces back gives the last store's payload, whatever the buffer held. At a first reduction step the accumulator
  ends holding the block product added to the zero block it was just reset to; at a later step the block product
  added to what it held; and at a last step the output block's buffer ends holding the batch-normalised image of
  that new accumulator. Stated for any float values.
-/
import proofs.«158226_j28930899706073_2_alg».proof.Proof.Layer3Data
import Idealize.ShloMosaic.Lib.Pipeline.Value
import Idealize.ShloMosaic.Lib.Tactic

set_option maxRecDepth 16384

noncomputable section

namespace Cert.KernelIdeal.Layer3

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (W : Dev nD → Valuation τ sig (Elt F))

theorem hz : (![0, 0] : Fin 2 → Nat) = fun _ => 0 := funext fun a => by fin_cases a <;> rfl

/-- The accumulator read through its own whole buffer is what it was stated to hold. -/
theorem read_scratch (xs : Vec F S1024x1024 .f32) :
    (View.whole cc2_scratch0).read (Elt F) ((Memref.isWhole_whole (sig := sig) (κ := .tc) cc2_scratch0).unread xs) = xs :=
  (Memref.isWhole_whole (sig := sig) (κ := .tc) cc2_scratch0).read_unread xs

/-- At a step between: the block product added to what the accumulator held. -/
theorem accMiddle_eq (c : Dev nD) (t : Fin cfg2.N) (h0 : ¬t.val % 4 = 0) (h3 : ¬t.val % 4 = 3) (xs : Vec F S1024x1024 .f32) :
    accMiddle W c t h0 h3 xs = k2_pay2 (iblk W c 0 t) (iblk W c 1 t) xs := by
  unfold accMiddle
  rw [View.read_writes_eq_canon _ _ _ (coverMiddle W c t h0 h3 xs)]
  unfold runMiddle bodyRunMiddle
  dsimp only
  rw [View.canon_unit_zero hz]
  simp only [View.readAt_eq_ld, (hs0 t).read_unread, (hs1 t).read_unread, read_scratch,
    View.ld_unit_zero (S := S1024x1536) hz, View.ld_unit_zero (S := S1024x1024) hz]

/-- At a first step: the block product added to the zero block the reset stored (read back from that store). -/
theorem accFirst_eq (c : Dev nD) (t : Fin cfg2.N) (h0 : t.val % 4 = 0) :
    accFirst W c t h0 = k2_pay2 (iblk W c 0 t) (iblk W c 1 t) (k2_pay1 (F := F)) := by
  unfold accFirst
  rw [View.read_writes_eq_canon _ _ _ (coverFirst W c t h0)]
  unfold runFirst bodyRunFirst
  dsimp only
  sl_unfold_words
  rw [View.canon_cons_unit_zero (S := S1024x1024) hz, View.readCov_unit_zero (S := S1024x1024) _ hz]
  simp only [View.readAt_eq_ld, (hs0 t).read_unread, (hs1 t).read_unread,
    View.ld_unit_zero (S := S1024x1536) hz]

/-- At a last step the accumulator likewise ends at the block product added to what it held, -/
theorem accLast_eq (c : Dev nD) (t : Fin cfg2.N) (h3 : t.val % 4 = 3) (xs : Vec F S1024x1024 .f32) :
    accLast W c t h3 xs = k2_pay2 (iblk W c 0 t) (iblk W c 1 t) xs := by
  unfold accLast
  rw [View.read_writes_eq_canon _ _ _ (coverAccLast W c t h3 xs)]
  unfold runLast bodyRunLast
  dsimp only
  sl_unfold_words
  rw [View.canon_unit_zero hz]
  simp only [View.readAt_eq_ld, (hs0 t).read_unread, (hs1 t).read_unread, read_scratch,
    View.ld_unit_zero (S := S1024x1536) hz, View.ld_unit_zero (S := S1024x1024) hz]

/-- and the output block's buffer at the batch-normalised image of that sum, over the five parameter rows. -/
theorem outLast_eq (c : Dev nD) (t : Fin cfg2.N) (h3 : t.val % 4 = 3) (xs : Vec F S1024x1024 .f32) :
    outLast W c t h3 xs = k2_pay3 (k2_pay2 (iblk W c 0 t) (iblk W c 1 t) xs) (iblk W c 2 t) (iblk W c 3 t) (iblk W c 5 t) (iblk W c 6 t) (iblk W c 4 t) := by
  unfold outLast
  rw [View.read_writes_eq_canon _ _ _ (coverOutLast W c t h3 xs)]
  unfold runLast bodyRunLast
  dsimp only
  sl_unfold_words
  rw [View.canon_unit_zero hz, View.readCov_unit_zero (S := S1024x1024) _ hz]
  simp only [View.readAt_eq_ld, (hs0 t).read_unread, (hs1 t).read_unread, (hs2 t).read_unread, (hs3 t).read_unread,
    (hs4 t).read_unread, (hs5 t).read_unread, (hs6 t).read_unread, read_scratch,
    View.ld_unit_zero (S := S1024x1536) hz, View.ld_unit_zero (S := S1024x1024) hz, View.ld_unit_zero (S := S1x1024) hz]

end Cert.KernelIdeal.Layer3

end
-- ==== Proof.Layer3Payload.lean ====
/-
  Layer 3's printed arithmetic, entry by entry, on extended reals.

  The reset stores zeros. One reduction step adds to the accumulator's entry (p, q) the contraction of row p of the
  activation block with row q of the weight block (both operands are contracted along their second axis). The last
  step adds the bias entry of column q, subtracts the running mean, scales by the weight and by the reciprocal
  square root of the variance plus epsilon, adds the offset, and stores the clamp to [-1, 1] of that: the parameter
  rows are [1, 1024] rows broadcast down the block, so entry (p, q) reads each at (0, q); narrowing to bf16 changes
  nothing on extended reals.
-/
import proofs.«158226_j28930899706073_2_alg».proof.Proof.Gen.KernelIdeal.Skeleton
import proofs.«158226_j28930899706073_2_alg».proof.Proof.NetSpec
import proofs.«158226_j28930899706073_2_alg».proof.Proof.LibMatmulRows
import Idealize.ShloMosaic.Lib.ValueIdx
import Idealize.ShloMosaic.Lib.Pipeline.Value
import Idealize.ShloMosaic.PureOps.Ideal.Laws

set_option maxRecDepth 16384

noncomputable section

namespace Cert.KernelIdeal.Layer3

open Cert.KernelIdeal Cert.KernelIdeal.Gen
open Idealize.ShloMosaic Idealize.ShloMosaic.ValueIdx
open Cert

/-- The reset stores zeros. -/
theorem pay1_apply (p q : Fin 1024) : k2_pay1 (F := Ideal) (ix2 p q) = 0 := by
  unfold k2_pay1
  simp only [shapeCast_self]
  exact Ideal.ofBits_zero_f32

/-- A row [1, 1024] broadcast down the 1024 rows of the block reads, at (p, q), the row's entry q. -/
theorem bcast_row_apply (x : FVec Ideal S1x1024 .f32) (h : S1x1024.Broadcasts S1024x1024) (p q : Fin 1024) :
    broadcastTo S1024x1024 x h (ix2 p q) = x (ix2 0 q) :=
  broadcastTo_apply x h (ix2 p q) (ix2 0 q) fun a => by
    match a with
    | ⟨0, _⟩ => rfl
    | ⟨1, _⟩ => rfl

/-- One reduction step adds, to what the accumulator held at (p, q), row p of the activation block against row q
    of the weight block. -/
theorem pay2_apply (a w : Vec Ideal S1024x1536 .bf16) (acc : Vec Ideal S1024x1024 .f32) (p q : Fin 1024) :
    k2_pay2 (F := Ideal) a w acc (ix2 p q) = acc (ix2 p q) + ∑ j : Fin 1536, a (ix2 p j) * w (ix2 q j) := by
  unfold k2_pay2
  simp only [shapeCast_self]
  refine (addf_apply _ _ _).trans ?_
  exact congrArg (acc (ix2 p q) + ·)
    (Cert.MatmulRows.matmul_rows_apply dot_S1024x1536_S1024x1536_S1024x1024_1_1_0_0_n_n none rfl rfl rfl rfl rfl rfl a w p q)

/-- The pre-activation block as printed: the bias added to the accumulated sums, the running mean subtracted, the
    scale, the reciprocal square root of the variance plus epsilon, the offset; each parameter a row broadcast
    down the block. -/
abbrev pre (acc : Vec Ideal S1024x1024 .f32) (b g mu v be : Vec Ideal S1x1024 .f32) : FVec Ideal S1024x1024 .f32 :=
  addf (mulf (mulf (broadcastTo S1024x1024 g broadcasts_S1x1024_S1024x1024)
      (subf (addf acc (broadcastTo S1024x1024 b broadcasts_S1x1024_S1024x1024)) (broadcastTo S1024x1024 mu broadcasts_S1x1024_S1024x1024)))
      (broadcastTo S1024x1024 (rsqrt (addf v (broadcast S1x1024 (Scalar.ofBits (F := Ideal) .f32 0x3727C5AC#32)))) broadcasts_S1x1024_S1024x1024))
    (broadcastTo S1024x1024 be broadcasts_S1x1024_S1024x1024)

/-- Its entry (p, q) is the batch normalisation of the accumulated entry over the parameters' entries q. -/
theorem bn_apply (acc : Vec Ideal S1024x1024 .f32) (b g mu v be : Vec Ideal S1x1024 .f32) (p q : Fin 1024) :
    pre acc b g mu v be (ix2 p q)
      = Net.bn (acc (ix2 p q)) (b (ix2 0 q)) (g (ix2 0 q)) (be (ix2 0 q)) (mu (ix2 0 q)) (v (ix2 0 q)) := by
  unfold Net.bn
  have eb := bcast_row_apply b broadcasts_S1x1024_S1024x1024 p q
  have eg := bcast_row_apply g broadcasts_S1x1024_S1024x1024 p q
  have em := bcast_row_apply mu broadcasts_S1x1024_S1024x1024 p q
  have ee := bcast_row_apply be broadcasts_S1x1024_S1024x1024 p q
  have er : broadcastTo S1024x1024 (rsqrt (addf v (broadcast S1x1024 (Scalar.ofBits (F := Ideal) .f32 0x3727C5AC#32)))) broadcasts_S1x1024_S1024x1024 (ix2 p q)
      = FloatOps.rsqrt (FloatOps.addf (v (ix2 0 q)) Net.eps) :=
    (bcast_row_apply _ broadcasts_S1x1024_S1024x1024 p q).trans rfl
  show FloatOps.addf (FloatOps.mulf (FloatOps.mulf (broadcastTo S1024x1024 g broadcasts_S1x1024_S1024x1024 (ix2 p q))
      (FloatOps.subf (FloatOps.addf (acc (ix2 p q)) (broadcastTo S1024x1024 b broadcasts_S1x1024_S1024x1024 (ix2 p q)))
        (broadcastTo S1024x1024 mu broadcasts_S1x1024_S1024x1024 (ix2 p q))))
      (broadcastTo S1024x1024 (rsqrt (addf v (broadcast S1x1024 (Scalar.ofBits (F := Ideal) .f32 0x3727C5AC#32)))) broadcasts_S1x1024_S1024x1024 (ix2 p q)))
      (broadcastTo S1024x1024 be broadcasts_S1x1024_S1024x1024 (ix2 p q)) = _
  rw [eb, eg, em, ee, er]

/-- The last step stores, at (p, q), the clamp to [-1, 1] of the batch-normalised sum at that entry. -/
theorem pay3_apply (acc : Vec Ideal S1024x1024 .f32) (b g mu v be : Vec Ideal S1x1024 .f32) (p q : Fin 1024) :
    k2_pay3 (F := Ideal) acc b g mu v be (ix2 p q)
      = Net.clamp (Net.bn (acc (ix2 p q)) (b (ix2 0 q)) (g (ix2 0 q)) (be (ix2 0 q)) (mu (ix2 0 q)) (v (ix2 0 q))) := by
  unfold k2_pay3
  simp only [shapeCast_self]
  refine (truncf_apply (ψ := .bf16) (φ := .f32) _ bitsLt_bf16_f32 (ix2 p q)).trans ?_
  refine (show _ = Net.clamp (pre acc b g mu v be (ix2 p q)) from rfl).trans ?_
  exact congrArg Net.clamp (bn_apply acc b g mu v be p q)

end Cert.KernelIdeal.Layer3

end
-- ==== Proof.Layer3Blocks.lean ====
/-
  Layer 3's windows over the grid: which block of its array each window holds at each point.

  Point t of the 96 is at row block t / 24, column block (t / 4) mod 6 and reduction step t mod 4. The activation
  window holds rows 1024 * (t / 24) … and columns 1536 * (t mod 4) … of the activations; the weight window rows
  1024 * ((t / 4) mod 6) … and the same columns of the weights; each parameter window columns 1024 * ((t / 4) mod 6) …
  of its row; the output window rows 1024 * (t / 24) … and columns 1024 * ((t / 4) mod 6) … of the output array.
  Decided once over the grid; then each block read at an entry is its array read at the shifted entry.
-/
import proofs.«158226_j28930899706073_2_alg».proof.Proof.Layer3Data
import Idealize.ShloMosaic.Lib.Pipeline.Value
import Idealize.ShloMosaic.Lib.ValueIdx

set_option maxRecDepth 16384

noncomputable section

namespace Cert.KernelIdeal.Layer3

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (W : Dev nD → Valuation τ sig (Elt F))

theorem idx0 : ∀ t : Fin cfg2.N, win2_0.index t 0 = t.val / 24 ∧ win2_0.index t 1 = t.val % 4 := by decide +kernel
theorem idx1 : ∀ t : Fin cfg2.N, win2_1.index t 0 = (t.val / 4) % 6 ∧ win2_1.index t 1 = t.val % 4 := by decide +kernel
theorem idx7 : ∀ t : Fin cfg2.N, win2_7.index t 0 = t.val / 24 ∧ win2_7.index t 1 = (t.val / 4) % 6 := by decide +kernel

/-- The activation block at point t, entry (p, j): the activations at row 1024 * (t / 24) + p, column 1536 * (t mod 4) + j. -/
theorem iblk0_apply (c : Dev nD) (t : Fin cfg2.N) (p : Fin 1024) (j : Fin 1536) (r : Fin 4096) (k : Fin 6144)
    (hr : r.val = 1024 * (t.val / 24) + p.val) (hk : k.val = 1536 * (t.val % 4) + j.val) :
    (iblk W c 0 t : Vec F S1024x1536 .bf16) (ix2 p j) = (Vin W c main_v18 : S4096x6144.Idx → Elt F .bf16) (ix2 r k) := by
  have hi := idx0 t
  unfold iblk
  rw [View.read_apply]
  show W c _ _ = W c _ _
  congr 1
  funext a
  apply Fin.ext
  match a with
  | ⟨0, _⟩ => show win2_0.index t 0 * 1024 + 1 * p.val = r.val; rw [hi.1, hr]; omega
  | ⟨1, _⟩ => show win2_0.index t 1 * 1536 + 1 * j.val = k.val; rw [hi.2, hk]; omega

/-- The weight block at point t, entry (q, j): the weights at row 1024 * ((t / 4) mod 6) + q, column 1536 * (t mod 4) + j. -/
theorem iblk1_apply (c : Dev nD) (t : Fin cfg2.N) (q : Fin 1024) (j : Fin 1536) (r : Fin 6144) (k : Fin 6144)
    (hr : r.val = 1024 * ((t.val / 4) % 6) + q.val) (hk : k.val = 1536 * (t.val % 4) + j.val) :
    (iblk W c 1 t : Vec F S1024x1536 .bf16) (ix2 q j) = (Vin W c main_v6 : S6144x6144.Idx → Elt F .bf16) (ix2 r k) := by
  have hi := idx1 t
  unfold iblk
  rw [View.read_apply]
  show W c _ _ = W c _ _
  congr 1
  funext a
  apply Fin.ext
  match a with
  | ⟨0, _⟩ => show win2_1.index t 0 * 1024 + 1 * q.val = r.val; rw [hi.1, hr]; omega
  | ⟨1, _⟩ => show win2_1.index t 1 * 1536 + 1 * j.val = k.val; rw [hi.2, hk]; omega

theorem idx2 : ∀ t : Fin cfg2.N, win2_2.index t 0 = 0 ∧ win2_2.index t 1 = (t.val / 4) % 6 := by decide +kernel

/-- Parameter window 2's block at point t is columns 1024 * ((t / 4) mod 6) … of its row. -/
theorem iblk2_apply (c : Dev nD) (t : Fin cfg2.N) (q : Fin 1024) (k : Fin 6144) (hk : k.val = 1024 * ((t.val / 4) % 6) + q.val) :
    (iblk W c 2 t : Vec F S1x1024 .f32) (ix2 0 q) = (Vin W c main_v19 : S1x6144.Idx → Elt F .f32) (ix2 0 k) := by
  have hi := idx2 t
  unfold iblk
  rw [View.read_apply]
  show W c _ _ = W c _ _
  congr 1
  funext a
  apply Fin.ext
  match a with
  | ⟨0, _⟩ => show win2_2.index t 0 * 1 + 1 * (0 : Fin 1).val = (0 : Fin 1).val; rw [hi.1]; first | rfl | simp
  | ⟨1, _⟩ => show win2_2.index t 1 * 1024 + 1 * q.val = k.val; rw [hi.2, hk]; omega

theorem idx3 : ∀ t : Fin cfg2.N, win2_3.index t 0 = 0 ∧ win2_3.index t 1 = (t.val / 4) % 6 := by decide +kernel

/-- Parameter window 3's block at point t is columns 1024 * ((t / 4) mod 6) … of its row. -/
theorem iblk3_apply (c : Dev nD) (t : Fin cfg2.N) (q : Fin 1024) (k : Fin 6144) (hk : k.val = 1024 * ((t.val / 4) % 6) + q.val) :
    (iblk W c 3 t : Vec F S1x1024 .f32) (ix2 0 q) = (Vin W c main_v20 : S1x6144.Idx → Elt F .f32) (ix2 0 k) := by
  have hi := idx3 t
  unfold iblk
  rw [View.read_apply]
  show W c _ _ = W c _ _
  congr 1
  funext a
  apply Fin.ext
  match a with
  | ⟨0, _⟩ => show win2_3.index t 0 * 1 + 1 * (0 : Fin 1).val = (0 : Fin 1).val; rw [hi.1]; first | rfl | simp
  | ⟨1, _⟩ => show win2_3.index t 1 * 1024 + 1 * q.val = k.val; rw [hi.2, hk]; omega

theorem idx4 : ∀ t : Fin cfg2.N, win2_4.index t 0 = 0 ∧ win2_4.index t 1 = (t.val / 4) % 6 := by decide +kernel

/-- Parameter window 4's block at point t is columns 1024 * ((t / 4) mod 6) … of its row. -/
theorem iblk4_apply (c : Dev nD) (t : Fin cfg2.N) (q : Fin 1024) (k : Fin 6144) (hk : k.val = 1024 * ((t.val / 4) % 6) + q.val) :
    (iblk W c 4 t : Vec F S1x1024 .f32) (ix2 0 q) = (Vin W c main_v21 : S1x6144.Idx → Elt F .f32) (ix2 0 k) := by
  have hi := idx4 t
  unfold iblk
  rw [View.read_apply]
  show W c _ _ = W c _ _
  congr 1
  funext a
  apply Fin.ext
  match a with
  | ⟨0, _⟩ => show win2_4.index t 0 * 1 + 1 * (0 : Fin 1).val = (0 : Fin 1).val; rw [hi.1]; first | rfl | simp
  | ⟨1, _⟩ => show win2_4.index t 1 * 1024 + 1 * q.val = k.val; rw [hi.2, hk]; omega

theorem idx5 : ∀ t : Fin cfg2.N, win2_5.index t 0 = 0 ∧ win2_5.index t 1 = (t.val / 4) % 6 := by decide +kernel

/-- Parameter window 5's block at point t is columns 1024 * ((t / 4) mod 6) … of its row. -/
theorem iblk5_apply (c : Dev nD) (t : Fin cfg2.N) (q : Fin 1024) (k : Fin 6144) (hk : k.val = 1024 * ((t.val / 4) % 6) + q.val) :
    (iblk W c 5 t : Vec F S1x1024 .f32) (ix2 0 q) = (Vin W c main_v22 : S1x6144.Idx → Elt F .f32) (ix2 0 k) := by
  have hi := idx5 t
  unfold iblk
  rw [View.read_apply]
  show W c _ _ = W c _ _
  congr 1
  funext a
  apply Fin.ext
  match a with
  | ⟨0, _⟩ => show win2_5.index t 0 * 1 + 1 * (0 : Fin 1).val = (0 : Fin 1).val; rw [hi.1]; first | rfl | simp
  | ⟨1, _⟩ => show win2_5.index t 1 * 1024 + 1 * q.val = k.val; rw [hi.2, hk]; omega

theorem idx6 : ∀ t : Fin cfg2.N, win2_6.index t 0 = 0 ∧ win2_6.index t 1 = (t.val / 4) % 6 := by decide +kernel

/-- Parameter window 6's block at point t is columns 1024 * ((t / 4) mod 6) … of its row. -/
theorem iblk6_apply (c : Dev nD) (t : Fin cfg2.N) (q : Fin 1024) (k : Fin 6144) (hk : k.val = 1024 * ((t.val / 4) % 6) + q.val) :
    (iblk W c 6 t : Vec F S1x1024 .f32) (ix2 0 q) = (Vin W c main_v23 : S1x6144.Idx → Elt F .f32) (ix2 0 k) := by
  have hi := idx6 t
  unfold iblk
  rw [View.read_apply]
  show W c _ _ = W c _ _
  congr 1
  funext a
  apply Fin.ext
  match a with
  | ⟨0, _⟩ => show win2_6.index t 0 * 1 + 1 * (0 : Fin 1).val = (0 : Fin 1).val; rw [hi.1]; first | rfl | simp
  | ⟨1, _⟩ => show win2_6.index t 1 * 1024 + 1 * q.val = k.val; rw [hi.2, hk]; omega

end Cert.KernelIdeal.Layer3

end
-- ==== Proof.Layer3Acc.lean ====
/-
  Layer 3's accumulator, entry by entry, on extended reals.

  Within one output block the four reduction steps run at four consecutive points. The first leaves in the
  accumulator the zero block plus the product of the first 1536 columns; each later one adds the product of its own
  1536 columns to what the point before left. So after the step at position n the entry (p, q) is the sum of the
  contributions of the steps up to n mod 4, and after a last step it is the contraction over all 6144 columns: the
  terms are the same, only the bracketing differs, and on extended reals that does not matter.
-/
import proofs.«158226_j28930899706073_2_alg».proof.Proof.Layer3Pieces
import proofs.«158226_j28930899706073_2_alg».proof.Proof.Layer3Payload
import proofs.«158226_j28930899706073_2_alg».proof.Proof.Layer3Blocks
import proofs.«158226_j28930899706073_2_alg».proof.Proof.LibBlockSum

set_option maxRecDepth 16384

noncomputable section

namespace Cert.KernelIdeal.Layer3

open Cert.KernelIdeal Cert.KernelIdeal.Gen
open Idealize.ShloMosaic Idealize.ShloMosaic.TcCoe Idealize.ShloMosaic.ValueIdx
open Idealize.SL.Sem
open Idealize.ShloMosaic.Pipeline (Dat)
open Cert

section AnyFloat

variable {F : FTy → Type} [FloatOps F]
variable (W : Dev nD → Valuation τ sig (Elt F))

/-- At a first reduction step the accumulator ends at the block product added to the zero block; -/
theorem acc_first (c : Dev nD) (t : Fin cfg2.N) (h0 : t.val % 4 = 0) :
    (outsAt W c t.val t.isLt).2 = k2_pay2 (iblk W c 0 t) (iblk W c 1 t) (k2_pay1 (F := F)) := by
  rw [outsAt_first W c t h0]
  dsimp only
  exact accFirst_eq W c t h0

/-- at a later one, at the block product added to what the point before left; -/
theorem acc_step (c : Dev nD) (t : Fin cfg2.N) (h0 : ¬t.val % 4 = 0) :
    (outsAt W c t.val t.isLt).2
      = k2_pay2 (iblk W c 0 t) (iblk W c 1 t) (outsAt W c (t.val - 1) (Nat.lt_of_le_of_lt (Nat.sub_le _ _) t.isLt)).2 := by
  by_cases h3 : t.val % 4 = 3
  · rw [outsAt_last W c t h0 h3]
    dsimp only
    exact accLast_eq W c t h3 (outsAt W c (t.val - 1) (Nat.lt_of_le_of_lt (Nat.sub_le _ _) t.isLt)).2
  · rw [outsAt_middle W c t h0 h3]
    dsimp only
    exact accMiddle_eq W c t h0 h3 (outsAt W c (t.val - 1) (Nat.lt_of_le_of_lt (Nat.sub_le _ _) t.isLt)).2

/-- and at a last one the output block's buffer ends at the image of that point's accumulator. -/
theorem out_last (c : Dev nD) (t : Fin cfg2.N) (h3 : t.val % 4 = 3) :
    (outsAt W c t.val t.isLt).1
      = k2_pay3 (outsAt W c t.val t.isLt).2 (iblk W c 2 t) (iblk W c 3 t) (iblk W c 5 t) (iblk W c 6 t) (iblk W c 4 t) := by
  have h0 : ¬t.val % 4 = 0 := by omega
  rw [outsAt_last W c t h0 h3]
  dsimp only
  rw [outLast_eq W c t h3 (outsAt W c (t.val - 1) (Nat.lt_of_le_of_lt (Nat.sub_le _ _) t.isLt)).2,
    accLast_eq W c t h3 (outsAt W c (t.val - 1) (Nat.lt_of_le_of_lt (Nat.sub_le _ _) t.isLt)).2]

end AnyFloat

section Exact

variable (W : Dev nD → Valuation τ sig (Elt Ideal))

/-- The activations and the weights as functions of natural coordinates (zero outside the arrays), so that a
    sum over a block's columns is a sum of consecutive terms. -/
def actAt (c : Dev nD) (r k : ℕ) : EReal :=
  if h : r < 4096 ∧ k < 6144 then (Vin W c main_v18 : S4096x6144.Idx → Elt Ideal .bf16) (ix2 ⟨r, h.1⟩ ⟨k, h.2⟩) else 0
def wgtAt (c : Dev nD) (r k : ℕ) : EReal :=
  if h : r < 6144 ∧ k < 6144 then (Vin W c main_v6 : S6144x6144.Idx → Elt Ideal .bf16) (ix2 ⟨r, h.1⟩ ⟨k, h.2⟩) else 0

theorem actAt_fin (c : Dev nD) (r : Fin 4096) (k : Fin 6144) :
    actAt W c r.val k.val = (Vin W c main_v18 : S4096x6144.Idx → Elt Ideal .bf16) (ix2 r k) := by
  unfold actAt; rw [dif_pos ⟨r.isLt, k.isLt⟩]
theorem wgtAt_fin (c : Dev nD) (r : Fin 6144) (k : Fin 6144) :
    wgtAt W c r.val k.val = (Vin W c main_v6 : S6144x6144.Idx → Elt Ideal .bf16) (ix2 r k) := by
  unfold wgtAt; rw [dif_pos ⟨r.isLt, k.isLt⟩]

theorem lt96 (t : Fin cfg2.N) : t.val < 96 := lt_of_lt_of_eq t.isLt (show cfg2.N = 96 from N_2)

/-- The activation block at point t, entry (p, j). -/
theorem iblk0_act (c : Dev nD) (t : Fin cfg2.N) (p : Fin 1024) (j : Fin 1536) :
    (iblk W c 0 t : Vec Ideal S1024x1536 .bf16) (ix2 p j) = actAt W c (1024 * (t.val / 24) + p.val) (1536 * (t.val % 4) + j.val) := by
  have hN := lt96 t
  have hp := p.isLt
  have hj := j.isLt
  have hr : 1024 * (t.val / 24) + p.val < 4096 := by omega
  have hk : 1536 * (t.val % 4) + j.val < 6144 := by omega
  unfold actAt; rw [dif_pos ⟨hr, hk⟩]
  exact iblk0_apply W c t p j ⟨_, hr⟩ ⟨_, hk⟩ rfl rfl

/-- The weight block at point t, entry (q, j). -/
theorem iblk1_wgt (c : Dev nD) (t : Fin cfg2.N) (q : Fin 1024) (j : Fin 1536) :
    (iblk W c 1 t : Vec Ideal S1024x1536 .bf16) (ix2 q j) = wgtAt W c (1024 * ((t.val / 4) % 6) + q.val) (1536 * (t.val % 4) + j.val) := by
  have hN := lt96 t
  have hq := q.isLt
  have hj := j.isLt
  have hr : 1024 * ((t.val / 4) % 6) + q.val < 6144 := by omega
  have hk : 1536 * (t.val % 4) + j.val < 6144 := by omega
  unfold wgtAt; rw [dif_pos ⟨hr, hk⟩]
  exact iblk1_apply W c t q j ⟨_, hr⟩ ⟨_, hk⟩ rfl rfl

/-- One step's contribution at (p, q): the 1536 columns of reduction step s. -/
def part (c : Dev nD) (R Q s : ℕ) : EReal := ∑ j : Fin 1536, actAt W c R (1536 * s + j.val) * wgtAt W c Q (1536 * s + j.val)

/-- One reduction step at entry (p, q): what the accumulator held there plus the point's contribution. -/
theorem step_apply (c : Dev nD) (t : Fin cfg2.N) (acc : Vec Ideal S1024x1024 .f32) (p q : Fin 1024) :
    k2_pay2 (F := Ideal) (iblk W c 0 t) (iblk W c 1 t) acc (ix2 p q)
      = acc (ix2 p q) + part W c (1024 * (t.val / 24) + p.val) (1024 * ((t.val / 4) % 6) + q.val) (t.val % 4) := by
  refine (pay2_apply (iblk W c 0 t) (iblk W c 1 t) acc p q).trans ?_
  refine congrArg (acc (ix2 p q) + ·) ?_
  unfold part
  exact Finset.sum_congr rfl fun j _ => by rw [iblk0_act W c t p j, iblk1_wgt W c t q j]

/-- THE ACCUMULATION, entry by entry: after the point at position n the accumulator's entry (p, q) is the sum of the
    contributions of the reduction steps 0 … n mod 4 of the point's row and column blocks. By induction on the
    position: a first step starts from zero, a later one adds to what the point before left, which belongs to the
    same row and column blocks. -/
theorem acc_apply (c : Dev nD) : ∀ (n : ℕ) (hn : n < cfg2.N) (p q : Fin 1024),
    (outsAt W c n hn).2 (ix2 p q)
      = ∑ s ∈ Finset.range (n % 4 + 1), part W c (1024 * (n / 24) + p.val) (1024 * ((n / 4) % 6) + q.val) s
  | 0, hn, p, q => by
    have e := acc_first W c ⟨0, hn⟩ rfl
    refine (congrFun e (ix2 p q)).trans ?_
    refine (step_apply W c ⟨0, hn⟩ (k2_pay1 (F := Ideal)) p q).trans ?_
    rw [pay1_apply, zero_add]
    exact (Finset.sum_range_one _).symm
  | m + 1, hn, p, q => by
    by_cases h0 : (m + 1) % 4 = 0
    · have e := acc_first W c ⟨m + 1, hn⟩ h0
      refine (congrFun e (ix2 p q)).trans ?_
      refine (step_apply W c ⟨m + 1, hn⟩ (k2_pay1 (F := Ideal)) p q).trans ?_
      rw [pay1_apply, zero_add]
      show part W c _ _ ((m + 1) % 4) = _
      rw [h0]
      exact (Finset.sum_range_one _).symm
    · have e := acc_step W c ⟨m + 1, hn⟩ h0
      refine (congrFun e (ix2 p q)).trans ?_
      refine (step_apply W c ⟨m + 1, hn⟩ (outsAt W c m (Nat.lt_of_succ_lt hn)).2 p q).trans ?_
      have ih := acc_apply c m (Nat.lt_of_succ_lt hn) p q
      have hN : m + 1 < 96 := lt_of_lt_of_eq hn (show cfg2.N = 96 from N_2)
      have e1 : m % 4 + 1 = (m + 1) % 4 := by omega
      have e2 : m / 24 = (m + 1) / 24 := by omega
      have e3 : (m / 4) % 6 = ((m + 1) / 4) % 6 := by omega
      rw [e1, e2, e3] at ih
      show (outsAt W c m _).2 (ix2 p q) + part W c _ _ ((m + 1) % 4) = _
      rw [ih, Finset.sum_range_succ]

/-- So at a last reduction step the accumulator's entry (p, q) is the whole contraction, all 6144 columns, of the
    point's activation row against its weight row: four consecutive runs of 1536 terms. -/
theorem acc_full (c : Dev nD) (t : Fin cfg2.N) (h3 : t.val % 4 = 3) (p q : Fin 1024) :
    (outsAt W c t.val t.isLt).2 (ix2 p q)
      = ∑ k : Fin 6144, actAt W c (1024 * (t.val / 24) + p.val) k.val * wgtAt W c (1024 * ((t.val / 4) % 6) + q.val) k.val := by
  rw [acc_apply W c t.val t.isLt p q, h3]
  exact (Cert.BlockSum.sum_blocks 4 1536 fun k =>
    actAt W c (1024 * (t.val / 24) + p.val) k * wgtAt W c (1024 * ((t.val / 4) % 6) + q.val) k).symm

end Exact

end Cert.KernelIdeal.Layer3

end
-- ==== Proof.Layer3Value.lean ====
/-
  Layer 3's region: the value of its output array, entry by entry, on extended reals.

  A write-back happens at a last reduction step, where the output block's buffer holds the image of the full
  contraction; the block of point t sits at rows 1024 * (t / 24) … and columns 1024 * ((t / 4) mod 6) … of the output
  array, and these 24 blocks tile it. So after the region the output array's entry (P, Q) is the closed form: the
  contraction of row P of the activations with row Q of the weights, batch-normalised with the parameters' entries
  Q, then clamped to [-1, 1].
-/
import proofs.«158226_j28930899706073_2_alg».proof.Proof.Layer3Acc
import proofs.«158226_j28930899706073_2_alg».proof.Proof.Layer3Region

set_option maxRecDepth 16384

noncomputable section

namespace Cert.KernelIdeal.Layer3

open Cert.KernelIdeal Cert.KernelIdeal.Gen
open Idealize.ShloMosaic Idealize.ShloMosaic.TcCoe Idealize.ShloMosaic.ValueIdx
open Idealize.SL.Sem
open Idealize.ShloMosaic.Pipeline (Dat)
open Cert

section Value

variable (W : Dev nD → Valuation τ sig (Elt Ideal))

/-- The closed form of the output array's entry (P, Q): the clamp of the batch-normalised contraction of row P of the
    activations with row Q of the weights, over the parameters' entries Q. -/
def outEntry (c : Dev nD) (P : Fin 4096) (Q : Fin 6144) : EReal :=
  Net.clamp (Net.bn (Net.dot (fun k : Fin 6144 => (Vin W c main_v18 : S4096x6144.Idx → Elt Ideal .bf16) (ix2 P k))
      (fun k : Fin 6144 => (Vin W c main_v6 : S6144x6144.Idx → Elt Ideal .bf16) (ix2 Q k)))
    ((Vin W c main_v19 : S1x6144.Idx → Elt Ideal .f32) (ix2 0 Q)) ((Vin W c main_v20 : S1x6144.Idx → Elt Ideal .f32) (ix2 0 Q))
    ((Vin W c main_v21 : S1x6144.Idx → Elt Ideal .f32) (ix2 0 Q)) ((Vin W c main_v22 : S1x6144.Idx → Elt Ideal .f32) (ix2 0 Q))
    ((Vin W c main_v23 : S1x6144.Idx → Elt Ideal .f32) (ix2 0 Q)))

/-- At a last reduction step the output block's buffer holds, at (p, q), the closed form at the block's place in
    the array. -/
theorem out_apply (c : Dev nD) (t : Fin cfg2.N) (h3 : t.val % 4 = 3) (p q : Fin 1024) (P : Fin 4096) (Q : Fin 6144)
    (hP : P.val = 1024 * (t.val / 24) + p.val) (hQ : Q.val = 1024 * ((t.val / 4) % 6) + q.val) :
    (outsAt W c t.val t.isLt).1 (ix2 p q) = outEntry W c P Q := by
  refine (congrFun (out_last W c t h3) (ix2 p q)).trans ?_
  rw [pay3_apply, acc_full W c t h3 p q, ← hP, ← hQ]
  unfold outEntry Net.dot
  simp only [actAt_fin, wgtAt_fin]
  rw [iblk2_apply W c t q Q hQ, iblk3_apply W c t q Q hQ, iblk4_apply W c t q Q hQ, iblk5_apply W c t q Q hQ,
    iblk6_apply W c t q Q hQ]

/-- The output array's closed form. -/
def G (c : Dev nD) : Buf (Elt Ideal) ((cfg2.win 7).arr.view.loc (c : Thread nD τ)) :=
  fun idx => outEntry W c (idx 0) (idx 1)

/-- Each write-back writes the closed form's block: a write-back happens at a last reduction step, and the block
    of point t sits at rows 1024 * (t / 24) … and columns 1024 * ((t / 4) mod 6) … of the array. -/
theorem flushed_eq (c : Dev nD) (t : Fin cfg2.N) (hf : (cfg2.win 7).flush t = true) :
    (dat W c).flushed 7 t = ((cfg2.win 7).blk t).view.read (Elt Ideal) (G W c) := by
  have h3 : t.val % 4 = 3 := (flush2_7 t).mp hf
  have hN := lt96 t
  have hi := idx7 t
  funext x
  have hx0 : (x 0).val < 1024 := (x 0).isLt
  have hx1 : (x 1).val < 1024 := (x 1).isLt
  have hP : 1024 * (t.val / 24) + (x 0).val < 4096 := by omega
  have hQ : 1024 * ((t.val / 4) % 6) + (x 1).val < 6144 := by omega
  have hxi : (cfg2.win 7).xinj (grid2.coords t) x = ix2 (⟨(x 0).val, hx0⟩ : Fin 1024) (⟨(x 1).val, hx1⟩ : Fin 1024) :=
    funext fun a => by
      match a with
      | ⟨0, _⟩ => rfl
      | ⟨1, _⟩ => rfl
  show (cfg2.win 7).cut (grid2.coords t) ((dat W c).after 7 t) x = _
  rw [after7, View.read_apply]
  refine (congrArg (outsAt W c t.val t.isLt).1 hxi).trans ?_
  refine (out_apply W c t h3 ⟨_, hx0⟩ ⟨_, hx1⟩ ⟨_, hP⟩ ⟨_, hQ⟩ rfl rfl).trans ?_
  show outEntry W c _ _ = outEntry W c ((((cfg2.win 7).blk t).view.emb x) 0) ((((cfg2.win 7).blk t).view.emb x) 1)
  congr 1
  · apply Fin.ext
    show 1024 * (t.val / 24) + (x 0).val = win2_7.index t 0 * 1024 + 1 * (x 0).val
    rw [hi.1]; omega
  · apply Fin.ext
    show 1024 * ((t.val / 4) % 6) + (x 1).val = win2_7.index t 1 * 1024 + 1 * (x 1).val
    rw [hi.2]; omega

/-- The write-backs' blocks cover the array: entry (P, Q) is in the block of the last reduction step of row block
    P / 1024 and column block Q / 1024. -/
theorem cover (c : Dev nD) (i : ((cfg2.win 7).arr.view.loc (c : Thread nD τ)).2.ty.Idx) :
    ∃ t : Fin cfg2.N, (cfg2.win 7).flush t = true ∧ i ∈ ((cfg2.win 7).blk t).view.set := by
  have h0 : (i 0 : Nat) < 4096 := (i 0).isLt
  have h1 : (i 1 : Nat) < 6144 := (i 1).isLt
  obtain ⟨t, ht⟩ : ∃ t : Fin cfg2.N, t.val = 24 * ((i 0 : Nat) / 1024) + 4 * ((i 1 : Nat) / 1024) + 3 :=
    ⟨⟨24 * ((i 0 : Nat) / 1024) + 4 * ((i 1 : Nat) / 1024) + 3, by rw [show cfg2.N = 96 from N_2]; omega⟩, rfl⟩
  have hi := idx7 t
  refine ⟨t, (flush2_7 t).mpr (by omega), ?_⟩
  show i ∈ ((View.whole main_v24).slice (win2_7.rect t)).set
  rw [View.set_slice_whole, Rect.mem_set_unit]
  intro a
  match a with
  | ⟨0, _⟩ =>
    show win2_7.index t 0 * 1024 ≤ (i 0 : Nat) ∧ (i 0 : Nat) < win2_7.index t 0 * 1024 + 1024
    rw [hi.1, ht]; omega
  | ⟨1, _⟩ =>
    show win2_7.index t 1 * 1024 ≤ (i 1 : Nat) ∧ (i 1 : Nat) < win2_7.index t 1 * 1024 + 1024
    rw [hi.2, ht]; omega

/-- So the output array ends holding the closed form, -/
theorem finalOut_eq (c : Dev nD) : (dat W c).arrAt 7 cfg2.N = G W c :=
  (dat W c).arrAt_eq_of_cover 7 (G W c) (flushed_eq W c) (cover c)

/-- entry by entry: -/
theorem finalOut_entry (c : Dev nD) (p : Fin 4096) (q : Fin 6144) :
    (finalOut W c : S4096x6144.Idx → Elt Ideal .bf16) (ix2 p q) = outEntry W c p q :=
  congrFun (finalOut_eq W c) (ix2 p q)

/-- THE REGION'S VALUE. The output array's entry (p, q) after the region is the clamp to [-1, 1] of the batch-normalised
    contraction, over all 6144 features, of row p of the entry activations with row q of the entry weights, the
    five parameters read at column q. -/
theorem finalOut_apply (c : Dev nD) (p : Fin 4096) (q : Fin 6144) :
    (finalOut W c : S4096x6144.Idx → Elt Ideal .bf16) (ix2 p q)
      = Net.clamp (Net.bn (Net.dot (fun k : Fin 6144 => (Vin W c main_v18 : S4096x6144.Idx → Elt Ideal .bf16) (ix2 p k))
            (fun k : Fin 6144 => (Vin W c main_v6 : S6144x6144.Idx → Elt Ideal .bf16) (ix2 q k)))
          ((Vin W c main_v19 : S1x6144.Idx → Elt Ideal .f32) (ix2 0 q)) ((Vin W c main_v20 : S1x6144.Idx → Elt Ideal .f32) (ix2 0 q))
          ((Vin W c main_v21 : S1x6144.Idx → Elt Ideal .f32) (ix2 0 q)) ((Vin W c main_v22 : S1x6144.Idx → Elt Ideal .f32) (ix2 0 q))
          ((Vin W c main_v23 : S1x6144.Idx → Elt Ideal .f32) (ix2 0 q))) :=
  finalOut_entry W c p q

end Value

end Cert.KernelIdeal.Layer3

end
-- ==== Proof.Layer4Pieces.lean ====
/-
  The last layer's body, case by case: what its stores leave, as the printed arithmetic of the blocks.

  Each step's run ends with a list of stored pieces for the accumulator (and, at a last step, for the output
  block's buffer). Every list is covered by one whole-block store, so what is read back is that store's payload:
  the block product added to what the accumulator held (the cleared accumulator at a first step), and at a last
  step the log-softmax rows of that sum after the bias is added.
-/
import proofs.«158226_j28930899706073_2_alg».proof.Proof.Layer4Data
import Idealize.ShloMosaic.Lib.Pipeline.Value
import Idealize.ShloMosaic.Lib.Tactic

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

theorem hz : (![0, 0] : Fin 2 → Nat) = fun _ => 0 := funext fun a => by fin_cases a <;> rfl

/-- A first step leaves the block product added to the cleared accumulator. -/
theorem accFirst_eq (c : Dev nD) (t : Fin cfg3.N) (h : t.val % 4 = 0) :
    accFirst W c t h = k3_pay2 (iblk W c 0 t) (iblk W c 1 t) (k3_pay1 (F := F)) := by
  unfold accFirst
  rw [View.read_writes_eq_canon _ _ _ (coverFirst W c t h)]
  unfold runFirst bodyRunFirst
  dsimp only
  sl_unfold_words
  rw [View.canon_cons_unit_zero (S := S1024x10) hz, View.readCov_unit_zero (S := S1024x10) _ hz]
  simp only [View.readAt_eq_ld, (hs0 t).read_unread, (hs1 t).read_unread, (hs2 t).read_unread, (Memref.isWhole_whole cc3_scratch0).read_unread, View.ld_unit_zero (S := S1024x1536) hz, View.ld_unit_zero (S := S10x1536) hz, View.ld_unit_zero (S := S1x10) hz, View.ld_unit_zero (S := S1024x10) hz]

/-- A middle step leaves the block product added to what the accumulator held. -/
theorem accMiddle_eq (c : Dev nD) (t : Fin cfg3.N) (h0 : t.val % 4 ≠ 0) (h3 : t.val % 4 ≠ 3) (xs : Vec F S1024x10 .f32) :
    accMiddle W c t h0 h3 xs = k3_pay2 (iblk W c 0 t) (iblk W c 1 t) xs := by
  unfold accMiddle
  rw [View.read_writes_eq_canon _ _ _ (coverMiddle W c t h0 h3 xs)]
  unfold runMiddle bodyRunMiddle
  dsimp only
  rw [View.canon_unit_zero hz]
  simp only [View.readAt_eq_ld, (hs0 t).read_unread, (hs1 t).read_unread, (hs2 t).read_unread, (Memref.isWhole_whole cc3_scratch0).read_unread, View.ld_unit_zero (S := S1024x1536) hz, View.ld_unit_zero (S := S10x1536) hz, View.ld_unit_zero (S := S1x10) hz, View.ld_unit_zero (S := S1024x10) hz]

/-- A last step leaves the same in the accumulator, -/
theorem accLast_eq (c : Dev nD) (t : Fin cfg3.N) (h : t.val % 4 = 3) (xs : Vec F S1024x10 .f32) :
    accLast W c t h xs = k3_pay2 (iblk W c 0 t) (iblk W c 1 t) xs := by
  unfold accLast
  rw [View.read_writes_eq_canon _ _ _ (coverLastAcc W c t h xs)]
  unfold runLast bodyRunLast
  dsimp only
  sl_unfold_words
  rw [View.canon_unit_zero hz]
  simp only [View.readAt_eq_ld, (hs0 t).read_unread, (hs1 t).read_unread, (hs2 t).read_unread, (Memref.isWhole_whole cc3_scratch0).read_unread, View.ld_unit_zero (S := S1024x1536) hz, View.ld_unit_zero (S := S10x1536) hz, View.ld_unit_zero (S := S1x10) hz, View.ld_unit_zero (S := S1024x10) hz]

/-- and in the output block's buffer the finished rows: the bias added to that sum, then each row's log-softmax. -/
theorem outLast_eq (c : Dev nD) (t : Fin cfg3.N) (h : t.val % 4 = 3) (xs : Vec F S1024x10 .f32) :
    outLast W c t h xs = k3_pay3 (k3_pay2 (iblk W c 0 t) (iblk W c 1 t) xs) (iblk W c 2 t) := by
  unfold outLast
  rw [View.read_writes_eq_canon _ _ _ (coverLastOut W c t h xs)]
  unfold runLast bodyRunLast
  dsimp only
  sl_unfold_words
  rw [View.canon_unit_zero hz, View.readCov_unit_zero (S := S1024x10) _ hz]
  simp only [View.readAt_eq_ld, (hs0 t).read_unread, (hs1 t).read_unread, (hs2 t).read_unread, (Memref.isWhole_whole cc3_scratch0).read_unread, View.ld_unit_zero (S := S1024x1536) hz, View.ld_unit_zero (S := S10x1536) hz, View.ld_unit_zero (S := S1x10) hz, View.ld_unit_zero (S := S1024x10) hz]

end Cert.KernelIdeal.Layer4

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibKeepdims.lean ====
/-
  Column ("keepdims") layouts read at an index given by coordinates, and sums over axes read as sums over coordinates,
  at the extended reals: a vector `[a]` viewed as a column `[a, 1]`; a column repeated along the lanes, `[a, 1]` to
  `[a, b]`; the sum over the lanes of an `[a, b]` array as the sum over the second coordinate; the sum over every
  element of a `[1, n, 1]` array as the sum over its middle coordinate; and the one element of a `[1]` vector viewed
  as `[1, 1, 1]`. (A column transposed to a row, `[a, 1]` to `[1, a]`, and a row repeated over the rows, `[1, b]` to
  `[a, b]`, are the library's `transpose_ix2_apply` and `broadcastTo_1b_ab_apply`; `[a, 1]` viewed `[1, a, 1]` is its
  `shapeCast_ab_1ab_apply`.)
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- An `[a]` vector viewed as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the lanes to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one element of a `[1]` vector viewed as `[1, 1, 1]`. -/
theorem extractAt_shapeCast_1_111 (v : (⟨1, ![1]⟩ : Shape).Idx → α) (h : (⟨1, ![1]⟩ : Shape).ShapeCasts ⟨3, ![1, 1, 1]⟩)
    (hpos : ∀ a, (![0, 0, 0] : Fin 3 → Nat) a < (⟨3, ![1, 1, 1]⟩ : Shape).size a) :
    extractAt ![0, 0, 0] (shapeCast ⟨3, ![1, 1, 1]⟩ v h) hpos = v (ix1 (0 : Fin 1)) := by
  unfold extractAt
  exact shapeCast_apply v h _ _ (by rw [Shape.rowMajor_val_one, Shape.rowMajor_val_three]; rfl)

/-- The index set of a `[1, n, 1]` array is its middle coordinate's range … -/
def idxEquiv1n1 {n : ℕ} : (⟨3, ![1, n, 1]⟩ : Shape).Idx ≃ Fin n where
  toFun i := i 1
  invFun r := ix3 (0 : Fin 1) r (0 : Fin 1)
  left_inv i := by
    funext c
    match c with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over that coordinate. -/
theorem sum_idx_1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- The sum over the lanes of an `[a, b]` array of extended reals, at row `r`: the sum over the second coordinate. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  show (∑ k : Fin b, src (h.lift (ix1 r) k)) = _
  refine Finset.sum_congr rfl fun k _ => congrArg src (funext fun c => Fin.ext ?_)
  match c with
  | ⟨0, _⟩ => rfl
  | ⟨1, _⟩ => rfl

/-- The sum over both trailing axes of a `[1, n, 1]` array of extended reals into `[1]`: the sum over the middle
    coordinate. -/
theorem sumAll_1n1_apply {n : ℕ} (src : FVec Ideal ⟨3, ![1, n, 1]⟩ .f32) (h : (⟨3, ![1, n, 1]⟩ : Shape).Reduces [1, 2] ⟨1, ![1]⟩)
    (hφ : FKind.Formats .f32) (hacc : (0x00000000#32 : BitVec 32) = FKind.add.neutral .f32 hφ) (j : (⟨1, ![1]⟩ : Shape).Idx) :
    multiReduction (F := Ideal) .add [1, 2] ⟨1, ![1]⟩ src 0x00000000#32 h hφ hacc j
      = ∑ r : Fin n, src (ix3 (0 : Fin 1) r (0 : Fin 1)) :=
  (Ideal.multiReduction_add_total src 0x00000000#32 h (fun b => by match b with | ⟨0, _⟩ => rfl) hφ hacc j).trans
    (sum_idx_1n1 src)

end Cert.Keepdims

end
-- ==== Proof.Layer4Payload.lean ====
/-
  The last layer's printed arithmetic, entry by entry, over the extended reals.

  The cleared accumulator reads zero. The accumulation step reads, at row p and class r, what the accumulator
  held there plus the contraction of row p of the activation block with row r of the weight block. The
  finishing step adds the bias row to the finished sums, and from each of a row's ten logits subtracts the row's
  maximum and then the logarithm of the sum of the exponentials of the shifted logits.
-/
import proofs.«158226_j28930899706073_2_alg».proof.Proof.Gen.KernelIdeal.Skeleton
import proofs.«158226_j28930899706073_2_alg».proof.Proof.LibMatmulRows
import proofs.«158226_j28930899706073_2_alg».proof.Proof.LibAxisReads
import proofs.«158226_j28930899706073_2_alg».proof.Proof.LibKeepdims
import Idealize.ShloMosaic.Lib.Pipeline.Value
import Idealize.ShloMosaic.Lib.ValueLayout
import Idealize.ShloMosaic.Lib.ValueIdx

noncomputable section

namespace Cert.KernelIdeal.Layer4

open Cert.KernelIdeal Cert.KernelIdeal.Gen
open Idealize.ShloMosaic Idealize.ShloMosaic.ValueIdx
open scoped BigOperators

/-- The cleared accumulator reads zero everywhere. -/
theorem pay1_apply (p : Fin 1024) (r : Fin 10) : k3_pay1 (F := Ideal) (ix2 p r) = 0 := by
  unfold k3_pay1
  refine (congrFun (shapeCast_self _ _) _).trans ?_
  exact Ideal.ofBits_zero_f32

/-- One accumulation step at (p, r): what the accumulator held, plus row p of the activations against row r of
    the weights. -/
theorem pay2_apply (x0 : Vec Ideal S1024x1536 .bf16) (x1 : Vec Ideal S10x1536 .f32) (xs : Vec Ideal S1024x10 .f32)
    (p : Fin 1024) (r : Fin 10) :
    k3_pay2 x0 x1 xs (ix2 p r) = xs (ix2 p r) + ∑ k : Fin 1536, x0 (ix2 p k) * x1 (ix2 r k) := by
  unfold k3_pay2
  refine (congrFun (shapeCast_self _ _) _).trans ?_
  refine congrArg (xs (ix2 p r) + ·) ?_
  refine (Cert.MatmulRows.matmul_rows_apply dot_S1024x1536_S10x1536_S1024x10_1_1_0_0_n_n none rfl rfl rfl rfl rfl rfl _ _ p r).trans ?_
  refine Finset.sum_congr rfl fun k _ => ?_
  exact congrArg (· * x1 (ix2 r k)) (congrFun (shapeCast_self _ _) _)

/-- Row p's logits: the finished sums of the row plus the bias row. -/
def logit (acc : Vec Ideal S1024x10 .f32) (b : Vec Ideal S1x10 .f32) (p : Fin 1024) (r : Fin 10) : Ideal .f32 :=
  FloatOps.addf (acc (ix2 p r)) (b (ix2 (0 : Fin 1) r))

/-- A row's maximum as the program takes it: the fold of max over the ten entries, from minus infinity. -/
def rowMaxOf (f : Fin 10 → Ideal .f32) : Ideal .f32 :=
  (Finset.univ : Finset (Fin 10)).fold max (Ideal.ofBits .f32 0xFF800000#32) f

/-- The bias row added to the finished sums, at (p, r). -/
theorem biased_apply (acc : Vec Ideal S1024x10 .f32) (b : Vec Ideal S1x10 .f32)
    (h1 : S1x10.ShapeCasts S1x10) (h2 : S1x10.Broadcasts S1024x10) (p : Fin 1024) (r : Fin 10) :
    addf acc (broadcastTo S1024x10 (shapeCast S1x10 b h1) h2) (ix2 p r) = logit acc b p r := by
  show acc (ix2 p r) + broadcastTo S1024x10 (shapeCast S1x10 b h1) h2 (ix2 p r) = acc (ix2 p r) + b (ix2 (0 : Fin 1) r)
  refine congrArg (acc (ix2 p r) + ·) ?_
  refine (broadcastTo_1b_ab_apply _ h2 p r).trans ?_
  exact congrFun (shapeCast_self _ _) _

/-- A row's maximum kept as a column and repeated along the row, at (p, r). -/
theorem keptMax_apply (v : FVec Ideal S1024x10 .f32) (hr : S1024x10.Reduces [1] S1024)
    (hc : S1024.ShapeCasts S1024x1) (hb : S1024x1.Broadcasts S1024x10) (p : Fin 1024) (r : Fin 10) :
    broadcastTo S1024x10 (shapeCast S1024x1 (multiReduction .maximumf [1] S1024 v 0xFF800000#32 hr (.inl rfl) rfl) hc) hb (ix2 p r)
      = rowMaxOf (fun k => v (ix2 p k)) := by
  refine (Cert.Keepdims.broadcastTo_a1_ab_apply _ hb p r).trans ?_
  refine (Cert.Keepdims.shapeCast_a_a1_apply _ hc p (0 : Fin 1)).trans ?_
  exact Cert.AxisReads.max_cols v hr p

/-- The logarithm of a row's sum kept as a column and repeated along the row, at (p, r). -/
theorem keptLogSum_apply (v : FVec Ideal S1024x10 .f32) (hr : S1024x10.Reduces [1] S1024)
    (hc : S1024.ShapeCasts S1024x1) (hb : S1024x1.Broadcasts S1024x10) (p : Fin 1024) (r : Fin 10) :
    broadcastTo S1024x10 (log (shapeCast S1024x1 (multiReduction .add [1] S1024 v 0x00000000#32 hr (.inl rfl) rfl) hc)) hb (ix2 p r)
      = FloatOps.log (∑ k : Fin 10, v (ix2 p k)) := by
  refine (Cert.Keepdims.broadcastTo_a1_ab_apply _ hb p r).trans ?_
  show FloatOps.log (shapeCast S1024x1 (multiReduction .add [1] S1024 v 0x00000000#32 hr (.inl rfl) rfl) hc (ix2 p (0 : Fin 1))) = _
  refine congrArg FloatOps.log ?_
  refine (Cert.Keepdims.shapeCast_a_a1_apply _ hc p (0 : Fin 1)).trans ?_
  exact Cert.AxisReads.sum_cols v hr p

/-- The finishing step at (p, r): the row's log-softmax of the biased sums. -/
theorem pay3_apply (acc : Vec Ideal S1024x10 .f32) (b : Vec Ideal S1x10 .f32) (p : Fin 1024) (r : Fin 10) :
    k3_pay3 acc b (ix2 p r)
      = FloatOps.subf (FloatOps.subf (logit acc b p r) (rowMaxOf (logit acc b p)))
          (FloatOps.log (∑ r' : Fin 10, FloatOps.exp (FloatOps.subf (logit acc b p r') (rowMaxOf (logit acc b p))))) := by
  unfold k3_pay3
  -- the shifted logits, at any entry of the row
  have hshift : ∀ q : Fin 10,
      subf (addf acc (broadcastTo S1024x10 (shapeCast S1x10 b shapeCasts_S1x10_S1x10) broadcasts_S1x10_S1024x10))
        (broadcastTo S1024x10 (shapeCast S1024x1 (multiReduction .maximumf [1] S1024
          (addf acc (broadcastTo S1024x10 (shapeCast S1x10 b shapeCasts_S1x10_S1x10) broadcasts_S1x10_S1024x10))
          0xFF800000#32 reduces_S1024x10_S1024 (.inl rfl) rfl) shapeCasts_S1024_S1024x1) broadcasts_S1024x1_S1024x10) (ix2 p q)
        = FloatOps.subf (logit acc b p q) (rowMaxOf (logit acc b p)) := fun q => by
    refine congrArg₂ FloatOps.subf (biased_apply acc b _ _ p q) ?_
    refine (keptMax_apply _ _ _ _ p q).trans ?_
    exact congrArg rowMaxOf (funext fun k => biased_apply acc b _ _ p k)
  refine congrArg₂ FloatOps.subf (hshift r) ?_
  refine (keptLogSum_apply _ _ _ _ p r).trans ?_
  refine congrArg FloatOps.log (Finset.sum_congr rfl fun k _ => ?_)
  exact congrArg FloatOps.exp (hshift k)

end Cert.KernelIdeal.Layer4

end
-- ==== Proof.Layer4Blocks.lean ====
/-
  The last layer's blocks as entries of its arrays.

  Point t of the grid is row block t / 4 and reduction step t % 4. The activation window's block there is rows
  1024 (t / 4) … and columns 1536 (t % 4) … of the activations; the weight window's block is all ten rows and
  columns 1536 (t % 4) … of the weights; the bias window's block is the whole bias row; the output window's
  block is rows 1024 (t / 4) … of the output, all ten columns.
-/
import proofs.«158226_j28930899706073_2_alg».proof.Proof.Layer4Data
import Idealize.ShloMosaic.Lib.Pipeline.Value
import Idealize.ShloMosaic.Lib.ValueIdx

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (W : Dev nD → Valuation τ sig (Elt F))

/-- The windows' block indices over the grid. -/
theorem idx0 : ∀ t : Fin cfg3.N, win3_0.index t 0 = t.val / 4 ∧ win3_0.index t 1 = t.val % 4 := by decide +kernel
theorem idx1 : ∀ t : Fin cfg3.N, win3_1.index t 0 = 0 ∧ win3_1.index t 1 = t.val % 4 := by decide +kernel
theorem idx2 : ∀ t : Fin cfg3.N, win3_2.index t 0 = 0 ∧ win3_2.index t 1 = 0 := by decide +kernel
theorem idx3 : ∀ t : Fin cfg3.N, win3_3.index t 0 = t.val / 4 ∧ win3_3.index t 1 = 0 := by decide +kernel

/-- The activation block at point t, entry by entry. -/
theorem iblk0_apply (c : Dev nD) (t : Fin cfg3.N) (x : S1024x1536.Idx) (k : S4096x6144.Idx)
    (hk0 : (k 0).val = 1024 * (t.val / 4) + (x 0).val) (hk1 : (k 1).val = 1536 * (t.val % 4) + (x 1).val) :
    (iblk W c 0 t : Vec F S1024x1536 .bf16) x = (Vin W c main_v24 : S4096x6144.Idx → Elt F .bf16) k := by
  unfold iblk
  rw [View.read_apply]
  show Vin W c main_v24 _ = Vin W c main_v24 _
  congr 1
  funext a
  apply Fin.ext
  match a with
  | ⟨0, _⟩ => show win3_0.index t 0 * 1024 + 1 * (x 0).val = (k 0).val; rw [(idx0 t).1, hk0]; omega
  | ⟨1, _⟩ => show win3_0.index t 1 * 1536 + 1 * (x 1).val = (k 1).val; rw [(idx0 t).2, hk1]; omega

/-- The weight block at point t, entry by entry. -/
theorem iblk1_apply (c : Dev nD) (t : Fin cfg3.N) (x : S10x1536.Idx) (k : S10x6144.Idx)
    (hk0 : (k 0).val = (x 0).val) (hk1 : (k 1).val = 1536 * (t.val % 4) + (x 1).val) :
    (iblk W c 1 t : Vec F S10x1536 .f32) x = (Vin W c main_arg19 : S10x6144.Idx → Elt F .f32) k := by
  unfold iblk
  rw [View.read_apply]
  show Vin W c main_arg19 _ = Vin W c main_arg19 _
  congr 1
  funext a
  apply Fin.ext
  match a with
  | ⟨0, _⟩ => show win3_1.index t 0 * 10 + 1 * (x 0).val = (k 0).val; rw [(idx1 t).1, hk0]; omega
  | ⟨1, _⟩ => show win3_1.index t 1 * 1536 + 1 * (x 1).val = (k 1).val; rw [(idx1 t).2, hk1]; omega

/-- The bias block at any point is the bias row. -/
theorem iblk2_apply (c : Dev nD) (t : Fin cfg3.N) (x : S1x10.Idx) :
    (iblk W c 2 t : Vec F S1x10 .f32) x = (Vin W c main_v25 : S1x10.Idx → Elt F .f32) x := by
  unfold iblk
  rw [View.read_apply]
  show Vin W c main_v25 _ = Vin W c main_v25 _
  congr 1
  funext a
  apply Fin.ext
  match a with
  | ⟨0, _⟩ => show win3_2.index t 0 * 1 + 1 * (x 0).val = (x 0).val; rw [(idx2 t).1]; omega
  | ⟨1, _⟩ => show win3_2.index t 1 * 10 + 1 * (x 1).val = (x 1).val; rw [(idx2 t).2]; omega

end Cert.KernelIdeal.Layer4

end
-- ==== Proof.Layer4Acc.lean ====
/-
  The last layer's accumulator at the end of a reduction, entry by entry.

  Over the four steps of one row block the accumulator is cleared and then receives, step after step, the
  contraction of the activations' rows with the weights' rows over that step's 1536 features. After the last
  step it holds, at row p of the block and class q, zero plus the four partial contractions in order, which is
  the contraction over all 6144 features of the activations' row with the weights' row q: the same terms, cut
  into four consecutive blocks.
-/
import proofs.«158226_j28930899706073_2_alg».proof.Proof.Layer4Pieces
import proofs.«158226_j28930899706073_2_alg».proof.Proof.Layer4Payload
import proofs.«158226_j28930899706073_2_alg».proof.Proof.Layer4Blocks
import proofs.«158226_j28930899706073_2_alg».proof.Proof.LibBlockSum
import proofs.«158226_j28930899706073_2_alg».proof.Proof.NetSpec

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

set_option maxHeartbeats 400000

variable (W : Dev nD → Valuation τ sig (Elt Ideal))

/-- The windows' blocks at a point and the arrays they are cut from, at their shapes. -/
abbrev actBlk (c : Dev nD) (t : Fin cfg3.N) : Vec Ideal S1024x1536 .bf16 := iblk W c 0 t
abbrev wgtBlk (c : Dev nD) (t : Fin cfg3.N) : Vec Ideal S10x1536 .f32 := iblk W c 1 t
abbrev biasBlk (c : Dev nD) (t : Fin cfg3.N) : Vec Ideal S1x10 .f32 := iblk W c 2 t
abbrev act (c : Dev nD) : Vec Ideal S4096x6144 .bf16 := Vin W c main_v24
abbrev wgt (c : Dev nD) : Vec Ideal S10x6144 .f32 := Vin W c main_arg19
abbrev bias (c : Dev nD) : Vec Ideal S1x10 .f32 := Vin W c main_v25

/-- The point before t. -/
abbrev prev (t : Fin cfg3.N) : Fin cfg3.N := ⟨t.val - 1, Nat.lt_of_le_of_lt (Nat.sub_le _ _) t.isLt⟩

/-- What each step leaves, component by component. -/
theorem acc_at_first (c : Dev nD) (t : Fin cfg3.N) (h0 : t.val % 4 = 0) :
    (outsAt W c t.val t.isLt).2 = accFirst W c t h0 := by
  rw [outsAt_first W c t h0]
theorem acc_at_middle (c : Dev nD) (t : Fin cfg3.N) (h0 : t.val % 4 ≠ 0) (h3 : t.val % 4 ≠ 3) :
    (outsAt W c t.val t.isLt).2 = accMiddle W c t h0 h3 (accBefore W c t) := by
  rw [outsAt_middle W c t h0 h3]
theorem acc_at_last (c : Dev nD) (t : Fin cfg3.N) (h3 : t.val % 4 = 3) :
    (outsAt W c t.val t.isLt).2 = accLast W c t h3 (accBefore W c t) := by
  rw [outsAt_last W c t h3]
theorem out_at_last (c : Dev nD) (t : Fin cfg3.N) (h3 : t.val % 4 = 3) :
    (outsAt W c t.val t.isLt).1 = outLast W c t h3 (accBefore W c t) := by
  rw [outsAt_last W c t h3]

/-- Point t's partial contraction at (p, q): row p of its activation block against row q of its weight block. -/
def part (c : Dev nD) (t : Fin cfg3.N) (p : Fin 1024) (q : Fin 10) : Ideal .f32 :=
  ∑ k : Fin 1536, actBlk W c t (ix2 p k) * wgtBlk W c t (ix2 q k)

/-- After a first step: zero plus the step's partial contraction. -/
theorem acc_first (c : Dev nD) (t : Fin cfg3.N) (h0 : t.val % 4 = 0) (p : Fin 1024) (q : Fin 10) :
    (outsAt W c t.val t.isLt).2 (ix2 p q) = 0 + part W c t p q := by
  unfold part
  rw [acc_at_first W c t h0, accFirst_eq W c t h0]
  refine (pay2_apply (actBlk W c t) (wgtBlk W c t) (k3_pay1 (F := Ideal)) p q).trans ?_
  exact congrArg (· + ∑ k : Fin 1536, actBlk W c t (ix2 p k) * wgtBlk W c t (ix2 q k)) (pay1_apply p q)

/-- After any later step: what the point before left, plus the step's partial contraction. -/
theorem acc_step (c : Dev nD) (t : Fin cfg3.N) (h0 : t.val % 4 ≠ 0) (p : Fin 1024) (q : Fin 10) :
    (outsAt W c t.val t.isLt).2 (ix2 p q) = accBefore W c t (ix2 p q) + part W c t p q := by
  unfold part
  by_cases h3 : t.val % 4 = 3
  · rw [acc_at_last W c t h3, accLast_eq W c t h3 (accBefore W c t)]
    exact pay2_apply (actBlk W c t) (wgtBlk W c t) (accBefore W c t) p q
  · rw [acc_at_middle W c t h0 h3, accMiddle_eq W c t h0 h3 (accBefore W c t)]
    exact pay2_apply (actBlk W c t) (wgtBlk W c t) (accBefore W c t) p q

/-- What the point before t left is what stands after the point before t. -/
theorem accBefore_eq (c : Dev nD) (t : Fin cfg3.N) : accBefore W c t = (outsAt W c (prev t).val (prev t).isLt).2 := rfl

/-- After a last step: zero plus the four steps' partial contractions, in order. -/
theorem acc_last (c : Dev nD) (t : Fin cfg3.N) (h3 : t.val % 4 = 3) (p : Fin 1024) (q : Fin 10) :
    (outsAt W c t.val t.isLt).2 (ix2 p q)
      = (((0 + part W c (prev (prev (prev t))) p q) + part W c (prev (prev t)) p q) + part W c (prev t) p q) + part W c t p q := by
  have v1 : (prev t).val = t.val - 1 := rfl
  have v2 : (prev (prev t)).val = t.val - 1 - 1 := rfl
  have v3 : (prev (prev (prev t))).val = t.val - 1 - 1 - 1 := rfl
  rw [acc_step W c t (by omega) p q, accBefore_eq W c t,
    acc_step W c (prev t) (by omega) p q, accBefore_eq W c (prev t),
    acc_step W c (prev (prev t)) (by omega) p q, accBefore_eq W c (prev (prev t)),
    acc_first W c (prev (prev (prev t))) (by omega) p q]

/-- The terms of the full contraction of activation row P with weight row q, by feature number. -/
def term (c : Dev nD) (P : Fin 4096) (q : Fin 10) (n : ℕ) : Ideal .f32 :=
  if h : n < 6144 then act W c (ix2 P ⟨n, h⟩) * wgt W c (ix2 q ⟨n, h⟩) else 0

/-- A point's partial contraction is 1536 consecutive terms of the full one. -/
theorem part_eq (c : Dev nD) (s : Fin cfg3.N) (i j : ℕ) (hi : s.val / 4 = i) (hj : s.val % 4 = j)
    (p : Fin 1024) (q : Fin 10) (P : Fin 4096) (hP : P.val = 1024 * i + p.val) :
    part W c s p q = ∑ k : Fin 1536, term W c P q (1536 * j + k.val) := by
  have hj4 : j < 4 := by omega
  unfold part
  refine Finset.sum_congr rfl fun k _ => ?_
  have hb : 1536 * j + k.val < 6144 := by have := k.isLt; omega
  unfold term
  rw [dif_pos hb]
  refine congrArg₂ (· * ·) ?_ ?_
  · exact iblk0_apply W c s (ix2 p k) (ix2 P ⟨1536 * j + k.val, hb⟩)
      (by show P.val = 1024 * (s.val / 4) + p.val; omega) (by show 1536 * j + k.val = 1536 * (s.val % 4) + k.val; omega)
  · exact iblk1_apply W c s (ix2 q k) (ix2 q ⟨1536 * j + k.val, hb⟩)
      (by show q.val = q.val; rfl) (by show 1536 * j + k.val = 1536 * (s.val % 4) + k.val; omega)

/-- After a last step the accumulator holds, at (p, q), the full contraction of the activations' row
    1024 (t / 4) + p with the weights' row q. -/
theorem acc_total (c : Dev nD) (t : Fin cfg3.N) (h3 : t.val % 4 = 3) (p : Fin 1024) (q : Fin 10)
    (P : Fin 4096) (hP : P.val = 1024 * (t.val / 4) + p.val) :
    (outsAt W c t.val t.isLt).2 (ix2 p q)
      = Net.dot (fun k : Fin 6144 => act W c (ix2 P k)) (fun k : Fin 6144 => wgt W c (ix2 q k)) := by
  have v1 : (prev t).val = t.val - 1 := rfl
  have v2 : (prev (prev t)).val = t.val - 1 - 1 := rfl
  have v3 : (prev (prev (prev t))).val = t.val - 1 - 1 - 1 := rfl
  rw [acc_last W c t h3 p q,
    part_eq W c (prev (prev (prev t))) (t.val / 4) 0 (by omega) (by omega) p q P hP,
    part_eq W c (prev (prev t)) (t.val / 4) 1 (by omega) (by omega) p q P hP,
    part_eq W c (prev t) (t.val / 4) 2 (by omega) (by omega) p q P hP,
    part_eq W c t (t.val / 4) 3 rfl h3 p q P hP]
  have hsum : (∑ n : Fin 6144, term W c P q n.val)
      = ∑ i ∈ Finset.range 4, ∑ k : Fin 1536, term W c P q (1536 * i + k.val) := Cert.BlockSum.sum_blocks 4 1536 (term W c P q)
  have hdot : Net.dot (fun k : Fin 6144 => act W c (ix2 P k)) (fun k : Fin 6144 => wgt W c (ix2 q k))
      = ∑ n : Fin 6144, term W c P q n.val := by
    unfold Net.dot
    refine Finset.sum_congr rfl fun n _ => ?_
    unfold term
    rw [dif_pos n.isLt]
  rw [hdot, hsum]
  simp only [Finset.sum_range_succ, Finset.sum_range_zero]

end Cert.KernelIdeal.Layer4

end
-- ==== Proof.NetRowMax.lean ====
/-
  A row's maximum over its ten classes, in the one form both programs give it.

  Both programs take the maximum of a row's ten logits by folding max over the entries, starting from minus
  infinity: the kernel by a reduction along the columns of its block from the minus-infinity accumulator, the
  reference by a reduce with a maximum body from the minus-infinity initial value. Stated once, over any ten
  extended reals, with the two readings.
-/
import proofs.«158226_j28930899706073_2_alg».proof.Proof.NetSpec
import proofs.«158226_j28930899706073_2_alg».proof.Proof.LibAxisReads

noncomputable section

namespace Cert.Net

open Idealize.ShloMosaic Idealize.ShloMosaic.ValueIdx

/-- The maximum of ten extended reals as the programs take it: max folded over them from minus infinity. -/
def rowMax (f : Fin 10 → EReal) : EReal :=
  (Finset.univ : Finset (Fin 10)).fold max (Ideal.ofBits .f32 0xFF800000#32) f

/-- The kernel's reading: the maximum along the columns of an [a, 10] array from the minus-infinity accumulator,
    at row r. -/
theorem kernelRowMax_apply {a : ℕ} (src : FVec Ideal ⟨2, ![a, 10]⟩ .f32)
    (h : (⟨2, ![a, 10]⟩ : Shape).Reduces [1] ⟨1, ![a]⟩) (r : Fin a) :
    multiReduction .maximumf [1] ⟨1, ![a]⟩ src 0xFF800000#32 h (.inl rfl) rfl (ix1 r)
      = rowMax (fun k => src (ix2 r k)) :=
  Cert.AxisReads.max_cols src h r

/-- The reference's reading: the reduce with a maximum body along the columns of an [a, 10] array from the
    minus-infinity initial value, at row r. -/
theorem hostRowMax_apply {a : ℕ} (x : FVec Ideal ⟨2, ![a, 10]⟩ .f32)
    (h' : (⟨2, ![a, 10]⟩ : Shape).ReducesTo [1] ⟨1, ![a]⟩) (h : (⟨2, ![a, 10]⟩ : Shape).Reduces [1] ⟨1, ![a]⟩)
    (hu : 0 < (⟨0, ![]⟩ : Shape).numel) (r : Fin a) :
    Host.reduce FloatOps.maximumf x (constant (F := Ideal) ⟨0, ![]⟩ .f32 0xFF800000#32) h' hu (ix1 r)
      = rowMax (fun k => x (ix2 r k)) :=
  Cert.AxisReads.hostMax_cols x (constant (F := Ideal) ⟨0, ![]⟩ .f32 0xFF800000#32) h' h hu r

end Cert.Net

end
-- ==== Proof.Layer4Value.lean ====
/-
  The last layer's output array, entry by entry.

  Row P of the output is the log-softmax of row P's ten logits: logit r is the contraction over all 6144
  features of the activations' row P with the weights' row r, plus bias r. From each logit the row's maximum
  is subtracted, and then the logarithm of the sum of the exponentials of the ten shifted logits. The region
  writes the output back at the four last steps, one block of 1024 rows each; each written block is the
  corresponding rows of that array, and the four blocks cover it.
-/
import proofs.«158226_j28930899706073_2_alg».proof.Proof.Layer4Acc
import proofs.«158226_j28930899706073_2_alg».proof.Proof.NetRowMax
import Idealize.ShloMosaic.Lib.Pipeline.Value

set_option maxRecDepth 16384

noncomputable section

namespace Cert.KernelIdeal.Layer4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

set_option maxHeartbeats 400000

variable (W : Dev nD → Valuation τ sig (Elt Ideal))

/-- Row P's logit for class r, from the arrays as the region finds them. -/
def logits (c : Dev nD) (P : Fin 4096) (r : Fin 10) : Ideal .f32 :=
  FloatOps.addf
    (Net.dot (fun k : Fin 6144 => act W c (ix2 P k)) (fun k : Fin 6144 => wgt W c (ix2 r k)))
    (bias W c (ix2 (0 : Fin 1) r))

/-- The output array: each row's log-softmax. -/
def resultFn (c : Dev nD) : S4096x10.Idx → Ideal .f32 := fun j =>
  FloatOps.subf (FloatOps.subf (logits W c (j 0) (j 1)) (Net.rowMax (logits W c (j 0))))
    (FloatOps.log (∑ r' : Fin 10, FloatOps.exp (FloatOps.subf (logits W c (j 0) r') (Net.rowMax (logits W c (j 0))))))

abbrev result (c : Dev nD) : Buf (Elt Ideal) ((c : Thread nD τ).loc main_v26) := resultFn W c

/-- What a last step leaves in the output block's buffer, at (p, r): entry (1024 (t / 4) + p, r) of the result. -/
theorem out_last_apply (c : Dev nD) (t : Fin cfg3.N) (h3 : t.val % 4 = 3) (p : Fin 1024) (r : Fin 10)
    (P : Fin 4096) (hP : P.val = 1024 * (t.val / 4) + p.val) :
    (outsAt W c t.val t.isLt).1 (ix2 p r) = resultFn W c (ix2 P r) := by
  have hacc : (outsAt W c t.val t.isLt).2 = k3_pay2 (actBlk W c t) (wgtBlk W c t) (accBefore W c t) :=
    (acc_at_last W c t h3).trans (accLast_eq W c t h3 (accBefore W c t))
  have hl : ∀ q : Fin 10,
      logit (k3_pay2 (actBlk W c t) (wgtBlk W c t) (accBefore W c t)) (biasBlk W c t) p q = logits W c P q := fun q =>
    congrArg₂ FloatOps.addf ((congrFun hacc.symm (ix2 p q)).trans (acc_total W c t h3 p q P hP))
      (iblk2_apply W c t (ix2 (0 : Fin 1) q))
  have hf : logit (k3_pay2 (actBlk W c t) (wgtBlk W c t) (accBefore W c t)) (biasBlk W c t) p = logits W c P := funext hl
  refine (congrFun (out_at_last W c t h3) (ix2 p r)).trans ?_
  refine (congrFun (outLast_eq W c t h3 (accBefore W c t)) (ix2 p r)).trans ?_
  refine (pay3_apply (k3_pay2 (actBlk W c t) (wgtBlk W c t) (accBefore W c t)) (biasBlk W c t) p r).trans ?_
  rw [hf]
  rfl

/-- The output window's extents. -/
theorem xsize3 : ∀ t : Fin cfg3.N, win3_3.xsize (grid3.coords t) 0 = 1024 ∧ win3_3.xsize (grid3.coords t) 1 = 10 := by decide +kernel

/-- Each write-back writes its rows of the result. -/
theorem flushed_eq (c : Dev nD) (t : Fin cfg3.N) (hf : (cfg3.win 3).flush t = true) :
    (dat W c).flushed 3 t = ((cfg3.win 3).blk t).view.read (Elt Ideal) (result W c) := by
  have h3 : t.val % 4 = 3 := (flush3_3 t).mp hf
  have hN : t.val < 16 := lt_of_lt_of_eq t.isLt N_eq
  show (cfg3.win 3).cut (grid3.coords t) ((dat W c).after 3 t) = _
  rw [after3]
  funext x
  rw [View.read_apply]
  obtain ⟨x0, x1, rfl⟩ : ∃ (a : Fin 1024) (b : Fin 10), x = ix2 a b := ⟨x 0, x 1, eq_ix2 x⟩
  show (outsAt W c t.val t.isLt).1 (ix2 x0 x1) = resultFn W c (((cfg3.win 3).blk t).view.emb (ix2 x0 x1))
  refine (out_last_apply W c t h3 x0 x1 ⟨1024 * (t.val / 4) + x0.val, by have := x0.isLt; omega⟩ rfl).trans ?_
  refine congrArg (resultFn W c) ?_
  funext a
  apply Fin.ext
  match a with
  | ⟨0, _⟩ => show 1024 * (t.val / 4) + x0.val = win3_3.index t 0 * 1024 + 1 * x0.val; rw [(idx3 t).1]; omega
  | ⟨1, _⟩ => show x1.val = win3_3.index t 1 * 10 + 1 * x1.val; rw [(idx3 t).2]; omega

/-- The four written blocks cover the output array. -/
theorem cover (i : S4096x10.Idx) : ∃ t : Fin cfg3.N, (cfg3.win 3).flush t = true ∧ i ∈ ((cfg3.win 3).blk t).view.set := by
  have h0 : (i 0 : Nat) < 4096 := (i 0).isLt
  have h1 : (i 1 : Nat) < 10 := (i 1).isLt
  have hN : cfg3.N = 16 := N_eq
  let t : Fin cfg3.N := ⟨4 * ((i 0 : Nat) / 1024) + 3, by rw [hN]; omega⟩
  have ht : t.val = 4 * ((i 0 : Nat) / 1024) + 3 := rfl
  refine ⟨t, (flush3_3 t).mpr (by rw [ht]; omega), ?_⟩
  show i ∈ ((View.whole main_v26).slice (win3_3.rect t)).set
  rw [View.set_slice_whole, Rect.mem_set_unit]
  intro a
  match a with
  | ⟨0, _⟩ =>
    show win3_3.index t 0 * win3_3.size 0 ≤ (i 0 : Nat) ∧ (i 0 : Nat) < win3_3.index t 0 * win3_3.size 0 + win3_3.xsize (grid3.coords t) 0
    rw [(idx3 t).1, (xsize3 t).1, show win3_3.size 0 = 1024 from rfl, ht]; omega
  | ⟨1, _⟩ =>
    show win3_3.index t 1 * win3_3.size 1 ≤ (i 1 : Nat) ∧ (i 1 : Nat) < win3_3.index t 1 * win3_3.size 1 + win3_3.xsize (grid3.coords t) 1
    rw [(idx3 t).2, (xsize3 t).2]; omega

/-- So the output array ends holding the result. -/
theorem final_eq_result (c : Dev nD) : (dat W c).arrAt 3 cfg3.N = result W c :=
  (dat W c).arrAt_eq_of_cover 3 (result W c) (flushed_eq W c) cover

/-- THE VALUE: the region's final output array at row P and class r is the log-softmax of row P's logits. -/
theorem finalOut_apply (c : Dev nD) (P : Fin 4096) (r : Fin 10) :
    ((dat W c).arrAt 3 cfg3.N : S4096x10.Idx → Ideal .f32) (ix2 P r)
      = FloatOps.subf (FloatOps.subf (logits W c P r) (Net.rowMax (logits W c P)))
          (FloatOps.log (∑ r' : Fin 10, FloatOps.exp (FloatOps.subf (logits W c P r') (Net.rowMax (logits W c P))))) := by
  rw [final_eq_result W c]
  rfl

end Cert.KernelIdeal.Layer4

end
-- ==== Proof.ReferenceResult.lean ====
/-
  What the reference computes.

  Folding the reference's 112 array operations, in order, over the launch contents leaves the result array holding one
  composed term of the twenty-one arguments: the three normalised, clamped layers inside one another, then the last
  linear layer, then the log-softmax. The term is named; that the fold arrives at it is by unfolding, one operation
  after the other (the term is deep: the unfolding is given the depth it needs).
-/
import proofs.«158226_j28930899706073_2_alg».proof.Proof.ReferenceKeeps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 1000000 in
/-- The result's composed term of the arguments. -/
def res_main_v73 (m : (ℓ : Loc nD τ sig) → Buf (Elt F) ℓ) (c : Dev nD) : Buf (Elt F) ((c.tc : Thread nD τ).loc main_v73) :=
  subf (subf (addf (Host.dotGeneral dot_S4096x6144_S6144x10_S4096x10_1_0_0_1_n_n none (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg15)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg9)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg3)))) (subf (addf (Host.dotGeneral dot_S4096x784_S784x6144_S4096x6144_1_0_0_1_n_n none (m ((c.tc : Thread nD τ).loc main_arg0)) (transpose S784x6144 [1, 0] (Host.sign (m ((c.tc : Thread nD τ).loc main_arg1))) transposes_S6144x784_S784x6144_1_0)) (broadcastInDim S4096x6144 ![0, 1] bcast_S1x6144_S4096x6144_0_1 (broadcastInDim S1x6144 ![1] bcast_S6144_S1x6144_1 (m ((c.tc : Thread nD τ).loc main_arg2))))) (broadcastInDim S4096x6144 ![0, 1] bcast_S1x6144_S4096x6144_0_1 (broadcastInDim S1x6144 ![1] bcast_S6144_S1x6144_1 (m ((c.tc : Thread nD τ).loc main_arg5)))))) (broadcastInDim S4096x6144 ![0, 1] bcast_S1x6144_S4096x6144_0_1 (broadcastInDim S1x6144 ![1] bcast_S6144_S1x6144_1 (Host.rsqrt (addf (m ((c.tc : Thread nD τ).loc main_arg6)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg4)))))))) (transpose S6144x6144 [1, 0] (Host.sign (m ((c.tc : Thread nD τ).loc main_arg7))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg8))))) (broadcastInDim S4096x6144 ![0, 1] bcast_S1x6144_S4096x6144_0_1 (broadcastInDim S1x6144 ![1] bcast_S6144_S1x6144_1 (m ((c.tc : Thread nD τ).loc main_arg11)))))) (broadcastInDim S4096x6144 ![0, 1] bcast_S1x6144_S4096x6144_0_1 (broadcastInDim S1x6144 ![1] bcast_S6144_S1x6144_1 (Host.rsqrt (addf (m ((c.tc : Thread nD τ).loc main_arg12)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg10)))))))) (transpose S6144x6144 [1, 0] (Host.sign (m ((c.tc : Thread nD τ).loc main_arg13))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg14))))) (broadcastInDim S4096x6144 ![0, 1] bcast_S1x6144_S4096x6144_0_1 (broadcastInDim S1x6144 ![1] bcast_S6144_S1x6144_1 (m ((c.tc : Thread nD τ).loc main_arg17)))))) (broadcastInDim S4096x6144 ![0, 1] bcast_S1x6144_S4096x6144_0_1 (broadcastInDim S1x6144 ![1] bcast_S6144_S1x6144_1 (Host.rsqrt (addf (m ((c.tc : Thread nD τ).loc main_arg18)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg16))))))) (transpose S6144x10 [1, 0] (m ((c.tc : Thread nD τ).loc main_arg19)) transposes_S10x6144_S6144x10_1_0)) (broadcastInDim S4096x10 ![0, 1] bcast_S1x10_S4096x10_0_1 (broadcastInDim S1x10 ![1] bcast_S10_S1x10_1 (m ((c.tc : Thread nD τ).loc main_arg20))))) (broadcastInDim S4096x10 ![0, 1] bcast_S4096x1_S4096x10_0_1 (broadcastInDim S4096x1 ![0] bcast_S4096_S4096x1_0 (maximumf (broadcastInDim S4096 ![] bcast_S_S4096 (constant S_ .f32 0xFF800000#32)) (Host.reduce FloatOps.maximumf (addf (Host.dotGeneral dot_S4096x6144_S6144x10_S4096x10_1_0_0_1_n_n none (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg15)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg9)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg3)))) (subf (addf (Host.dotGeneral dot_S4096x784_S784x6144_S4096x6144_1_0_0_1_n_n none (m ((c.tc : Thread nD τ).loc main_arg0)) (transpose S784x6144 [1, 0] (Host.sign (m ((c.tc : Thread nD τ).loc main_arg1))) transposes_S6144x784_S784x6144_1_0)) (broadcastInDim S4096x6144 ![0, 1] bcast_S1x6144_S4096x6144_0_1 (broadcastInDim S1x6144 ![1] bcast_S6144_S1x6144_1 (m ((c.tc : Thread nD τ).loc main_arg2))))) (broadcastInDim S4096x6144 ![0, 1] bcast_S1x6144_S4096x6144_0_1 (broadcastInDim S1x6144 ![1] bcast_S6144_S1x6144_1 (m ((c.tc : Thread nD τ).loc main_arg5)))))) (broadcastInDim S4096x6144 ![0, 1] bcast_S1x6144_S4096x6144_0_1 (broadcastInDim S1x6144 ![1] bcast_S6144_S1x6144_1 (Host.rsqrt (addf (m ((c.tc : Thread nD τ).loc main_arg6)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg4)))))))) (transpose S6144x6144 [1, 0] (Host.sign (m ((c.tc : Thread nD τ).loc main_arg7))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg8))))) (broadcastInDim S4096x6144 ![0, 1] bcast_S1x6144_S4096x6144_0_1 (broadcastInDim S1x6144 ![1] bcast_S6144_S1x6144_1 (m ((c.tc : Thread nD τ).loc main_arg11)))))) (broadcastInDim S4096x6144 ![0, 1] bcast_S1x6144_S4096x6144_0_1 (broadcastInDim S1x6144 ![1] bcast_S6144_S1x6144_1 (Host.rsqrt (addf (m ((c.tc : Thread nD τ).loc main_arg12)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg10)))))))) (transpose S6144x6144 [1, 0] (Host.sign (m ((c.tc : Thread nD τ).loc main_arg13))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg14))))) (broadcastInDim S4096x6144 ![0, 1] bcast_S1x6144_S4096x6144_0_1 (broadcastInDim S1x6144 ![1] bcast_S6144_S1x6144_1 (m ((c.tc : Thread nD τ).loc main_arg17)))))) (broadcastInDim S4096x6144 ![0, 1] bcast_S1x6144_S4096x6144_0_1 (broadcastInDim S1x6144 ![1] bcast_S6144_S1x6144_1 (Host.rsqrt (addf (m ((c.tc : Thread nD τ).loc main_arg18)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg16))))))) (transpose S6144x10 [1, 0] (m ((c.tc : Thread nD τ).loc main_arg19)) transposes_S10x6144_S6144x10_1_0)) (broadcastInDim S4096x10 ![0, 1] bcast_S1x10_S4096x10_0_1 (broadcastInDim S1x10 ![1] bcast_S10_S1x10_1 (m ((c.tc : Thread nD τ).loc main_arg20))))) (constant S_ .f32 0xFF800000#32) reducesTo_S4096x10_S4096_d1 h_S_))))) (broadcastInDim S4096x10 ![0, 1] bcast_S4096x1_S4096x10_0_1 (Host.log (broadcastInDim S4096x1 ![0] bcast_S4096_S4096x1_0 (Host.reduceAdd (Host.exp (subf (addf (Host.dotGeneral dot_S4096x6144_S6144x10_S4096x10_1_0_0_1_n_n none (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg15)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg9)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg3)))) (subf (addf (Host.dotGeneral dot_S4096x784_S784x6144_S4096x6144_1_0_0_1_n_n none (m ((c.tc : Thread nD τ).loc main_arg0)) (transpose S784x6144 [1, 0] (Host.sign (m ((c.tc : Thread nD τ).loc main_arg1))) transposes_S6144x784_S784x6144_1_0)) (broadcastInDim S4096x6144 ![0, 1] bcast_S1x6144_S4096x6144_0_1 (broadcastInDim S1x6144 ![1] bcast_S6144_S1x6144_1 (m ((c.tc : Thread nD τ).loc main_arg2))))) (broadcastInDim S4096x6144 ![0, 1] bcast_S1x6144_S4096x6144_0_1 (broadcastInDim S1x6144 ![1] bcast_S6144_S1x6144_1 (m ((c.tc : Thread nD τ).loc main_arg5)))))) (broadcastInDim S4096x6144 ![0, 1] bcast_S1x6144_S4096x6144_0_1 (broadcastInDim S1x6144 ![1] bcast_S6144_S1x6144_1 (Host.rsqrt (addf (m ((c.tc : Thread nD τ).loc main_arg6)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg4)))))))) (transpose S6144x6144 [1, 0] (Host.sign (m ((c.tc : Thread nD τ).loc main_arg7))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg8))))) (broadcastInDim S4096x6144 ![0, 1] bcast_S1x6144_S4096x6144_0_1 (broadcastInDim S1x6144 ![1] bcast_S6144_S1x6144_1 (m ((c.tc : Thread nD τ).loc main_arg11)))))) (broadcastInDim S4096x6144 ![0, 1] bcast_S1x6144_S4096x6144_0_1 (broadcastInDim S1x6144 ![1] bcast_S6144_S1x6144_1 (Host.rsqrt (addf (m ((c.tc : Thread nD τ).loc main_arg12)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg10)))))))) (transpose S6144x6144 [1, 0] (Host.sign (m ((c.tc : Thread nD τ).loc main_arg13))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg14))))) (broadcastInDim S4096x6144 ![0, 1] bcast_S1x6144_S4096x6144_0_1 (broadcastInDim S1x6144 ![1] bcast_S6144_S1x6144_1 (m ((c.tc : Thread nD τ).loc main_arg17)))))) (broadcastInDim S4096x6144 ![0, 1] bcast_S1x6144_S4096x6144_0_1 (broadcastInDim S1x6144 ![1] bcast_S6144_S1x6144_1 (Host.rsqrt (addf (m ((c.tc : Thread nD τ).loc main_arg18)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg16))))))) (transpose S6144x10 [1, 0] (m ((c.tc : Thread nD τ).loc main_arg19)) transposes_S10x6144_S6144x10_1_0)) (broadcastInDim S4096x10 ![0, 1] bcast_S1x10_S4096x10_0_1 (broadcastInDim S1x10 ![1] bcast_S10_S1x10_1 (m ((c.tc : Thread nD τ).loc main_arg20))))) (broadcastInDim S4096x10 ![0, 1] bcast_S4096x1_S4096x10_0_1 (broadcastInDim S4096x1 ![0] bcast_S4096_S4096x1_0 (maximumf (broadcastInDim S4096 ![] bcast_S_S4096 (constant S_ .f32 0xFF800000#32)) (Host.reduce FloatOps.maximumf (addf (Host.dotGeneral dot_S4096x6144_S6144x10_S4096x10_1_0_0_1_n_n none (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg15)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg9)))) (subf (addf (Host.dotGeneral dot_S4096x6144_S6144x6144_S4096x6144_1_0_0_1_n_n none (Host.sign (minimumf (broadcastInDim S4096x6144 ![] bcast_S_S4096x6144 (id (constant S_ .f32 0x3F800000#32))) (maximumf (broadcastInDim S4096x6144 ![] bcast_S_S4096x6144 (id (constant S_ .f32 0xBF800000#32))) (addf (mulf (mulf (broadcastInDim S4096x6144 ![0, 1] bcast_S1x6144_S4096x6144_0_1 (broadcastInDim S1x6144 ![1] bcast_S6144_S1x6144_1 (m ((c.tc : Thread nD τ).loc main_arg3)))) (subf (addf (Host.dotGeneral dot_S4096x784_S784x6144_S4096x6144_1_0_0_1_n_n none (m ((c.tc : Thread nD τ).loc main_arg0)) (transpose S784x6144 [1, 0] (Host.sign (m ((c.tc : Thread nD τ).loc main_arg1))) transposes_S6144x784_S784x6144_1_0)) (broadcastInDim S4096x6144 ![0, 1] bcast_S1x6144_S4096x6144_0_1 (broadcastInDim S1x6144 ![1] bcast_S6144_S1x6144_1 (m ((c.tc : Thread nD τ).loc main_arg2))))) (broadcastInDim S4096x6144 ![0, 1] bcast_S1x6144_S4096x6144_0_1 (broadcastInDim S1x6144 ![1] bcast_S6144_S1x6144_1 (m ((c.tc : Thread nD τ).loc main_arg5)))))) (broadcastInDim S4096x6144 ![0, 1] bcast_S1x6144_S4096x6144_0_1 (broadcastInDim S1x6144 ![1] bcast_S6144_S1x6144_1 (Host.rsqrt (addf (m ((c.tc : Thread nD τ).loc main_arg6)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg4)))))))) (transpose S6144x6144 [1, 0] (Host.sign (m ((c.tc : Thread nD τ).loc main_arg7))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg8))))) (broadcastInDim S4096x6144 ![0, 1] bcast_S1x6144_S4096x6144_0_1 (broadcastInDim S1x6144 ![1] bcast_S6144_S1x6144_1 (m ((c.tc : Thread nD τ).loc main_arg11)))))) (broadcastInDim S4096x6144 ![0, 1] bcast_S1x6144_S4096x6144_0_1 (broadcastInDim S1x6144 ![1] bcast_S6144_S1x6144_1 (Host.rsqrt (addf (m ((c.tc : Thread nD τ).loc main_arg12)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg10)))))))) (transpose S6144x6144 [1, 0] (Host.sign (m ((c.tc : Thread nD τ).loc main_arg13))) transposes_S6144x6144_S6144x6144_1_0)) (broadcastInDim S4096x6144 ![0, 1] bcast_S1x6144_S4096x6144_0_1 (broadcastInDim S1x6144 ![1] bcast_S6144_S1x6144_1 (m ((c.tc : Thread nD τ).loc main_arg14))))) (broadcastInDim S4096x6144 ![0, 1] bcast_S1x6144_S4096x6144_0_1 (broadcastInDim S1x6144 ![1] bcast_S6144_S1x6144_1 (m ((c.tc : Thread nD τ).loc main_arg17)))))) (broadcastInDim S4096x6144 ![0, 1] bcast_S1x6144_S4096x6144_0_1 (broadcastInDim S1x6144 ![1] bcast_S6144_S1x6144_1 (Host.rsqrt (addf (m ((c.tc : Thread nD τ).loc main_arg18)) (broadcastInDim S6144 ![] bcast_S_S6144 (constant S_ .f32 0x3727C5AC#32))))))) (broadcastInDim S4096x6144 ![0, 1] bcast_S1x6144_S4096x6144_0_1 (broadcastInDim S1x6144 ![1] bcast_S6144_S1x6144_1 (m ((c.tc : Thread nD τ).loc main_arg16))))))) (transpose S6144x10 [1, 0] (m ((c.tc : Thread nD τ).loc main_arg19)) transposes_S10x6144_S6144x10_1_0)) (broadcastInDim S4096x10 ![0, 1] bcast_S1x10_S4096x10_0_1 (broadcastInDim S1x10 ![1] bcast_S10_S1x10_1 (m ((c.tc : Thread nD τ).loc main_arg20))))) (constant S_ .f32 0xFF800000#32) reducesTo_S4096x10_S4096_d1 h_S_)))))) (constant S_ .f32 0x00000000#32) reducesTo_S4096x10_S4096_d1 h_S_))))

set_option maxRecDepth 1000000 in
set_option maxHeartbeats 0 in
/-- Folding the 112 operations over the launch contents leaves the result array at that term. -/
theorem result_eq (m : (ℓ : Loc nD τ sig) → Buf (Elt F) ℓ) (c : Dev nD) :
    after (ops (F := F)) (launchContents m c) (Proc.devRef .tc main_v73) = res_main_v73 m c := by
  after_results_simp <;> rfl <;> (unfold res_main_v73; rfl)

end Cert.ReferenceIdeal.HandRun

end
-- ==== Proof.ReferenceLayers.lean ====
/-
  The reference's layers, entry by entry.

  Each hidden layer of the reference is some thirty array operations: the weights' signs, a transpose, the matrix
  product, five broadcasts of parameter rows, the normalisation, the clamp, and (for layers 1 and 2) the sign the next
  product reads. Read at entry (p, q), each collapses to one expression: the normalised contraction of row p of the
  layer's input with row q of the weights' signs, then the clamp, then the sign — and since clamping never changes
  the sign, for layers 1 and 2 that is the sign of the normalised contraction. The layer's input is kept as one
  array (the previous layer's), so the statements chain. The last layer's logits and its log-softmax are read the
  same way, the row maximum kept as the reference's own stage.
-/
import proofs.«158226_j28930899706073_2_alg».proof.Proof.ReferenceReadP
import proofs.«158226_j28930899706073_2_alg».proof.Proof.NetSpec
import Idealize.ShloMosaic.Lib.ValueIdx

noncomputable section

namespace Cert.ReferenceIdeal.Layers

open Cert.ReferenceIdeal Cert.ReferenceIdeal.ReadP Idealize.ShloMosaic Idealize.ShloMosaic.ValueIdx

/-- Layer 1's activation as layer 2's product reads it. -/
theorem layer1_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (p : Fin 4096) (q : Fin 6144) :
    val_main_v22 (F := Ideal) x0 x1 x2 x3 x4 x5 x6 (ix2 p q)
      = Ideal.sign (Net.bn (Net.dot (fun k : Fin 784 => x0 (ix2 p k)) (fun k : Fin 784 => Ideal.sign (x1 (ix2 q k))))
          (x2 (ix1 q)) (x3 (ix1 q)) (x4 (ix1 q)) (x5 (ix1 q)) (x6 (ix1 q))) := by
  have e1 : ∀ k : Fin 784, lidx_main_v2 (ix2 p q) k = ix2 p k := fun k => funext fun a => by
    match a with | ⟨0, _⟩ => rfl | ⟨1, _⟩ => rfl
  have e2 : ∀ k : Fin 784, idx_main_v1 (ridx_main_v2 (ix2 p q) k) = ix2 q k := fun k => funext fun a => by
    match a with | ⟨0, _⟩ => rfl | ⟨1, _⟩ => rfl
  have e3 : idx_main_v3 (idx_main_v4 (ix2 p q)) = ix1 q := funext fun a => by match a with | ⟨0, _⟩ => rfl
  have e6 : idx_main_v6 (idx_main_v7 (ix2 p q)) = ix1 q := funext fun a => by match a with | ⟨0, _⟩ => rfl
  have e9 : idx_main_v9 (idx_main_v10 (ix2 p q)) = ix1 q := funext fun a => by match a with | ⟨0, _⟩ => rfl
  have e15 : idx_main_v15 (idx_main_v16 (ix2 p q)) = ix1 q := funext fun a => by match a with | ⟨0, _⟩ => rfl
  have e18 : idx_main_v18 (idx_main_v19 (ix2 p q)) = ix1 q := funext fun a => by match a with | ⟨0, _⟩ => rfl
  simp only [val_main_v22_apply, val_main_v21_apply, val_main_call0_v4_apply, val_main_call0_v3_apply, val_main_call0_v2_apply, val_main_call0_v1_apply, val_main_call0_v0_apply, val_main_cst_1_apply, val_main_cst_0_apply, val_main_v20_apply, val_main_v19_apply, val_main_v18_apply, val_main_v17_apply, val_main_v16_apply, val_main_v15_apply, val_main_v14_apply, val_main_v13_apply, val_main_v12_apply, val_main_cst_apply, val_main_v11_apply, val_main_v10_apply, val_main_v9_apply, val_main_v8_apply, val_main_v7_apply, val_main_v6_apply, val_main_v5_apply, val_main_v4_apply, val_main_v3_apply, val_main_v2_apply, val_main_v1_apply, val_main_v0_apply, e1, e2, e3, e6, e9, e15, e18]
  rw [Ideal.hostUnary_sign_def]
  exact Net.sign_clamp (Net.bn (Net.dot (fun k : Fin 784 => x0 (ix2 p k)) (fun k : Fin 784 => Ideal.sign (x1 (ix2 q k))))
    (x2 (ix1 q)) (x3 (ix1 q)) (x4 (ix1 q)) (x5 (ix1 q)) (x6 (ix1 q)))

/-- Layer 2's activation as layer 3's product reads it, over layer 1's. -/
theorem layer2_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (x7 : (⟨S6144x6144, .f32⟩ : BufTy).Contents (Elt Ideal)) (x8 x9 x10 x11 x12 : (⟨S6144, .f32⟩ : BufTy).Contents (Elt Ideal)) (p : Fin 4096) (q : Fin 6144) :
    val_main_v45 (F := Ideal) x0 x1 x2 x3 x4 x5 x6 x7 x8 x9 x10 x11 x12 (ix2 p q)
      = Ideal.sign (Net.bn (Net.dot (fun k : Fin 6144 => val_main_v22 (F := Ideal) x0 x1 x2 x3 x4 x5 x6 (ix2 p k)) (fun k : Fin 6144 => Ideal.sign (x7 (ix2 q k))))
          (x8 (ix1 q)) (x9 (ix1 q)) (x10 (ix1 q)) (x11 (ix1 q)) (x12 (ix1 q))) := by
  have e1 : ∀ k : Fin 6144, lidx_main_v25 (ix2 p q) k = ix2 p k := fun k => funext fun a => by
    match a with | ⟨0, _⟩ => rfl | ⟨1, _⟩ => rfl
  have e2 : ∀ k : Fin 6144, idx_main_v24 (ridx_main_v25 (ix2 p q) k) = ix2 q k := fun k => funext fun a => by
    match a with | ⟨0, _⟩ => rfl | ⟨1, _⟩ => rfl
  have e26 : idx_main_v26 (idx_main_v27 (ix2 p q)) = ix1 q := funext fun a => by match a with | ⟨0, _⟩ => rfl
  have e29 : idx_main_v29 (idx_main_v30 (ix2 p q)) = ix1 q := funext fun a => by match a with | ⟨0, _⟩ => rfl
  have e32 : idx_main_v32 (idx_main_v33 (ix2 p q)) = ix1 q := funext fun a => by match a with | ⟨0, _⟩ => rfl
  have e38 : idx_main_v38 (idx_main_v39 (ix2 p q)) = ix1 q := funext fun a => by match a with | ⟨0, _⟩ => rfl
  have e41 : idx_main_v41 (idx_main_v42 (ix2 p q)) = ix1 q := funext fun a => by match a with | ⟨0, _⟩ => rfl
  simp only [val_main_v45_apply, val_main_v44_apply, val_main_call1_v4_apply, val_main_call1_v3_apply, val_main_call1_v2_apply, val_main_call1_v1_apply, val_main_call1_v0_apply, val_main_cst_4_apply, val_main_cst_3_apply, val_main_v43_apply, val_main_v42_apply, val_main_v41_apply, val_main_v40_apply, val_main_v39_apply, val_main_v38_apply, val_main_v37_apply, val_main_v36_apply, val_main_v35_apply, val_main_cst_2_apply, val_main_v34_apply, val_main_v33_apply, val_main_v32_apply, val_main_v31_apply, val_main_v30_apply, val_main_v29_apply, val_main_v28_apply, val_main_v27_apply, val_main_v26_apply, val_main_v25_apply, val_main_v24_apply, val_main_v23_apply, e1, e2, e26, e29, e32, e38, e41]
  rw [Ideal.hostUnary_sign_def]
  exact Net.sign_clamp (Net.bn (Net.dot (fun k : Fin 6144 => val_main_v22 (F := Ideal) x0 x1 x2 x3 x4 x5 x6 (ix2 p k)) (fun k : Fin 6144 => Ideal.sign (x7 (ix2 q k))))
    (x8 (ix1 q)) (x9 (ix1 q)) (x10 (ix1 q)) (x11 (ix1 q)) (x12 (ix1 q)))

/-- Layer 3's activation, the clamp itself, over layer 2's. -/
theorem layer3_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (x7 : (⟨S6144x6144, .f32⟩ : BufTy).Contents (Elt Ideal)) (x8 x9 x10 x11 x12 : (⟨S6144, .f32⟩ : BufTy).Contents (Elt Ideal)) (x13 : (⟨S6144x6144, .f32⟩ : BufTy).Contents (Elt Ideal)) (x14 x15 x16 x17 x18 : (⟨S6144, .f32⟩ : BufTy).Contents (Elt Ideal)) (p : Fin 4096) (q : Fin 6144) :
    val_main_v67 (F := Ideal) x0 x1 x2 x3 x4 x5 x6 x7 x8 x9 x10 x11 x12 x13 x14 x15 x16 x17 x18 (ix2 p q)
      = Net.clamp (Net.bn (Net.dot (fun k : Fin 6144 => val_main_v45 (F := Ideal) x0 x1 x2 x3 x4 x5 x6 x7 x8 x9 x10 x11 x12 (ix2 p k)) (fun k : Fin 6144 => Ideal.sign (x13 (ix2 q k))))
          (x14 (ix1 q)) (x15 (ix1 q)) (x16 (ix1 q)) (x17 (ix1 q)) (x18 (ix1 q))) := by
  have e1 : ∀ k : Fin 6144, lidx_main_v48 (ix2 p q) k = ix2 p k := fun k => funext fun a => by
    match a with | ⟨0, _⟩ => rfl | ⟨1, _⟩ => rfl
  have e2 : ∀ k : Fin 6144, idx_main_v47 (ridx_main_v48 (ix2 p q) k) = ix2 q k := fun k => funext fun a => by
    match a with | ⟨0, _⟩ => rfl | ⟨1, _⟩ => rfl
  have e49 : idx_main_v49 (idx_main_v50 (ix2 p q)) = ix1 q := funext fun a => by match a with | ⟨0, _⟩ => rfl
  have e52 : idx_main_v52 (idx_main_v53 (ix2 p q)) = ix1 q := funext fun a => by match a with | ⟨0, _⟩ => rfl
  have e55 : idx_main_v55 (idx_main_v56 (ix2 p q)) = ix1 q := funext fun a => by match a with | ⟨0, _⟩ => rfl
  have e61 : idx_main_v61 (idx_main_v62 (ix2 p q)) = ix1 q := funext fun a => by match a with | ⟨0, _⟩ => rfl
  have e64 : idx_main_v64 (idx_main_v65 (ix2 p q)) = ix1 q := funext fun a => by match a with | ⟨0, _⟩ => rfl
  simp only [val_main_v67_apply, val_main_call2_v4_apply, val_main_call2_v3_apply, val_main_call2_v2_apply, val_main_call2_v1_apply, val_main_call2_v0_apply, val_main_cst_7_apply, val_main_cst_6_apply, val_main_v66_apply, val_main_v65_apply, val_main_v64_apply, val_main_v63_apply, val_main_v62_apply, val_main_v61_apply, val_main_v60_apply, val_main_v59_apply, val_main_v58_apply, val_main_cst_5_apply, val_main_v57_apply, val_main_v56_apply, val_main_v55_apply, val_main_v54_apply, val_main_v53_apply, val_main_v52_apply, val_main_v51_apply, val_main_v50_apply, val_main_v49_apply, val_main_v48_apply, val_main_v47_apply, val_main_v46_apply, e1, e2, e49, e52, e55, e61, e64]
  rfl

/-- The last layer's logits, entry (p, r): row p of layer 3's activation against row r of the last weights, plus bias. -/
theorem logits_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (x7 : (⟨S6144x6144, .f32⟩ : BufTy).Contents (Elt Ideal)) (x8 x9 x10 x11 x12 : (⟨S6144, .f32⟩ : BufTy).Contents (Elt Ideal)) (x13 : (⟨S6144x6144, .f32⟩ : BufTy).Contents (Elt Ideal)) (x14 x15 x16 x17 x18 : (⟨S6144, .f32⟩ : BufTy).Contents (Elt Ideal)) (x19 : (⟨S10x6144, .f32⟩ : BufTy).Contents (Elt Ideal)) (x20 : (⟨S10, .f32⟩ : BufTy).Contents (Elt Ideal)) (p : Fin 4096) (r : Fin 10) :
    val_main_v72 (F := Ideal) x0 x1 x2 x3 x4 x5 x6 x7 x8 x9 x10 x11 x12 x13 x14 x15 x16 x17 x18 x19 x20 (ix2 p r)
      = FloatOps.addf (F := Ideal) (φ := .f32) (Net.dot (fun k : Fin 6144 => val_main_v67 (F := Ideal) x0 x1 x2 x3 x4 x5 x6 x7 x8 x9 x10 x11 x12 x13 x14 x15 x16 x17 x18 (ix2 p k)) (fun k : Fin 6144 => x19 (ix2 r k))) (x20 (ix1 r)) := by
  have e1 : ∀ k : Fin 6144, lidx_main_v69 (ix2 p r) k = ix2 p k := fun k => funext fun a => by
    match a with | ⟨0, _⟩ => rfl | ⟨1, _⟩ => rfl
  have e2 : ∀ k : Fin 6144, idx_main_v68 (ridx_main_v69 (ix2 p r) k) = ix2 r k := fun k => funext fun a => by
    match a with | ⟨0, _⟩ => rfl | ⟨1, _⟩ => rfl
  have e3 : idx_main_v70 (idx_main_v71 (ix2 p r)) = ix1 r := funext fun a => by match a with | ⟨0, _⟩ => rfl
  simp only [val_main_v72_apply, val_main_v71_apply, val_main_v70_apply, val_main_v69_apply, val_main_v68_apply, e1, e2, e3]
  rfl

/-- The result, entry (p, r): the logit less the row's maximum, less the logarithm of the sum over the row of the
    exponentials of the logits less that maximum. The maximum is kept as the reference's own stage here. -/
theorem layer4_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (x7 : (⟨S6144x6144, .f32⟩ : BufTy).Contents (Elt Ideal)) (x8 x9 x10 x11 x12 : (⟨S6144, .f32⟩ : BufTy).Contents (Elt Ideal)) (x13 : (⟨S6144x6144, .f32⟩ : BufTy).Contents (Elt Ideal)) (x14 x15 x16 x17 x18 : (⟨S6144, .f32⟩ : BufTy).Contents (Elt Ideal)) (x19 : (⟨S10x6144, .f32⟩ : BufTy).Contents (Elt Ideal)) (x20 : (⟨S10, .f32⟩ : BufTy).Contents (Elt Ideal)) (p : Fin 4096) (r : Fin 10) :
    val_main_v73 (F := Ideal) x0 x1 x2 x3 x4 x5 x6 x7 x8 x9 x10 x11 x12 x13 x14 x15 x16 x17 x18 x19 x20 (ix2 p r)
      = FloatOps.subf (F := Ideal) (φ := .f32) (FloatOps.subf (F := Ideal) (φ := .f32) (val_main_v72 (F := Ideal) x0 x1 x2 x3 x4 x5 x6 x7 x8 x9 x10 x11 x12 x13 x14 x15 x16 x17 x18 x19 x20 (ix2 p r)) (val_main_call3_v2 (F := Ideal) x0 x1 x2 x3 x4 x5 x6 x7 x8 x9 x10 x11 x12 x13 x14 x15 x16 x17 x18 x19 x20 (ix1 p)))
          (FloatOps.hostUnary (F := Ideal) (φ := .f32) .log (∑ k : Fin 10, FloatOps.hostUnary (F := Ideal) (φ := .f32) .exp
            (FloatOps.subf (F := Ideal) (φ := .f32) (val_main_v72 (F := Ideal) x0 x1 x2 x3 x4 x5 x6 x7 x8 x9 x10 x11 x12 x13 x14 x15 x16 x17 x18 x19 x20 (ix2 p k)) (val_main_call3_v2 (F := Ideal) x0 x1 x2 x3 x4 x5 x6 x7 x8 x9 x10 x11 x12 x13 x14 x15 x16 x17 x18 x19 x20 (ix1 p))))) := by
  have f1 : ∀ k : Fin 10, idx_main_call3_v3 (idx_main_call3_v4 (ix2 p k)) = ix1 p := fun k => funext fun a => by
    match a with | ⟨0, _⟩ => rfl
  have f2 : ∀ k : Fin 10, idx_main_call3_v7 (idx_main_call3_v8 (idx_main_call3_v10 (ix2 p r))) k = ix2 p k := fun k => funext fun a => by
    match a with | ⟨0, _⟩ => rfl | ⟨1, _⟩ => rfl
  have hz : (FloatOps.ofBits (F := Ideal) .f32 0#32 : EReal) = 0 := Ideal.ofBits_zero_f32
  simp only [val_main_v73_apply, val_main_call3_v10_apply, val_main_call3_v9_apply, val_main_call3_v8_apply, val_main_call3_v7_apply, val_main_call3_cst_1_apply, val_main_call3_v6_apply, val_main_call3_v5_apply, val_main_call3_v4_apply, val_main_call3_v3_apply, f2, f1, hz, zero_add]

end Cert.ReferenceIdeal.Layers

end
-- ==== Proof.ReferenceSoftmax.lean ====
/-
  The reference's log-softmax in closed form.

  The reference takes a row's maximum by a host reduction from minus infinity and then, once more, the maximum of
  that with minus infinity; both are the maximum of the row's ten logits, the second step changing nothing. With
  that the result's entry (p, r) is: the logit less the row maximum, less the logarithm of the sum over the row of
  the exponentials of the logits less the row maximum — each logit being row p of layer 3's activation against row r
  of the last weights, plus the bias.
-/
import proofs.«158226_j28930899706073_2_alg».proof.Proof.ReferenceLayers
import proofs.«158226_j28930899706073_2_alg».proof.Proof.NetRowMax

noncomputable section

namespace Cert.ReferenceIdeal.Layers

open Cert.ReferenceIdeal Cert.ReferenceIdeal.ReadP Idealize.ShloMosaic Idealize.ShloMosaic.ValueIdx

/-- The maximum with minus infinity changes nothing. -/
theorem max_negInf (y : Ideal .f32) : FloatOps.maximumf (F := Ideal) (FloatOps.ofBits .f32 0xFF800000#32) y = y := by
  show max (Ideal.ofBits .f32 0xFF800000#32) y = y
  simp [Ideal.ofBits, Ideal.ieee]

/-- The row maximum the reference subtracts is the maximum of the row's ten logits. -/
theorem rowmax_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (x7 : (⟨S6144x6144, .f32⟩ : BufTy).Contents (Elt Ideal)) (x8 x9 x10 x11 x12 : (⟨S6144, .f32⟩ : BufTy).Contents (Elt Ideal)) (x13 : (⟨S6144x6144, .f32⟩ : BufTy).Contents (Elt Ideal)) (x14 x15 x16 x17 x18 : (⟨S6144, .f32⟩ : BufTy).Contents (Elt Ideal)) (x19 : (⟨S10x6144, .f32⟩ : BufTy).Contents (Elt Ideal)) (x20 : (⟨S10, .f32⟩ : BufTy).Contents (Elt Ideal)) (p : Fin 4096) :
    val_main_call3_v2 (F := Ideal) x0 x1 x2 x3 x4 x5 x6 x7 x8 x9 x10 x11 x12 x13 x14 x15 x16 x17 x18 x19 x20 (ix1 p)
      = Net.rowMax (fun r : Fin 10 => val_main_v72 (F := Ideal) x0 x1 x2 x3 x4 x5 x6 x7 x8 x9 x10 x11 x12 x13 x14 x15 x16 x17 x18 x19 x20 (ix2 p r)) := by
  simp only [val_main_call3_v2_apply, val_main_call3_v1_apply, val_main_call3_cst_0_apply]
  rw [max_negInf]
  unfold val_main_call3_v0 val_main_call3_cst
  exact Net.hostRowMax_apply _ Gen.reducesTo_S4096x10_S4096_d1 (by decide) Gen.h_S_ p

/-- The result, entry (p, r), in closed form over layer 3's activation. -/
theorem result_apply (x0 : (⟨S4096x784, .f32⟩ : BufTy).Contents (Elt Ideal)) (x1 : (⟨S6144x784, .f32⟩ : BufTy).Contents (Elt Ideal)) (x2 x3 x4 x5 x6 : (⟨S6144, .f32⟩ : BufTy).Contents (Elt Ideal)) (x7 : (⟨S6144x6144, .f32⟩ : BufTy).Contents (Elt Ideal)) (x8 x9 x10 x11 x12 : (⟨S6144, .f32⟩ : BufTy).Contents (Elt Ideal)) (x13 : (⟨S6144x6144, .f32⟩ : BufTy).Contents (Elt Ideal)) (x14 x15 x16 x17 x18 : (⟨S6144, .f32⟩ : BufTy).Contents (Elt Ideal)) (x19 : (⟨S10x6144, .f32⟩ : BufTy).Contents (Elt Ideal)) (x20 : (⟨S10, .f32⟩ : BufTy).Contents (Elt Ideal)) (p : Fin 4096) (r : Fin 10) :
    val_main_v73 (F := Ideal) x0 x1 x2 x3 x4 x5 x6 x7 x8 x9 x10 x11 x12 x13 x14 x15 x16 x17 x18 x19 x20 (ix2 p r)
      = (let L : Fin 10 → Ideal .f32 := fun r' => FloatOps.addf (F := Ideal) (φ := .f32)
            (Net.dot (fun k : Fin 6144 => val_main_v67 (F := Ideal) x0 x1 x2 x3 x4 x5 x6 x7 x8 x9 x10 x11 x12 x13 x14 x15 x16 x17 x18 (ix2 p k)) (fun k : Fin 6144 => x19 (ix2 r' k))) (x20 (ix1 r'))
         FloatOps.subf (F := Ideal) (φ := .f32) (FloatOps.subf (F := Ideal) (φ := .f32) (L r) (Net.rowMax L))
           (FloatOps.log (F := Ideal) (φ := .f32) (∑ r' : Fin 10, FloatOps.exp (F := Ideal) (φ := .f32) (FloatOps.subf (F := Ideal) (φ := .f32) (L r') (Net.rowMax L))))) := by
  rw [layer4_apply, rowmax_apply]
  simp only [logits_apply]
  rfl

end Cert.ReferenceIdeal.Layers

end
-- ==== Proof.KernelValue.lean ====
/-
  The kernel's layers are the reference's.

  Layer by layer, on the extended reals. Layer 1's region leaves, at entry (p, q) of its output array, the sign of the
  normalised contraction of row p of the input with row q of the first weights' signs: what the reference's second
  matrix product reads there (the reference clamps first, which does not change the sign). Layer 2's region reads
  that array and leaves the same expression one layer up, layer 3's the clamp itself; the last region leaves the
  log-softmax of the last linear layer of that. At each layer the region's entry arrays are the arguments (through
  the host's casts, signs and reshapes) and the previous region's output, so the four statements chain to: the
  kernel's result array is the reference's result term of the same arguments.
-/
import proofs.«158226_j28930899706073_2_alg».proof.Proof.KernelEntries
import proofs.«158226_j28930899706073_2_alg».proof.Proof.Layer1Value
import proofs.«158226_j28930899706073_2_alg».proof.Proof.Layer2Value
import proofs.«158226_j28930899706073_2_alg».proof.Proof.Layer3Value
import proofs.«158226_j28930899706073_2_alg».proof.Proof.Layer4Value
import proofs.«158226_j28930899706073_2_alg».proof.Proof.ReferenceSoftmax

noncomputable section

namespace Cert.KernelIdeal.Whole

open Cert.KernelIdeal Cert.KernelIdeal.Gen
open Idealize.ShloMosaic Idealize.ShloMosaic.TcCoe Idealize.SL.Sem Idealize.ShloMosaic.ValueIdx
open Cert.ReferenceIdeal.ReadP Cert.ReferenceIdeal.Layers

variable (m : (ℓ : Loc nD τ sig) → Buf (Elt Ideal) ℓ) (c : Dev nD)

/-- Layer 1's output array is the reference's first activation as its second product reads it. -/
theorem act1 (p : Fin 4096) (q : Fin 6144) :
    (o1 m c : S4096x6144.Idx → EReal) (ix2 p q) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p q) := by
  rw [layer1_apply]
  unfold o1
  rw [Layer1.finalOut_apply m c p q]
  have ea : (fun k : Fin 784 => (Layer1.Vin m c main_v0 : S4096x784.Idx → Elt Ideal .bf16) (ix2 p k)) = _ := funext fun k => in1_act m c (ix2 p k)
  have ew : (fun k : Fin 784 => (Layer1.Vin m c main_v2 : S6144x784.Idx → Elt Ideal .bf16) (ix2 q k)) = _ := funext fun k => in1_wt m c (ix2 q k)
  exact congrArg Ideal.sign (congr (congr (congr (congr (congr (congrArg Net.bn (congr (congrArg Net.dot ea) ew))
    (in1_row0 m c q)) (in1_row1 m c q)) (in1_row2 m c q)) (in1_row3 m c q)) (in1_row4 m c q))

/-- Layer 2's, over layer 1's. -/
theorem act2 (p : Fin 4096) (q : Fin 6144) :
    (o2 m c : S4096x6144.Idx → EReal) (ix2 p q) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 p q) := by
  rw [layer2_apply]
  unfold o2
  rw [Layer2.finalOut_apply (W3 m) c p q]
  have ea : (fun k : Fin 6144 => (Layer2.Vin (W3 m) c main_v12 : S4096x6144.Idx → Elt Ideal .bf16) (ix2 p k)) = _ := funext fun k => (congrFun (in2_act m c) (ix2 p k)).trans (act1 m c p k)
  have ew : (fun k : Fin 6144 => (Layer2.Vin (W3 m) c main_v4 : S6144x6144.Idx → Elt Ideal .bf16) (ix2 q k)) = _ := funext fun k => in2_wt m c (ix2 q k)
  exact congrArg Ideal.sign (congr (congr (congr (congr (congr (congrArg Net.bn (congr (congrArg Net.dot ea) ew))
    (in2_row0 m c q)) (in2_row1 m c q)) (in2_row2 m c q)) (in2_row3 m c q)) (in2_row4 m c q))

/-- Layer 3's, over layer 2's. -/
theorem act3 (p : Fin 4096) (q : Fin 6144) :
    (o3 m c : S4096x6144.Idx → EReal) (ix2 p q) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix2 p q) := by
  rw [layer3_apply]
  unfold o3
  rw [Layer3.finalOut_apply (W5 m) c p q]
  have ea : (fun k : Fin 6144 => (Layer3.Vin (W5 m) c main_v18 : S4096x6144.Idx → Elt Ideal .bf16) (ix2 p k)) = _ := funext fun k => (congrFun (in3_act m c) (ix2 p k)).trans (act2 m c p k)
  have ew : (fun k : Fin 6144 => (Layer3.Vin (W5 m) c main_v6 : S6144x6144.Idx → Elt Ideal .bf16) (ix2 q k)) = _ := funext fun k => in3_wt m c (ix2 q k)
  exact congrArg Net.clamp (congr (congr (congr (congr (congr (congrArg Net.bn (congr (congrArg Net.dot ea) ew))
    (in3_row0 m c q)) (in3_row1 m c q)) (in3_row2 m c q)) (in3_row3 m c q)) (in3_row4 m c q))

/-- The last layer's logits at row p, as the kernel's last region reads them, are the reference's. -/
theorem logits_eq (p : Fin 4096) :
    Layer4.logits (W7 m) c p
      = fun r' : Fin 10 => FloatOps.addf (F := Ideal) (φ := .f32)
          (Net.dot (fun k : Fin 6144 => val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix2 p k))
            (fun k : Fin 6144 => ((m ((c : Thread nD τ).loc main_arg19)) : S10x6144.Idx → EReal) (ix2 r' k)))
          (((m ((c : Thread nD τ).loc main_arg20)) : S10.Idx → EReal) (ix1 r')) := by
  funext r'
  unfold Layer4.logits
  have ea : (fun k : Fin 6144 => Layer4.act (W7 m) c (ix2 p k)) = fun k : Fin 6144 => val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix2 p k) :=
    funext fun k => (congrFun (in4_act m c) (ix2 p k)).trans (act3 m c p k)
  have ew : (fun k : Fin 6144 => Layer4.wgt (W7 m) c (ix2 r' k)) = fun k : Fin 6144 => ((m ((c : Thread nD τ).loc main_arg19)) : S10x6144.Idx → EReal) (ix2 r' k) :=
    funext fun k => congrFun (in4_wt m c) (ix2 r' k)
  exact congr (congrArg (FloatOps.addf (F := Ideal) (φ := .f32)) (congr (congrArg Net.dot ea) ew)) (in4_row m c r')

/-- The kernel's result array is the reference's result term of the same arguments. -/
theorem result_eq_ref :
    (o4 m c : S4096x10.Idx → EReal) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext j
  obtain ⟨p, r, rfl⟩ : ∃ (p : Fin 4096) (r : Fin 10), j = ix2 p r := ⟨j 0, j 1, eq_ix2 j⟩
  rw [result_apply]
  unfold o4
  rw [show Layer4.finalOut (W7 m) c = (Layer4.dat (W7 m) c).arrAt 3 cfg3.N from rfl, Layer4.finalOut_apply (W7 m) c p r, logits_eq m c p]

end Cert.KernelIdeal.Whole

end
-- ==== Proof.ReferenceRun.lean ====
/-
  The reference's run, read at the result and at the arguments.

  The straight line of 112 operations runs to its end without a fault; its result array then holds the composed term
  of the arguments, and each argument, which no operation writes, holds what it held at launch.
-/
import proofs.«158226_j28930899706073_2_alg».proof.Proof.ReferenceResult

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of the reference ends, faulting nowhere, with the result at its composed term and the
    twenty-one arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = res_main_v73 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v73).trans (result_eq m c),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide)),
      (h c main_arg15).trans (after_of_writes_sub ops _ ops_writes (by decide)),
      (h c main_arg16).trans (after_of_writes_sub ops _ ops_writes (by decide)),
      (h c main_arg17).trans (after_of_writes_sub ops _ ops_writes (by decide)),
      (h c main_arg18).trans (after_of_writes_sub ops _ ops_writes (by decide)),
      (h c main_arg19).trans (after_of_writes_sub ops _ ops_writes (by decide)),
      (h c main_arg20).trans (after_of_writes_sub ops _ ops_writes (by decide))⟩)
    (run_seq scopedRefs_eq scopedSems_eq defs main (fun _ => ops) main_eq (fun _ => ops_sub) m ρ)

end Cert.ReferenceIdeal.HandRun

end
-- ==== Proof.Algebraic.lean ====
/-
  The idealized kernel and the idealized reference end with equal results.

  Run from memories that agree on the twenty-one arguments, the kernel ends with its result array at layer 4's output
  (its four regions, in a row), the reference with its result array at its composed term of the arguments; layer by
  layer these are the same array (KernelValue.lean), so the two results are equal, entry by entry, as extended reals.
-/
import proofs.«158226_j28930899706073_2_alg».proof.Proof.KernelValue
import proofs.«158226_j28930899706073_2_alg».proof.Proof.ReferenceRun

noncomputable section

namespace Cert.Proof.Equal

open Idealize.ShloMosaic Idealize.SL.Sem

theorem algebraic : Cert.algebraic_KernelIdeal_ReferenceIdeal := by
  intro m ρ m' ρ' _ hagree
  refine ⟨fun c => Cert.KernelIdeal.Whole.o4 m c, Cert.KernelIdeal.Whole.run_value (F := Ideal) m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9, h10, h11, h12, h13, h14, h15, h16, h17, h18, h19, h20⟩ := hagree c
  rw [Cert.ReferenceIdeal.ReadP.val_main_v73_eq, h0, h1, h2, h3, h4, h5, h6, h7, h8, h9, h10, h11, h12, h13, h14, h15, h16, h17, h18, h19, h20]
  exact (Cert.KernelIdeal.Whole.result_eq_ref m c).symm

end Cert.Proof.Equal

end
-- ==== Proof.lean ====
/-
  A four-layer perceptron with binarized weights, batch normalisation and a hard tanh, ending in a plain
  linear layer and a log-softmax, over 4096 rows: the kernel against its jnp reference.

  Each of the first three layers computes  clip(g * ((a @ sign(w)^T + b) - m) * rsqrt(v + eps) + be, -1, 1),
  where the activation a is the input x for layer 1 and the SIGN of the previous layer's result for layers 2
  and 3; the last layer is log_softmax(h @ w4^T + b4) along its ten columns.

  The kernel runs each layer as one blocked matrix product: the grid walks the row blocks, the column blocks and,
  innermost, the blocks of the contracted axis, adding each partial product into an accumulator that is
  cleared at the first contraction step and, at the last, normalised and written out. On the extended reals a
  sum taken block by block is the whole sum, and changes of float format are the identity, so each layer's
  matrix product is the reference's. Layers 1 and 2 write out only the SIGN of the normalised value, not
  its clamp, and the next layer reads it as it stands; clamping to [-1, 1] never carries a value across zero,
  so the sign of the clamped value, which the reference takes, is the sign of the value (LibSignClamp.lean).
  Layer 3 writes the clamp itself. The last layer subtracts the row maximum, exponentiates, sums, takes the
  logarithm and subtracts, as the reference's log_softmax does (the reference's extra maximum with minus
  infinity is the identity). The batch-normalisation terms are applied in one order on both sides, with one
  and the same word for eps. None of these steps needs the inputs to be finite.

  All five conjuncts are proved. The reference keeps its arguments (ReferenceKeeps.lean: a straight line of 112
  array operations none of which writes an argument). The two sign-bit sites are the rule's statement
  (HostSide.lean). The kernel keeps its arguments, at the word level and idealized alike: each layer's region is
  run point by point (LayerNBody: the body at a point, one run per kind of reduction step; LayerNData: what every
  staging buffer and the accumulator hold after each point, by recursion on the point; LayerNRegion: the region
  as one segment of the program), and the four segments are put in a row between the host stretches (FrameOf,
  KernelIdealFrame; the K-prefixed modules are the same text read at the word level). The results are equal:
  each region's output array is, entry by entry, the layer's closed form of its entry arrays (LayerNPieces,
  LayerNPayload, LayerNBlocks, LayerNAcc, LayerNValue: the four partial contractions of a block add up to the whole
  contraction), the reference's stages read the same way (ReferenceLayers, ReferenceSoftmax, over the reference's
  run: ReferenceResult, ReferenceRun), and the two chains meet layer by layer (KernelEntries, KernelValue,
  Algebraic).
-/
import proofs.«158226_j28930899706073_2_alg».proof.Defs
import proofs.«158226_j28930899706073_2_alg».proof.Proof.Gen.Kernel
import proofs.«158226_j28930899706073_2_alg».proof.Proof.Gen.Kernel.Skeleton
import proofs.«158226_j28930899706073_2_alg».proof.Proof.Gen.Kernel.Launch
import proofs.«158226_j28930899706073_2_alg».proof.Proof.Gen.Kernel.Regions
import proofs.«158226_j28930899706073_2_alg».proof.Proof.Gen.Kernel.Points
import proofs.«158226_j28930899706073_2_alg».proof.Proof.Gen.KernelIdeal
import proofs.«158226_j28930899706073_2_alg».proof.Proof.Gen.KernelIdeal.Skeleton
import proofs.«158226_j28930899706073_2_alg».proof.Proof.Gen.KernelIdeal.Launch
import proofs.«158226_j28930899706073_2_alg».proof.Proof.Gen.KernelIdeal.Regions
import proofs.«158226_j28930899706073_2_alg».proof.Proof.Gen.KernelIdeal.Points
import proofs.«158226_j28930899706073_2_alg».proof.Proof.Gen.ReferenceIdeal
import proofs.«158226_j28930899706073_2_alg».proof.Proof.Gen.Pre_finite_inputs
import proofs.«158226_j28930899706073_2_alg».proof.Proof.HostSide
import proofs.«158226_j28930899706073_2_alg».proof.Proof.ReferenceKeeps
import proofs.«158226_j28930899706073_2_alg».proof.Proof.KernelIdealFrame
import proofs.«158226_j28930899706073_2_alg».proof.Proof.KKernelIdealFrame
import proofs.«158226_j28930899706073_2_alg».proof.Proof.LibSignClamp
import proofs.«158226_j28930899706073_2_alg».proof.Proof.Algebraic
import Idealize.ShloMosaic.Adequacy
import Idealize.ShloMosaic.Init

noncomputable section

namespace Cert.Proof

open Idealize.ShloMosaic Idealize.SL.Sem Cert.Kernel

/-- The word-level kernel runs to its end without a fault and keeps its arguments: its four regions as segments. -/
theorem frame_kernel : Cert.frame_Kernel := fun m ρ _ => Cert.Kernel.Whole.frame (F := Bits) m ρ

/-- So does the idealized kernel. -/
theorem frame_kernel_ideal : Cert.frame_KernelIdeal := fun m ρ _ => Cert.KernelIdeal.Whole.frame (F := Ideal) m ρ

/-- From memories that agree on the arguments the idealized kernel and the idealized reference end with equal
    results: layer by layer the kernel's arrays are the reference's (KernelValue.lean). -/
theorem algebraic : Cert.algebraic_KernelIdeal_ReferenceIdeal := Cert.Proof.Equal.algebraic

theorem claim : Cert.Claim := ⟨Cert.Kernel.Gen.facts, Cert.KernelIdeal.Gen.facts, Cert.ReferenceIdeal.Gen.facts, Cert.Pre_finite_inputs.Gen.facts,
  frame_kernel, frame_kernel_ideal, Cert.ReferenceIdeal.HandRun.frame, HostSide.preserves, algebraic⟩

end Cert.Proof

end
